-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v519) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S20x512 : Shape := ⟨2, ![20, 512]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S20x512 : S_.BroadcastsInDim S20x512 (![] : Fin 0 → Fin S20x512.rank)
  reducesTo_S20x512_S_d0_1 : S20x512.ReducesTo [0, 1] S_

variable [Facts]

def fn {F : FTy → Type} [FloatOps F] (main_arg0 : FVec F S1024x8192 .f32) (main_arg1 : FVec F S20x512 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S20x512 .f32 := Host.absf main_arg1
  let main_cst_0 : FVec F S_ .f32 := constant S_ .f32 0x7F800000#32
  let main_v5 : FVec F S20x512 .f32 := broadcastInDim S20x512 ![] bcast_S_S20x512 main_cst_0
  let main_v6 : IVec S20x512 1 := cmpf .olt main_v4 main_v5
  let main_c_1 : IVec S_ 1 := constantI S_ 1 1#1
  let main_v7 : IVec S_ 1 := (fun x v => Host.reduce IntOp.andi x v reducesTo_S20x512_S_d0_1 h_S_) main_v6 main_c_1
  let main_v8 : IVec S_ 1 := andi main_v3 main_v7
  main_v8
-- ==== Kernel.lean ====
abbrev S1024x8192 : Shape := ⟨2, ![1024, 8192]⟩
abbrev S20x512 : Shape := ⟨2, ![20, 512]⟩
abbrev S1024x1024 : Shape := ⟨2, ![1024, 1024]⟩
abbrev S1x512 : Shape := ⟨2, ![1, 512]⟩
abbrev S512 : Shape := ⟨1, ![512]⟩
abbrev S512x2x1024 : Shape := ⟨3, ![512, 2, 1024]⟩
abbrev S512x1x1024 : Shape := ⟨3, ![512, 1, 1024]⟩
abbrev S512x1x1 : Shape := ⟨3, ![512, 1, 1]⟩
abbrev S256x4x1024 : Shape := ⟨3, ![256, 4, 1024]⟩
abbrev S256x2x1024 : Shape := ⟨3, ![256, 2, 1024]⟩
abbrev S256x2x1 : Shape := ⟨3, ![256, 2, 1]⟩
abbrev S128x8x1024 : Shape := ⟨3, ![128, 8, 1024]⟩
abbrev S128x4x1024 : Shape := ⟨3, ![128, 4, 1024]⟩
abbrev S128x4x1 : Shape := ⟨3, ![128, 4, 1]⟩
abbrev S64x16x1024 : Shape := ⟨3, ![64, 16, 1024]⟩
abbrev S64x8x1024 : Shape := ⟨3, ![64, 8, 1024]⟩
abbrev S64x8x1 : Shape := ⟨3, ![64, 8, 1]⟩
abbrev S32x32x1024 : Shape := ⟨3, ![32, 32, 1024]⟩
abbrev S32x16x1024 : Shape := ⟨3, ![32, 16, 1024]⟩
abbrev S32x16x1 : Shape := ⟨3, ![32, 16, 1]⟩
abbrev S16x64x1024 : Shape := ⟨3, ![16, 64, 1024]⟩
abbrev S16x32x1024 : Shape := ⟨3, ![16, 32, 1024]⟩
abbrev S16x32x1 : Shape := ⟨3, ![16, 32, 1]⟩
abbrev S8x128x1024 : Shape := ⟨3, ![8, 128, 1024]⟩
abbrev S8x64x1024 : Shape := ⟨3, ![8, 64, 1024]⟩
abbrev S8x64x1 : Shape := ⟨3, ![8, 64, 1]⟩
abbrev S4x256x1024 : Shape := ⟨3, ![4, 256, 1024]⟩
abbrev S4x128x1024 : Shape := ⟨3, ![4, 128, 1024]⟩
abbrev S4x128x1 : Shape := ⟨3, ![4, 128, 1]⟩
abbrev S2x512x1024 : Shape := ⟨3, ![2, 512, 1024]⟩
abbrev S2x256x1024 : Shape := ⟨3, ![2, 256, 1024]⟩
abbrev S2x256x1 : Shape := ⟨3, ![2, 256, 1]⟩
abbrev S1x1024x1024 : Shape := ⟨3, ![1, 1024, 1024]⟩
abbrev S1x512x1024 : Shape := ⟨3, ![1, 512, 1024]⟩
abbrev S1x512x1 : Shape := ⟨3, ![1, 512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .f32⟩
  | .hbm, ⟨1, _⟩ => ⟨S20x512, .f32⟩
  | .hbm, ⟨2, _⟩ => ⟨S1024x8192, .f32⟩
  | .local _ .vmem, ⟨0, _⟩ => ⟨S1024x1024, .f32⟩
  | .local _ .vmem, ⟨1, _⟩ => ⟨S1024x1024, .f32⟩
  | .local _ .vmem, ⟨2, _⟩ => ⟨S20x512, .f32⟩
  | .local _ .vmem, ⟨3, _⟩ => ⟨S1024x1024, .f32⟩
  | .local _ .vmem, ⟨4, _⟩ => ⟨S1024x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  inb_S20x512_S20x512_0_0 : ∀ a, (![0, 0] : Fin 2 → Nat) a + S20x512.size a ≤ S20x512.size a
  h_S20x512 : 0 < S20x512.numel
  slices_S20x512_o0_0_S1x512 : S20x512.Slices ![0, 0] S1x512
  shapeCasts_S1x512_S512 : S1x512.ShapeCasts S512
  shapeCasts_S1024x1024_S512x2x1024 : S1024x1024.ShapeCasts S512x2x1024
  slices_S512x2x1024_o0_0_0_S512x1x1024 : S512x2x1024.Slices ![0, 0, 0] S512x1x1024
  slices_S512x2x1024_o0_1_0_S512x1x1024 : S512x2x1024.Slices ![0, 1, 0] S512x1x1024
  shapeCasts_S512_S512x1x1 : S512.ShapeCasts S512x1x1
  broadcasts_S512x1x1_S512x1x1024 : S512x1x1.Broadcasts S512x1x1024
  concatenates_S512x1x1024_S512x1x1024_S512x2x1024_d1 : Shape.Concatenates [S512x1x1024, S512x1x1024] S512x2x1024 1
  shapeCasts_S512x2x1024_S1024x1024 : S512x2x1024.ShapeCasts S1024x1024
  slices_S20x512_o1_0_S1x512 : S20x512.Slices ![1, 0] S1x512
  shapeCasts_S1024x1024_S256x4x1024 : S1024x1024.ShapeCasts S256x4x1024
  slices_S256x4x1024_o0_0_0_S256x2x1024 : S256x4x1024.Slices ![0, 0, 0] S256x2x1024
  slices_S256x4x1024_o0_2_0_S256x2x1024 : S256x4x1024.Slices ![0, 2, 0] S256x2x1024
  shapeCasts_S512_S256x2x1 : S512.ShapeCasts S256x2x1
  broadcasts_S256x2x1_S256x2x1024 : S256x2x1.Broadcasts S256x2x1024
  concatenates_S256x2x1024_S256x2x1024_S256x4x1024_d1 : Shape.Concatenates [S256x2x1024, S256x2x1024] S256x4x1024 1
  shapeCasts_S256x4x1024_S1024x1024 : S256x4x1024.ShapeCasts S1024x1024
  slices_S20x512_o2_0_S1x512 : S20x512.Slices ![2, 0] S1x512
  shapeCasts_S1024x1024_S128x8x1024 : S1024x1024.ShapeCasts S128x8x1024
  slices_S128x8x1024_o0_0_0_S128x4x1024 : S128x8x1024.Slices ![0, 0, 0] S128x4x1024
  slices_S128x8x1024_o0_4_0_S128x4x1024 : S128x8x1024.Slices ![0, 4, 0] S128x4x1024
  shapeCasts_S512_S128x4x1 : S512.ShapeCasts S128x4x1
  broadcasts_S128x4x1_S128x4x1024 : S128x4x1.Broadcasts S128x4x1024
  concatenates_S128x4x1024_S128x4x1024_S128x8x1024_d1 : Shape.Concatenates [S128x4x1024, S128x4x1024] S128x8x1024 1
  shapeCasts_S128x8x1024_S1024x1024 : S128x8x1024.ShapeCasts S1024x1024
  slices_S20x512_o3_0_S1x512 : S20x512.Slices ![3, 0] S1x512
  shapeCasts_S1024x1024_S64x16x1024 : S1024x1024.ShapeCasts S64x16x1024
  slices_S64x16x1024_o0_0_0_S64x8x1024 : S64x16x1024.Slices ![0, 0, 0] S64x8x1024
  slices_S64x16x1024_o0_8_0_S64x8x1024 : S64x16x1024.Slices ![0, 8, 0] S64x8x1024
  shapeCasts_S512_S64x8x1 : S512.ShapeCasts S64x8x1
  broadcasts_S64x8x1_S64x8x1024 : S64x8x1.Broadcasts S64x8x1024
  concatenates_S64x8x1024_S64x8x1024_S64x16x1024_d1 : Shape.Concatenates [S64x8x1024, S64x8x1024] S64x16x1024 1
  shapeCasts_S64x16x1024_S1024x1024 : S64x16x1024.ShapeCasts S1024x1024
  slices_S20x512_o4_0_S1x512 : S20x512.Slices ![4, 0] S1x512
  shapeCasts_S1024x1024_S32x32x1024 : S1024x1024.ShapeCasts S32x32x1024
  slices_S32x32x1024_o0_0_0_S32x16x1024 : S32x32x1024.Slices ![0, 0, 0] S32x16x1024
  slices_S32x32x1024_o0_16_0_S32x16x1024 : S32x32x1024.Slices ![0, 16, 0] S32x16x1024
  shapeCasts_S512_S32x16x1 : S512.ShapeCasts S32x16x1
  broadcasts_S32x16x1_S32x16x1024 : S32x16x1.Broadcasts S32x16x1024
  concatenates_S32x16x1024_S32x16x1024_S32x32x1024_d1 : Shape.Concatenates [S32x16x1024, S32x16x1024] S32x32x1024 1
  shapeCasts_S32x32x1024_S1024x1024 : S32x32x1024.ShapeCasts S1024x1024
  slices_S20x512_o5_0_S1x512 : S20x512.Slices ![5, 0] S1x512
  shapeCasts_S1024x1024_S16x64x1024 : S1024x1024.ShapeCasts S16x64x1024
  slices_S16x64x1024_o0_0_0_S16x32x1024 : S16x64x1024.Slices ![0, 0, 0] S16x32x1024
  slices_S16x64x1024_o0_32_0_S16x32x1024 : S16x64x1024.Slices ![0, 32, 0] S16x32x1024
  shapeCasts_S512_S16x32x1 : S512.ShapeCasts S16x32x1
  broadcasts_S16x32x1_S16x32x1024 : S16x32x1.Broadcasts S16x32x1024
  concatenates_S16x32x1024_S16x32x1024_S16x64x1024_d1 : Shape.Concatenates [S16x32x1024, S16x32x1024] S16x64x1024 1
  shapeCasts_S16x64x1024_S1024x1024 : S16x64x1024.ShapeCasts S1024x1024
  slices_S20x512_o6_0_S1x512 : S20x512.Slices ![6, 0] S1x512
  shapeCasts_S1024x1024_S8x128x1024 : S1024x1024.ShapeCasts S8x128x1024
  slices_S8x128x1024_o0_0_0_S8x64x1024 : S8x128x1024.Slices ![0, 0, 0] S8x64x1024
  slices_S8x128x1024_o0_64_0_S8x64x1024 : S8x128x1024.Slices ![0, 64, 0] S8x64x1024
  shapeCasts_S512_S8x64x1 : S512.ShapeCasts S8x64x1
  broadcasts_S8x64x1_S8x64x1024 : S8x64x1.Broadcasts S8x64x1024
  concatenates_S8x64x1024_S8x64x1024_S8x128x1024_d1 : Shape.Concatenates [S8x64x1024, S8x64x1024] S8x128x1024 1
  shapeCasts_S8x128x1024_S1024x1024 : S8x128x1024.ShapeCasts S1024x1024
  slices_S20x512_o7_0_S1x512 : S20x512.Slices ![7, 0] S1x512
  shapeCasts_S1024x1024_S4x256x1024 : S1024x1024.ShapeCasts S4x256x1024
  slices_S4x256x1024_o0_0_0_S4x128x1024 : S4x256x1024.Slices ![0, 0, 0] S4x128x1024
  slices_S4x256x1024_o0_128_0_S4x128x1024 : S4x256x1024.Slices ![0, 128, 0] S4x128x1024
  shapeCasts_S512_S4x128x1 : S512.ShapeCasts S4x128x1
  broadcasts_S4x128x1_S4x128x1024 : S4x128x1.Broadcasts S4x128x1024
  concatenates_S4x128x1024_S4x128x1024_S4x256x1024_d1 : Shape.Concatenates [S4x128x1024, S4x128x1024] S4x256x1024 1
  shapeCasts_S4x256x1024_S1024x1024 : S4x256x1024.ShapeCasts S1024x1024
  slices_S20x512_o8_0_S1x512 : S20x512.Slices ![8, 0] S1x512
  shapeCasts_S1024x1024_S2x512x1024 : S1024x1024.ShapeCasts S2x512x1024
  slices_S2x512x1024_o0_0_0_S2x256x1024 : S2x512x1024.Slices ![0, 0, 0] S2x256x1024
  slices_S2x512x1024_o0_256_0_S2x256x1024 : S2x512x1024.Slices ![0, 256, 0] S2x256x1024
  shapeCasts_S512_S2x256x1 : S512.ShapeCasts S2x256x1
  broadcasts_S2x256x1_S2x256x1024 : S2x256x1.Broadcasts S2x256x1024
  concatenates_S2x256x1024_S2x256x1024_S2x512x1024_d1 : Shape.Concatenates [S2x256x1024, S2x256x1024] S2x512x1024 1
  shapeCasts_S2x512x1024_S1024x1024 : S2x512x1024.ShapeCasts S1024x1024
  slices_S20x512_o9_0_S1x512 : S20x512.Slices ![9, 0] S1x512
  shapeCasts_S1024x1024_S1x1024x1024 : S1024x1024.ShapeCasts S1x1024x1024
  slices_S1x1024x1024_o0_0_0_S1x512x1024 : S1x1024x1024.Slices ![0, 0, 0] S1x512x1024
  slices_S1x1024x1024_o0_512_0_S1x512x1024 : S1x1024x1024.Slices ![0, 512, 0] S1x512x1024
  shapeCasts_S512_S1x512x1 : S512.ShapeCasts S1x512x1
  broadcasts_S1x512x1_S1x512x1024 : S1x512x1.Broadcasts S1x512x1024
  concatenates_S1x512x1024_S1x512x1024_S1x1024x1024_d1 : Shape.Concatenates [S1x512x1024, S1x512x1024] S1x1024x1024 1
  shapeCasts_S1x1024x1024_S1024x1024 : S1x1024x1024.ShapeCasts S1024x1024
  slices_S20x512_o10_0_S1x512 : S20x512.Slices ![10, 0] S1x512
  slices_S20x512_o11_0_S1x512 : S20x512.Slices ![11, 0] S1x512
  slices_S20x512_o12_0_S1x512 : S20x512.Slices ![12, 0] S1x512
  slices_S20x512_o13_0_S1x512 : S20x512.Slices ![13, 0] S1x512
  slices_S20x512_o14_0_S1x512 : S20x512.Slices ![14, 0] S1x512
  slices_S20x512_o15_0_S1x512 : S20x512.Slices ![15, 0] S1x512
  slices_S20x512_o16_0_S1x512 : S20x512.Slices ![16, 0] S1x512
  slices_S20x512_o17_0_S1x512 : S20x512.Slices ![17, 0] S1x512
  slices_S20x512_o18_0_S1x512 : S20x512.Slices ![18, 0] S1x512
  slices_S20x512_o19_0_S1x512 : S20x512.Slices ![19, 0] S1x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x8192.size a
  hwx0_0 : ∀ i : grid0.Coords, EltTy.bits .f32 = 32 ∨ (Rect.block (s := S1024x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x512.size a ≤ S20x512.size a
  hwx0_1 : ∀ i : grid0.Coords, EltTy.bits .f32 = 32 ∨ (Rect.block (s := S20x512) S20x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x8192.size a
  hwx0_2 : ∀ i : grid0.Coords, EltTy.bits .f32 = 32 ∨ (Rect.block (s := S1024x8192) S1024x1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S20x512 : Shape := ⟨2, ![20, 512]⟩
abbrev S1x512 : Shape := ⟨2, ![1, 512]⟩
abbrev S512 : Shape := ⟨1, ![512]⟩
abbrev S512x2x1x8192 : Shape := ⟨4, ![512, 2, 1, 8192]⟩
abbrev S512x1x1x8192 : Shape := ⟨4, ![512, 1, 1, 8192]⟩
abbrev S512x1x8192 : Shape := ⟨3, ![512, 1, 8192]⟩
abbrev S512x1x1 : Shape := ⟨3, ![512, 1, 1]⟩
abbrev S256x2x2x8192 : Shape := ⟨4, ![256, 2, 2, 8192]⟩
abbrev S256x1x2x8192 : Shape := ⟨4, ![256, 1, 2, 8192]⟩
abbrev S256x2x8192 : Shape := ⟨3, ![256, 2, 8192]⟩
abbrev S256x2x1 : Shape := ⟨3, ![256, 2, 1]⟩
abbrev S128x2x4x8192 : Shape := ⟨4, ![128, 2, 4, 8192]⟩
abbrev S128x1x4x8192 : Shape := ⟨4, ![128, 1, 4, 8192]⟩
abbrev S128x4x8192 : Shape := ⟨3, ![128, 4, 8192]⟩
abbrev S128x4x1 : Shape := ⟨3, ![128, 4, 1]⟩
abbrev S64x2x8x8192 : Shape := ⟨4, ![64, 2, 8, 8192]⟩
abbrev S64x1x8x8192 : Shape := ⟨4, ![64, 1, 8, 8192]⟩
abbrev S64x8x8192 : Shape := ⟨3, ![64, 8, 8192]⟩
abbrev S64x8x1 : Shape := ⟨3, ![64, 8, 1]⟩
abbrev S32x2x16x8192 : Shape := ⟨4, ![32, 2, 16, 8192]⟩
abbrev S32x1x16x8192 : Shape := ⟨4, ![32, 1, 16, 8192]⟩
abbrev S32x16x8192 : Shape := ⟨3, ![32, 16, 8192]⟩
abbrev S32x16x1 : Shape := ⟨3, ![32, 16, 1]⟩
abbrev S16x2x32x8192 : Shape := ⟨4, ![16, 2, 32, 8192]⟩
abbrev S16x1x32x8192 : Shape := ⟨4, ![16, 1, 32, 8192]⟩
abbrev S16x32x8192 : Shape := ⟨3, ![16, 32, 8192]⟩
abbrev S16x32x1 : Shape := ⟨3, ![16, 32, 1]⟩
abbrev S8x2x64x8192 : Shape := ⟨4, ![8, 2, 64, 8192]⟩
abbrev S8x1x64x8192 : Shape := ⟨4, ![8, 1, 64, 8192]⟩
abbrev S8x64x8192 : Shape := ⟨3, ![8, 64, 8192]⟩
abbrev S8x64x1 : Shape := ⟨3, ![8, 64, 1]⟩
abbrev S4x2x128x8192 : Shape := ⟨4, ![4, 2, 128, 8192]⟩
abbrev S4x1x128x8192 : Shape := ⟨4, ![4, 1, 128, 8192]⟩
abbrev S4x128x8192 : Shape := ⟨3, ![4, 128, 8192]⟩
abbrev S4x128x1 : Shape := ⟨3, ![4, 128, 1]⟩
abbrev S2x2x256x8192 : Shape := ⟨4, ![2, 2, 256, 8192]⟩
abbrev S2x1x256x8192 : Shape := ⟨4, ![2, 1, 256, 8192]⟩
abbrev S2x256x8192 : Shape := ⟨3, ![2, 256, 8192]⟩
abbrev S2x256x1 : Shape := ⟨3, ![2, 256, 1]⟩
abbrev S1x2x512x8192 : Shape := ⟨4, ![1, 2, 512, 8192]⟩
abbrev S1x1x512x8192 : Shape := ⟨4, ![1, 1, 512, 8192]⟩
abbrev S1x512x8192 : Shape := ⟨3, ![1, 512, 8192]⟩
abbrev S1x512x1 : Shape := ⟨3, ![1, 512, 1]⟩

abbrev nBuf : Space → Nat
  | .hbm => 522
  | .vmem => 0
  | .smem => 0
  | _ => 0

abbrev hbmTy0_0 (i : Nat) : BufTy := match i % 128 with
  | 0 => ⟨S1024x8192, .f32⟩
  | 1 => ⟨S20x512, .f32⟩
  | 2 => ⟨S1x512, .f32⟩
  | 3 => ⟨S512, .f32⟩
  | 4 => ⟨S512x2x1x8192, .f32⟩
  | 5 => ⟨S512x1x1x8192, .f32⟩
  | 6 => ⟨S512x1x8192, .f32⟩
  | 7 => ⟨S512x1x1x8192, .f32⟩
  | 8 => ⟨S512x1x8192, .f32⟩
  | 9 => ⟨S512, .f32⟩
  | 10 => ⟨S512x1x1, .f32⟩
  | 11 => ⟨S512, .f32⟩
  | 12 => ⟨S512x1x1, .f32⟩
  | 13 => ⟨S512x1x8192, .f32⟩
  | 14 => ⟨S512x1x8192, .f32⟩
  | 15 => ⟨S512x1x8192, .f32⟩
  | 16 => ⟨S512x1x8192, .f32⟩
  | 17 => ⟨S512x1x8192, .f32⟩
  | 18 => ⟨S512x1x1, .f32⟩
  | 19 => ⟨S512x1x8192, .f32⟩
  | 20 => ⟨S512x1x8192, .f32⟩
  | 21 => ⟨S512x1x8192, .f32⟩
  | 22 => ⟨S512x1x8192, .f32⟩
  | 23 => ⟨S512x1x8192, .f32⟩
  | 24 => ⟨S512x1x1x8192, .f32⟩
  | 25 => ⟨S512x1x1x8192, .f32⟩
  | 26 => ⟨S512x2x1x8192, .f32⟩
  | 27 => ⟨S1024x8192, .f32⟩
  | 28 => ⟨S1x512, .f32⟩
  | 29 => ⟨S512, .f32⟩
  | 30 => ⟨S256x2x2x8192, .f32⟩
  | 31 => ⟨S256x1x2x8192, .f32⟩
  | 32 => ⟨S256x2x8192, .f32⟩
  | 33 => ⟨S256x1x2x8192, .f32⟩
  | 34 => ⟨S256x2x8192, .f32⟩
  | 35 => ⟨S512, .f32⟩
  | 36 => ⟨S256x2x1, .f32⟩
  | 37 => ⟨S512, .f32⟩
  | 38 => ⟨S256x2x1, .f32⟩
  | 39 => ⟨S256x2x8192, .f32⟩
  | 40 => ⟨S256x2x8192, .f32⟩
  | 41 => ⟨S256x2x8192, .f32⟩
  | 42 => ⟨S256x2x8192, .f32⟩
  | 43 => ⟨S256x2x8192, .f32⟩
  | 44 => ⟨S256x2x1, .f32⟩
  | 45 => ⟨S256x2x8192, .f32⟩
  | 46 => ⟨S256x2x8192, .f32⟩
  | 47 => ⟨S256x2x8192, .f32⟩
  | 48 => ⟨S256x2x8192, .f32⟩
  | 49 => ⟨S256x2x8192, .f32⟩
  | 50 => ⟨S256x1x2x8192, .f32⟩
  | 51 => ⟨S256x1x2x8192, .f32⟩
  | 52 => ⟨S256x2x2x8192, .f32⟩
  | 53 => ⟨S1024x8192, .f32⟩
  | 54 => ⟨S1x512, .f32⟩
  | 55 => ⟨S512, .f32⟩
  | 56 => ⟨S128x2x4x8192, .f32⟩
  | 57 => ⟨S128x1x4x8192, .f32⟩
  | 58 => ⟨S128x4x8192, .f32⟩
  | 59 => ⟨S128x1x4x8192, .f32⟩
  | 60 => ⟨S128x4x8192, .f32⟩
  | 61 => ⟨S512, .f32⟩
  | 62 => ⟨S128x4x1, .f32⟩
  | 63 => ⟨S512, .f32⟩
  | 64 => ⟨S128x4x1, .f32⟩
  | 65 => ⟨S128x4x8192, .f32⟩
  | 66 => ⟨S128x4x8192, .f32⟩
  | 67 => ⟨S128x4x8192, .f32⟩
  | 68 => ⟨S128x4x8192, .f32⟩
  | 69 => ⟨S128x4x8192, .f32⟩
  | 70 => ⟨S128x4x1, .f32⟩
  | 71 => ⟨S128x4x8192, .f32⟩
  | 72 => ⟨S128x4x8192, .f32⟩
  | 73 => ⟨S128x4x8192, .f32⟩
  | 74 => ⟨S128x4x8192, .f32⟩
  | 75 => ⟨S128x4x8192, .f32⟩
  | 76 => ⟨S128x1x4x8192, .f32⟩
  | 77 => ⟨S128x1x4x8192, .f32⟩
  | 78 => ⟨S128x2x4x8192, .f32⟩
  | 79 => ⟨S1024x8192, .f32⟩
  | 80 => ⟨S1x512, .f32⟩
  | 81 => ⟨S512, .f32⟩
  | 82 => ⟨S64x2x8x8192, .f32⟩
  | 83 => ⟨S64x1x8x8192, .f32⟩
  | 84 => ⟨S64x8x8192, .f32⟩
  | 85 => ⟨S64x1x8x8192, .f32⟩
  | 86 => ⟨S64x8x8192, .f32⟩
  | 87 => ⟨S512, .f32⟩
  | 88 => ⟨S64x8x1, .f32⟩
  | 89 => ⟨S512, .f32⟩
  | 90 => ⟨S64x8x1, .f32⟩
  | 91 => ⟨S64x8x8192, .f32⟩
  | 92 => ⟨S64x8x8192, .f32⟩
  | 93 => ⟨S64x8x8192, .f32⟩
  | 94 => ⟨S64x8x8192, .f32⟩
  | 95 => ⟨S64x8x8192, .f32⟩
  | 96 => ⟨S64x8x1, .f32⟩
  | 97 => ⟨S64x8x8192, .f32⟩
  | 98 => ⟨S64x8x8192, .f32⟩
  | 99 => ⟨S64x8x8192, .f32⟩
  | 100 => ⟨S64x8x8192, .f32⟩
  | 101 => ⟨S64x8x8192, .f32⟩
  | 102 => ⟨S64x1x8x8192, .f32⟩
  | 103 => ⟨S64x1x8x8192, .f32⟩
  | 104 => ⟨S64x2x8x8192, .f32⟩
  | 105 => ⟨S1024x8192, .f32⟩
  | 106 => ⟨S1x512, .f32⟩
  | 107 => ⟨S512, .f32⟩
  | 108 => ⟨S32x2x16x8192, .f32⟩
  | 109 => ⟨S32x1x16x8192, .f32⟩
  | 110 => ⟨S32x16x8192, .f32⟩
  | 111 => ⟨S32x1x16x8192, .f32⟩
  | 112 => ⟨S32x16x8192, .f32⟩
  | 113 => ⟨S512, .f32⟩
  | 114 => ⟨S32x16x1, .f32⟩
  | 115 => ⟨S512, .f32⟩
  | 116 => ⟨S32x16x1, .f32⟩
  | 117 => ⟨S32x16x8192, .f32⟩
  | 118 => ⟨S32x16x8192, .f32⟩
  | 119 => ⟨S32x16x8192, .f32⟩
  | 120 => ⟨S32x16x8192, .f32⟩
  | 121 => ⟨S32x16x8192, .f32⟩
  | 122 => ⟨S32x16x1, .f32⟩
  | 123 => ⟨S32x16x8192, .f32⟩
  | 124 => ⟨S32x16x8192, .f32⟩
  | 125 => ⟨S32x16x8192, .f32⟩
  | 126 => ⟨S32x16x8192, .f32⟩
  | 127 => ⟨S32x16x8192, .f32⟩
  | _ => ⟨S1024x8192, .f32⟩

abbrev hbmTy0_1 (i : Nat) : BufTy := match i % 128 with
  | 0 => ⟨S32x1x16x8192, .f32⟩
  | 1 => ⟨S32x1x16x8192, .f32⟩
  | 2 => ⟨S32x2x16x8192, .f32⟩
  | 3 => ⟨S1024x8192, .f32⟩
  | 4 => ⟨S1x512, .f32⟩
  | 5 => ⟨S512, .f32⟩
  | 6 => ⟨S16x2x32x8192, .f32⟩
  | 7 => ⟨S16x1x32x8192, .f32⟩
  | 8 => ⟨S16x32x8192, .f32⟩
  | 9 => ⟨S16x1x32x8192, .f32⟩
  | 10 => ⟨S16x32x8192, .f32⟩
  | 11 => ⟨S512, .f32⟩
  | 12 => ⟨S16x32x1, .f32⟩
  | 13 => ⟨S512, .f32⟩
  | 14 => ⟨S16x32x1, .f32⟩
  | 15 => ⟨S16x32x8192, .f32⟩
  | 16 => ⟨S16x32x8192, .f32⟩
  | 17 => ⟨S16x32x8192, .f32⟩
  | 18 => ⟨S16x32x8192, .f32⟩
  | 19 => ⟨S16x32x8192, .f32⟩
  | 20 => ⟨S16x32x1, .f32⟩
  | 21 => ⟨S16x32x8192, .f32⟩
  | 22 => ⟨S16x32x8192, .f32⟩
  | 23 => ⟨S16x32x8192, .f32⟩
  | 24 => ⟨S16x32x8192, .f32⟩
  | 25 => ⟨S16x32x8192, .f32⟩
  | 26 => ⟨S16x1x32x8192, .f32⟩
  | 27 => ⟨S16x1x32x8192, .f32⟩
  | 28 => ⟨S16x2x32x8192, .f32⟩
  | 29 => ⟨S1024x8192, .f32⟩
  | 30 => ⟨S1x512, .f32⟩
  | 31 => ⟨S512, .f32⟩
  | 32 => ⟨S8x2x64x8192, .f32⟩
  | 33 => ⟨S8x1x64x8192, .f32⟩
  | 34 => ⟨S8x64x8192, .f32⟩
  | 35 => ⟨S8x1x64x8192, .f32⟩
  | 36 => ⟨S8x64x8192, .f32⟩
  | 37 => ⟨S512, .f32⟩
  | 38 => ⟨S8x64x1, .f32⟩
  | 39 => ⟨S512, .f32⟩
  | 40 => ⟨S8x64x1, .f32⟩
  | 41 => ⟨S8x64x8192, .f32⟩
  | 42 => ⟨S8x64x8192, .f32⟩
  | 43 => ⟨S8x64x8192, .f32⟩
  | 44 => ⟨S8x64x8192, .f32⟩
  | 45 => ⟨S8x64x8192, .f32⟩
  | 46 => ⟨S8x64x1, .f32⟩
  | 47 => ⟨S8x64x8192, .f32⟩
  | 48 => ⟨S8x64x8192, .f32⟩
  | 49 => ⟨S8x64x8192, .f32⟩
  | 50 => ⟨S8x64x8192, .f32⟩
  | 51 => ⟨S8x64x8192, .f32⟩
  | 52 => ⟨S8x1x64x8192, .f32⟩
  | 53 => ⟨S8x1x64x8192, .f32⟩
  | 54 => ⟨S8x2x64x8192, .f32⟩
  | 55 => ⟨S1024x8192, .f32⟩
  | 56 => ⟨S1x512, .f32⟩
  | 57 => ⟨S512, .f32⟩
  | 58 => ⟨S4x2x128x8192, .f32⟩
  | 59 => ⟨S4x1x128x8192, .f32⟩
  | 60 => ⟨S4x128x8192, .f32⟩
  | 61 => ⟨S4x1x128x8192, .f32⟩
  | 62 => ⟨S4x128x8192, .f32⟩
  | 63 => ⟨S512, .f32⟩
  | 64 => ⟨S4x128x1, .f32⟩
  | 65 => ⟨S512, .f32⟩
  | 66 => ⟨S4x128x1, .f32⟩
  | 67 => ⟨S4x128x8192, .f32⟩
  | 68 => ⟨S4x128x8192, .f32⟩
  | 69 => ⟨S4x128x8192, .f32⟩
  | 70 => ⟨S4x128x8192, .f32⟩
  | 71 => ⟨S4x128x8192, .f32⟩
  | 72 => ⟨S4x128x1, .f32⟩
  | 73 => ⟨S4x128x8192, .f32⟩
  | 74 => ⟨S4x128x8192, .f32⟩
  | 75 => ⟨S4x128x8192, .f32⟩
  | 76 => ⟨S4x128x8192, .f32⟩
  | 77 => ⟨S4x128x8192, .f32⟩
  | 78 => ⟨S4x1x128x8192, .f32⟩
  | 79 => ⟨S4x1x128x8192, .f32⟩
  | 80 => ⟨S4x2x128x8192, .f32⟩
  | 81 => ⟨S1024x8192, .f32⟩
  | 82 => ⟨S1x512, .f32⟩
  | 83 => ⟨S512, .f32⟩
  | 84 => ⟨S2x2x256x8192, .f32⟩
  | 85 => ⟨S2x1x256x8192, .f32⟩
  | 86 => ⟨S2x256x8192, .f32⟩
  | 87 => ⟨S2x1x256x8192, .f32⟩
  | 88 => ⟨S2x256x8192, .f32⟩
  | 89 => ⟨S512, .f32⟩
  | 90 => ⟨S2x256x1, .f32⟩
  | 91 => ⟨S512, .f32⟩
  | 92 => ⟨S2x256x1, .f32⟩
  | 93 => ⟨S2x256x8192, .f32⟩
  | 94 => ⟨S2x256x8192, .f32⟩
  | 95 => ⟨S2x256x8192, .f32⟩
  | 96 => ⟨S2x256x8192, .f32⟩
  | 97 => ⟨S2x256x8192, .f32⟩
  | 98 => ⟨S2x256x1, .f32⟩
  | 99 => ⟨S2x256x8192, .f32⟩
  | 100 => ⟨S2x256x8192, .f32⟩
  | 101 => ⟨S2x256x8192, .f32⟩
  | 102 => ⟨S2x256x8192, .f32⟩
  | 103 => ⟨S2x256x8192, .f32⟩
  | 104 => ⟨S2x1x256x8192, .f32⟩
  | 105 => ⟨S2x1x256x8192, .f32⟩
  | 106 => ⟨S2x2x256x8192, .f32⟩
  | 107 => ⟨S1024x8192, .f32⟩
  | 108 => ⟨S1x512, .f32⟩
  | 109 => ⟨S512, .f32⟩
  | 110 => ⟨S1x2x512x8192, .f32⟩
  | 111 => ⟨S1x1x512x8192, .f32⟩
  | 112 => ⟨S1x512x8192, .f32⟩
  | 113 => ⟨S1x1x512x8192, .f32⟩
  | 114 => ⟨S1x512x8192, .f32⟩
  | 115 => ⟨S512, .f32⟩
  | 116 => ⟨S1x512x1, .f32⟩
  | 117 => ⟨S512, .f32⟩
  | 118 => ⟨S1x512x1, .f32⟩
  | 119 => ⟨S1x512x8192, .f32⟩
  | 120 => ⟨S1x512x8192, .f32⟩
  | 121 => ⟨S1x512x8192, .f32⟩
  | 122 => ⟨S1x512x8192, .f32⟩
  | 123 => ⟨S1x512x8192, .f32⟩
  | 124 => ⟨S1x512x1, .f32⟩
  | 125 => ⟨S1x512x8192, .f32⟩
  | 126 => ⟨S1x512x8192, .f32⟩
  | 127 => ⟨S1x512x8192, .f32⟩
  | _ => ⟨S1024x8192, .f32⟩

abbrev hbmTy0_2 (i : Nat) : BufTy := match i % 128 with
  | 0 => ⟨S1x512x8192, .f32⟩
  | 1 => ⟨S1x512x8192, .f32⟩
  | 2 => ⟨S1x1x512x8192, .f32⟩
  | 3 => ⟨S1x1x512x8192, .f32⟩
  | 4 => ⟨S1x2x512x8192, .f32⟩
  | 5 => ⟨S1024x8192, .f32⟩
  | 6 => ⟨S1x512, .f32⟩
  | 7 => ⟨S512, .f32⟩
  | 8 => ⟨S512x2x1x8192, .f32⟩
  | 9 => ⟨S512x1x1x8192, .f32⟩
  | 10 => ⟨S512x1x8192, .f32⟩
  | 11 => ⟨S512x1x1x8192, .f32⟩
  | 12 => ⟨S512x1x8192, .f32⟩
  | 13 => ⟨S512, .f32⟩
  | 14 => ⟨S512x1x1, .f32⟩
  | 15 => ⟨S512, .f32⟩
  | 16 => ⟨S512x1x1, .f32⟩
  | 17 => ⟨S512x1x8192, .f32⟩
  | 18 => ⟨S512x1x8192, .f32⟩
  | 19 => ⟨S512x1x8192, .f32⟩
  | 20 => ⟨S512x1x8192, .f32⟩
  | 21 => ⟨S512x1x8192, .f32⟩
  | 22 => ⟨S512x1x1, .f32⟩
  | 23 => ⟨S512x1x8192, .f32⟩
  | 24 => ⟨S512x1x8192, .f32⟩
  | 25 => ⟨S512x1x8192, .f32⟩
  | 26 => ⟨S512x1x8192, .f32⟩
  | 27 => ⟨S512x1x8192, .f32⟩
  | 28 => ⟨S512x1x1x8192, .f32⟩
  | 29 => ⟨S512x1x1x8192, .f32⟩
  | 30 => ⟨S512x2x1x8192, .f32⟩
  | 31 => ⟨S1024x8192, .f32⟩
  | 32 => ⟨S1x512, .f32⟩
  | 33 => ⟨S512, .f32⟩
  | 34 => ⟨S256x2x2x8192, .f32⟩
  | 35 => ⟨S256x1x2x8192, .f32⟩
  | 36 => ⟨S256x2x8192, .f32⟩
  | 37 => ⟨S256x1x2x8192, .f32⟩
  | 38 => ⟨S256x2x8192, .f32⟩
  | 39 => ⟨S512, .f32⟩
  | 40 => ⟨S256x2x1, .f32⟩
  | 41 => ⟨S512, .f32⟩
  | 42 => ⟨S256x2x1, .f32⟩
  | 43 => ⟨S256x2x8192, .f32⟩
  | 44 => ⟨S256x2x8192, .f32⟩
  | 45 => ⟨S256x2x8192, .f32⟩
  | 46 => ⟨S256x2x8192, .f32⟩
  | 47 => ⟨S256x2x8192, .f32⟩
  | 48 => ⟨S256x2x1, .f32⟩
  | 49 => ⟨S256x2x8192, .f32⟩
  | 50 => ⟨S256x2x8192, .f32⟩
  | 51 => ⟨S256x2x8192, .f32⟩
  | 52 => ⟨S256x2x8192, .f32⟩
  | 53 => ⟨S256x2x8192, .f32⟩
  | 54 => ⟨S256x1x2x8192, .f32⟩
  | 55 => ⟨S256x1x2x8192, .f32⟩
  | 56 => ⟨S256x2x2x8192, .f32⟩
  | 57 => ⟨S1024x8192, .f32⟩
  | 58 => ⟨S1x512, .f32⟩
  | 59 => ⟨S512, .f32⟩
  | 60 => ⟨S128x2x4x8192, .f32⟩
  | 61 => ⟨S128x1x4x8192, .f32⟩
  | 62 => ⟨S128x4x8192, .f32⟩
  | 63 => ⟨S128x1x4x8192, .f32⟩
  | 64 => ⟨S128x4x8192, .f32⟩
  | 65 => ⟨S512, .f32⟩
  | 66 => ⟨S128x4x1, .f32⟩
  | 67 => ⟨S512, .f32⟩
  | 68 => ⟨S128x4x1, .f32⟩
  | 69 => ⟨S128x4x8192, .f32⟩
  | 70 => ⟨S128x4x8192, .f32⟩
  | 71 => ⟨S128x4x8192, .f32⟩
  | 72 => ⟨S128x4x8192, .f32⟩
  | 73 => ⟨S128x4x8192, .f32⟩
  | 74 => ⟨S128x4x1, .f32⟩
  | 75 => ⟨S128x4x8192, .f32⟩
  | 76 => ⟨S128x4x8192, .f32⟩
  | 77 => ⟨S128x4x8192, .f32⟩
  | 78 => ⟨S128x4x8192, .f32⟩
  | 79 => ⟨S128x4x8192, .f32⟩
  | 80 => ⟨S128x1x4x8192, .f32⟩
  | 81 => ⟨S128x1x4x8192, .f32⟩
  | 82 => ⟨S128x2x4x8192, .f32⟩
  | 83 => ⟨S1024x8192, .f32⟩
  | 84 => ⟨S1x512, .f32⟩
  | 85 => ⟨S512, .f32⟩
  | 86 => ⟨S64x2x8x8192, .f32⟩
  | 87 => ⟨S64x1x8x8192, .f32⟩
  | 88 => ⟨S64x8x8192, .f32⟩
  | 89 => ⟨S64x1x8x8192, .f32⟩
  | 90 => ⟨S64x8x8192, .f32⟩
  | 91 => ⟨S512, .f32⟩
  | 92 => ⟨S64x8x1, .f32⟩
  | 93 => ⟨S512, .f32⟩
  | 94 => ⟨S64x8x1, .f32⟩
  | 95 => ⟨S64x8x8192, .f32⟩
  | 96 => ⟨S64x8x8192, .f32⟩
  | 97 => ⟨S64x8x8192, .f32⟩
  | 98 => ⟨S64x8x8192, .f32⟩
  | 99 => ⟨S64x8x8192, .f32⟩
  | 100 => ⟨S64x8x1, .f32⟩
  | 101 => ⟨S64x8x8192, .f32⟩
  | 102 => ⟨S64x8x8192, .f32⟩
  | 103 => ⟨S64x8x8192, .f32⟩
  | 104 => ⟨S64x8x8192, .f32⟩
  | 105 => ⟨S64x8x8192, .f32⟩
  | 106 => ⟨S64x1x8x8192, .f32⟩
  | 107 => ⟨S64x1x8x8192, .f32⟩
  | 108 => ⟨S64x2x8x8192, .f32⟩
  | 109 => ⟨S1024x8192, .f32⟩
  | 110 => ⟨S1x512, .f32⟩
  | 111 => ⟨S512, .f32⟩
  | 112 => ⟨S32x2x16x8192, .f32⟩
  | 113 => ⟨S32x1x16x8192, .f32⟩
  | 114 => ⟨S32x16x8192, .f32⟩
  | 115 => ⟨S32x1x16x8192, .f32⟩
  | 116 => ⟨S32x16x8192, .f32⟩
  | 117 => ⟨S512, .f32⟩
  | 118 => ⟨S32x16x1, .f32⟩
  | 119 => ⟨S512, .f32⟩
  | 120 => ⟨S32x16x1, .f32⟩
  | 121 => ⟨S32x16x8192, .f32⟩
  | 122 => ⟨S32x16x8192, .f32⟩
  | 123 => ⟨S32x16x8192, .f32⟩
  | 124 => ⟨S32x16x8192, .f32⟩
  | 125 => ⟨S32x16x8192, .f32⟩
  | 126 => ⟨S32x16x1, .f32⟩
  | 127 => ⟨S32x16x8192, .f32⟩
  | _ => ⟨S1024x8192, .f32⟩

abbrev hbmTy0_3 (i : Nat) : BufTy := match i % 128 with
  | 0 => ⟨S32x16x8192, .f32⟩
  | 1 => ⟨S32x16x8192, .f32⟩
  | 2 => ⟨S32x16x8192, .f32⟩
  | 3 => ⟨S32x16x8192, .f32⟩
  | 4 => ⟨S32x1x16x8192, .f32⟩
  | 5 => ⟨S32x1x16x8192, .f32⟩
  | 6 => ⟨S32x2x16x8192, .f32⟩
  | 7 => ⟨S1024x8192, .f32⟩
  | 8 => ⟨S1x512, .f32⟩
  | 9 => ⟨S512, .f32⟩
  | 10 => ⟨S16x2x32x8192, .f32⟩
  | 11 => ⟨S16x1x32x8192, .f32⟩
  | 12 => ⟨S16x32x8192, .f32⟩
  | 13 => ⟨S16x1x32x8192, .f32⟩
  | 14 => ⟨S16x32x8192, .f32⟩
  | 15 => ⟨S512, .f32⟩
  | 16 => ⟨S16x32x1, .f32⟩
  | 17 => ⟨S512, .f32⟩
  | 18 => ⟨S16x32x1, .f32⟩
  | 19 => ⟨S16x32x8192, .f32⟩
  | 20 => ⟨S16x32x8192, .f32⟩
  | 21 => ⟨S16x32x8192, .f32⟩
  | 22 => ⟨S16x32x8192, .f32⟩
  | 23 => ⟨S16x32x8192, .f32⟩
  | 24 => ⟨S16x32x1, .f32⟩
  | 25 => ⟨S16x32x8192, .f32⟩
  | 26 => ⟨S16x32x8192, .f32⟩
  | 27 => ⟨S16x32x8192, .f32⟩
  | 28 => ⟨S16x32x8192, .f32⟩
  | 29 => ⟨S16x32x8192, .f32⟩
  | 30 => ⟨S16x1x32x8192, .f32⟩
  | 31 => ⟨S16x1x32x8192, .f32⟩
  | 32 => ⟨S16x2x32x8192, .f32⟩
  | 33 => ⟨S1024x8192, .f32⟩
  | 34 => ⟨S1x512, .f32⟩
  | 35 => ⟨S512, .f32⟩
  | 36 => ⟨S8x2x64x8192, .f32⟩
  | 37 => ⟨S8x1x64x8192, .f32⟩
  | 38 => ⟨S8x64x8192, .f32⟩
  | 39 => ⟨S8x1x64x8192, .f32⟩
  | 40 => ⟨S8x64x8192, .f32⟩
  | 41 => ⟨S512, .f32⟩
  | 42 => ⟨S8x64x1, .f32⟩
  | 43 => ⟨S512, .f32⟩
  | 44 => ⟨S8x64x1, .f32⟩
  | 45 => ⟨S8x64x8192, .f32⟩
  | 46 => ⟨S8x64x8192, .f32⟩
  | 47 => ⟨S8x64x8192, .f32⟩
  | 48 => ⟨S8x64x8192, .f32⟩
  | 49 => ⟨S8x64x8192, .f32⟩
  | 50 => ⟨S8x64x1, .f32⟩
  | 51 => ⟨S8x64x8192, .f32⟩
  | 52 => ⟨S8x64x8192, .f32⟩
  | 53 => ⟨S8x64x8192, .f32⟩
  | 54 => ⟨S8x64x8192, .f32⟩
  | 55 => ⟨S8x64x8192, .f32⟩
  | 56 => ⟨S8x1x64x8192, .f32⟩
  | 57 => ⟨S8x1x64x8192, .f32⟩
  | 58 => ⟨S8x2x64x8192, .f32⟩
  | 59 => ⟨S1024x8192, .f32⟩
  | 60 => ⟨S1x512, .f32⟩
  | 61 => ⟨S512, .f32⟩
  | 62 => ⟨S4x2x128x8192, .f32⟩
  | 63 => ⟨S4x1x128x8192, .f32⟩
  | 64 => ⟨S4x128x8192, .f32⟩
  | 65 => ⟨S4x1x128x8192, .f32⟩
  | 66 => ⟨S4x128x8192, .f32⟩
  | 67 => ⟨S512, .f32⟩
  | 68 => ⟨S4x128x1, .f32⟩
  | 69 => ⟨S512, .f32⟩
  | 70 => ⟨S4x128x1, .f32⟩
  | 71 => ⟨S4x128x8192, .f32⟩
  | 72 => ⟨S4x128x8192, .f32⟩
  | 73 => ⟨S4x128x8192, .f32⟩
  | 74 => ⟨S4x128x8192, .f32⟩
  | 75 => ⟨S4x128x8192, .f32⟩
  | 76 => ⟨S4x128x1, .f32⟩
  | 77 => ⟨S4x128x8192, .f32⟩
  | 78 => ⟨S4x128x8192, .f32⟩
  | 79 => ⟨S4x128x8192, .f32⟩
  | 80 => ⟨S4x128x8192, .f32⟩
  | 81 => ⟨S4x128x8192, .f32⟩
  | 82 => ⟨S4x1x128x8192, .f32⟩
  | 83 => ⟨S4x1x128x8192, .f32⟩
  | 84 => ⟨S4x2x128x8192, .f32⟩
  | 85 => ⟨S1024x8192, .f32⟩
  | 86 => ⟨S1x512, .f32⟩
  | 87 => ⟨S512, .f32⟩
  | 88 => ⟨S2x2x256x8192, .f32⟩
  | 89 => ⟨S2x1x256x8192, .f32⟩
  | 90 => ⟨S2x256x8192, .f32⟩
  | 91 => ⟨S2x1x256x8192, .f32⟩
  | 92 => ⟨S2x256x8192, .f32⟩
  | 93 => ⟨S512, .f32⟩
  | 94 => ⟨S2x256x1, .f32⟩
  | 95 => ⟨S512, .f32⟩
  | 96 => ⟨S2x256x1, .f32⟩
  | 97 => ⟨S2x256x8192, .f32⟩
  | 98 => ⟨S2x256x8192, .f32⟩
  | 99 => ⟨S2x256x8192, .f32⟩
  | 100 => ⟨S2x256x8192, .f32⟩
  | 101 => ⟨S2x256x8192, .f32⟩
  | 102 => ⟨S2x256x1, .f32⟩
  | 103 => ⟨S2x256x8192, .f32⟩
  | 104 => ⟨S2x256x8192, .f32⟩
  | 105 => ⟨S2x256x8192, .f32⟩
  | 106 => ⟨S2x256x8192, .f32⟩
  | 107 => ⟨S2x256x8192, .f32⟩
  | 108 => ⟨S2x1x256x8192, .f32⟩
  | 109 => ⟨S2x1x256x8192, .f32⟩
  | 110 => ⟨S2x2x256x8192, .f32⟩
  | 111 => ⟨S1024x8192, .f32⟩
  | 112 => ⟨S1x512, .f32⟩
  | 113 => ⟨S512, .f32⟩
  | 114 => ⟨S1x2x512x8192, .f32⟩
  | 115 => ⟨S1x1x512x8192, .f32⟩
  | 116 => ⟨S1x512x8192, .f32⟩
  | 117 => ⟨S1x1x512x8192, .f32⟩
  | 118 => ⟨S1x512x8192, .f32⟩
  | 119 => ⟨S512, .f32⟩
  | 120 => ⟨S1x512x1, .f32⟩
  | 121 => ⟨S512, .f32⟩
  | 122 => ⟨S1x512x1, .f32⟩
  | 123 => ⟨S1x512x8192, .f32⟩
  | 124 => ⟨S1x512x8192, .f32⟩
  | 125 => ⟨S1x512x8192, .f32⟩
  | 126 => ⟨S1x512x8192, .f32⟩
  | 127 => ⟨S1x512x8192, .f32⟩
  | _ => ⟨S1024x8192, .f32⟩

abbrev hbmTy0_4 (i : Nat) : BufTy := match i % 128 with
  | 0 => ⟨S1x512x1, .f32⟩
  | 1 => ⟨S1x512x8192, .f32⟩
  | 2 => ⟨S1x512x8192, .f32⟩
  | 3 => ⟨S1x512x8192, .f32⟩
  | 4 => ⟨S1x512x8192, .f32⟩
  | 5 => ⟨S1x512x8192, .f32⟩
  | 6 => ⟨S1x1x512x8192, .f32⟩
  | 7 => ⟨S1x1x512x8192, .f32⟩
  | 8 => ⟨S1x2x512x8192, .f32⟩
  | 9 => ⟨S1024x8192, .f32⟩
  | _ => ⟨S1024x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x8192, .f32⟩

abbrev bufTy : (tb : Table) → Fin (tcTables nBuf tb) → BufTy
  | .hbm, ⟨i, _⟩ => hbmTy i
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_v195 : Ref sig .tc := ⟨.hbm, 197, rfl⟩
abbrev main_v196 : Ref sig .tc := ⟨.hbm, 198, rfl⟩
abbrev main_v197 : Ref sig .tc := ⟨.hbm, 199, rfl⟩
abbrev main_v198 : Ref sig .tc := ⟨.hbm, 200, rfl⟩
abbrev main_v199 : Ref sig .tc := ⟨.hbm, 201, rfl⟩
abbrev main_v200 : Ref sig .tc := ⟨.hbm, 202, rfl⟩
abbrev main_v201 : Ref sig .tc := ⟨.hbm, 203, rfl⟩
abbrev main_v202 : Ref sig .tc := ⟨.hbm, 204, rfl⟩
abbrev main_v203 : Ref sig .tc := ⟨.hbm, 205, rfl⟩
abbrev main_v204 : Ref sig .tc := ⟨.hbm, 206, rfl⟩
abbrev main_v205 : Ref sig .tc := ⟨.hbm, 207, rfl⟩
abbrev main_v206 : Ref sig .tc := ⟨.hbm, 208, rfl⟩
abbrev main_v207 : Ref sig .tc := ⟨.hbm, 209, rfl⟩
abbrev main_v208 : Ref sig .tc := ⟨.hbm, 210, rfl⟩
abbrev main_v209 : Ref sig .tc := ⟨.hbm, 211, rfl⟩
abbrev main_v210 : Ref sig .tc := ⟨.hbm, 212, rfl⟩
abbrev main_v211 : Ref sig .tc := ⟨.hbm, 213, rfl⟩
abbrev main_v212 : Ref sig .tc := ⟨.hbm, 214, rfl⟩
abbrev main_v213 : Ref sig .tc := ⟨.hbm, 215, rfl⟩
abbrev main_v214 : Ref sig .tc := ⟨.hbm, 216, rfl⟩
abbrev main_v215 : Ref sig .tc := ⟨.hbm, 217, rfl⟩
abbrev main_v216 : Ref sig .tc := ⟨.hbm, 218, rfl⟩
abbrev main_v217 : Ref sig .tc := ⟨.hbm, 219, rfl⟩
abbrev main_v218 : Ref sig .tc := ⟨.hbm, 220, rfl⟩
abbrev main_v219 : Ref sig .tc := ⟨.hbm, 221, rfl⟩
abbrev main_v220 : Ref sig .tc := ⟨.hbm, 222, rfl⟩
abbrev main_v221 : Ref sig .tc := ⟨.hbm, 223, rfl⟩
abbrev main_v222 : Ref sig .tc := ⟨.hbm, 224, rfl⟩
abbrev main_v223 : Ref sig .tc := ⟨.hbm, 225, rfl⟩
abbrev main_v224 : Ref sig .tc := ⟨.hbm, 226, rfl⟩
abbrev main_v225 : Ref sig .tc := ⟨.hbm, 227, rfl⟩
abbrev main_v226 : Ref sig .tc := ⟨.hbm, 228, rfl⟩
abbrev main_v227 : Ref sig .tc := ⟨.hbm, 229, rfl⟩
abbrev main_v228 : Ref sig .tc := ⟨.hbm, 230, rfl⟩
abbrev main_v229 : Ref sig .tc := ⟨.hbm, 231, rfl⟩
abbrev main_v230 : Ref sig .tc := ⟨.hbm, 232, rfl⟩
abbrev main_v231 : Ref sig .tc := ⟨.hbm, 233, rfl⟩
abbrev main_v232 : Ref sig .tc := ⟨.hbm, 234, rfl⟩
abbrev main_v233 : Ref sig .tc := ⟨.hbm, 235, rfl⟩
abbrev main_v234 : Ref sig .tc := ⟨.hbm, 236, rfl⟩
abbrev main_v235 : Ref sig .tc := ⟨.hbm, 237, rfl⟩
abbrev main_v236 : Ref sig .tc := ⟨.hbm, 238, rfl⟩
abbrev main_v237 : Ref sig .tc := ⟨.hbm, 239, rfl⟩
abbrev main_v238 : Ref sig .tc := ⟨.hbm, 240, rfl⟩
abbrev main_v239 : Ref sig .tc := ⟨.hbm, 241, rfl⟩
abbrev main_v240 : Ref sig .tc := ⟨.hbm, 242, rfl⟩
abbrev main_v241 : Ref sig .tc := ⟨.hbm, 243, rfl⟩
abbrev main_v242 : Ref sig .tc := ⟨.hbm, 244, rfl⟩
abbrev main_v243 : Ref sig .tc := ⟨.hbm, 245, rfl⟩
abbrev main_v244 : Ref sig .tc := ⟨.hbm, 246, rfl⟩
abbrev main_v245 : Ref sig .tc := ⟨.hbm, 247, rfl⟩
abbrev main_v246 : Ref sig .tc := ⟨.hbm, 248, rfl⟩
abbrev main_v247 : Ref sig .tc := ⟨.hbm, 249, rfl⟩
abbrev main_v248 : Ref sig .tc := ⟨.hbm, 250, rfl⟩
abbrev main_v249 : Ref sig .tc := ⟨.hbm, 251, rfl⟩
abbrev main_v250 : Ref sig .tc := ⟨.hbm, 252, rfl⟩
abbrev main_v251 : Ref sig .tc := ⟨.hbm, 253, rfl⟩
abbrev main_v252 : Ref sig .tc := ⟨.hbm, 254, rfl⟩
abbrev main_v253 : Ref sig .tc := ⟨.hbm, 255, rfl⟩
abbrev main_v254 : Ref sig .tc := ⟨.hbm, 256, rfl⟩
abbrev main_v255 : Ref sig .tc := ⟨.hbm, 257, rfl⟩
abbrev main_v256 : Ref sig .tc := ⟨.hbm, 258, rfl⟩
abbrev main_v257 : Ref sig .tc := ⟨.hbm, 259, rfl⟩
abbrev main_v258 : Ref sig .tc := ⟨.hbm, 260, rfl⟩
abbrev main_v259 : Ref sig .tc := ⟨.hbm, 261, rfl⟩
abbrev main_v260 : Ref sig .tc := ⟨.hbm, 262, rfl⟩
abbrev main_v261 : Ref sig .tc := ⟨.hbm, 263, rfl⟩
abbrev main_v262 : Ref sig .tc := ⟨.hbm, 264, rfl⟩
abbrev main_v263 : Ref sig .tc := ⟨.hbm, 265, rfl⟩
abbrev main_v264 : Ref sig .tc := ⟨.hbm, 266, rfl⟩
abbrev main_v265 : Ref sig .tc := ⟨.hbm, 267, rfl⟩
abbrev main_v266 : Ref sig .tc := ⟨.hbm, 268, rfl⟩
abbrev main_v267 : Ref sig .tc := ⟨.hbm, 269, rfl⟩
abbrev main_v268 : Ref sig .tc := ⟨.hbm, 270, rfl⟩
abbrev main_v269 : Ref sig .tc := ⟨.hbm, 271, rfl⟩
abbrev main_v270 : Ref sig .tc := ⟨.hbm, 272, rfl⟩
abbrev main_v271 : Ref sig .tc := ⟨.hbm, 273, rfl⟩
abbrev main_v272 : Ref sig .tc := ⟨.hbm, 274, rfl⟩
abbrev main_v273 : Ref sig .tc := ⟨.hbm, 275, rfl⟩
abbrev main_v274 : Ref sig .tc := ⟨.hbm, 276, rfl⟩
abbrev main_v275 : Ref sig .tc := ⟨.hbm, 277, rfl⟩
abbrev main_v276 : Ref sig .tc := ⟨.hbm, 278, rfl⟩
abbrev main_v277 : Ref sig .tc := ⟨.hbm, 279, rfl⟩
abbrev main_v278 : Ref sig .tc := ⟨.hbm, 280, rfl⟩
abbrev main_v279 : Ref sig .tc := ⟨.hbm, 281, rfl⟩
abbrev main_v280 : Ref sig .tc := ⟨.hbm, 282, rfl⟩
abbrev main_v281 : Ref sig .tc := ⟨.hbm, 283, rfl⟩
abbrev main_v282 : Ref sig .tc := ⟨.hbm, 284, rfl⟩
abbrev main_v283 : Ref sig .tc := ⟨.hbm, 285, rfl⟩
abbrev main_v284 : Ref sig .tc := ⟨.hbm, 286, rfl⟩
abbrev main_v285 : Ref sig .tc := ⟨.hbm, 287, rfl⟩
abbrev main_v286 : Ref sig .tc := ⟨.hbm, 288, rfl⟩
abbrev main_v287 : Ref sig .tc := ⟨.hbm, 289, rfl⟩
abbrev main_v288 : Ref sig .tc := ⟨.hbm, 290, rfl⟩
abbrev main_v289 : Ref sig .tc := ⟨.hbm, 291, rfl⟩
abbrev main_v290 : Ref sig .tc := ⟨.hbm, 292, rfl⟩
abbrev main_v291 : Ref sig .tc := ⟨.hbm, 293, rfl⟩
abbrev main_v292 : Ref sig .tc := ⟨.hbm, 294, rfl⟩
abbrev main_v293 : Ref sig .tc := ⟨.hbm, 295, rfl⟩
abbrev main_v294 : Ref sig .tc := ⟨.hbm, 296, rfl⟩
abbrev main_v295 : Ref sig .tc := ⟨.hbm, 297, rfl⟩
abbrev main_v296 : Ref sig .tc := ⟨.hbm, 298, rfl⟩
abbrev main_v297 : Ref sig .tc := ⟨.hbm, 299, rfl⟩
abbrev main_v298 : Ref sig .tc := ⟨.hbm, 300, rfl⟩
abbrev main_v299 : Ref sig .tc := ⟨.hbm, 301, rfl⟩
abbrev main_v300 : Ref sig .tc := ⟨.hbm, 302, rfl⟩
abbrev main_v301 : Ref sig .tc := ⟨.hbm, 303, rfl⟩
abbrev main_v302 : Ref sig .tc := ⟨.hbm, 304, rfl⟩
abbrev main_v303 : Ref sig .tc := ⟨.hbm, 305, rfl⟩
abbrev main_v304 : Ref sig .tc := ⟨.hbm, 306, rfl⟩
abbrev main_v305 : Ref sig .tc := ⟨.hbm, 307, rfl⟩
abbrev main_v306 : Ref sig .tc := ⟨.hbm, 308, rfl⟩
abbrev main_v307 : Ref sig .tc := ⟨.hbm, 309, rfl⟩
abbrev main_v308 : Ref sig .tc := ⟨.hbm, 310, rfl⟩
abbrev main_v309 : Ref sig .tc := ⟨.hbm, 311, rfl⟩
abbrev main_v310 : Ref sig .tc := ⟨.hbm, 312, rfl⟩
abbrev main_v311 : Ref sig .tc := ⟨.hbm, 313, rfl⟩
abbrev main_v312 : Ref sig .tc := ⟨.hbm, 314, rfl⟩
abbrev main_v313 : Ref sig .tc := ⟨.hbm, 315, rfl⟩
abbrev main_v314 : Ref sig .tc := ⟨.hbm, 316, rfl⟩
abbrev main_v315 : Ref sig .tc := ⟨.hbm, 317, rfl⟩
abbrev main_v316 : Ref sig .tc := ⟨.hbm, 318, rfl⟩
abbrev main_v317 : Ref sig .tc := ⟨.hbm, 319, rfl⟩
abbrev main_v318 : Ref sig .tc := ⟨.hbm, 320, rfl⟩
abbrev main_v319 : Ref sig .tc := ⟨.hbm, 321, rfl⟩
abbrev main_v320 : Ref sig .tc := ⟨.hbm, 322, rfl⟩
abbrev main_v321 : Ref sig .tc := ⟨.hbm, 323, rfl⟩
abbrev main_v322 : Ref sig .tc := ⟨.hbm, 324, rfl⟩
abbrev main_v323 : Ref sig .tc := ⟨.hbm, 325, rfl⟩
abbrev main_v324 : Ref sig .tc := ⟨.hbm, 326, rfl⟩
abbrev main_v325 : Ref sig .tc := ⟨.hbm, 327, rfl⟩
abbrev main_v326 : Ref sig .tc := ⟨.hbm, 328, rfl⟩
abbrev main_v327 : Ref sig .tc := ⟨.hbm, 329, rfl⟩
abbrev main_v328 : Ref sig .tc := ⟨.hbm, 330, rfl⟩
abbrev main_v329 : Ref sig .tc := ⟨.hbm, 331, rfl⟩
abbrev main_v330 : Ref sig .tc := ⟨.hbm, 332, rfl⟩
abbrev main_v331 : Ref sig .tc := ⟨.hbm, 333, rfl⟩
abbrev main_v332 : Ref sig .tc := ⟨.hbm, 334, rfl⟩
abbrev main_v333 : Ref sig .tc := ⟨.hbm, 335, rfl⟩
abbrev main_v334 : Ref sig .tc := ⟨.hbm, 336, rfl⟩
abbrev main_v335 : Ref sig .tc := ⟨.hbm, 337, rfl⟩
abbrev main_v336 : Ref sig .tc := ⟨.hbm, 338, rfl⟩
abbrev main_v337 : Ref sig .tc := ⟨.hbm, 339, rfl⟩
abbrev main_v338 : Ref sig .tc := ⟨.hbm, 340, rfl⟩
abbrev main_v339 : Ref sig .tc := ⟨.hbm, 341, rfl⟩
abbrev main_v340 : Ref sig .tc := ⟨.hbm, 342, rfl⟩
abbrev main_v341 : Ref sig .tc := ⟨.hbm, 343, rfl⟩
abbrev main_v342 : Ref sig .tc := ⟨.hbm, 344, rfl⟩
abbrev main_v343 : Ref sig .tc := ⟨.hbm, 345, rfl⟩
abbrev main_v344 : Ref sig .tc := ⟨.hbm, 346, rfl⟩
abbrev main_v345 : Ref sig .tc := ⟨.hbm, 347, rfl⟩
abbrev main_v346 : Ref sig .tc := ⟨.hbm, 348, rfl⟩
abbrev main_v347 : Ref sig .tc := ⟨.hbm, 349, rfl⟩
abbrev main_v348 : Ref sig .tc := ⟨.hbm, 350, rfl⟩
abbrev main_v349 : Ref sig .tc := ⟨.hbm, 351, rfl⟩
abbrev main_v350 : Ref sig .tc := ⟨.hbm, 352, rfl⟩
abbrev main_v351 : Ref sig .tc := ⟨.hbm, 353, rfl⟩
abbrev main_v352 : Ref sig .tc := ⟨.hbm, 354, rfl⟩
abbrev main_v353 : Ref sig .tc := ⟨.hbm, 355, rfl⟩
abbrev main_v354 : Ref sig .tc := ⟨.hbm, 356, rfl⟩
abbrev main_v355 : Ref sig .tc := ⟨.hbm, 357, rfl⟩
abbrev main_v356 : Ref sig .tc := ⟨.hbm, 358, rfl⟩
abbrev main_v357 : Ref sig .tc := ⟨.hbm, 359, rfl⟩
abbrev main_v358 : Ref sig .tc := ⟨.hbm, 360, rfl⟩
abbrev main_v359 : Ref sig .tc := ⟨.hbm, 361, rfl⟩
abbrev main_v360 : Ref sig .tc := ⟨.hbm, 362, rfl⟩
abbrev main_v361 : Ref sig .tc := ⟨.hbm, 363, rfl⟩
abbrev main_v362 : Ref sig .tc := ⟨.hbm, 364, rfl⟩
abbrev main_v363 : Ref sig .tc := ⟨.hbm, 365, rfl⟩
abbrev main_v364 : Ref sig .tc := ⟨.hbm, 366, rfl⟩
abbrev main_v365 : Ref sig .tc := ⟨.hbm, 367, rfl⟩
abbrev main_v366 : Ref sig .tc := ⟨.hbm, 368, rfl⟩
abbrev main_v367 : Ref sig .tc := ⟨.hbm, 369, rfl⟩
abbrev main_v368 : Ref sig .tc := ⟨.hbm, 370, rfl⟩
abbrev main_v369 : Ref sig .tc := ⟨.hbm, 371, rfl⟩
abbrev main_v370 : Ref sig .tc := ⟨.hbm, 372, rfl⟩
abbrev main_v371 : Ref sig .tc := ⟨.hbm, 373, rfl⟩
abbrev main_v372 : Ref sig .tc := ⟨.hbm, 374, rfl⟩
abbrev main_v373 : Ref sig .tc := ⟨.hbm, 375, rfl⟩
abbrev main_v374 : Ref sig .tc := ⟨.hbm, 376, rfl⟩
abbrev main_v375 : Ref sig .tc := ⟨.hbm, 377, rfl⟩
abbrev main_v376 : Ref sig .tc := ⟨.hbm, 378, rfl⟩
abbrev main_v377 : Ref sig .tc := ⟨.hbm, 379, rfl⟩
abbrev main_v378 : Ref sig .tc := ⟨.hbm, 380, rfl⟩
abbrev main_v379 : Ref sig .tc := ⟨.hbm, 381, rfl⟩
abbrev main_v380 : Ref sig .tc := ⟨.hbm, 382, rfl⟩
abbrev main_v381 : Ref sig .tc := ⟨.hbm, 383, rfl⟩
abbrev main_v382 : Ref sig .tc := ⟨.hbm, 384, rfl⟩
abbrev main_v383 : Ref sig .tc := ⟨.hbm, 385, rfl⟩
abbrev main_v384 : Ref sig .tc := ⟨.hbm, 386, rfl⟩
abbrev main_v385 : Ref sig .tc := ⟨.hbm, 387, rfl⟩
abbrev main_v386 : Ref sig .tc := ⟨.hbm, 388, rfl⟩
abbrev main_v387 : Ref sig .tc := ⟨.hbm, 389, rfl⟩
abbrev main_v388 : Ref sig .tc := ⟨.hbm, 390, rfl⟩
abbrev main_v389 : Ref sig .tc := ⟨.hbm, 391, rfl⟩
abbrev main_v390 : Ref sig .tc := ⟨.hbm, 392, rfl⟩
abbrev main_v391 : Ref sig .tc := ⟨.hbm, 393, rfl⟩
abbrev main_v392 : Ref sig .tc := ⟨.hbm, 394, rfl⟩
abbrev main_v393 : Ref sig .tc := ⟨.hbm, 395, rfl⟩
abbrev main_v394 : Ref sig .tc := ⟨.hbm, 396, rfl⟩
abbrev main_v395 : Ref sig .tc := ⟨.hbm, 397, rfl⟩
abbrev main_v396 : Ref sig .tc := ⟨.hbm, 398, rfl⟩
abbrev main_v397 : Ref sig .tc := ⟨.hbm, 399, rfl⟩
abbrev main_v398 : Ref sig .tc := ⟨.hbm, 400, rfl⟩
abbrev main_v399 : Ref sig .tc := ⟨.hbm, 401, rfl⟩
abbrev main_v400 : Ref sig .tc := ⟨.hbm, 402, rfl⟩
abbrev main_v401 : Ref sig .tc := ⟨.hbm, 403, rfl⟩
abbrev main_v402 : Ref sig .tc := ⟨.hbm, 404, rfl⟩
abbrev main_v403 : Ref sig .tc := ⟨.hbm, 405, rfl⟩
abbrev main_v404 : Ref sig .tc := ⟨.hbm, 406, rfl⟩
abbrev main_v405 : Ref sig .tc := ⟨.hbm, 407, rfl⟩
abbrev main_v406 : Ref sig .tc := ⟨.hbm, 408, rfl⟩
abbrev main_v407 : Ref sig .tc := ⟨.hbm, 409, rfl⟩
abbrev main_v408 : Ref sig .tc := ⟨.hbm, 410, rfl⟩
abbrev main_v409 : Ref sig .tc := ⟨.hbm, 411, rfl⟩
abbrev main_v410 : Ref sig .tc := ⟨.hbm, 412, rfl⟩
abbrev main_v411 : Ref sig .tc := ⟨.hbm, 413, rfl⟩
abbrev main_v412 : Ref sig .tc := ⟨.hbm, 414, rfl⟩
abbrev main_v413 : Ref sig .tc := ⟨.hbm, 415, rfl⟩
abbrev main_v414 : Ref sig .tc := ⟨.hbm, 416, rfl⟩
abbrev main_v415 : Ref sig .tc := ⟨.hbm, 417, rfl⟩
abbrev main_v416 : Ref sig .tc := ⟨.hbm, 418, rfl⟩
abbrev main_v417 : Ref sig .tc := ⟨.hbm, 419, rfl⟩
abbrev main_v418 : Ref sig .tc := ⟨.hbm, 420, rfl⟩
abbrev main_v419 : Ref sig .tc := ⟨.hbm, 421, rfl⟩
abbrev main_v420 : Ref sig .tc := ⟨.hbm, 422, rfl⟩
abbrev main_v421 : Ref sig .tc := ⟨.hbm, 423, rfl⟩
abbrev main_v422 : Ref sig .tc := ⟨.hbm, 424, rfl⟩
abbrev main_v423 : Ref sig .tc := ⟨.hbm, 425, rfl⟩
abbrev main_v424 : Ref sig .tc := ⟨.hbm, 426, rfl⟩
abbrev main_v425 : Ref sig .tc := ⟨.hbm, 427, rfl⟩
abbrev main_v426 : Ref sig .tc := ⟨.hbm, 428, rfl⟩
abbrev main_v427 : Ref sig .tc := ⟨.hbm, 429, rfl⟩
abbrev main_v428 : Ref sig .tc := ⟨.hbm, 430, rfl⟩
abbrev main_v429 : Ref sig .tc := ⟨.hbm, 431, rfl⟩
abbrev main_v430 : Ref sig .tc := ⟨.hbm, 432, rfl⟩
abbrev main_v431 : Ref sig .tc := ⟨.hbm, 433, rfl⟩
abbrev main_v432 : Ref sig .tc := ⟨.hbm, 434, rfl⟩
abbrev main_v433 : Ref sig .tc := ⟨.hbm, 435, rfl⟩
abbrev main_v434 : Ref sig .tc := ⟨.hbm, 436, rfl⟩
abbrev main_v435 : Ref sig .tc := ⟨.hbm, 437, rfl⟩
abbrev main_v436 : Ref sig .tc := ⟨.hbm, 438, rfl⟩
abbrev main_v437 : Ref sig .tc := ⟨.hbm, 439, rfl⟩
abbrev main_v438 : Ref sig .tc := ⟨.hbm, 440, rfl⟩
abbrev main_v439 : Ref sig .tc := ⟨.hbm, 441, rfl⟩
abbrev main_v440 : Ref sig .tc := ⟨.hbm, 442, rfl⟩
abbrev main_v441 : Ref sig .tc := ⟨.hbm, 443, rfl⟩
abbrev main_v442 : Ref sig .tc := ⟨.hbm, 444, rfl⟩
abbrev main_v443 : Ref sig .tc := ⟨.hbm, 445, rfl⟩
abbrev main_v444 : Ref sig .tc := ⟨.hbm, 446, rfl⟩
abbrev main_v445 : Ref sig .tc := ⟨.hbm, 447, rfl⟩
abbrev main_v446 : Ref sig .tc := ⟨.hbm, 448, rfl⟩
abbrev main_v447 : Ref sig .tc := ⟨.hbm, 449, rfl⟩
abbrev main_v448 : Ref sig .tc := ⟨.hbm, 450, rfl⟩
abbrev main_v449 : Ref sig .tc := ⟨.hbm, 451, rfl⟩
abbrev main_v450 : Ref sig .tc := ⟨.hbm, 452, rfl⟩
abbrev main_v451 : Ref sig .tc := ⟨.hbm, 453, rfl⟩
abbrev main_v452 : Ref sig .tc := ⟨.hbm, 454, rfl⟩
abbrev main_v453 : Ref sig .tc := ⟨.hbm, 455, rfl⟩
abbrev main_v454 : Ref sig .tc := ⟨.hbm, 456, rfl⟩
abbrev main_v455 : Ref sig .tc := ⟨.hbm, 457, rfl⟩
abbrev main_v456 : Ref sig .tc := ⟨.hbm, 458, rfl⟩
abbrev main_v457 : Ref sig .tc := ⟨.hbm, 459, rfl⟩
abbrev main_v458 : Ref sig .tc := ⟨.hbm, 460, rfl⟩
abbrev main_v459 : Ref sig .tc := ⟨.hbm, 461, rfl⟩
abbrev main_v460 : Ref sig .tc := ⟨.hbm, 462, rfl⟩
abbrev main_v461 : Ref sig .tc := ⟨.hbm, 463, rfl⟩
abbrev main_v462 : Ref sig .tc := ⟨.hbm, 464, rfl⟩
abbrev main_v463 : Ref sig .tc := ⟨.hbm, 465, rfl⟩
abbrev main_v464 : Ref sig .tc := ⟨.hbm, 466, rfl⟩
abbrev main_v465 : Ref sig .tc := ⟨.hbm, 467, rfl⟩
abbrev main_v466 : Ref sig .tc := ⟨.hbm, 468, rfl⟩
abbrev main_v467 : Ref sig .tc := ⟨.hbm, 469, rfl⟩
abbrev main_v468 : Ref sig .tc := ⟨.hbm, 470, rfl⟩
abbrev main_v469 : Ref sig .tc := ⟨.hbm, 471, rfl⟩
abbrev main_v470 : Ref sig .tc := ⟨.hbm, 472, rfl⟩
abbrev main_v471 : Ref sig .tc := ⟨.hbm, 473, rfl⟩
abbrev main_v472 : Ref sig .tc := ⟨.hbm, 474, rfl⟩
abbrev main_v473 : Ref sig .tc := ⟨.hbm, 475, rfl⟩
abbrev main_v474 : Ref sig .tc := ⟨.hbm, 476, rfl⟩
abbrev main_v475 : Ref sig .tc := ⟨.hbm, 477, rfl⟩
abbrev main_v476 : Ref sig .tc := ⟨.hbm, 478, rfl⟩
abbrev main_v477 : Ref sig .tc := ⟨.hbm, 479, rfl⟩
abbrev main_v478 : Ref sig .tc := ⟨.hbm, 480, rfl⟩
abbrev main_v479 : Ref sig .tc := ⟨.hbm, 481, rfl⟩
abbrev main_v480 : Ref sig .tc := ⟨.hbm, 482, rfl⟩
abbrev main_v481 : Ref sig .tc := ⟨.hbm, 483, rfl⟩
abbrev main_v482 : Ref sig .tc := ⟨.hbm, 484, rfl⟩
abbrev main_v483 : Ref sig .tc := ⟨.hbm, 485, rfl⟩
abbrev main_v484 : Ref sig .tc := ⟨.hbm, 486, rfl⟩
abbrev main_v485 : Ref sig .tc := ⟨.hbm, 487, rfl⟩
abbrev main_v486 : Ref sig .tc := ⟨.hbm, 488, rfl⟩
abbrev main_v487 : Ref sig .tc := ⟨.hbm, 489, rfl⟩
abbrev main_v488 : Ref sig .tc := ⟨.hbm, 490, rfl⟩
abbrev main_v489 : Ref sig .tc := ⟨.hbm, 491, rfl⟩
abbrev main_v490 : Ref sig .tc := ⟨.hbm, 492, rfl⟩
abbrev main_v491 : Ref sig .tc := ⟨.hbm, 493, rfl⟩
abbrev main_v492 : Ref sig .tc := ⟨.hbm, 494, rfl⟩
abbrev main_v493 : Ref sig .tc := ⟨.hbm, 495, rfl⟩
abbrev main_v494 : Ref sig .tc := ⟨.hbm, 496, rfl⟩
abbrev main_v495 : Ref sig .tc := ⟨.hbm, 497, rfl⟩
abbrev main_v496 : Ref sig .tc := ⟨.hbm, 498, rfl⟩
abbrev main_v497 : Ref sig .tc := ⟨.hbm, 499, rfl⟩
abbrev main_v498 : Ref sig .tc := ⟨.hbm, 500, rfl⟩
abbrev main_v499 : Ref sig .tc := ⟨.hbm, 501, rfl⟩
abbrev main_v500 : Ref sig .tc := ⟨.hbm, 502, rfl⟩
abbrev main_v501 : Ref sig .tc := ⟨.hbm, 503, rfl⟩
abbrev main_v502 : Ref sig .tc := ⟨.hbm, 504, rfl⟩
abbrev main_v503 : Ref sig .tc := ⟨.hbm, 505, rfl⟩
abbrev main_v504 : Ref sig .tc := ⟨.hbm, 506, rfl⟩
abbrev main_v505 : Ref sig .tc := ⟨.hbm, 507, rfl⟩
abbrev main_v506 : Ref sig .tc := ⟨.hbm, 508, rfl⟩
abbrev main_v507 : Ref sig .tc := ⟨.hbm, 509, rfl⟩
abbrev main_v508 : Ref sig .tc := ⟨.hbm, 510, rfl⟩
abbrev main_v509 : Ref sig .tc := ⟨.hbm, 511, rfl⟩
abbrev main_v510 : Ref sig .tc := ⟨.hbm, 512, rfl⟩
abbrev main_v511 : Ref sig .tc := ⟨.hbm, 513, rfl⟩
abbrev main_v512 : Ref sig .tc := ⟨.hbm, 514, rfl⟩
abbrev main_v513 : Ref sig .tc := ⟨.hbm, 515, rfl⟩
abbrev main_v514 : Ref sig .tc := ⟨.hbm, 516, rfl⟩
abbrev main_v515 : Ref sig .tc := ⟨.hbm, 517, rfl⟩
abbrev main_v516 : Ref sig .tc := ⟨.hbm, 518, rfl⟩
abbrev main_v517 : Ref sig .tc := ⟨.hbm, 519, rfl⟩
abbrev main_v518 : Ref sig .tc := ⟨.hbm, 520, rfl⟩
abbrev main_v519 : Ref sig .tc := ⟨.hbm, 521, rfl⟩

abbrev nD : Nat := 1
abbrev τ : Topo := Topo.v7x

variable {F : FTy → Type} [FloatOps F]

class Facts₀ : Prop where
  slices_S20x512_S1x512_0_0 : S20x512.Slices ![0, 0] S1x512
  shapeCasts_S1x512_S512 : S1x512.ShapeCasts S512
  shapeCasts_S1024x8192_S512x2x1x8192 : S1024x8192.ShapeCasts S512x2x1x8192
  slices_S512x2x1x8192_S512x1x1x8192_0_0_0_0 : S512x2x1x8192.Slices ![0, 0, 0, 0] S512x1x1x8192
  shapeCasts_S512x1x1x8192_S512x1x8192 : S512x1x1x8192.ShapeCasts S512x1x8192
  slices_S512x2x1x8192_S512x1x1x8192_0_1_0_0 : S512x2x1x8192.Slices ![0, 1, 0, 0] S512x1x1x8192
  shapeCasts_S512_S512x1x1 : S512.ShapeCasts S512x1x1
  bcast_S512x1x1_S512x1x8192_0_1_2 : S512x1x1.BroadcastsInDim S512x1x8192 (![0, 1, 2] : Fin 3 → Fin S512x1x8192.rank)
  bcast_S512x1x8192_S512x1x1x8192_0_2_3 : S512x1x8192.BroadcastsInDim S512x1x1x8192 (![0, 2, 3] : Fin 3 → Fin S512x1x1x8192.rank)
  concatenates_S512x1x1x8192_S512x1x1x8192_S512x2x1x8192_d1 : Shape.Concatenates [S512x1x1x8192, S512x1x1x8192] S512x2x1x8192 1
  shapeCasts_S512x2x1x8192_S1024x8192 : S512x2x1x8192.ShapeCasts S1024x8192
  slices_S20x512_S1x512_1_0 : S20x512.Slices ![1, 0] S1x512
  shapeCasts_S1024x8192_S256x2x2x8192 : S1024x8192.ShapeCasts S256x2x2x8192
  slices_S256x2x2x8192_S256x1x2x8192_0_0_0_0 : S256x2x2x8192.Slices ![0, 0, 0, 0] S256x1x2x8192
  shapeCasts_S256x1x2x8192_S256x2x8192 : S256x1x2x8192.ShapeCasts S256x2x8192
  slices_S256x2x2x8192_S256x1x2x8192_0_1_0_0 : S256x2x2x8192.Slices ![0, 1, 0, 0] S256x1x2x8192
  shapeCasts_S512_S256x2x1 : S512.ShapeCasts S256x2x1
  bcast_S256x2x1_S256x2x8192_0_1_2 : S256x2x1.BroadcastsInDim S256x2x8192 (![0, 1, 2] : Fin 3 → Fin S256x2x8192.rank)
  bcast_S256x2x8192_S256x1x2x8192_0_2_3 : S256x2x8192.BroadcastsInDim S256x1x2x8192 (![0, 2, 3] : Fin 3 → Fin S256x1x2x8192.rank)
  concatenates_S256x1x2x8192_S256x1x2x8192_S256x2x2x8192_d1 : Shape.Concatenates [S256x1x2x8192, S256x1x2x8192] S256x2x2x8192 1
  shapeCasts_S256x2x2x8192_S1024x8192 : S256x2x2x8192.ShapeCasts S1024x8192
  slices_S20x512_S1x512_2_0 : S20x512.Slices ![2, 0] S1x512
  shapeCasts_S1024x8192_S128x2x4x8192 : S1024x8192.ShapeCasts S128x2x4x8192
  slices_S128x2x4x8192_S128x1x4x8192_0_0_0_0 : S128x2x4x8192.Slices ![0, 0, 0, 0] S128x1x4x8192
  shapeCasts_S128x1x4x8192_S128x4x8192 : S128x1x4x8192.ShapeCasts S128x4x8192
  slices_S128x2x4x8192_S128x1x4x8192_0_1_0_0 : S128x2x4x8192.Slices ![0, 1, 0, 0] S128x1x4x8192
  shapeCasts_S512_S128x4x1 : S512.ShapeCasts S128x4x1
  bcast_S128x4x1_S128x4x8192_0_1_2 : S128x4x1.BroadcastsInDim S128x4x8192 (![0, 1, 2] : Fin 3 → Fin S128x4x8192.rank)
  bcast_S128x4x8192_S128x1x4x8192_0_2_3 : S128x4x8192.BroadcastsInDim S128x1x4x8192 (![0, 2, 3] : Fin 3 → Fin S128x1x4x8192.rank)
  concatenates_S128x1x4x8192_S128x1x4x8192_S128x2x4x8192_d1 : Shape.Concatenates [S128x1x4x8192, S128x1x4x8192] S128x2x4x8192 1
  shapeCasts_S128x2x4x8192_S1024x8192 : S128x2x4x8192.ShapeCasts S1024x8192
  slices_S20x512_S1x512_3_0 : S20x512.Slices ![3, 0] S1x512
  shapeCasts_S1024x8192_S64x2x8x8192 : S1024x8192.ShapeCasts S64x2x8x8192
  slices_S64x2x8x8192_S64x1x8x8192_0_0_0_0 : S64x2x8x8192.Slices ![0, 0, 0, 0] S64x1x8x8192
  shapeCasts_S64x1x8x8192_S64x8x8192 : S64x1x8x8192.ShapeCasts S64x8x8192
  slices_S64x2x8x8192_S64x1x8x8192_0_1_0_0 : S64x2x8x8192.Slices ![0, 1, 0, 0] S64x1x8x8192
  shapeCasts_S512_S64x8x1 : S512.ShapeCasts S64x8x1
  bcast_S64x8x1_S64x8x8192_0_1_2 : S64x8x1.BroadcastsInDim S64x8x8192 (![0, 1, 2] : Fin 3 → Fin S64x8x8192.rank)
  bcast_S64x8x8192_S64x1x8x8192_0_2_3 : S64x8x8192.BroadcastsInDim S64x1x8x8192 (![0, 2, 3] : Fin 3 → Fin S64x1x8x8192.rank)
  concatenates_S64x1x8x8192_S64x1x8x8192_S64x2x8x8192_d1 : Shape.Concatenates [S64x1x8x8192, S64x1x8x8192] S64x2x8x8192 1
  shapeCasts_S64x2x8x8192_S1024x8192 : S64x2x8x8192.ShapeCasts S1024x8192
  slices_S20x512_S1x512_4_0 : S20x512.Slices ![4, 0] S1x512
  shapeCasts_S1024x8192_S32x2x16x8192 : S1024x8192.ShapeCasts S32x2x16x8192
  slices_S32x2x16x8192_S32x1x16x8192_0_0_0_0 : S32x2x16x8192.Slices ![0, 0, 0, 0] S32x1x16x8192
  shapeCasts_S32x1x16x8192_S32x16x8192 : S32x1x16x8192.ShapeCasts S32x16x8192
  slices_S32x2x16x8192_S32x1x16x8192_0_1_0_0 : S32x2x16x8192.Slices ![0, 1, 0, 0] S32x1x16x8192
  shapeCasts_S512_S32x16x1 : S512.ShapeCasts S32x16x1
  bcast_S32x16x1_S32x16x8192_0_1_2 : S32x16x1.BroadcastsInDim S32x16x8192 (![0, 1, 2] : Fin 3 → Fin S32x16x8192.rank)
  bcast_S32x16x8192_S32x1x16x8192_0_2_3 : S32x16x8192.BroadcastsInDim S32x1x16x8192 (![0, 2, 3] : Fin 3 → Fin S32x1x16x8192.rank)
  concatenates_S32x1x16x8192_S32x1x16x8192_S32x2x16x8192_d1 : Shape.Concatenates [S32x1x16x8192, S32x1x16x8192] S32x2x16x8192 1
  shapeCasts_S32x2x16x8192_S1024x8192 : S32x2x16x8192.ShapeCasts S1024x8192
  slices_S20x512_S1x512_5_0 : S20x512.Slices ![5, 0] S1x512
  shapeCasts_S1024x8192_S16x2x32x8192 : S1024x8192.ShapeCasts S16x2x32x8192
  slices_S16x2x32x8192_S16x1x32x8192_0_0_0_0 : S16x2x32x8192.Slices ![0, 0, 0, 0] S16x1x32x8192
  shapeCasts_S16x1x32x8192_S16x32x8192 : S16x1x32x8192.ShapeCasts S16x32x8192
  slices_S16x2x32x8192_S16x1x32x8192_0_1_0_0 : S16x2x32x8192.Slices ![0, 1, 0, 0] S16x1x32x8192
  shapeCasts_S512_S16x32x1 : S512.ShapeCasts S16x32x1
  bcast_S16x32x1_S16x32x8192_0_1_2 : S16x32x1.BroadcastsInDim S16x32x8192 (![0, 1, 2] : Fin 3 → Fin S16x32x8192.rank)
  bcast_S16x32x8192_S16x1x32x8192_0_2_3 : S16x32x8192.BroadcastsInDim S16x1x32x8192 (![0, 2, 3] : Fin 3 → Fin S16x1x32x8192.rank)
  concatenates_S16x1x32x8192_S16x1x32x8192_S16x2x32x8192_d1 : Shape.Concatenates [S16x1x32x8192, S16x1x32x8192] S16x2x32x8192 1
  shapeCasts_S16x2x32x8192_S1024x8192 : S16x2x32x8192.ShapeCasts S1024x8192
  slices_S20x512_S1x512_6_0 : S20x512.Slices ![6, 0] S1x512
  shapeCasts_S1024x8192_S8x2x64x8192 : S1024x8192.ShapeCasts S8x2x64x8192
  slices_S8x2x64x8192_S8x1x64x8192_0_0_0_0 : S8x2x64x8192.Slices ![0, 0, 0, 0] S8x1x64x8192
  shapeCasts_S8x1x64x8192_S8x64x8192 : S8x1x64x8192.ShapeCasts S8x64x8192
  slices_S8x2x64x8192_S8x1x64x8192_0_1_0_0 : S8x2x64x8192.Slices ![0, 1, 0, 0] S8x1x64x8192
  shapeCasts_S512_S8x64x1 : S512.ShapeCasts S8x64x1
  bcast_S8x64x1_S8x64x8192_0_1_2 : S8x64x1.BroadcastsInDim S8x64x8192 (![0, 1, 2] : Fin 3 → Fin S8x64x8192.rank)
  bcast_S8x64x8192_S8x1x64x8192_0_2_3 : S8x64x8192.BroadcastsInDim S8x1x64x8192 (![0, 2, 3] : Fin 3 → Fin S8x1x64x8192.rank)
  concatenates_S8x1x64x8192_S8x1x64x8192_S8x2x64x8192_d1 : Shape.Concatenates [S8x1x64x8192, S8x1x64x8192] S8x2x64x8192 1
  shapeCasts_S8x2x64x8192_S1024x8192 : S8x2x64x8192.ShapeCasts S1024x8192
  slices_S20x512_S1x512_7_0 : S20x512.Slices ![7, 0] S1x512
  shapeCasts_S1024x8192_S4x2x128x8192 : S1024x8192.ShapeCasts S4x2x128x8192
  slices_S4x2x128x8192_S4x1x128x8192_0_0_0_0 : S4x2x128x8192.Slices ![0, 0, 0, 0] S4x1x128x8192
  shapeCasts_S4x1x128x8192_S4x128x8192 : S4x1x128x8192.ShapeCasts S4x128x8192
  slices_S4x2x128x8192_S4x1x128x8192_0_1_0_0 : S4x2x128x8192.Slices ![0, 1, 0, 0] S4x1x128x8192
  shapeCasts_S512_S4x128x1 : S512.ShapeCasts S4x128x1
  bcast_S4x128x1_S4x128x8192_0_1_2 : S4x128x1.BroadcastsInDim S4x128x8192 (![0, 1, 2] : Fin 3 → Fin S4x128x8192.rank)
  bcast_S4x128x8192_S4x1x128x8192_0_2_3 : S4x128x8192.BroadcastsInDim S4x1x128x8192 (![0, 2, 3] : Fin 3 → Fin S4x1x128x8192.rank)
  concatenates_S4x1x128x8192_S4x1x128x8192_S4x2x128x8192_d1 : Shape.Concatenates [S4x1x128x8192, S4x1x128x8192] S4x2x128x8192 1
  shapeCasts_S4x2x128x8192_S1024x8192 : S4x2x128x8192.ShapeCasts S1024x8192
  slices_S20x512_S1x512_8_0 : S20x512.Slices ![8, 0] S1x512
  shapeCasts_S1024x8192_S2x2x256x8192 : S1024x8192.ShapeCasts S2x2x256x8192
  slices_S2x2x256x8192_S2x1x256x8192_0_0_0_0 : S2x2x256x8192.Slices ![0, 0, 0, 0] S2x1x256x8192
  shapeCasts_S2x1x256x8192_S2x256x8192 : S2x1x256x8192.ShapeCasts S2x256x8192
  slices_S2x2x256x8192_S2x1x256x8192_0_1_0_0 : S2x2x256x8192.Slices ![0, 1, 0, 0] S2x1x256x8192
  shapeCasts_S512_S2x256x1 : S512.ShapeCasts S2x256x1
  bcast_S2x256x1_S2x256x8192_0_1_2 : S2x256x1.BroadcastsInDim S2x256x8192 (![0, 1, 2] : Fin 3 → Fin S2x256x8192.rank)
  bcast_S2x256x8192_S2x1x256x8192_0_2_3 : S2x256x8192.BroadcastsInDim S2x1x256x8192 (![0, 2, 3] : Fin 3 → Fin S2x1x256x8192.rank)
  concatenates_S2x1x256x8192_S2x1x256x8192_S2x2x256x8192_d1 : Shape.Concatenates [S2x1x256x8192, S2x1x256x8192] S2x2x256x8192 1
  shapeCasts_S2x2x256x8192_S1024x8192 : S2x2x256x8192.ShapeCasts S1024x8192
  slices_S20x512_S1x512_9_0 : S20x512.Slices ![9, 0] S1x512
  shapeCasts_S1024x8192_S1x2x512x8192 : S1024x8192.ShapeCasts S1x2x512x8192
  slices_S1x2x512x8192_S1x1x512x8192_0_0_0_0 : S1x2x512x8192.Slices ![0, 0, 0, 0] S1x1x512x8192
  shapeCasts_S1x1x512x8192_S1x512x8192 : S1x1x512x8192.ShapeCasts S1x512x8192
  slices_S1x2x512x8192_S1x1x512x8192_0_1_0_0 : S1x2x512x8192.Slices ![0, 1, 0, 0] S1x1x512x8192
  shapeCasts_S512_S1x512x1 : S512.ShapeCasts S1x512x1
  bcast_S1x512x1_S1x512x8192_0_1_2 : S1x512x1.BroadcastsInDim S1x512x8192 (![0, 1, 2] : Fin 3 → Fin S1x512x8192.rank)
  bcast_S1x512x8192_S1x1x512x8192_0_2_3 : S1x512x8192.BroadcastsInDim S1x1x512x8192 (![0, 2, 3] : Fin 3 → Fin S1x1x512x8192.rank)
  concatenates_S1x1x512x8192_S1x1x512x8192_S1x2x512x8192_d1 : Shape.Concatenates [S1x1x512x8192, S1x1x512x8192] S1x2x512x8192 1
  shapeCasts_S1x2x512x8192_S1024x8192 : S1x2x512x8192.ShapeCasts S1024x8192
  slices_S20x512_S1x512_10_0 : S20x512.Slices ![10, 0] S1x512
  slices_S20x512_S1x512_11_0 : S20x512.Slices ![11, 0] S1x512
  slices_S20x512_S1x512_12_0 : S20x512.Slices ![12, 0] S1x512
  slices_S20x512_S1x512_13_0 : S20x512.Slices ![13, 0] S1x512
  slices_S20x512_S1x512_14_0 : S20x512.Slices ![14, 0] S1x512
  slices_S20x512_S1x512_15_0 : S20x512.Slices ![15, 0] S1x512
  slices_S20x512_S1x512_16_0 : S20x512.Slices ![16, 0] S1x512
  slices_S20x512_S1x512_17_0 : S20x512.Slices ![17, 0] S1x512
  slices_S20x512_S1x512_18_0 : S20x512.Slices ![18, 0] S1x512
  slices_S20x512_S1x512_19_0 : S20x512.Slices ![19, 0] S1x512

variable [Facts₀]

class Facts : Prop extends Facts₀ where

variable [Facts]
-- ==== Proof.Spec.lean ====
/-
  The mathematics both programs compute, one column at a time.

  The array is [1024, B]: 1024 rows (the feature axis) and B columns (the batch axis).  Every one of the twenty layers
  acts on each column by itself.  A layer of stride `s` cuts the 1024 rows into groups of `2·s` consecutive rows; inside
  a group, row `w < s` is paired with row `w + s`, and the pair `(u, v)` is rotated by the angle numbered
  `group · s + w` among the layer's 512 angles:  `u ↦ cos θ · u + sin θ · v`,  `v ↦ (−sin θ) · u + cos θ · v`.
  The whole computation is the twenty layers in order, strides `1, 2, 4, …, 512, 1, 2, …, 512`, layer `i` using row `i`
  of the angle table.  Nothing here needs a finite entry: the two programs perform the same products and sums in
  the same order, so the equality is an identity of terms over the extended reals.
-/
import Idealize.ShloMosaic.PureOps.Ideal
import Idealize.ShloMosaic.Lib.ValueIdx

noncomputable section

namespace Cert.Butterfly

open Idealize.ShloMosaic Idealize.ShloMosaic.ValueIdx

/-- One layer of stride `s` on a column `x` (a function of the row number) with the layer's angles `a` (a function of
    the angle's number), at row `r`: the row's place inside its group of `2·s` rows is `r % (2·s)`; a row in the lower
    half of its group is the first entry of its pair, a row in the upper half the second. -/
def layer (s : ℕ) (a x : ℕ → EReal) (r : ℕ) : EReal :=
  if r % (2 * s) < s then
    Ideal.cos (a (r / (2 * s) * s + r % (2 * s))) * x r + Ideal.sin (a (r / (2 * s) * s + r % (2 * s))) * x (r + s)
  else
    -Ideal.sin (a (r / (2 * s) * s + (r % (2 * s) - s))) * x (r - s) + Ideal.cos (a (r / (2 * s) * s + (r % (2 * s) - s))) * x r

/-- A layer's result as a column again: the rows that exist, zero past the last one. -/
def layerT (s : ℕ) (a x : ℕ → EReal) (r : ℕ) : EReal := if r < 1024 then layer s a x r else 0

/-- Column `c` of a [1024, B] array as a function of the row number (zero past the last row). -/
def col {B : ℕ} (X : (⟨2, ![1024, B]⟩ : Shape).Idx → EReal) (c : Fin B) (r : ℕ) : EReal :=
  if h : r < 1024 then X (ix2 ⟨r, h⟩ c) else 0

/-- A vector of 512 angles as a function of the angle's number (zero past the last one). -/
def vec (v : (⟨1, ![512]⟩ : Shape).Idx → EReal) (j : ℕ) : EReal :=
  if h : j < 512 then v (ix1 ⟨j, h⟩) else 0

/-- Row `i` of the [20, 512] angle table as a function of the angle's number. -/
def angleRow (A : (⟨2, ![20, 512]⟩ : Shape).Idx → EReal) (i : Fin 20) (j : ℕ) : EReal :=
  if h : j < 512 then A (ix2 i ⟨j, h⟩) else 0

/-- The twenty layers in order on one column: layer `i` has stride `2 ^ (i % 10)` and uses row `i` of the angle table. -/
def butterfly (A : (⟨2, ![20, 512]⟩ : Shape).Idx → EReal) (x : ℕ → EReal) : ℕ → EReal :=
  layerT 512 (angleRow A 19) (layerT 256 (angleRow A 18) (layerT 128 (angleRow A 17) (layerT 64 (angleRow A 16)
  (layerT 32 (angleRow A 15) (layerT 16 (angleRow A 14) (layerT 8 (angleRow A 13) (layerT 4 (angleRow A 12)
  (layerT 2 (angleRow A 11) (layerT 1 (angleRow A 10)
  (layerT 512 (angleRow A 9) (layerT 256 (angleRow A 8) (layerT 128 (angleRow A 7) (layerT 64 (angleRow A 6)
  (layerT 32 (angleRow A 5) (layerT 16 (angleRow A 4) (layerT 8 (angleRow A 3) (layerT 4 (angleRow A 2)
  (layerT 2 (angleRow A 1) (layerT 1 (angleRow A 0) x)))))))))))))))))))

/-- The whole [1024, 8192] result as one function of the two arguments: entry `(r, c)` is row `r` of the butterfly of
    column `c` of the first argument, with the second argument's angles. -/
def whole (A0 : (⟨2, ![1024, 8192]⟩ : Shape).Idx → EReal) (A1 : (⟨2, ![20, 512]⟩ : Shape).Idx → EReal) :
    (⟨2, ![1024, 8192]⟩ : Shape).Idx → EReal :=
  fun i => butterfly A1 (col A0 ⟨(i 1).val, idx2_lt1 i⟩) (i 0).val

end Cert.Butterfly

end
-- ==== Proof.AngleRows.lean ====
/-
  Row `i` of the [20, 512] angle table, cut out as a [1, 512] slice and read as a vector of 512: its entry `j` is the
  table's entry `(i, j)`.  Both programs take a layer's angles this way.
-/
import proofs.«149730_j54030688583985_1_alg».proof.Proof.Spec
import Idealize.ShloMosaic.Lib.Pipeline.Value
import Idealize.ShloMosaic.Lib.ValueIdx

noncomputable section

namespace Cert.Butterfly

open Idealize.ShloMosaic Idealize.ShloMosaic.ValueIdx

/-- The vector of a layer's angles, cut from the table at row `i`, numbered as the table's row `i`. -/
theorem vec_row (A : (⟨2, ![20, 512]⟩ : Shape).Idx → EReal) (i : Fin 20)
    (h1 : (⟨2, ![20, 512]⟩ : Shape).Slices ![i.val, 0] ⟨2, ![1, 512]⟩)
    (h2 : (⟨2, ![1, 512]⟩ : Shape).ShapeCasts ⟨1, ![512]⟩) :
    vec (shapeCast ⟨1, ![512]⟩ (extractStridedSlice ⟨2, ![1, 512]⟩ ![i.val, 0] A h1) h2) = angleRow A i := by
  funext j
  unfold vec angleRow
  by_cases hj : j < 512
  · rw [dif_pos hj, dif_pos hj]
    refine (shapeCast_apply _ h2 (ix1 ⟨j, hj⟩) (ix2 (0 : Fin 1) ⟨j, hj⟩) (by
      rw [Shape.rowMajor_val_two, Shape.rowMajor_val_one]
      show 0 * 512 + j = j
      omega)).trans ?_
    exact extractStridedSlice_apply ![i.val, 0] A h1 (ix2 (0 : Fin 1) ⟨j, hj⟩) (ix2 i ⟨j, hj⟩) (fun a => match a with
      | ⟨0, _⟩ => by show i.val = i.val + 0; omega
      | ⟨1, _⟩ => by show j = 0 + j; omega)
  · rw [dif_neg hj, dif_neg hj]

end Cert.Butterfly

end
-- ==== Proof.KLayer1.lean ====
/-
  The kernel's layer of stride 1, as the body writes it, and what it does to a column.

  The [1024, 1024] block is re-read as 512 groups of 2 rows ([512, 2, 1024]); the lower 1 rows of every group and the
  upper 1 rows are the two halves of the pairs; the 512 cosines and sines are re-read as [512, 1, 1] and repeated
  along the columns; the two rotated halves are joined group by group and the result is read as [1024, 1024] again.
  Row `r` of the result therefore sits in group `r / 2` at place `r % 2`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 1 as the kernel's body spells it, from the layer's 512 angles and the block. -/
def K1 {F : FTy → Type} [FloatOps F] (ang : FVec F S512 .f32) (X : FVec F S1024x1024 .f32) : FVec F S1024x1024 .f32 :=
  shapeCast S1024x1024
    (concatenate S512x2x1024 1
      [⟨S512x1x1024, addf
          (mulf (broadcastTo S512x1x1024 (shapeCast S512x1x1 (cos ang) shapeCasts_S512_S512x1x1) broadcasts_S512x1x1_S512x1x1024)
            (extractStridedSlice S512x1x1024 ![0, 0, 0] (shapeCast S512x2x1024 X shapeCasts_S1024x1024_S512x2x1024) slices_S512x2x1024_o0_0_0_S512x1x1024))
          (mulf (broadcastTo S512x1x1024 (shapeCast S512x1x1 (sin ang) shapeCasts_S512_S512x1x1) broadcasts_S512x1x1_S512x1x1024)
            (extractStridedSlice S512x1x1024 ![0, 1, 0] (shapeCast S512x2x1024 X shapeCasts_S1024x1024_S512x2x1024) slices_S512x2x1024_o0_1_0_S512x1x1024))⟩,
       ⟨S512x1x1024, addf
          (mulf (broadcastTo S512x1x1024 (subf (broadcast S512x1x1 (Scalar.ofBits .f32 0x00000000#32)) (shapeCast S512x1x1 (sin ang) shapeCasts_S512_S512x1x1)) broadcasts_S512x1x1_S512x1x1024)
            (extractStridedSlice S512x1x1024 ![0, 0, 0] (shapeCast S512x2x1024 X shapeCasts_S1024x1024_S512x2x1024) slices_S512x2x1024_o0_0_0_S512x1x1024))
          (mulf (broadcastTo S512x1x1024 (shapeCast S512x1x1 (cos ang) shapeCasts_S512_S512x1x1) broadcasts_S512x1x1_S512x1x1024)
            (extractStridedSlice S512x1x1024 ![0, 1, 0] (shapeCast S512x2x1024 X shapeCasts_S1024x1024_S512x2x1024) slices_S512x2x1024_o0_1_0_S512x1x1024))⟩]
      concatenates_S512x1x1024_S512x1x1024_S512x2x1024_d1)
    shapeCasts_S512x2x1024_S1024x1024

/-- A [512, 1, 1] column of coefficients repeated along the 1024 columns, read at group `b`, place `w`: the coefficient
    numbered `b · 1 + w` of the 512. -/
theorem K1_coef (v : S512.Idx → EReal) (b : Fin 512) (w : Fin 1) (c : Fin 1024) (hj : b.val * 1 + w.val < 512) :
    broadcastTo S512x1x1024 (shapeCast S512x1x1 v shapeCasts_S512_S512x1x1) broadcasts_S512x1x1_S512x1x1024 (ix3 b w c) = v (ix1 ⟨b.val * 1 + w.val, hj⟩) := by
  have hb := b.isLt; have hw := w.isLt
  refine (broadcastTo_apply _ broadcasts_S512x1x1_S512x1x1024 (ix3 b w c) (ix3 b w (0 : Fin 1)) (fun a => match a with
    | ⟨0, _⟩ => by show b.val = if (512 : ℕ) = 1 then 0 else b.val; split <;> omega
    | ⟨1, _⟩ => by show w.val = if (1 : ℕ) = 1 then 0 else w.val; split <;> omega
    | ⟨2, _⟩ => by show (0 : ℕ) = if (1 : ℕ) = 1 then 0 else c.val; rfl)).trans ?_
  exact shapeCast_apply v shapeCasts_S512_S512x1x1 (ix3 b w (0 : Fin 1)) (ix1 ⟨b.val * 1 + w.val, hj⟩) (by
    rw [Shape.rowMajor_val_one, Shape.rowMajor_val_three]
    show b.val * 1 + w.val = (b.val * 1 + w.val) * 1 + 0
    omega)

/-- The lower half of group `b` at place `w`, column `c`: row `b · 2 + w` of the block. -/
theorem K1_lower (X : S1024x1024.Idx → EReal) (b : Fin 512) (w : Fin 1) (c : Fin 1024) (hr : b.val * 2 + w.val < 1024) :
    extractStridedSlice S512x1x1024 ![0, 0, 0] (shapeCast S512x2x1024 X shapeCasts_S1024x1024_S512x2x1024) slices_S512x2x1024_o0_0_0_S512x1x1024 (ix3 b w c)
      = X (ix2 ⟨b.val * 2 + w.val, hr⟩ c) := by
  have hb := b.isLt; have hw := w.isLt
  refine (extractStridedSlice_apply ![0, 0, 0] _ slices_S512x2x1024_o0_0_0_S512x1x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S512x2x1024 (ix3 b ⟨w.val, by omega⟩ c) (ix2 ⟨b.val * 2 + w.val, hr⟩ c) (by
    rw [Shape.rowMajor_val_two, Shape.rowMajor_val_three]
    show (b.val * 2 + w.val) * 1024 + c.val = (b.val * 2 + w.val) * 1024 + c.val
    rfl)

/-- The upper half of group `b` at place `w`, column `c`: row `b · 2 + 1 + w` of the block. -/
theorem K1_upper (X : S1024x1024.Idx → EReal) (b : Fin 512) (w : Fin 1) (c : Fin 1024) (hr : b.val * 2 + 1 + w.val < 1024) :
    extractStridedSlice S512x1x1024 ![0, 1, 0] (shapeCast S512x2x1024 X shapeCasts_S1024x1024_S512x2x1024) slices_S512x2x1024_o0_1_0_S512x1x1024 (ix3 b w c)
      = X (ix2 ⟨b.val * 2 + 1 + w.val, hr⟩ c) := by
  have hb := b.isLt; have hw := w.isLt
  refine (extractStridedSlice_apply ![0, 1, 0] _ slices_S512x2x1024_o0_1_0_S512x1x1024 (ix3 b w c) (ix3 b ⟨1 + w.val, by omega⟩ c) (fun a => match a with
    | ⟨0, _⟩ => by show b.val = 0 + b.val; omega
    | ⟨1, _⟩ => by show 1 + w.val = 1 + w.val; rfl
    | ⟨2, _⟩ => by show c.val = 0 + c.val; omega)).trans ?_
  exact shapeCast_apply X shapeCasts_S1024x1024_S512x2x1024 (ix3 b ⟨1 + w.val, by omega⟩ c) (ix2 ⟨b.val * 2 + 1 + w.val, hr⟩ c) (by
    rw [Shape.rowMajor_val_two, Shape.rowMajor_val_three]
    show (b.val * 2 + 1 + w.val) * 1024 + c.val = (b.val * 2 + (1 + w.val)) * 1024 + c.val
    omega)

/-- The kernel's layer of stride 1 at row `r`, column `c` of the block is the layer of stride 1 on column `c` at row `r`. -/
theorem K1_apply (ang : FVec Ideal S512 .f32) (X : FVec Ideal S1024x1024 .f32) (r c : Fin 1024) :
    K1 ang X (ix2 r c) = layer 1 (vec ang) (col X c) r.val := by
  have hr := r.isLt
  have hb : r.val / 2 < 512 := by omega
  have hw : r.val % 2 < 2 := by omega
  unfold K1 layer
  refine (shapeCast_apply _ shapeCasts_S512x2x1024_S1024x1024 (ix2 r c) (ix3 ⟨r.val / 2, hb⟩ ⟨r.val % 2, hw⟩ c) (by
    rw [Shape.rowMajor_val_three, Shape.rowMajor_val_two]
    show (r.val / 2 * 2 + r.val % 2) * 1024 + c.val = r.val * 1024 + c.val
    omega)).trans ?_
  by_cases hlt : r.val % (2 * 1) < 1
  · rw [if_pos hlt]
    have hlt' : r.val % 2 < 1 := by omega
    refine (concatenate_pair_apply_left 1 _ _ concatenates_S512x1x1024_S512x1x1024_S512x2x1024_d1 _ rfl
      (ix3 ⟨r.val / 2, hb⟩ ⟨r.val % 2, hlt'⟩ c) (fun a => match a with
        | ⟨0, _⟩ => rfl
        | ⟨1, _⟩ => rfl
        | ⟨2, _⟩ => rfl)).trans ?_
    rw [addf_apply, mulf_apply, mulf_apply,
      K1_coef (cos ang) ⟨r.val / 2, hb⟩ ⟨r.val % 2, hlt'⟩ c (by show r.val / 2 * 1 + r.val % 2 < 512; omega),
      K1_coef (sin ang) ⟨r.val / 2, hb⟩ ⟨r.val % 2, hlt'⟩ c (by show r.val / 2 * 1 + r.val % 2 < 512; omega),
      K1_lower X ⟨r.val / 2, hb⟩ ⟨r.val % 2, hlt'⟩ c (by show r.val / 2 * 2 + r.val % 2 < 1024; omega),
      K1_upper X ⟨r.val / 2, hb⟩ ⟨r.val % 2, hlt'⟩ c (by show r.val / 2 * 2 + 1 + r.val % 2 < 1024; omega)]
    have h2 : r.val + 1 < 1024 := by omega
    have hv : vec ang (r.val / (2 * 1) * 1 + r.val % (2 * 1)) = ang (ix1 ⟨r.val / 2 * 1 + r.val % 2, by omega⟩) := by
      unfold vec
      rw [dif_pos (by omega : r.val / (2 * 1) * 1 + r.val % (2 * 1) < 512)]
      try exact congrArg ang (congrArg ix1 (Fin.ext (by show r.val / (2 * 1) * 1 + r.val % (2 * 1) = r.val / 2 * 1 + r.val % 2; omega)))
    have hc1 : col X c r.val = X (ix2 ⟨r.val / 2 * 2 + r.val % 2, by omega⟩ c) := by
      unfold col
      rw [dif_pos hr]
      exact congrArg (fun q => X (ix2 q c)) (Fin.ext (by show r.val = r.val / 2 * 2 + r.val % 2; omega))
    have hc2 : col X c (r.val + 1) = X (ix2 ⟨r.val / 2 * 2 + 1 + r.val % 2, by omega⟩ c) := by
      unfold col
      rw [dif_pos h2]
      exact congrArg (fun q => X (ix2 q c)) (Fin.ext (by show r.val + 1 = r.val / 2 * 2 + 1 + r.val % 2; omega))
    rw [hv, hc1, hc2]
    rfl
  · rw [if_neg hlt]
    have hge : 1 ≤ r.val % 2 := by omega
    have hw' : r.val % 2 - 1 < 1 := by omega
    refine (concatenate_pair_apply_right 1 _ _ concatenates_S512x1x1024_S512x1x1024_S512x2x1024_d1 _ rfl rfl
      (ix3 ⟨r.val / 2, hb⟩ ⟨r.val % 2 - 1, hw'⟩ c) (fun a ha => match a with
        | ⟨0, _⟩ => rfl
        | ⟨1, _⟩ => absurd rfl ha
        | ⟨2, _⟩ => rfl) (by show r.val % 2 - 1 + 1 = r.val % 2; omega)).trans ?_
    rw [addf_apply, mulf_apply, mulf_apply,
      K1_coef (cos ang) ⟨r.val / 2, hb⟩ ⟨r.val % 2 - 1, hw'⟩ c (by show r.val / 2 * 1 + (r.val % 2 - 1) < 512; omega),
      K1_lower X ⟨r.val / 2, hb⟩ ⟨r.val % 2 - 1, hw'⟩ c (by show r.val / 2 * 2 + (r.val % 2 - 1) < 1024; omega),
      K1_upper X ⟨r.val / 2, hb⟩ ⟨r.val % 2 - 1, hw'⟩ c (by show r.val / 2 * 2 + 1 + (r.val % 2 - 1) < 1024; omega)]
    have hneg : broadcastTo S512x1x1024 (subf (broadcast S512x1x1 (Scalar.ofBits .f32 0x00000000#32)) (shapeCast S512x1x1 (sin ang) shapeCasts_S512_S512x1x1)) broadcasts_S512x1x1_S512x1x1024
          (ix3 ⟨r.val / 2, hb⟩ ⟨r.val % 2 - 1, hw'⟩ c)
        = -(sin ang (ix1 ⟨r.val / 2 * 1 + (r.val % 2 - 1), by omega⟩)) := by
      refine (broadcastTo_apply _ broadcasts_S512x1x1_S512x1x1024 _ (ix3 ⟨r.val / 2, hb⟩ ⟨r.val % 2 - 1, hw'⟩ (0 : Fin 1)) (fun a => match a with
        | ⟨0, _⟩ => by show r.val / 2 = if (512 : ℕ) = 1 then 0 else r.val / 2; split <;> omega
        | ⟨1, _⟩ => by show r.val % 2 - 1 = if (1 : ℕ) = 1 then 0 else r.val % 2 - 1; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S512x1x1 _ (ix1 ⟨r.val / 2 * 1 + (r.val % 2 - 1), by omega⟩) (by
        rw [Shape.rowMajor_val_one, Shape.rowMajor_val_three]
        show r.val / 2 * 1 + (r.val % 2 - 1) = (r.val / 2 * 1 + (r.val % 2 - 1)) * 1 + 0
        omega))
    rw [hneg]
    have h2 : r.val - 1 < 1024 := by omega
    have hv : vec ang (r.val / (2 * 1) * 1 + (r.val % (2 * 1) - 1)) = ang (ix1 ⟨r.val / 2 * 1 + (r.val % 2 - 1), by omega⟩) := by
      unfold vec
      rw [dif_pos (by omega : r.val / (2 * 1) * 1 + (r.val % (2 * 1) - 1) < 512)]
      try exact congrArg ang (congrArg ix1 (Fin.ext (by show r.val / (2 * 1) * 1 + (r.val % (2 * 1) - 1) = r.val / 2 * 1 + (r.val % 2 - 1); omega)))
    have hc1 : col X c (r.val - 1) = X (ix2 ⟨r.val / 2 * 2 + (r.val % 2 - 1), by omega⟩ c) := by
      unfold col
      rw [dif_pos h2]
      exact congrArg (fun q => X (ix2 q c)) (Fin.ext (by show r.val - 1 = r.val / 2 * 2 + (r.val % 2 - 1); omega))
    have hc2 : col X c r.val = X (ix2 ⟨r.val / 2 * 2 + 1 + (r.val % 2 - 1), by omega⟩ c) := by
      unfold col
      rw [dif_pos hr]
      exact congrArg (fun q => X (ix2 q c)) (Fin.ext (by show r.val = r.val / 2 * 2 + 1 + (r.val % 2 - 1); omega))
    rw [hv, hc1, hc2]
    rfl

/-- Column by column: the kernel's layer of stride 1 sends column `c` of the block to the layer of stride 1 of that column. -/
theorem K1_col (ang : FVec Ideal S512 .f32) (X : FVec Ideal S1024x1024 .f32) (c : Fin 1024) :
    col (K1 ang X) c = layerT 1 (vec ang) (col X c) := by
  funext r
  by_cases hr : r < 1024
  · show (if h : r < 1024 then K1 ang X (ix2 ⟨r, h⟩ c) else 0) = if r < 1024 then layer 1 (vec ang) (col X c) r else 0
    rw [dif_pos hr, if_pos hr]
    exact K1_apply ang X ⟨r, hr⟩ c
  · show (if h : r < 1024 then K1 ang X (ix2 ⟨r, h⟩ c) else 0) = if r < 1024 then layer 1 (vec ang) (col X c) r else 0
    rw [dif_neg hr, if_neg hr]

end Cert.KernelIdeal.Layer

end
-- ==== Proof.KLayer2.lean ====
/-
  The kernel's layer of stride 2, as the body writes it, and what it does to a column.

  The [1024, 1024] block is re-read as 256 groups of 4 rows ([256, 4, 1024]); the lower 2 rows of every group and the
  upper 2 rows are the two halves of the pairs; the 512 cosines and sines are re-read as [256, 2, 1] and repeated
  along the columns; the two rotated halves are joined group by group and the result is read as [1024, 1024] again.
  Row `r` of the result therefore sits in group `r / 4` at place `r % 4`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 2 as the kernel's body spells it, from the layer's 512 angles and the block. -/
def K2 {F : FTy → Type} [FloatOps F] (ang : FVec F S512 .f32) (X : FVec F S1024x1024 .f32) : FVec F S1024x1024 .f32 :=
  shapeCast S1024x1024
    (concatenate S256x4x1024 1
      [⟨S256x2x1024, addf
          (mulf (broadcastTo S256x2x1024 (shapeCast S256x2x1 (cos ang) shapeCasts_S512_S256x2x1) broadcasts_S256x2x1_S256x2x1024)
            (extractStridedSlice S256x2x1024 ![0, 0, 0] (shapeCast S256x4x1024 X shapeCasts_S1024x1024_S256x4x1024) slices_S256x4x1024_o0_0_0_S256x2x1024))
          (mulf (broadcastTo S256x2x1024 (shapeCast S256x2x1 (sin ang) shapeCasts_S512_S256x2x1) broadcasts_S256x2x1_S256x2x1024)
            (extractStridedSlice S256x2x1024 ![0, 2, 0] (shapeCast S256x4x1024 X shapeCasts_S1024x1024_S256x4x1024) slices_S256x4x1024_o0_2_0_S256x2x1024))⟩,
       ⟨S256x2x1024, addf
          (mulf (broadcastTo S256x2x1024 (subf (broadcast S256x2x1 (Scalar.ofBits .f32 0x00000000#32)) (shapeCast S256x2x1 (sin ang) shapeCasts_S512_S256x2x1)) broadcasts_S256x2x1_S256x2x1024)
            (extractStridedSlice S256x2x1024 ![0, 0, 0] (shapeCast S256x4x1024 X shapeCasts_S1024x1024_S256x4x1024) slices_S256x4x1024_o0_0_0_S256x2x1024))
          (mulf (broadcastTo S256x2x1024 (shapeCast S256x2x1 (cos ang) shapeCasts_S512_S256x2x1) broadcasts_S256x2x1_S256x2x1024)
            (extractStridedSlice S256x2x1024 ![0, 2, 0] (shapeCast S256x4x1024 X shapeCasts_S1024x1024_S256x4x1024) slices_S256x4x1024_o0_2_0_S256x2x1024))⟩]
      concatenates_S256x2x1024_S256x2x1024_S256x4x1024_d1)
    shapeCasts_S256x4x1024_S1024x1024

/-- A [256, 2, 1] column of coefficients repeated along the 1024 columns, read at group `b`, place `w`: the coefficient
    numbered `b · 2 + w` of the 512. -/
theorem K2_coef (v : S512.Idx → EReal) (b : Fin 256) (w : Fin 2) (c : Fin 1024) (hj : b.val * 2 + w.val < 512) :
    broadcastTo S256x2x1024 (shapeCast S256x2x1 v shapeCasts_S512_S256x2x1) broadcasts_S256x2x1_S256x2x1024 (ix3 b w c) = v (ix1 ⟨b.val * 2 + w.val, hj⟩) := by
  have hb := b.isLt; have hw := w.isLt
  refine (broadcastTo_apply _ broadcasts_S256x2x1_S256x2x1024 (ix3 b w c) (ix3 b w (0 : Fin 1)) (fun a => match a with
    | ⟨0, _⟩ => by show b.val = if (256 : ℕ) = 1 then 0 else b.val; split <;> omega
    | ⟨1, _⟩ => by show w.val = if (2 : ℕ) = 1 then 0 else w.val; split <;> omega
    | ⟨2, _⟩ => by show (0 : ℕ) = if (1 : ℕ) = 1 then 0 else c.val; rfl)).trans ?_
  exact shapeCast_apply v shapeCasts_S512_S256x2x1 (ix3 b w (0 : Fin 1)) (ix1 ⟨b.val * 2 + w.val, hj⟩) (by
    rw [Shape.rowMajor_val_one, Shape.rowMajor_val_three]
    show b.val * 2 + w.val = (b.val * 2 + w.val) * 1 + 0
    omega)

/-- The lower half of group `b` at place `w`, column `c`: row `b · 4 + w` of the block. -/
theorem K2_lower (X : S1024x1024.Idx → EReal) (b : Fin 256) (w : Fin 2) (c : Fin 1024) (hr : b.val * 4 + w.val < 1024) :
    extractStridedSlice S256x2x1024 ![0, 0, 0] (shapeCast S256x4x1024 X shapeCasts_S1024x1024_S256x4x1024) slices_S256x4x1024_o0_0_0_S256x2x1024 (ix3 b w c)
      = X (ix2 ⟨b.val * 4 + w.val, hr⟩ c) := by
  have hb := b.isLt; have hw := w.isLt
  refine (extractStridedSlice_apply ![0, 0, 0] _ slices_S256x4x1024_o0_0_0_S256x2x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S256x4x1024 (ix3 b ⟨w.val, by omega⟩ c) (ix2 ⟨b.val * 4 + w.val, hr⟩ c) (by
    rw [Shape.rowMajor_val_two, Shape.rowMajor_val_three]
    show (b.val * 4 + w.val) * 1024 + c.val = (b.val * 4 + w.val) * 1024 + c.val
    rfl)

/-- The upper half of group `b` at place `w`, column `c`: row `b · 4 + 2 + w` of the block. -/
theorem K2_upper (X : S1024x1024.Idx → EReal) (b : Fin 256) (w : Fin 2) (c : Fin 1024) (hr : b.val * 4 + 2 + w.val < 1024) :
    extractStridedSlice S256x2x1024 ![0, 2, 0] (shapeCast S256x4x1024 X shapeCasts_S1024x1024_S256x4x1024) slices_S256x4x1024_o0_2_0_S256x2x1024 (ix3 b w c)
      = X (ix2 ⟨b.val * 4 + 2 + w.val, hr⟩ c) := by
  have hb := b.isLt; have hw := w.isLt
  refine (extractStridedSlice_apply ![0, 2, 0] _ slices_S256x4x1024_o0_2_0_S256x2x1024 (ix3 b w c) (ix3 b ⟨2 + w.val, by omega⟩ c) (fun a => match a with
    | ⟨0, _⟩ => by show b.val = 0 + b.val; omega
    | ⟨1, _⟩ => by show 2 + w.val = 2 + w.val; rfl
    | ⟨2, _⟩ => by show c.val = 0 + c.val; omega)).trans ?_
  exact shapeCast_apply X shapeCasts_S1024x1024_S256x4x1024 (ix3 b ⟨2 + w.val, by omega⟩ c) (ix2 ⟨b.val * 4 + 2 + w.val, hr⟩ c) (by
    rw [Shape.rowMajor_val_two, Shape.rowMajor_val_three]
    show (b.val * 4 + 2 + w.val) * 1024 + c.val = (b.val * 4 + (2 + w.val)) * 1024 + c.val
    omega)

/-- The kernel's layer of stride 2 at row `r`, column `c` of the block is the layer of stride 2 on column `c` at row `r`. -/
theorem K2_apply (ang : FVec Ideal S512 .f32) (X : FVec Ideal S1024x1024 .f32) (r c : Fin 1024) :
    K2 ang X (ix2 r c) = layer 2 (vec ang) (col X c) r.val := by
  have hr := r.isLt
  have hb : r.val / 4 < 256 := by omega
  have hw : r.val % 4 < 4 := by omega
  unfold K2 layer
  refine (shapeCast_apply _ shapeCasts_S256x4x1024_S1024x1024 (ix2 r c) (ix3 ⟨r.val / 4, hb⟩ ⟨r.val % 4, hw⟩ c) (by
    rw [Shape.rowMajor_val_three, Shape.rowMajor_val_two]
    show (r.val / 4 * 4 + r.val % 4) * 1024 + c.val = r.val * 1024 + c.val
    omega)).trans ?_
  by_cases hlt : r.val % (2 * 2) < 2
  · rw [if_pos hlt]
    have hlt' : r.val % 4 < 2 := by omega
    refine (concatenate_pair_apply_left 1 _ _ concatenates_S256x2x1024_S256x2x1024_S256x4x1024_d1 _ rfl
      (ix3 ⟨r.val / 4, hb⟩ ⟨r.val % 4, hlt'⟩ c) (fun a => match a with
        | ⟨0, _⟩ => rfl
        | ⟨1, _⟩ => rfl
        | ⟨2, _⟩ => rfl)).trans ?_
    rw [addf_apply, mulf_apply, mulf_apply,
      K2_coef (cos ang) ⟨r.val / 4, hb⟩ ⟨r.val % 4, hlt'⟩ c (by show r.val / 4 * 2 + r.val % 4 < 512; omega),
      K2_coef (sin ang) ⟨r.val / 4, hb⟩ ⟨r.val % 4, hlt'⟩ c (by show r.val / 4 * 2 + r.val % 4 < 512; omega),
      K2_lower X ⟨r.val / 4, hb⟩ ⟨r.val % 4, hlt'⟩ c (by show r.val / 4 * 4 + r.val % 4 < 1024; omega),
      K2_upper X ⟨r.val / 4, hb⟩ ⟨r.val % 4, hlt'⟩ c (by show r.val / 4 * 4 + 2 + r.val % 4 < 1024; omega)]
    have h2 : r.val + 2 < 1024 := by omega
    have hv : vec ang (r.val / (2 * 2) * 2 + r.val % (2 * 2)) = ang (ix1 ⟨r.val / 4 * 2 + r.val % 4, by omega⟩) := by
      unfold vec
      rw [dif_pos (by omega : r.val / (2 * 2) * 2 + r.val % (2 * 2) < 512)]
      try exact congrArg ang (congrArg ix1 (Fin.ext (by show r.val / (2 * 2) * 2 + r.val % (2 * 2) = r.val / 4 * 2 + r.val % 4; omega)))
    have hc1 : col X c r.val = X (ix2 ⟨r.val / 4 * 4 + r.val % 4, by omega⟩ c) := by
      unfold col
      rw [dif_pos hr]
      exact congrArg (fun q => X (ix2 q c)) (Fin.ext (by show r.val = r.val / 4 * 4 + r.val % 4; omega))
    have hc2 : col X c (r.val + 2) = X (ix2 ⟨r.val / 4 * 4 + 2 + r.val % 4, by omega⟩ c) := by
      unfold col
      rw [dif_pos h2]
      exact congrArg (fun q => X (ix2 q c)) (Fin.ext (by show r.val + 2 = r.val / 4 * 4 + 2 + r.val % 4; omega))
    rw [hv, hc1, hc2]
    rfl
  · rw [if_neg hlt]
    have hge : 2 ≤ r.val % 4 := by omega
    have hw' : r.val % 4 - 2 < 2 := by omega
    refine (concatenate_pair_apply_right 1 _ _ concatenates_S256x2x1024_S256x2x1024_S256x4x1024_d1 _ rfl rfl
      (ix3 ⟨r.val / 4, hb⟩ ⟨r.val % 4 - 2, hw'⟩ c) (fun a ha => match a with
        | ⟨0, _⟩ => rfl
        | ⟨1, _⟩ => absurd rfl ha
        | ⟨2, _⟩ => rfl) (by show r.val % 4 - 2 + 2 = r.val % 4; omega)).trans ?_
    rw [addf_apply, mulf_apply, mulf_apply,
      K2_coef (cos ang) ⟨r.val / 4, hb⟩ ⟨r.val % 4 - 2, hw'⟩ c (by show r.val / 4 * 2 + (r.val % 4 - 2) < 512; omega),
      K2_lower X ⟨r.val / 4, hb⟩ ⟨r.val % 4 - 2, hw'⟩ c (by show r.val / 4 * 4 + (r.val % 4 - 2) < 1024; omega),
      K2_upper X ⟨r.val / 4, hb⟩ ⟨r.val % 4 - 2, hw'⟩ c (by show r.val / 4 * 4 + 2 + (r.val % 4 - 2) < 1024; omega)]
    have hneg : broadcastTo S256x2x1024 (subf (broadcast S256x2x1 (Scalar.ofBits .f32 0x00000000#32)) (shapeCast S256x2x1 (sin ang) shapeCasts_S512_S256x2x1)) broadcasts_S256x2x1_S256x2x1024
          (ix3 ⟨r.val / 4, hb⟩ ⟨r.val % 4 - 2, hw'⟩ c)
        = -(sin ang (ix1 ⟨r.val / 4 * 2 + (r.val % 4 - 2), by omega⟩)) := by
      refine (broadcastTo_apply _ broadcasts_S256x2x1_S256x2x1024 _ (ix3 ⟨r.val / 4, hb⟩ ⟨r.val % 4 - 2, hw'⟩ (0 : Fin 1)) (fun a => match a with
        | ⟨0, _⟩ => by show r.val / 4 = if (256 : ℕ) = 1 then 0 else r.val / 4; split <;> omega
        | ⟨1, _⟩ => by show r.val % 4 - 2 = if (2 : ℕ) = 1 then 0 else r.val % 4 - 2; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S256x2x1 _ (ix1 ⟨r.val / 4 * 2 + (r.val % 4 - 2), by omega⟩) (by
        rw [Shape.rowMajor_val_one, Shape.rowMajor_val_three]
        show r.val / 4 * 2 + (r.val % 4 - 2) = (r.val / 4 * 2 + (r.val % 4 - 2)) * 1 + 0
        omega))
    rw [hneg]
    have h2 : r.val - 2 < 1024 := by omega
    have hv : vec ang (r.val / (2 * 2) * 2 + (r.val % (2 * 2) - 2)) = ang (ix1 ⟨r.val / 4 * 2 + (r.val % 4 - 2), by omega⟩) := by
      unfold vec
      rw [dif_pos (by omega : r.val / (2 * 2) * 2 + (r.val % (2 * 2) - 2) < 512)]
      try exact congrArg ang (congrArg ix1 (Fin.ext (by show r.val / (2 * 2) * 2 + (r.val % (2 * 2) - 2) = r.val / 4 * 2 + (r.val % 4 - 2); omega)))
    have hc1 : col X c (r.val - 2) = X (ix2 ⟨r.val / 4 * 4 + (r.val % 4 - 2), by omega⟩ c) := by
      unfold col
      rw [dif_pos h2]
      exact congrArg (fun q => X (ix2 q c)) (Fin.ext (by show r.val - 2 = r.val / 4 * 4 + (r.val % 4 - 2); omega))
    have hc2 : col X c r.val = X (ix2 ⟨r.val / 4 * 4 + 2 + (r.val % 4 - 2), by omega⟩ c) := by
      unfold col
      rw [dif_pos hr]
      exact congrArg (fun q => X (ix2 q c)) (Fin.ext (by show r.val = r.val / 4 * 4 + 2 + (r.val % 4 - 2); omega))
    rw [hv, hc1, hc2]
    rfl

/-- Column by column: the kernel's layer of stride 2 sends column `c` of the block to the layer of stride 2 of that column. -/
theorem K2_col (ang : FVec Ideal S512 .f32) (X : FVec Ideal S1024x1024 .f32) (c : Fin 1024) :
    col (K2 ang X) c = layerT 2 (vec ang) (col X c) := by
  funext r
  by_cases hr : r < 1024
  · show (if h : r < 1024 then K2 ang X (ix2 ⟨r, h⟩ c) else 0) = if r < 1024 then layer 2 (vec ang) (col X c) r else 0
    rw [dif_pos hr, if_pos hr]
    exact K2_apply ang X ⟨r, hr⟩ c
  · show (if h : r < 1024 then K2 ang X (ix2 ⟨r, h⟩ c) else 0) = if r < 1024 then layer 2 (vec ang) (col X c) r else 0
    rw [dif_neg hr, if_neg hr]

end Cert.KernelIdeal.Layer

end
-- ==== Proof.KLayer4.lean ====
/-
  The kernel's layer of stride 4, as the body writes it, and what it does to a column.

  The [1024, 1024] block is re-read as 128 groups of 8 rows ([128, 8, 1024]); the lower 4 rows of every group and the
  upper 4 rows are the two halves of the pairs; the 512 cosines and sines are re-read as [128, 4, 1] and repeated
  along the columns; the two rotated halves are joined group by group and the result is read as [1024, 1024] again.
  Row `r` of the result therefore sits in group `r / 8` at place `r % 8`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 4 as the kernel's body spells it, from the layer's 512 angles and the block. -/
def K4 {F : FTy → Type} [FloatOps F] (ang : FVec F S512 .f32) (X : FVec F S1024x1024 .f32) : FVec F S1024x1024 .f32 :=
  shapeCast S1024x1024
    (concatenate S128x8x1024 1
      [⟨S128x4x1024, addf
          (mulf (broadcastTo S128x4x1024 (shapeCast S128x4x1 (cos ang) shapeCasts_S512_S128x4x1) broadcasts_S128x4x1_S128x4x1024)
            (extractStridedSlice S128x4x1024 ![0, 0, 0] (shapeCast S128x8x1024 X shapeCasts_S1024x1024_S128x8x1024) slices_S128x8x1024_o0_0_0_S128x4x1024))
          (mulf (broadcastTo S128x4x1024 (shapeCast S128x4x1 (sin ang) shapeCasts_S512_S128x4x1) broadcasts_S128x4x1_S128x4x1024)
            (extractStridedSlice S128x4x1024 ![0, 4, 0] (shapeCast S128x8x1024 X shapeCasts_S1024x1024_S128x8x1024) slices_S128x8x1024_o0_4_0_S128x4x1024))⟩,
       ⟨S128x4x1024, addf
          (mulf (broadcastTo S128x4x1024 (subf (broadcast S128x4x1 (Scalar.ofBits .f32 0x00000000#32)) (shapeCast S128x4x1 (sin ang) shapeCasts_S512_S128x4x1)) broadcasts_S128x4x1_S128x4x1024)
            (extractStridedSlice S128x4x1024 ![0, 0, 0] (shapeCast S128x8x1024 X shapeCasts_S1024x1024_S128x8x1024) slices_S128x8x1024_o0_0_0_S128x4x1024))
          (mulf (broadcastTo S128x4x1024 (shapeCast S128x4x1 (cos ang) shapeCasts_S512_S128x4x1) broadcasts_S128x4x1_S128x4x1024)
            (extractStridedSlice S128x4x1024 ![0, 4, 0] (shapeCast S128x8x1024 X shapeCasts_S1024x1024_S128x8x1024) slices_S128x8x1024_o0_4_0_S128x4x1024))⟩]
      concatenates_S128x4x1024_S128x4x1024_S128x8x1024_d1)
    shapeCasts_S128x8x1024_S1024x1024

/-- A [128, 4, 1] column of coefficients repeated along the 1024 columns, read at group `b`, place `w`: the coefficient
    numbered `b · 4 + w` of the 512. -/
theorem K4_coef (v : S512.Idx → EReal) (b : Fin 128) (w : Fin 4) (c : Fin 1024) (hj : b.val * 4 + w.val < 512) :
    broadcastTo S128x4x1024 (shapeCast S128x4x1 v shapeCasts_S512_S128x4x1) broadcasts_S128x4x1_S128x4x1024 (ix3 b w c) = v (ix1 ⟨b.val * 4 + w.val, hj⟩) := by
  have hb := b.isLt; have hw := w.isLt
  refine (broadcastTo_apply _ broadcasts_S128x4x1_S128x4x1024 (ix3 b w c) (ix3 b w (0 : Fin 1)) (fun a => match a with
    | ⟨0, _⟩ => by show b.val = if (128 : ℕ) = 1 then 0 else b.val; split <;> omega
    | ⟨1, _⟩ => by show w.val = if (4 : ℕ) = 1 then 0 else w.val; split <;> omega
    | ⟨2, _⟩ => by show (0 : ℕ) = if (1 : ℕ) = 1 then 0 else c.val; rfl)).trans ?_
  exact shapeCast_apply v shapeCasts_S512_S128x4x1 (ix3 b w (0 : Fin 1)) (ix1 ⟨b.val * 4 + w.val, hj⟩) (by
    rw [Shape.rowMajor_val_one, Shape.rowMajor_val_three]
    show b.val * 4 + w.val = (b.val * 4 + w.val) * 1 + 0
    omega)

/-- The lower half of group `b` at place `w`, column `c`: row `b · 8 + w` of the block. -/
theorem K4_lower (X : S1024x1024.Idx → EReal) (b : Fin 128) (w : Fin 4) (c : Fin 1024) (hr : b.val * 8 + w.val < 1024) :
    extractStridedSlice S128x4x1024 ![0, 0, 0] (shapeCast S128x8x1024 X shapeCasts_S1024x1024_S128x8x1024) slices_S128x8x1024_o0_0_0_S128x4x1024 (ix3 b w c)
      = X (ix2 ⟨b.val * 8 + w.val, hr⟩ c) := by
  have hb := b.isLt; have hw := w.isLt
  refine (extractStridedSlice_apply ![0, 0, 0] _ slices_S128x8x1024_o0_0_0_S128x4x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S128x8x1024 (ix3 b ⟨w.val, by omega⟩ c) (ix2 ⟨b.val * 8 + w.val, hr⟩ c) (by
    rw [Shape.rowMajor_val_two, Shape.rowMajor_val_three]
    show (b.val * 8 + w.val) * 1024 + c.val = (b.val * 8 + w.val) * 1024 + c.val
    rfl)

/-- The upper half of group `b` at place `w`, column `c`: row `b · 8 + 4 + w` of the block. -/
theorem K4_upper (X : S1024x1024.Idx → EReal) (b : Fin 128) (w : Fin 4) (c : Fin 1024) (hr : b.val * 8 + 4 + w.val < 1024) :
    extractStridedSlice S128x4x1024 ![0, 4, 0] (shapeCast S128x8x1024 X shapeCasts_S1024x1024_S128x8x1024) slices_S128x8x1024_o0_4_0_S128x4x1024 (ix3 b w c)
      = X (ix2 ⟨b.val * 8 + 4 + w.val, hr⟩ c) := by
  have hb := b.isLt; have hw := w.isLt
  refine (extractStridedSlice_apply ![0, 4, 0] _ slices_S128x8x1024_o0_4_0_S128x4x1024 (ix3 b w c) (ix3 b ⟨4 + w.val, by omega⟩ c) (fun a => match a with
    | ⟨0, _⟩ => by show b.val = 0 + b.val; omega
    | ⟨1, _⟩ => by show 4 + w.val = 4 + w.val; rfl
    | ⟨2, _⟩ => by show c.val = 0 + c.val; omega)).trans ?_
  exact shapeCast_apply X shapeCasts_S1024x1024_S128x8x1024 (ix3 b ⟨4 + w.val, by omega⟩ c) (ix2 ⟨b.val * 8 + 4 + w.val, hr⟩ c) (by
    rw [Shape.rowMajor_val_two, Shape.rowMajor_val_three]
    show (b.val * 8 + 4 + w.val) * 1024 + c.val = (b.val * 8 + (4 + w.val)) * 1024 + c.val
    omega)

/-- The kernel's layer of stride 4 at row `r`, column `c` of the block is the layer of stride 4 on column `c` at row `r`. -/
theorem K4_apply (ang : FVec Ideal S512 .f32) (X : FVec Ideal S1024x1024 .f32) (r c : Fin 1024) :
    K4 ang X (ix2 r c) = layer 4 (vec ang) (col X c) r.val := by
  have hr := r.isLt
  have hb : r.val / 8 < 128 := by omega
  have hw : r.val % 8 < 8 := by omega
  unfold K4 layer
  refine (shapeCast_apply _ shapeCasts_S128x8x1024_S1024x1024 (ix2 r c) (ix3 ⟨r.val / 8, hb⟩ ⟨r.val % 8, hw⟩ c) (by
    rw [Shape.rowMajor_val_three, Shape.rowMajor_val_two]
    show (r.val / 8 * 8 + r.val % 8) * 1024 + c.val = r.val * 1024 + c.val
    omega)).trans ?_
  by_cases hlt : r.val % (2 * 4) < 4
  · rw [if_pos hlt]
    have hlt' : r.val % 8 < 4 := by omega
    refine (concatenate_pair_apply_left 1 _ _ concatenates_S128x4x1024_S128x4x1024_S128x8x1024_d1 _ rfl
      (ix3 ⟨r.val / 8, hb⟩ ⟨r.val % 8, hlt'⟩ c) (fun a => match a with
        | ⟨0, _⟩ => rfl
        | ⟨1, _⟩ => rfl
        | ⟨2, _⟩ => rfl)).trans ?_
    rw [addf_apply, mulf_apply, mulf_apply,
      K4_coef (cos ang) ⟨r.val / 8, hb⟩ ⟨r.val % 8, hlt'⟩ c (by show r.val / 8 * 4 + r.val % 8 < 512; omega),
      K4_coef (sin ang) ⟨r.val / 8, hb⟩ ⟨r.val % 8, hlt'⟩ c (by show r.val / 8 * 4 + r.val % 8 < 512; omega),
      K4_lower X ⟨r.val / 8, hb⟩ ⟨r.val % 8, hlt'⟩ c (by show r.val / 8 * 8 + r.val % 8 < 1024; omega),
      K4_upper X ⟨r.val / 8, hb⟩ ⟨r.val % 8, hlt'⟩ c (by show r.val / 8 * 8 + 4 + r.val % 8 < 1024; omega)]
    have h2 : r.val + 4 < 1024 := by omega
    have hv : vec ang (r.val / (2 * 4) * 4 + r.val % (2 * 4)) = ang (ix1 ⟨r.val / 8 * 4 + r.val % 8, by omega⟩) := by
      unfold vec
      rw [dif_pos (by omega : r.val / (2 * 4) * 4 + r.val % (2 * 4) < 512)]
      try exact congrArg ang (congrArg ix1 (Fin.ext (by show r.val / (2 * 4) * 4 + r.val % (2 * 4) = r.val / 8 * 4 + r.val % 8; omega)))
    have hc1 : col X c r.val = X (ix2 ⟨r.val / 8 * 8 + r.val % 8, by omega⟩ c) := by
      unfold col
      rw [dif_pos hr]
      exact congrArg (fun q => X (ix2 q c)) (Fin.ext (by show r.val = r.val / 8 * 8 + r.val % 8; omega))
    have hc2 : col X c (r.val + 4) = X (ix2 ⟨r.val / 8 * 8 + 4 + r.val % 8, by omega⟩ c) := by
      unfold col
      rw [dif_pos h2]
      exact congrArg (fun q => X (ix2 q c)) (Fin.ext (by show r.val + 4 = r.val / 8 * 8 + 4 + r.val % 8; omega))
    rw [hv, hc1, hc2]
    rfl
  · rw [if_neg hlt]
    have hge : 4 ≤ r.val % 8 := by omega
    have hw' : r.val % 8 - 4 < 4 := by omega
    refine (concatenate_pair_apply_right 1 _ _ concatenates_S128x4x1024_S128x4x1024_S128x8x1024_d1 _ rfl rfl
      (ix3 ⟨r.val / 8, hb⟩ ⟨r.val % 8 - 4, hw'⟩ c) (fun a ha => match a with
        | ⟨0, _⟩ => rfl
        | ⟨1, _⟩ => absurd rfl ha
        | ⟨2, _⟩ => rfl) (by show r.val % 8 - 4 + 4 = r.val % 8; omega)).trans ?_
    rw [addf_apply, mulf_apply, mulf_apply,
      K4_coef (cos ang) ⟨r.val / 8, hb⟩ ⟨r.val % 8 - 4, hw'⟩ c (by show r.val / 8 * 4 + (r.val % 8 - 4) < 512; omega),
      K4_lower X ⟨r.val / 8, hb⟩ ⟨r.val % 8 - 4, hw'⟩ c (by show r.val / 8 * 8 + (r.val % 8 - 4) < 1024; omega),
      K4_upper X ⟨r.val / 8, hb⟩ ⟨r.val % 8 - 4, hw'⟩ c (by show r.val / 8 * 8 + 4 + (r.val % 8 - 4) < 1024; omega)]
    have hneg : broadcastTo S128x4x1024 (subf (broadcast S128x4x1 (Scalar.ofBits .f32 0x00000000#32)) (shapeCast S128x4x1 (sin ang) shapeCasts_S512_S128x4x1)) broadcasts_S128x4x1_S128x4x1024
          (ix3 ⟨r.val / 8, hb⟩ ⟨r.val % 8 - 4, hw'⟩ c)
        = -(sin ang (ix1 ⟨r.val / 8 * 4 + (r.val % 8 - 4), by omega⟩)) := by
      refine (broadcastTo_apply _ broadcasts_S128x4x1_S128x4x1024 _ (ix3 ⟨r.val / 8, hb⟩ ⟨r.val % 8 - 4, hw'⟩ (0 : Fin 1)) (fun a => match a with
        | ⟨0, _⟩ => by show r.val / 8 = if (128 : ℕ) = 1 then 0 else r.val / 8; split <;> omega
        | ⟨1, _⟩ => by show r.val % 8 - 4 = if (4 : ℕ) = 1 then 0 else r.val % 8 - 4; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S128x4x1 _ (ix1 ⟨r.val / 8 * 4 + (r.val % 8 - 4), by omega⟩) (by
        rw [Shape.rowMajor_val_one, Shape.rowMajor_val_three]
        show r.val / 8 * 4 + (r.val % 8 - 4) = (r.val / 8 * 4 + (r.val % 8 - 4)) * 1 + 0
        omega))
    rw [hneg]
    have h2 : r.val - 4 < 1024 := by omega
    have hv : vec ang (r.val / (2 * 4) * 4 + (r.val % (2 * 4) - 4)) = ang (ix1 ⟨r.val / 8 * 4 + (r.val % 8 - 4), by omega⟩) := by
      unfold vec
      rw [dif_pos (by omega : r.val / (2 * 4) * 4 + (r.val % (2 * 4) - 4) < 512)]
      try exact congrArg ang (congrArg ix1 (Fin.ext (by show r.val / (2 * 4) * 4 + (r.val % (2 * 4) - 4) = r.val / 8 * 4 + (r.val % 8 - 4); omega)))
    have hc1 : col X c (r.val - 4) = X (ix2 ⟨r.val / 8 * 8 + (r.val % 8 - 4), by omega⟩ c) := by
      unfold col
      rw [dif_pos h2]
      exact congrArg (fun q => X (ix2 q c)) (Fin.ext (by show r.val - 4 = r.val / 8 * 8 + (r.val % 8 - 4); omega))
    have hc2 : col X c r.val = X (ix2 ⟨r.val / 8 * 8 + 4 + (r.val % 8 - 4), by omega⟩ c) := by
      unfold col
      rw [dif_pos hr]
      exact congrArg (fun q => X (ix2 q c)) (Fin.ext (by show r.val = r.val / 8 * 8 + 4 + (r.val % 8 - 4); omega))
    rw [hv, hc1, hc2]
    rfl

/-- Column by column: the kernel's layer of stride 4 sends column `c` of the block to the layer of stride 4 of that column. -/
theorem K4_col (ang : FVec Ideal S512 .f32) (X : FVec Ideal S1024x1024 .f32) (c : Fin 1024) :
    col (K4 ang X) c = layerT 4 (vec ang) (col X c) := by
  funext r
  by_cases hr : r < 1024
  · show (if h : r < 1024 then K4 ang X (ix2 ⟨r, h⟩ c) else 0) = if r < 1024 then layer 4 (vec ang) (col X c) r else 0
    rw [dif_pos hr, if_pos hr]
    exact K4_apply ang X ⟨r, hr⟩ c
  · show (if h : r < 1024 then K4 ang X (ix2 ⟨r, h⟩ c) else 0) = if r < 1024 then layer 4 (vec ang) (col X c) r else 0
    rw [dif_neg hr, if_neg hr]

end Cert.KernelIdeal.Layer

end
-- ==== Proof.KLayer8.lean ====
/-
  The kernel's layer of stride 8, as the body writes it, and what it does to a column.

  The [1024, 1024] block is re-read as 64 groups of 16 rows ([64, 16, 1024]); the lower 8 rows of every group and the
  upper 8 rows are the two halves of the pairs; the 512 cosines and sines are re-read as [64, 8, 1] and repeated
  along the columns; the two rotated halves are joined group by group and the result is read as [1024, 1024] again.
  Row `r` of the result therefore sits in group `r / 16` at place `r % 16`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 8 as the kernel's body spells it, from the layer's 512 angles and the block. -/
def K8 {F : FTy → Type} [FloatOps F] (ang : FVec F S512 .f32) (X : FVec F S1024x1024 .f32) : FVec F S1024x1024 .f32 :=
  shapeCast S1024x1024
    (concatenate S64x16x1024 1
      [⟨S64x8x1024, addf
          (mulf (broadcastTo S64x8x1024 (shapeCast S64x8x1 (cos ang) shapeCasts_S512_S64x8x1) broadcasts_S64x8x1_S64x8x1024)
            (extractStridedSlice S64x8x1024 ![0, 0, 0] (shapeCast S64x16x1024 X shapeCasts_S1024x1024_S64x16x1024) slices_S64x16x1024_o0_0_0_S64x8x1024))
          (mulf (broadcastTo S64x8x1024 (shapeCast S64x8x1 (sin ang) shapeCasts_S512_S64x8x1) broadcasts_S64x8x1_S64x8x1024)
            (extractStridedSlice S64x8x1024 ![0, 8, 0] (shapeCast S64x16x1024 X shapeCasts_S1024x1024_S64x16x1024) slices_S64x16x1024_o0_8_0_S64x8x1024))⟩,
       ⟨S64x8x1024, addf
          (mulf (broadcastTo S64x8x1024 (subf (broadcast S64x8x1 (Scalar.ofBits .f32 0x00000000#32)) (shapeCast S64x8x1 (sin ang) shapeCasts_S512_S64x8x1)) broadcasts_S64x8x1_S64x8x1024)
            (extractStridedSlice S64x8x1024 ![0, 0, 0] (shapeCast S64x16x1024 X shapeCasts_S1024x1024_S64x16x1024) slices_S64x16x1024_o0_0_0_S64x8x1024))
          (mulf (broadcastTo S64x8x1024 (shapeCast S64x8x1 (cos ang) shapeCasts_S512_S64x8x1) broadcasts_S64x8x1_S64x8x1024)
            (extractStridedSlice S64x8x1024 ![0, 8, 0] (shapeCast S64x16x1024 X shapeCasts_S1024x1024_S64x16x1024) slices_S64x16x1024_o0_8_0_S64x8x1024))⟩]
      concatenates_S64x8x1024_S64x8x1024_S64x16x1024_d1)
    shapeCasts_S64x16x1024_S1024x1024

/-- A [64, 8, 1] column of coefficients repeated along the 1024 columns, read at group `b`, place `w`: the coefficient
    numbered `b · 8 + w` of the 512. -/
theorem K8_coef (v : S512.Idx → EReal) (b : Fin 64) (w : Fin 8) (c : Fin 1024) (hj : b.val * 8 + w.val < 512) :
    broadcastTo S64x8x1024 (shapeCast S64x8x1 v shapeCasts_S512_S64x8x1) broadcasts_S64x8x1_S64x8x1024 (ix3 b w c) = v (ix1 ⟨b.val * 8 + w.val, hj⟩) := by
  have hb := b.isLt; have hw := w.isLt
  refine (broadcastTo_apply _ broadcasts_S64x8x1_S64x8x1024 (ix3 b w c) (ix3 b w (0 : Fin 1)) (fun a => match a with
    | ⟨0, _⟩ => by show b.val = if (64 : ℕ) = 1 then 0 else b.val; split <;> omega
    | ⟨1, _⟩ => by show w.val = if (8 : ℕ) = 1 then 0 else w.val; split <;> omega
    | ⟨2, _⟩ => by show (0 : ℕ) = if (1 : ℕ) = 1 then 0 else c.val; rfl)).trans ?_
  exact shapeCast_apply v shapeCasts_S512_S64x8x1 (ix3 b w (0 : Fin 1)) (ix1 ⟨b.val * 8 + w.val, hj⟩) (by
    rw [Shape.rowMajor_val_one, Shape.rowMajor_val_three]
    show b.val * 8 + w.val = (b.val * 8 + w.val) * 1 + 0
    omega)

/-- The lower half of group `b` at place `w`, column `c`: row `b · 16 + w` of the block. -/
theorem K8_lower (X : S1024x1024.Idx → EReal) (b : Fin 64) (w : Fin 8) (c : Fin 1024) (hr : b.val * 16 + w.val < 1024) :
    extractStridedSlice S64x8x1024 ![0, 0, 0] (shapeCast S64x16x1024 X shapeCasts_S1024x1024_S64x16x1024) slices_S64x16x1024_o0_0_0_S64x8x1024 (ix3 b w c)
      = X (ix2 ⟨b.val * 16 + w.val, hr⟩ c) := by
  have hb := b.isLt; have hw := w.isLt
  refine (extractStridedSlice_apply ![0, 0, 0] _ slices_S64x16x1024_o0_0_0_S64x8x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S64x16x1024 (ix3 b ⟨w.val, by omega⟩ c) (ix2 ⟨b.val * 16 + w.val, hr⟩ c) (by
    rw [Shape.rowMajor_val_two, Shape.rowMajor_val_three]
    show (b.val * 16 + w.val) * 1024 + c.val = (b.val * 16 + w.val) * 1024 + c.val
    rfl)

/-- The upper half of group `b` at place `w`, column `c`: row `b · 16 + 8 + w` of the block. -/
theorem K8_upper (X : S1024x1024.Idx → EReal) (b : Fin 64) (w : Fin 8) (c : Fin 1024) (hr : b.val * 16 + 8 + w.val < 1024) :
    extractStridedSlice S64x8x1024 ![0, 8, 0] (shapeCast S64x16x1024 X shapeCasts_S1024x1024_S64x16x1024) slices_S64x16x1024_o0_8_0_S64x8x1024 (ix3 b w c)
      = X (ix2 ⟨b.val * 16 + 8 + w.val, hr⟩ c) := by
  have hb := b.isLt; have hw := w.isLt
  refine (extractStridedSlice_apply ![0, 8, 0] _ slices_S64x16x1024_o0_8_0_S64x8x1024 (ix3 b w c) (ix3 b ⟨8 + w.val, by omega⟩ c) (fun a => match a with
    | ⟨0, _⟩ => by show b.val = 0 + b.val; omega
    | ⟨1, _⟩ => by show 8 + w.val = 8 + w.val; rfl
    | ⟨2, _⟩ => by show c.val = 0 + c.val; omega)).trans ?_
  exact shapeCast_apply X shapeCasts_S1024x1024_S64x16x1024 (ix3 b ⟨8 + w.val, by omega⟩ c) (ix2 ⟨b.val * 16 + 8 + w.val, hr⟩ c) (by
    rw [Shape.rowMajor_val_two, Shape.rowMajor_val_three]
    show (b.val * 16 + 8 + w.val) * 1024 + c.val = (b.val * 16 + (8 + w.val)) * 1024 + c.val
    omega)

/-- The kernel's layer of stride 8 at row `r`, column `c` of the block is the layer of stride 8 on column `c` at row `r`. -/
theorem K8_apply (ang : FVec Ideal S512 .f32) (X : FVec Ideal S1024x1024 .f32) (r c : Fin 1024) :
    K8 ang X (ix2 r c) = layer 8 (vec ang) (col X c) r.val := by
  have hr := r.isLt
  have hb : r.val / 16 < 64 := by omega
  have hw : r.val % 16 < 16 := by omega
  unfold K8 layer
  refine (shapeCast_apply _ shapeCasts_S64x16x1024_S1024x1024 (ix2 r c) (ix3 ⟨r.val / 16, hb⟩ ⟨r.val % 16, hw⟩ c) (by
    rw [Shape.rowMajor_val_three, Shape.rowMajor_val_two]
    show (r.val / 16 * 16 + r.val % 16) * 1024 + c.val = r.val * 1024 + c.val
    omega)).trans ?_
  by_cases hlt : r.val % (2 * 8) < 8
  · rw [if_pos hlt]
    have hlt' : r.val % 16 < 8 := by omega
    refine (concatenate_pair_apply_left 1 _ _ concatenates_S64x8x1024_S64x8x1024_S64x16x1024_d1 _ rfl
      (ix3 ⟨r.val / 16, hb⟩ ⟨r.val % 16, hlt'⟩ c) (fun a => match a with
        | ⟨0, _⟩ => rfl
        | ⟨1, _⟩ => rfl
        | ⟨2, _⟩ => rfl)).trans ?_
    rw [addf_apply, mulf_apply, mulf_apply,
      K8_coef (cos ang) ⟨r.val / 16, hb⟩ ⟨r.val % 16, hlt'⟩ c (by show r.val / 16 * 8 + r.val % 16 < 512; omega),
      K8_coef (sin ang) ⟨r.val / 16, hb⟩ ⟨r.val % 16, hlt'⟩ c (by show r.val / 16 * 8 + r.val % 16 < 512; omega),
      K8_lower X ⟨r.val / 16, hb⟩ ⟨r.val % 16, hlt'⟩ c (by show r.val / 16 * 16 + r.val % 16 < 1024; omega),
      K8_upper X ⟨r.val / 16, hb⟩ ⟨r.val % 16, hlt'⟩ c (by show r.val / 16 * 16 + 8 + r.val % 16 < 1024; omega)]
    have h2 : r.val + 8 < 1024 := by omega
    have hv : vec ang (r.val / (2 * 8) * 8 + r.val % (2 * 8)) = ang (ix1 ⟨r.val / 16 * 8 + r.val % 16, by omega⟩) := by
      unfold vec
      rw [dif_pos (by omega : r.val / (2 * 8) * 8 + r.val % (2 * 8) < 512)]
      try exact congrArg ang (congrArg ix1 (Fin.ext (by show r.val / (2 * 8) * 8 + r.val % (2 * 8) = r.val / 16 * 8 + r.val % 16; omega)))
    have hc1 : col X c r.val = X (ix2 ⟨r.val / 16 * 16 + r.val % 16, by omega⟩ c) := by
      unfold col
      rw [dif_pos hr]
      exact congrArg (fun q => X (ix2 q c)) (Fin.ext (by show r.val = r.val / 16 * 16 + r.val % 16; omega))
    have hc2 : col X c (r.val + 8) = X (ix2 ⟨r.val / 16 * 16 + 8 + r.val % 16, by omega⟩ c) := by
      unfold col
      rw [dif_pos h2]
      exact congrArg (fun q => X (ix2 q c)) (Fin.ext (by show r.val + 8 = r.val / 16 * 16 + 8 + r.val % 16; omega))
    rw [hv, hc1, hc2]
    rfl
  · rw [if_neg hlt]
    have hge : 8 ≤ r.val % 16 := by omega
    have hw' : r.val % 16 - 8 < 8 := by omega
    refine (concatenate_pair_apply_right 1 _ _ concatenates_S64x8x1024_S64x8x1024_S64x16x1024_d1 _ rfl rfl
      (ix3 ⟨r.val / 16, hb⟩ ⟨r.val % 16 - 8, hw'⟩ c) (fun a ha => match a with
        | ⟨0, _⟩ => rfl
        | ⟨1, _⟩ => absurd rfl ha
        | ⟨2, _⟩ => rfl) (by show r.val % 16 - 8 + 8 = r.val % 16; omega)).trans ?_
    rw [addf_apply, mulf_apply, mulf_apply,
      K8_coef (cos ang) ⟨r.val / 16, hb⟩ ⟨r.val % 16 - 8, hw'⟩ c (by show r.val / 16 * 8 + (r.val % 16 - 8) < 512; omega),
      K8_lower X ⟨r.val / 16, hb⟩ ⟨r.val % 16 - 8, hw'⟩ c (by show r.val / 16 * 16 + (r.val % 16 - 8) < 1024; omega),
      K8_upper X ⟨r.val / 16, hb⟩ ⟨r.val % 16 - 8, hw'⟩ c (by show r.val / 16 * 16 + 8 + (r.val % 16 - 8) < 1024; omega)]
    have hneg : broadcastTo S64x8x1024 (subf (broadcast S64x8x1 (Scalar.ofBits .f32 0x00000000#32)) (shapeCast S64x8x1 (sin ang) shapeCasts_S512_S64x8x1)) broadcasts_S64x8x1_S64x8x1024
          (ix3 ⟨r.val / 16, hb⟩ ⟨r.val % 16 - 8, hw'⟩ c)
        = -(sin ang (ix1 ⟨r.val / 16 * 8 + (r.val % 16 - 8), by omega⟩)) := by
      refine (broadcastTo_apply _ broadcasts_S64x8x1_S64x8x1024 _ (ix3 ⟨r.val / 16, hb⟩ ⟨r.val % 16 - 8, hw'⟩ (0 : Fin 1)) (fun a => match a with
        | ⟨0, _⟩ => by show r.val / 16 = if (64 : ℕ) = 1 then 0 else r.val / 16; split <;> omega
        | ⟨1, _⟩ => by show r.val % 16 - 8 = if (8 : ℕ) = 1 then 0 else r.val % 16 - 8; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S64x8x1 _ (ix1 ⟨r.val / 16 * 8 + (r.val % 16 - 8), by omega⟩) (by
        rw [Shape.rowMajor_val_one, Shape.rowMajor_val_three]
        show r.val / 16 * 8 + (r.val % 16 - 8) = (r.val / 16 * 8 + (r.val % 16 - 8)) * 1 + 0
        omega))
    rw [hneg]
    have h2 : r.val - 8 < 1024 := by omega
    have hv : vec ang (r.val / (2 * 8) * 8 + (r.val % (2 * 8) - 8)) = ang (ix1 ⟨r.val / 16 * 8 + (r.val % 16 - 8), by omega⟩) := by
      unfold vec
      rw [dif_pos (by omega : r.val / (2 * 8) * 8 + (r.val % (2 * 8) - 8) < 512)]
      try exact congrArg ang (congrArg ix1 (Fin.ext (by show r.val / (2 * 8) * 8 + (r.val % (2 * 8) - 8) = r.val / 16 * 8 + (r.val % 16 - 8); omega)))
    have hc1 : col X c (r.val - 8) = X (ix2 ⟨r.val / 16 * 16 + (r.val % 16 - 8), by omega⟩ c) := by
      unfold col
      rw [dif_pos h2]
      exact congrArg (fun q => X (ix2 q c)) (Fin.ext (by show r.val - 8 = r.val / 16 * 16 + (r.val % 16 - 8); omega))
    have hc2 : col X c r.val = X (ix2 ⟨r.val / 16 * 16 + 8 + (r.val % 16 - 8), by omega⟩ c) := by
      unfold col
      rw [dif_pos hr]
      exact congrArg (fun q => X (ix2 q c)) (Fin.ext (by show r.val = r.val / 16 * 16 + 8 + (r.val % 16 - 8); omega))
    rw [hv, hc1, hc2]
    rfl

/-- Column by column: the kernel's layer of stride 8 sends column `c` of the block to the layer of stride 8 of that column. -/
theorem K8_col (ang : FVec Ideal S512 .f32) (X : FVec Ideal S1024x1024 .f32) (c : Fin 1024) :
    col (K8 ang X) c = layerT 8 (vec ang) (col X c) := by
  funext r
  by_cases hr : r < 1024
  · show (if h : r < 1024 then K8 ang X (ix2 ⟨r, h⟩ c) else 0) = if r < 1024 then layer 8 (vec ang) (col X c) r else 0
    rw [dif_pos hr, if_pos hr]
    exact K8_apply ang X ⟨r, hr⟩ c
  · show (if h : r < 1024 then K8 ang X (ix2 ⟨r, h⟩ c) else 0) = if r < 1024 then layer 8 (vec ang) (col X c) r else 0
    rw [dif_neg hr, if_neg hr]

end Cert.KernelIdeal.Layer

end
-- ==== Proof.KLayer16.lean ====
/-
  The kernel's layer of stride 16, as the body writes it, and what it does to a column.

  The [1024, 1024] block is re-read as 32 groups of 32 rows ([32, 32, 1024]); the lower 16 rows of every group and the
  upper 16 rows are the two halves of the pairs; the 512 cosines and sines are re-read as [32, 16, 1] and repeated
  along the columns; the two rotated halves are joined group by group and the result is read as [1024, 1024] again.
  Row `r` of the result therefore sits in group `r / 32` at place `r % 32`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 16 as the kernel's body spells it, from the layer's 512 angles and the block. -/
def K16 {F : FTy → Type} [FloatOps F] (ang : FVec F S512 .f32) (X : FVec F S1024x1024 .f32) : FVec F S1024x1024 .f32 :=
  shapeCast S1024x1024
    (concatenate S32x32x1024 1
      [⟨S32x16x1024, addf
          (mulf (broadcastTo S32x16x1024 (shapeCast S32x16x1 (cos ang) shapeCasts_S512_S32x16x1) broadcasts_S32x16x1_S32x16x1024)
            (extractStridedSlice S32x16x1024 ![0, 0, 0] (shapeCast S32x32x1024 X shapeCasts_S1024x1024_S32x32x1024) slices_S32x32x1024_o0_0_0_S32x16x1024))
          (mulf (broadcastTo S32x16x1024 (shapeCast S32x16x1 (sin ang) shapeCasts_S512_S32x16x1) broadcasts_S32x16x1_S32x16x1024)
            (extractStridedSlice S32x16x1024 ![0, 16, 0] (shapeCast S32x32x1024 X shapeCasts_S1024x1024_S32x32x1024) slices_S32x32x1024_o0_16_0_S32x16x1024))⟩,
       ⟨S32x16x1024, addf
          (mulf (broadcastTo S32x16x1024 (subf (broadcast S32x16x1 (Scalar.ofBits .f32 0x00000000#32)) (shapeCast S32x16x1 (sin ang) shapeCasts_S512_S32x16x1)) broadcasts_S32x16x1_S32x16x1024)
            (extractStridedSlice S32x16x1024 ![0, 0, 0] (shapeCast S32x32x1024 X shapeCasts_S1024x1024_S32x32x1024) slices_S32x32x1024_o0_0_0_S32x16x1024))
          (mulf (broadcastTo S32x16x1024 (shapeCast S32x16x1 (cos ang) shapeCasts_S512_S32x16x1) broadcasts_S32x16x1_S32x16x1024)
            (extractStridedSlice S32x16x1024 ![0, 16, 0] (shapeCast S32x32x1024 X shapeCasts_S1024x1024_S32x32x1024) slices_S32x32x1024_o0_16_0_S32x16x1024))⟩]
      concatenates_S32x16x1024_S32x16x1024_S32x32x1024_d1)
    shapeCasts_S32x32x1024_S1024x1024

/-- A [32, 16, 1] column of coefficients repeated along the 1024 columns, read at group `b`, place `w`: the coefficient
    numbered `b · 16 + w` of the 512. -/
theorem K16_coef (v : S512.Idx → EReal) (b : Fin 32) (w : Fin 16) (c : Fin 1024) (hj : b.val * 16 + w.val < 512) :
    broadcastTo S32x16x1024 (shapeCast S32x16x1 v shapeCasts_S512_S32x16x1) broadcasts_S32x16x1_S32x16x1024 (ix3 b w c) = v (ix1 ⟨b.val * 16 + w.val, hj⟩) := by
  have hb := b.isLt; have hw := w.isLt
  refine (broadcastTo_apply _ broadcasts_S32x16x1_S32x16x1024 (ix3 b w c) (ix3 b w (0 : Fin 1)) (fun a => match a with
    | ⟨0, _⟩ => by show b.val = if (32 : ℕ) = 1 then 0 else b.val; split <;> omega
    | ⟨1, _⟩ => by show w.val = if (16 : ℕ) = 1 then 0 else w.val; split <;> omega
    | ⟨2, _⟩ => by show (0 : ℕ) = if (1 : ℕ) = 1 then 0 else c.val; rfl)).trans ?_
  exact shapeCast_apply v shapeCasts_S512_S32x16x1 (ix3 b w (0 : Fin 1)) (ix1 ⟨b.val * 16 + w.val, hj⟩) (by
    rw [Shape.rowMajor_val_one, Shape.rowMajor_val_three]
    show b.val * 16 + w.val = (b.val * 16 + w.val) * 1 + 0
    omega)

/-- The lower half of group `b` at place `w`, column `c`: row `b · 32 + w` of the block. -/
theorem K16_lower (X : S1024x1024.Idx → EReal) (b : Fin 32) (w : Fin 16) (c : Fin 1024) (hr : b.val * 32 + w.val < 1024) :
    extractStridedSlice S32x16x1024 ![0, 0, 0] (shapeCast S32x32x1024 X shapeCasts_S1024x1024_S32x32x1024) slices_S32x32x1024_o0_0_0_S32x16x1024 (ix3 b w c)
      = X (ix2 ⟨b.val * 32 + w.val, hr⟩ c) := by
  have hb := b.isLt; have hw := w.isLt
  refine (extractStridedSlice_apply ![0, 0, 0] _ slices_S32x32x1024_o0_0_0_S32x16x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S32x32x1024 (ix3 b ⟨w.val, by omega⟩ c) (ix2 ⟨b.val * 32 + w.val, hr⟩ c) (by
    rw [Shape.rowMajor_val_two, Shape.rowMajor_val_three]
    show (b.val * 32 + w.val) * 1024 + c.val = (b.val * 32 + w.val) * 1024 + c.val
    rfl)

/-- The upper half of group `b` at place `w`, column `c`: row `b · 32 + 16 + w` of the block. -/
theorem K16_upper (X : S1024x1024.Idx → EReal) (b : Fin 32) (w : Fin 16) (c : Fin 1024) (hr : b.val * 32 + 16 + w.val < 1024) :
    extractStridedSlice S32x16x1024 ![0, 16, 0] (shapeCast S32x32x1024 X shapeCasts_S1024x1024_S32x32x1024) slices_S32x32x1024_o0_16_0_S32x16x1024 (ix3 b w c)
      = X (ix2 ⟨b.val * 32 + 16 + w.val, hr⟩ c) := by
  have hb := b.isLt; have hw := w.isLt
  refine (extractStridedSlice_apply ![0, 16, 0] _ slices_S32x32x1024_o0_16_0_S32x16x1024 (ix3 b w c) (ix3 b ⟨16 + w.val, by omega⟩ c) (fun a => match a with
    | ⟨0, _⟩ => by show b.val = 0 + b.val; omega
    | ⟨1, _⟩ => by show 16 + w.val = 16 + w.val; rfl
    | ⟨2, _⟩ => by show c.val = 0 + c.val; omega)).trans ?_
  exact shapeCast_apply X shapeCasts_S1024x1024_S32x32x1024 (ix3 b ⟨16 + w.val, by omega⟩ c) (ix2 ⟨b.val * 32 + 16 + w.val, hr⟩ c) (by
    rw [Shape.rowMajor_val_two, Shape.rowMajor_val_three]
    show (b.val * 32 + 16 + w.val) * 1024 + c.val = (b.val * 32 + (16 + w.val)) * 1024 + c.val
    omega)

/-- The kernel's layer of stride 16 at row `r`, column `c` of the block is the layer of stride 16 on column `c` at row `r`. -/
theorem K16_apply (ang : FVec Ideal S512 .f32) (X : FVec Ideal S1024x1024 .f32) (r c : Fin 1024) :
    K16 ang X (ix2 r c) = layer 16 (vec ang) (col X c) r.val := by
  have hr := r.isLt
  have hb : r.val / 32 < 32 := by omega
  have hw : r.val % 32 < 32 := by omega
  unfold K16 layer
  refine (shapeCast_apply _ shapeCasts_S32x32x1024_S1024x1024 (ix2 r c) (ix3 ⟨r.val / 32, hb⟩ ⟨r.val % 32, hw⟩ c) (by
    rw [Shape.rowMajor_val_three, Shape.rowMajor_val_two]
    show (r.val / 32 * 32 + r.val % 32) * 1024 + c.val = r.val * 1024 + c.val
    omega)).trans ?_
  by_cases hlt : r.val % (2 * 16) < 16
  · rw [if_pos hlt]
    have hlt' : r.val % 32 < 16 := by omega
    refine (concatenate_pair_apply_left 1 _ _ concatenates_S32x16x1024_S32x16x1024_S32x32x1024_d1 _ rfl
      (ix3 ⟨r.val / 32, hb⟩ ⟨r.val % 32, hlt'⟩ c) (fun a => match a with
        | ⟨0, _⟩ => rfl
        | ⟨1, _⟩ => rfl
        | ⟨2, _⟩ => rfl)).trans ?_
    rw [addf_apply, mulf_apply, mulf_apply,
      K16_coef (cos ang) ⟨r.val / 32, hb⟩ ⟨r.val % 32, hlt'⟩ c (by show r.val / 32 * 16 + r.val % 32 < 512; omega),
      K16_coef (sin ang) ⟨r.val / 32, hb⟩ ⟨r.val % 32, hlt'⟩ c (by show r.val / 32 * 16 + r.val % 32 < 512; omega),
      K16_lower X ⟨r.val / 32, hb⟩ ⟨r.val % 32, hlt'⟩ c (by show r.val / 32 * 32 + r.val % 32 < 1024; omega),
      K16_upper X ⟨r.val / 32, hb⟩ ⟨r.val % 32, hlt'⟩ c (by show r.val / 32 * 32 + 16 + r.val % 32 < 1024; omega)]
    have h2 : r.val + 16 < 1024 := by omega
    have hv : vec ang (r.val / (2 * 16) * 16 + r.val % (2 * 16)) = ang (ix1 ⟨r.val / 32 * 16 + r.val % 32, by omega⟩) := by
      unfold vec
      rw [dif_pos (by omega : r.val / (2 * 16) * 16 + r.val % (2 * 16) < 512)]
      try exact congrArg ang (congrArg ix1 (Fin.ext (by show r.val / (2 * 16) * 16 + r.val % (2 * 16) = r.val / 32 * 16 + r.val % 32; omega)))
    have hc1 : col X c r.val = X (ix2 ⟨r.val / 32 * 32 + r.val % 32, by omega⟩ c) := by
      unfold col
      rw [dif_pos hr]
      exact congrArg (fun q => X (ix2 q c)) (Fin.ext (by show r.val = r.val / 32 * 32 + r.val % 32; omega))
    have hc2 : col X c (r.val + 16) = X (ix2 ⟨r.val / 32 * 32 + 16 + r.val % 32, by omega⟩ c) := by
      unfold col
      rw [dif_pos h2]
      exact congrArg (fun q => X (ix2 q c)) (Fin.ext (by show r.val + 16 = r.val / 32 * 32 + 16 + r.val % 32; omega))
    rw [hv, hc1, hc2]
    rfl
  · rw [if_neg hlt]
    have hge : 16 ≤ r.val % 32 := by omega
    have hw' : r.val % 32 - 16 < 16 := by omega
    refine (concatenate_pair_apply_right 1 _ _ concatenates_S32x16x1024_S32x16x1024_S32x32x1024_d1 _ rfl rfl
      (ix3 ⟨r.val / 32, hb⟩ ⟨r.val % 32 - 16, hw'⟩ c) (fun a ha => match a with
        | ⟨0, _⟩ => rfl
        | ⟨1, _⟩ => absurd rfl ha
        | ⟨2, _⟩ => rfl) (by show r.val % 32 - 16 + 16 = r.val % 32; omega)).trans ?_
    rw [addf_apply, mulf_apply, mulf_apply,
      K16_coef (cos ang) ⟨r.val / 32, hb⟩ ⟨r.val % 32 - 16, hw'⟩ c (by show r.val / 32 * 16 + (r.val % 32 - 16) < 512; omega),
      K16_lower X ⟨r.val / 32, hb⟩ ⟨r.val % 32 - 16, hw'⟩ c (by show r.val / 32 * 32 + (r.val % 32 - 16) < 1024; omega),
      K16_upper X ⟨r.val / 32, hb⟩ ⟨r.val % 32 - 16, hw'⟩ c (by show r.val / 32 * 32 + 16 + (r.val % 32 - 16) < 1024; omega)]
    have hneg : broadcastTo S32x16x1024 (subf (broadcast S32x16x1 (Scalar.ofBits .f32 0x00000000#32)) (shapeCast S32x16x1 (sin ang) shapeCasts_S512_S32x16x1)) broadcasts_S32x16x1_S32x16x1024
          (ix3 ⟨r.val / 32, hb⟩ ⟨r.val % 32 - 16, hw'⟩ c)
        = -(sin ang (ix1 ⟨r.val / 32 * 16 + (r.val % 32 - 16), by omega⟩)) := by
      refine (broadcastTo_apply _ broadcasts_S32x16x1_S32x16x1024 _ (ix3 ⟨r.val / 32, hb⟩ ⟨r.val % 32 - 16, hw'⟩ (0 : Fin 1)) (fun a => match a with
        | ⟨0, _⟩ => by show r.val / 32 = if (32 : ℕ) = 1 then 0 else r.val / 32; split <;> omega
        | ⟨1, _⟩ => by show r.val % 32 - 16 = if (16 : ℕ) = 1 then 0 else r.val % 32 - 16; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S32x16x1 _ (ix1 ⟨r.val / 32 * 16 + (r.val % 32 - 16), by omega⟩) (by
        rw [Shape.rowMajor_val_one, Shape.rowMajor_val_three]
        show r.val / 32 * 16 + (r.val % 32 - 16) = (r.val / 32 * 16 + (r.val % 32 - 16)) * 1 + 0
        omega))
    rw [hneg]
    have h2 : r.val - 16 < 1024 := by omega
    have hv : vec ang (r.val / (2 * 16) * 16 + (r.val % (2 * 16) - 16)) = ang (ix1 ⟨r.val / 32 * 16 + (r.val % 32 - 16), by omega⟩) := by
      unfold vec
      rw [dif_pos (by omega : r.val / (2 * 16) * 16 + (r.val % (2 * 16) - 16) < 512)]
      try exact congrArg ang (congrArg ix1 (Fin.ext (by show r.val / (2 * 16) * 16 + (r.val % (2 * 16) - 16) = r.val / 32 * 16 + (r.val % 32 - 16); omega)))
    have hc1 : col X c (r.val - 16) = X (ix2 ⟨r.val / 32 * 32 + (r.val % 32 - 16), by omega⟩ c) := by
      unfold col
      rw [dif_pos h2]
      exact congrArg (fun q => X (ix2 q c)) (Fin.ext (by show r.val - 16 = r.val / 32 * 32 + (r.val % 32 - 16); omega))
    have hc2 : col X c r.val = X (ix2 ⟨r.val / 32 * 32 + 16 + (r.val % 32 - 16), by omega⟩ c) := by
      unfold col
      rw [dif_pos hr]
      exact congrArg (fun q => X (ix2 q c)) (Fin.ext (by show r.val = r.val / 32 * 32 + 16 + (r.val % 32 - 16); omega))
    rw [hv, hc1, hc2]
    rfl

/-- Column by column: the kernel's layer of stride 16 sends column `c` of the block to the layer of stride 16 of that column. -/
theorem K16_col (ang : FVec Ideal S512 .f32) (X : FVec Ideal S1024x1024 .f32) (c : Fin 1024) :
    col (K16 ang X) c = layerT 16 (vec ang) (col X c) := by
  funext r
  by_cases hr : r < 1024
  · show (if h : r < 1024 then K16 ang X (ix2 ⟨r, h⟩ c) else 0) = if r < 1024 then layer 16 (vec ang) (col X c) r else 0
    rw [dif_pos hr, if_pos hr]
    exact K16_apply ang X ⟨r, hr⟩ c
  · show (if h : r < 1024 then K16 ang X (ix2 ⟨r, h⟩ c) else 0) = if r < 1024 then layer 16 (vec ang) (col X c) r else 0
    rw [dif_neg hr, if_neg hr]

end Cert.KernelIdeal.Layer

end
-- ==== Proof.KLayer32.lean ====
/-
  The kernel's layer of stride 32, as the body writes it, and what it does to a column.

  The [1024, 1024] block is re-read as 16 groups of 64 rows ([16, 64, 1024]); the lower 32 rows of every group and the
  upper 32 rows are the two halves of the pairs; the 512 cosines and sines are re-read as [16, 32, 1] and repeated
  along the columns; the two rotated halves are joined group by group and the result is read as [1024, 1024] again.
  Row `r` of the result therefore sits in group `r / 64` at place `r % 64`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 32 as the kernel's body spells it, from the layer's 512 angles and the block. -/
def K32 {F : FTy → Type} [FloatOps F] (ang : FVec F S512 .f32) (X : FVec F S1024x1024 .f32) : FVec F S1024x1024 .f32 :=
  shapeCast S1024x1024
    (concatenate S16x64x1024 1
      [⟨S16x32x1024, addf
          (mulf (broadcastTo S16x32x1024 (shapeCast S16x32x1 (cos ang) shapeCasts_S512_S16x32x1) broadcasts_S16x32x1_S16x32x1024)
            (extractStridedSlice S16x32x1024 ![0, 0, 0] (shapeCast S16x64x1024 X shapeCasts_S1024x1024_S16x64x1024) slices_S16x64x1024_o0_0_0_S16x32x1024))
          (mulf (broadcastTo S16x32x1024 (shapeCast S16x32x1 (sin ang) shapeCasts_S512_S16x32x1) broadcasts_S16x32x1_S16x32x1024)
            (extractStridedSlice S16x32x1024 ![0, 32, 0] (shapeCast S16x64x1024 X shapeCasts_S1024x1024_S16x64x1024) slices_S16x64x1024_o0_32_0_S16x32x1024))⟩,
       ⟨S16x32x1024, addf
          (mulf (broadcastTo S16x32x1024 (subf (broadcast S16x32x1 (Scalar.ofBits .f32 0x00000000#32)) (shapeCast S16x32x1 (sin ang) shapeCasts_S512_S16x32x1)) broadcasts_S16x32x1_S16x32x1024)
            (extractStridedSlice S16x32x1024 ![0, 0, 0] (shapeCast S16x64x1024 X shapeCasts_S1024x1024_S16x64x1024) slices_S16x64x1024_o0_0_0_S16x32x1024))
          (mulf (broadcastTo S16x32x1024 (shapeCast S16x32x1 (cos ang) shapeCasts_S512_S16x32x1) broadcasts_S16x32x1_S16x32x1024)
            (extractStridedSlice S16x32x1024 ![0, 32, 0] (shapeCast S16x64x1024 X shapeCasts_S1024x1024_S16x64x1024) slices_S16x64x1024_o0_32_0_S16x32x1024))⟩]
      concatenates_S16x32x1024_S16x32x1024_S16x64x1024_d1)
    shapeCasts_S16x64x1024_S1024x1024

/-- A [16, 32, 1] column of coefficients repeated along the 1024 columns, read at group `b`, place `w`: the coefficient
    numbered `b · 32 + w` of the 512. -/
theorem K32_coef (v : S512.Idx → EReal) (b : Fin 16) (w : Fin 32) (c : Fin 1024) (hj : b.val * 32 + w.val < 512) :
    broadcastTo S16x32x1024 (shapeCast S16x32x1 v shapeCasts_S512_S16x32x1) broadcasts_S16x32x1_S16x32x1024 (ix3 b w c) = v (ix1 ⟨b.val * 32 + w.val, hj⟩) := by
  have hb := b.isLt; have hw := w.isLt
  refine (broadcastTo_apply _ broadcasts_S16x32x1_S16x32x1024 (ix3 b w c) (ix3 b w (0 : Fin 1)) (fun a => match a with
    | ⟨0, _⟩ => by show b.val = if (16 : ℕ) = 1 then 0 else b.val; split <;> omega
    | ⟨1, _⟩ => by show w.val = if (32 : ℕ) = 1 then 0 else w.val; split <;> omega
    | ⟨2, _⟩ => by show (0 : ℕ) = if (1 : ℕ) = 1 then 0 else c.val; rfl)).trans ?_
  exact shapeCast_apply v shapeCasts_S512_S16x32x1 (ix3 b w (0 : Fin 1)) (ix1 ⟨b.val * 32 + w.val, hj⟩) (by
    rw [Shape.rowMajor_val_one, Shape.rowMajor_val_three]
    show b.val * 32 + w.val = (b.val * 32 + w.val) * 1 + 0
    omega)

/-- The lower half of group `b` at place `w`, column `c`: row `b · 64 + w` of the block. -/
theorem K32_lower (X : S1024x1024.Idx → EReal) (b : Fin 16) (w : Fin 32) (c : Fin 1024) (hr : b.val * 64 + w.val < 1024) :
    extractStridedSlice S16x32x1024 ![0, 0, 0] (shapeCast S16x64x1024 X shapeCasts_S1024x1024_S16x64x1024) slices_S16x64x1024_o0_0_0_S16x32x1024 (ix3 b w c)
      = X (ix2 ⟨b.val * 64 + w.val, hr⟩ c) := by
  have hb := b.isLt; have hw := w.isLt
  refine (extractStridedSlice_apply ![0, 0, 0] _ slices_S16x64x1024_o0_0_0_S16x32x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S16x64x1024 (ix3 b ⟨w.val, by omega⟩ c) (ix2 ⟨b.val * 64 + w.val, hr⟩ c) (by
    rw [Shape.rowMajor_val_two, Shape.rowMajor_val_three]
    show (b.val * 64 + w.val) * 1024 + c.val = (b.val * 64 + w.val) * 1024 + c.val
    rfl)

/-- The upper half of group `b` at place `w`, column `c`: row `b · 64 + 32 + w` of the block. -/
theorem K32_upper (X : S1024x1024.Idx → EReal) (b : Fin 16) (w : Fin 32) (c : Fin 1024) (hr : b.val * 64 + 32 + w.val < 1024) :
    extractStridedSlice S16x32x1024 ![0, 32, 0] (shapeCast S16x64x1024 X shapeCasts_S1024x1024_S16x64x1024) slices_S16x64x1024_o0_32_0_S16x32x1024 (ix3 b w c)
      = X (ix2 ⟨b.val * 64 + 32 + w.val, hr⟩ c) := by
  have hb := b.isLt; have hw := w.isLt
  refine (extractStridedSlice_apply ![0, 32, 0] _ slices_S16x64x1024_o0_32_0_S16x32x1024 (ix3 b w c) (ix3 b ⟨32 + w.val, by omega⟩ c) (fun a => match a with
    | ⟨0, _⟩ => by show b.val = 0 + b.val; omega
    | ⟨1, _⟩ => by show 32 + w.val = 32 + w.val; rfl
    | ⟨2, _⟩ => by show c.val = 0 + c.val; omega)).trans ?_
  exact shapeCast_apply X shapeCasts_S1024x1024_S16x64x1024 (ix3 b ⟨32 + w.val, by omega⟩ c) (ix2 ⟨b.val * 64 + 32 + w.val, hr⟩ c) (by
    rw [Shape.rowMajor_val_two, Shape.rowMajor_val_three]
    show (b.val * 64 + 32 + w.val) * 1024 + c.val = (b.val * 64 + (32 + w.val)) * 1024 + c.val
    omega)

/-- The kernel's layer of stride 32 at row `r`, column `c` of the block is the layer of stride 32 on column `c` at row `r`. -/
theorem K32_apply (ang : FVec Ideal S512 .f32) (X : FVec Ideal S1024x1024 .f32) (r c : Fin 1024) :
    K32 ang X (ix2 r c) = layer 32 (vec ang) (col X c) r.val := by
  have hr := r.isLt
  have hb : r.val / 64 < 16 := by omega
  have hw : r.val % 64 < 64 := by omega
  unfold K32 layer
  refine (shapeCast_apply _ shapeCasts_S16x64x1024_S1024x1024 (ix2 r c) (ix3 ⟨r.val / 64, hb⟩ ⟨r.val % 64, hw⟩ c) (by
    rw [Shape.rowMajor_val_three, Shape.rowMajor_val_two]
    show (r.val / 64 * 64 + r.val % 64) * 1024 + c.val = r.val * 1024 + c.val
    omega)).trans ?_
  by_cases hlt : r.val % (2 * 32) < 32
  · rw [if_pos hlt]
    have hlt' : r.val % 64 < 32 := by omega
    refine (concatenate_pair_apply_left 1 _ _ concatenates_S16x32x1024_S16x32x1024_S16x64x1024_d1 _ rfl
      (ix3 ⟨r.val / 64, hb⟩ ⟨r.val % 64, hlt'⟩ c) (fun a => match a with
        | ⟨0, _⟩ => rfl
        | ⟨1, _⟩ => rfl
        | ⟨2, _⟩ => rfl)).trans ?_
    rw [addf_apply, mulf_apply, mulf_apply,
      K32_coef (cos ang) ⟨r.val / 64, hb⟩ ⟨r.val % 64, hlt'⟩ c (by show r.val / 64 * 32 + r.val % 64 < 512; omega),
      K32_coef (sin ang) ⟨r.val / 64, hb⟩ ⟨r.val % 64, hlt'⟩ c (by show r.val / 64 * 32 + r.val % 64 < 512; omega),
      K32_lower X ⟨r.val / 64, hb⟩ ⟨r.val % 64, hlt'⟩ c (by show r.val / 64 * 64 + r.val % 64 < 1024; omega),
      K32_upper X ⟨r.val / 64, hb⟩ ⟨r.val % 64, hlt'⟩ c (by show r.val / 64 * 64 + 32 + r.val % 64 < 1024; omega)]
    have h2 : r.val + 32 < 1024 := by omega
    have hv : vec ang (r.val / (2 * 32) * 32 + r.val % (2 * 32)) = ang (ix1 ⟨r.val / 64 * 32 + r.val % 64, by omega⟩) := by
      unfold vec
      rw [dif_pos (by omega : r.val / (2 * 32) * 32 + r.val % (2 * 32) < 512)]
      try exact congrArg ang (congrArg ix1 (Fin.ext (by show r.val / (2 * 32) * 32 + r.val % (2 * 32) = r.val / 64 * 32 + r.val % 64; omega)))
    have hc1 : col X c r.val = X (ix2 ⟨r.val / 64 * 64 + r.val % 64, by omega⟩ c) := by
      unfold col
      rw [dif_pos hr]
      exact congrArg (fun q => X (ix2 q c)) (Fin.ext (by show r.val = r.val / 64 * 64 + r.val % 64; omega))
    have hc2 : col X c (r.val + 32) = X (ix2 ⟨r.val / 64 * 64 + 32 + r.val % 64, by omega⟩ c) := by
      unfold col
      rw [dif_pos h2]
      exact congrArg (fun q => X (ix2 q c)) (Fin.ext (by show r.val + 32 = r.val / 64 * 64 + 32 + r.val % 64; omega))
    rw [hv, hc1, hc2]
    rfl
  · rw [if_neg hlt]
    have hge : 32 ≤ r.val % 64 := by omega
    have hw' : r.val % 64 - 32 < 32 := by omega
    refine (concatenate_pair_apply_right 1 _ _ concatenates_S16x32x1024_S16x32x1024_S16x64x1024_d1 _ rfl rfl
      (ix3 ⟨r.val / 64, hb⟩ ⟨r.val % 64 - 32, hw'⟩ c) (fun a ha => match a with
        | ⟨0, _⟩ => rfl
        | ⟨1, _⟩ => absurd rfl ha
        | ⟨2, _⟩ => rfl) (by show r.val % 64 - 32 + 32 = r.val % 64; omega)).trans ?_
    rw [addf_apply, mulf_apply, mulf_apply,
      K32_coef (cos ang) ⟨r.val / 64, hb⟩ ⟨r.val % 64 - 32, hw'⟩ c (by show r.val / 64 * 32 + (r.val % 64 - 32) < 512; omega),
      K32_lower X ⟨r.val / 64, hb⟩ ⟨r.val % 64 - 32, hw'⟩ c (by show r.val / 64 * 64 + (r.val % 64 - 32) < 1024; omega),
      K32_upper X ⟨r.val / 64, hb⟩ ⟨r.val % 64 - 32, hw'⟩ c (by show r.val / 64 * 64 + 32 + (r.val % 64 - 32) < 1024; omega)]
    have hneg : broadcastTo S16x32x1024 (subf (broadcast S16x32x1 (Scalar.ofBits .f32 0x00000000#32)) (shapeCast S16x32x1 (sin ang) shapeCasts_S512_S16x32x1)) broadcasts_S16x32x1_S16x32x1024
          (ix3 ⟨r.val / 64, hb⟩ ⟨r.val % 64 - 32, hw'⟩ c)
        = -(sin ang (ix1 ⟨r.val / 64 * 32 + (r.val % 64 - 32), by omega⟩)) := by
      refine (broadcastTo_apply _ broadcasts_S16x32x1_S16x32x1024 _ (ix3 ⟨r.val / 64, hb⟩ ⟨r.val % 64 - 32, hw'⟩ (0 : Fin 1)) (fun a => match a with
        | ⟨0, _⟩ => by show r.val / 64 = if (16 : ℕ) = 1 then 0 else r.val / 64; split <;> omega
        | ⟨1, _⟩ => by show r.val % 64 - 32 = if (32 : ℕ) = 1 then 0 else r.val % 64 - 32; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S16x32x1 _ (ix1 ⟨r.val / 64 * 32 + (r.val % 64 - 32), by omega⟩) (by
        rw [Shape.rowMajor_val_one, Shape.rowMajor_val_three]
        show r.val / 64 * 32 + (r.val % 64 - 32) = (r.val / 64 * 32 + (r.val % 64 - 32)) * 1 + 0
        omega))
    rw [hneg]
    have h2 : r.val - 32 < 1024 := by omega
    have hv : vec ang (r.val / (2 * 32) * 32 + (r.val % (2 * 32) - 32)) = ang (ix1 ⟨r.val / 64 * 32 + (r.val % 64 - 32), by omega⟩) := by
      unfold vec
      rw [dif_pos (by omega : r.val / (2 * 32) * 32 + (r.val % (2 * 32) - 32) < 512)]
      try exact congrArg ang (congrArg ix1 (Fin.ext (by show r.val / (2 * 32) * 32 + (r.val % (2 * 32) - 32) = r.val / 64 * 32 + (r.val % 64 - 32); omega)))
    have hc1 : col X c (r.val - 32) = X (ix2 ⟨r.val / 64 * 64 + (r.val % 64 - 32), by omega⟩ c) := by
      unfold col
      rw [dif_pos h2]
      exact congrArg (fun q => X (ix2 q c)) (Fin.ext (by show r.val - 32 = r.val / 64 * 64 + (r.val % 64 - 32); omega))
    have hc2 : col X c r.val = X (ix2 ⟨r.val / 64 * 64 + 32 + (r.val % 64 - 32), by omega⟩ c) := by
      unfold col
      rw [dif_pos hr]
      exact congrArg (fun q => X (ix2 q c)) (Fin.ext (by show r.val = r.val / 64 * 64 + 32 + (r.val % 64 - 32); omega))
    rw [hv, hc1, hc2]
    rfl

/-- Column by column: the kernel's layer of stride 32 sends column `c` of the block to the layer of stride 32 of that column. -/
theorem K32_col (ang : FVec Ideal S512 .f32) (X : FVec Ideal S1024x1024 .f32) (c : Fin 1024) :
    col (K32 ang X) c = layerT 32 (vec ang) (col X c) := by
  funext r
  by_cases hr : r < 1024
  · show (if h : r < 1024 then K32 ang X (ix2 ⟨r, h⟩ c) else 0) = if r < 1024 then layer 32 (vec ang) (col X c) r else 0
    rw [dif_pos hr, if_pos hr]
    exact K32_apply ang X ⟨r, hr⟩ c
  · show (if h : r < 1024 then K32 ang X (ix2 ⟨r, h⟩ c) else 0) = if r < 1024 then layer 32 (vec ang) (col X c) r else 0
    rw [dif_neg hr, if_neg hr]

end Cert.KernelIdeal.Layer

end
-- ==== Proof.KLayer64.lean ====
/-
  The kernel's layer of stride 64, as the body writes it, and what it does to a column.

  The [1024, 1024] block is re-read as 8 groups of 128 rows ([8, 128, 1024]); the lower 64 rows of every group and the
  upper 64 rows are the two halves of the pairs; the 512 cosines and sines are re-read as [8, 64, 1] and repeated
  along the columns; the two rotated halves are joined group by group and the result is read as [1024, 1024] again.
  Row `r` of the result therefore sits in group `r / 128` at place `r % 128`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 64 as the kernel's body spells it, from the layer's 512 angles and the block. -/
def K64 {F : FTy → Type} [FloatOps F] (ang : FVec F S512 .f32) (X : FVec F S1024x1024 .f32) : FVec F S1024x1024 .f32 :=
  shapeCast S1024x1024
    (concatenate S8x128x1024 1
      [⟨S8x64x1024, addf
          (mulf (broadcastTo S8x64x1024 (shapeCast S8x64x1 (cos ang) shapeCasts_S512_S8x64x1) broadcasts_S8x64x1_S8x64x1024)
            (extractStridedSlice S8x64x1024 ![0, 0, 0] (shapeCast S8x128x1024 X shapeCasts_S1024x1024_S8x128x1024) slices_S8x128x1024_o0_0_0_S8x64x1024))
          (mulf (broadcastTo S8x64x1024 (shapeCast S8x64x1 (sin ang) shapeCasts_S512_S8x64x1) broadcasts_S8x64x1_S8x64x1024)
            (extractStridedSlice S8x64x1024 ![0, 64, 0] (shapeCast S8x128x1024 X shapeCasts_S1024x1024_S8x128x1024) slices_S8x128x1024_o0_64_0_S8x64x1024))⟩,
       ⟨S8x64x1024, addf
          (mulf (broadcastTo S8x64x1024 (subf (broadcast S8x64x1 (Scalar.ofBits .f32 0x00000000#32)) (shapeCast S8x64x1 (sin ang) shapeCasts_S512_S8x64x1)) broadcasts_S8x64x1_S8x64x1024)
            (extractStridedSlice S8x64x1024 ![0, 0, 0] (shapeCast S8x128x1024 X shapeCasts_S1024x1024_S8x128x1024) slices_S8x128x1024_o0_0_0_S8x64x1024))
          (mulf (broadcastTo S8x64x1024 (shapeCast S8x64x1 (cos ang) shapeCasts_S512_S8x64x1) broadcasts_S8x64x1_S8x64x1024)
            (extractStridedSlice S8x64x1024 ![0, 64, 0] (shapeCast S8x128x1024 X shapeCasts_S1024x1024_S8x128x1024) slices_S8x128x1024_o0_64_0_S8x64x1024))⟩]
      concatenates_S8x64x1024_S8x64x1024_S8x128x1024_d1)
    shapeCasts_S8x128x1024_S1024x1024

/-- A [8, 64, 1] column of coefficients repeated along the 1024 columns, read at group `b`, place `w`: the coefficient
    numbered `b · 64 + w` of the 512. -/
theorem K64_coef (v : S512.Idx → EReal) (b : Fin 8) (w : Fin 64) (c : Fin 1024) (hj : b.val * 64 + w.val < 512) :
    broadcastTo S8x64x1024 (shapeCast S8x64x1 v shapeCasts_S512_S8x64x1) broadcasts_S8x64x1_S8x64x1024 (ix3 b w c) = v (ix1 ⟨b.val * 64 + w.val, hj⟩) := by
  have hb := b.isLt; have hw := w.isLt
  refine (broadcastTo_apply _ broadcasts_S8x64x1_S8x64x1024 (ix3 b w c) (ix3 b w (0 : Fin 1)) (fun a => match a with
    | ⟨0, _⟩ => by show b.val = if (8 : ℕ) = 1 then 0 else b.val; split <;> omega
    | ⟨1, _⟩ => by show w.val = if (64 : ℕ) = 1 then 0 else w.val; split <;> omega
    | ⟨2, _⟩ => by show (0 : ℕ) = if (1 : ℕ) = 1 then 0 else c.val; rfl)).trans ?_
  exact shapeCast_apply v shapeCasts_S512_S8x64x1 (ix3 b w (0 : Fin 1)) (ix1 ⟨b.val * 64 + w.val, hj⟩) (by
    rw [Shape.rowMajor_val_one, Shape.rowMajor_val_three]
    show b.val * 64 + w.val = (b.val * 64 + w.val) * 1 + 0
    omega)

/-- The lower half of group `b` at place `w`, column `c`: row `b · 128 + w` of the block. -/
theorem K64_lower (X : S1024x1024.Idx → EReal) (b : Fin 8) (w : Fin 64) (c : Fin 1024) (hr : b.val * 128 + w.val < 1024) :
    extractStridedSlice S8x64x1024 ![0, 0, 0] (shapeCast S8x128x1024 X shapeCasts_S1024x1024_S8x128x1024) slices_S8x128x1024_o0_0_0_S8x64x1024 (ix3 b w c)
      = X (ix2 ⟨b.val * 128 + w.val, hr⟩ c) := by
  have hb := b.isLt; have hw := w.isLt
  refine (extractStridedSlice_apply ![0, 0, 0] _ slices_S8x128x1024_o0_0_0_S8x64x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S8x128x1024 (ix3 b ⟨w.val, by omega⟩ c) (ix2 ⟨b.val * 128 + w.val, hr⟩ c) (by
    rw [Shape.rowMajor_val_two, Shape.rowMajor_val_three]
    show (b.val * 128 + w.val) * 1024 + c.val = (b.val * 128 + w.val) * 1024 + c.val
    rfl)

/-- The upper half of group `b` at place `w`, column `c`: row `b · 128 + 64 + w` of the block. -/
theorem K64_upper (X : S1024x1024.Idx → EReal) (b : Fin 8) (w : Fin 64) (c : Fin 1024) (hr : b.val * 128 + 64 + w.val < 1024) :
    extractStridedSlice S8x64x1024 ![0, 64, 0] (shapeCast S8x128x1024 X shapeCasts_S1024x1024_S8x128x1024) slices_S8x128x1024_o0_64_0_S8x64x1024 (ix3 b w c)
      = X (ix2 ⟨b.val * 128 + 64 + w.val, hr⟩ c) := by
  have hb := b.isLt; have hw := w.isLt
  refine (extractStridedSlice_apply ![0, 64, 0] _ slices_S8x128x1024_o0_64_0_S8x64x1024 (ix3 b w c) (ix3 b ⟨64 + w.val, by omega⟩ c) (fun a => match a with
    | ⟨0, _⟩ => by show b.val = 0 + b.val; omega
    | ⟨1, _⟩ => by show 64 + w.val = 64 + w.val; rfl
    | ⟨2, _⟩ => by show c.val = 0 + c.val; omega)).trans ?_
  exact shapeCast_apply X shapeCasts_S1024x1024_S8x128x1024 (ix3 b ⟨64 + w.val, by omega⟩ c) (ix2 ⟨b.val * 128 + 64 + w.val, hr⟩ c) (by
    rw [Shape.rowMajor_val_two, Shape.rowMajor_val_three]
    show (b.val * 128 + 64 + w.val) * 1024 + c.val = (b.val * 128 + (64 + w.val)) * 1024 + c.val
    omega)

/-- The kernel's layer of stride 64 at row `r`, column `c` of the block is the layer of stride 64 on column `c` at row `r`. -/
theorem K64_apply (ang : FVec Ideal S512 .f32) (X : FVec Ideal S1024x1024 .f32) (r c : Fin 1024) :
    K64 ang X (ix2 r c) = layer 64 (vec ang) (col X c) r.val := by
  have hr := r.isLt
  have hb : r.val / 128 < 8 := by omega
  have hw : r.val % 128 < 128 := by omega
  unfold K64 layer
  refine (shapeCast_apply _ shapeCasts_S8x128x1024_S1024x1024 (ix2 r c) (ix3 ⟨r.val / 128, hb⟩ ⟨r.val % 128, hw⟩ c) (by
    rw [Shape.rowMajor_val_three, Shape.rowMajor_val_two]
    show (r.val / 128 * 128 + r.val % 128) * 1024 + c.val = r.val * 1024 + c.val
    omega)).trans ?_
  by_cases hlt : r.val % (2 * 64) < 64
  · rw [if_pos hlt]
    have hlt' : r.val % 128 < 64 := by omega
    refine (concatenate_pair_apply_left 1 _ _ concatenates_S8x64x1024_S8x64x1024_S8x128x1024_d1 _ rfl
      (ix3 ⟨r.val / 128, hb⟩ ⟨r.val % 128, hlt'⟩ c) (fun a => match a with
        | ⟨0, _⟩ => rfl
        | ⟨1, _⟩ => rfl
        | ⟨2, _⟩ => rfl)).trans ?_
    rw [addf_apply, mulf_apply, mulf_apply,
      K64_coef (cos ang) ⟨r.val / 128, hb⟩ ⟨r.val % 128, hlt'⟩ c (by show r.val / 128 * 64 + r.val % 128 < 512; omega),
      K64_coef (sin ang) ⟨r.val / 128, hb⟩ ⟨r.val % 128, hlt'⟩ c (by show r.val / 128 * 64 + r.val % 128 < 512; omega),
      K64_lower X ⟨r.val / 128, hb⟩ ⟨r.val % 128, hlt'⟩ c (by show r.val / 128 * 128 + r.val % 128 < 1024; omega),
      K64_upper X ⟨r.val / 128, hb⟩ ⟨r.val % 128, hlt'⟩ c (by show r.val / 128 * 128 + 64 + r.val % 128 < 1024; omega)]
    have h2 : r.val + 64 < 1024 := by omega
    have hv : vec ang (r.val / (2 * 64) * 64 + r.val % (2 * 64)) = ang (ix1 ⟨r.val / 128 * 64 + r.val % 128, by omega⟩) := by
      unfold vec
      rw [dif_pos (by omega : r.val / (2 * 64) * 64 + r.val % (2 * 64) < 512)]
      try exact congrArg ang (congrArg ix1 (Fin.ext (by show r.val / (2 * 64) * 64 + r.val % (2 * 64) = r.val / 128 * 64 + r.val % 128; omega)))
    have hc1 : col X c r.val = X (ix2 ⟨r.val / 128 * 128 + r.val % 128, by omega⟩ c) := by
      unfold col
      rw [dif_pos hr]
      exact congrArg (fun q => X (ix2 q c)) (Fin.ext (by show r.val = r.val / 128 * 128 + r.val % 128; omega))
    have hc2 : col X c (r.val + 64) = X (ix2 ⟨r.val / 128 * 128 + 64 + r.val % 128, by omega⟩ c) := by
      unfold col
      rw [dif_pos h2]
      exact congrArg (fun q => X (ix2 q c)) (Fin.ext (by show r.val + 64 = r.val / 128 * 128 + 64 + r.val % 128; omega))
    rw [hv, hc1, hc2]
    rfl
  · rw [if_neg hlt]
    have hge : 64 ≤ r.val % 128 := by omega
    have hw' : r.val % 128 - 64 < 64 := by omega
    refine (concatenate_pair_apply_right 1 _ _ concatenates_S8x64x1024_S8x64x1024_S8x128x1024_d1 _ rfl rfl
      (ix3 ⟨r.val / 128, hb⟩ ⟨r.val % 128 - 64, hw'⟩ c) (fun a ha => match a with
        | ⟨0, _⟩ => rfl
        | ⟨1, _⟩ => absurd rfl ha
        | ⟨2, _⟩ => rfl) (by show r.val % 128 - 64 + 64 = r.val % 128; omega)).trans ?_
    rw [addf_apply, mulf_apply, mulf_apply,
      K64_coef (cos ang) ⟨r.val / 128, hb⟩ ⟨r.val % 128 - 64, hw'⟩ c (by show r.val / 128 * 64 + (r.val % 128 - 64) < 512; omega),
      K64_lower X ⟨r.val / 128, hb⟩ ⟨r.val % 128 - 64, hw'⟩ c (by show r.val / 128 * 128 + (r.val % 128 - 64) < 1024; omega),
      K64_upper X ⟨r.val / 128, hb⟩ ⟨r.val % 128 - 64, hw'⟩ c (by show r.val / 128 * 128 + 64 + (r.val % 128 - 64) < 1024; omega)]
    have hneg : broadcastTo S8x64x1024 (subf (broadcast S8x64x1 (Scalar.ofBits .f32 0x00000000#32)) (shapeCast S8x64x1 (sin ang) shapeCasts_S512_S8x64x1)) broadcasts_S8x64x1_S8x64x1024
          (ix3 ⟨r.val / 128, hb⟩ ⟨r.val % 128 - 64, hw'⟩ c)
        = -(sin ang (ix1 ⟨r.val / 128 * 64 + (r.val % 128 - 64), by omega⟩)) := by
      refine (broadcastTo_apply _ broadcasts_S8x64x1_S8x64x1024 _ (ix3 ⟨r.val / 128, hb⟩ ⟨r.val % 128 - 64, hw'⟩ (0 : Fin 1)) (fun a => match a with
        | ⟨0, _⟩ => by show r.val / 128 = if (8 : ℕ) = 1 then 0 else r.val / 128; split <;> omega
        | ⟨1, _⟩ => by show r.val % 128 - 64 = if (64 : ℕ) = 1 then 0 else r.val % 128 - 64; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S8x64x1 _ (ix1 ⟨r.val / 128 * 64 + (r.val % 128 - 64), by omega⟩) (by
        rw [Shape.rowMajor_val_one, Shape.rowMajor_val_three]
        show r.val / 128 * 64 + (r.val % 128 - 64) = (r.val / 128 * 64 + (r.val % 128 - 64)) * 1 + 0
        omega))
    rw [hneg]
    have h2 : r.val - 64 < 1024 := by omega
    have hv : vec ang (r.val / (2 * 64) * 64 + (r.val % (2 * 64) - 64)) = ang (ix1 ⟨r.val / 128 * 64 + (r.val % 128 - 64), by omega⟩) := by
      unfold vec
      rw [dif_pos (by omega : r.val / (2 * 64) * 64 + (r.val % (2 * 64) - 64) < 512)]
      try exact congrArg ang (congrArg ix1 (Fin.ext (by show r.val / (2 * 64) * 64 + (r.val % (2 * 64) - 64) = r.val / 128 * 64 + (r.val % 128 - 64); omega)))
    have hc1 : col X c (r.val - 64) = X (ix2 ⟨r.val / 128 * 128 + (r.val % 128 - 64), by omega⟩ c) := by
      unfold col
      rw [dif_pos h2]
      exact congrArg (fun q => X (ix2 q c)) (Fin.ext (by show r.val - 64 = r.val / 128 * 128 + (r.val % 128 - 64); omega))
    have hc2 : col X c r.val = X (ix2 ⟨r.val / 128 * 128 + 64 + (r.val % 128 - 64), by omega⟩ c) := by
      unfold col
      rw [dif_pos hr]
      exact congrArg (fun q => X (ix2 q c)) (Fin.ext (by show r.val = r.val / 128 * 128 + 64 + (r.val % 128 - 64); omega))
    rw [hv, hc1, hc2]
    rfl

/-- Column by column: the kernel's layer of stride 64 sends column `c` of the block to the layer of stride 64 of that column. -/
theorem K64_col (ang : FVec Ideal S512 .f32) (X : FVec Ideal S1024x1024 .f32) (c : Fin 1024) :
    col (K64 ang X) c = layerT 64 (vec ang) (col X c) := by
  funext r
  by_cases hr : r < 1024
  · show (if h : r < 1024 then K64 ang X (ix2 ⟨r, h⟩ c) else 0) = if r < 1024 then layer 64 (vec ang) (col X c) r else 0
    rw [dif_pos hr, if_pos hr]
    exact K64_apply ang X ⟨r, hr⟩ c
  · show (if h : r < 1024 then K64 ang X (ix2 ⟨r, h⟩ c) else 0) = if r < 1024 then layer 64 (vec ang) (col X c) r else 0
    rw [dif_neg hr, if_neg hr]

end Cert.KernelIdeal.Layer

end
-- ==== Proof.KLayer128.lean ====
/-
  The kernel's layer of stride 128, as the body writes it, and what it does to a column.

  The [1024, 1024] block is re-read as 4 groups of 256 rows ([4, 256, 1024]); the lower 128 rows of every group and the
  upper 128 rows are the two halves of the pairs; the 512 cosines and sines are re-read as [4, 128, 1] and repeated
  along the columns; the two rotated halves are joined group by group and the result is read as [1024, 1024] again.
  Row `r` of the result therefore sits in group `r / 256` at place `r % 256`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 128 as the kernel's body spells it, from the layer's 512 angles and the block. -/
def K128 {F : FTy → Type} [FloatOps F] (ang : FVec F S512 .f32) (X : FVec F S1024x1024 .f32) : FVec F S1024x1024 .f32 :=
  shapeCast S1024x1024
    (concatenate S4x256x1024 1
      [⟨S4x128x1024, addf
          (mulf (broadcastTo S4x128x1024 (shapeCast S4x128x1 (cos ang) shapeCasts_S512_S4x128x1) broadcasts_S4x128x1_S4x128x1024)
            (extractStridedSlice S4x128x1024 ![0, 0, 0] (shapeCast S4x256x1024 X shapeCasts_S1024x1024_S4x256x1024) slices_S4x256x1024_o0_0_0_S4x128x1024))
          (mulf (broadcastTo S4x128x1024 (shapeCast S4x128x1 (sin ang) shapeCasts_S512_S4x128x1) broadcasts_S4x128x1_S4x128x1024)
            (extractStridedSlice S4x128x1024 ![0, 128, 0] (shapeCast S4x256x1024 X shapeCasts_S1024x1024_S4x256x1024) slices_S4x256x1024_o0_128_0_S4x128x1024))⟩,
       ⟨S4x128x1024, addf
          (mulf (broadcastTo S4x128x1024 (subf (broadcast S4x128x1 (Scalar.ofBits .f32 0x00000000#32)) (shapeCast S4x128x1 (sin ang) shapeCasts_S512_S4x128x1)) broadcasts_S4x128x1_S4x128x1024)
            (extractStridedSlice S4x128x1024 ![0, 0, 0] (shapeCast S4x256x1024 X shapeCasts_S1024x1024_S4x256x1024) slices_S4x256x1024_o0_0_0_S4x128x1024))
          (mulf (broadcastTo S4x128x1024 (shapeCast S4x128x1 (cos ang) shapeCasts_S512_S4x128x1) broadcasts_S4x128x1_S4x128x1024)
            (extractStridedSlice S4x128x1024 ![0, 128, 0] (shapeCast S4x256x1024 X shapeCasts_S1024x1024_S4x256x1024) slices_S4x256x1024_o0_128_0_S4x128x1024))⟩]
      concatenates_S4x128x1024_S4x128x1024_S4x256x1024_d1)
    shapeCasts_S4x256x1024_S1024x1024

/-- A [4, 128, 1] column of coefficients repeated along the 1024 columns, read at group `b`, place `w`: the coefficient
    numbered `b · 128 + w` of the 512. -/
theorem K128_coef (v : S512.Idx → EReal) (b : Fin 4) (w : Fin 128) (c : Fin 1024) (hj : b.val * 128 + w.val < 512) :
    broadcastTo S4x128x1024 (shapeCast S4x128x1 v shapeCasts_S512_S4x128x1) broadcasts_S4x128x1_S4x128x1024 (ix3 b w c) = v (ix1 ⟨b.val * 128 + w.val, hj⟩) := by
  have hb := b.isLt; have hw := w.isLt
  refine (broadcastTo_apply _ broadcasts_S4x128x1_S4x128x1024 (ix3 b w c) (ix3 b w (0 : Fin 1)) (fun a => match a with
    | ⟨0, _⟩ => by show b.val = if (4 : ℕ) = 1 then 0 else b.val; split <;> omega
    | ⟨1, _⟩ => by show w.val = if (128 : ℕ) = 1 then 0 else w.val; split <;> omega
    | ⟨2, _⟩ => by show (0 : ℕ) = if (1 : ℕ) = 1 then 0 else c.val; rfl)).trans ?_
  exact shapeCast_apply v shapeCasts_S512_S4x128x1 (ix3 b w (0 : Fin 1)) (ix1 ⟨b.val * 128 + w.val, hj⟩) (by
    rw [Shape.rowMajor_val_one, Shape.rowMajor_val_three]
    show b.val * 128 + w.val = (b.val * 128 + w.val) * 1 + 0
    omega)

/-- The lower half of group `b` at place `w`, column `c`: row `b · 256 + w` of the block. -/
theorem K128_lower (X : S1024x1024.Idx → EReal) (b : Fin 4) (w : Fin 128) (c : Fin 1024) (hr : b.val * 256 + w.val < 1024) :
    extractStridedSlice S4x128x1024 ![0, 0, 0] (shapeCast S4x256x1024 X shapeCasts_S1024x1024_S4x256x1024) slices_S4x256x1024_o0_0_0_S4x128x1024 (ix3 b w c)
      = X (ix2 ⟨b.val * 256 + w.val, hr⟩ c) := by
  have hb := b.isLt; have hw := w.isLt
  refine (extractStridedSlice_apply ![0, 0, 0] _ slices_S4x256x1024_o0_0_0_S4x128x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S4x256x1024 (ix3 b ⟨w.val, by omega⟩ c) (ix2 ⟨b.val * 256 + w.val, hr⟩ c) (by
    rw [Shape.rowMajor_val_two, Shape.rowMajor_val_three]
    show (b.val * 256 + w.val) * 1024 + c.val = (b.val * 256 + w.val) * 1024 + c.val
    rfl)

/-- The upper half of group `b` at place `w`, column `c`: row `b · 256 + 128 + w` of the block. -/
theorem K128_upper (X : S1024x1024.Idx → EReal) (b : Fin 4) (w : Fin 128) (c : Fin 1024) (hr : b.val * 256 + 128 + w.val < 1024) :
    extractStridedSlice S4x128x1024 ![0, 128, 0] (shapeCast S4x256x1024 X shapeCasts_S1024x1024_S4x256x1024) slices_S4x256x1024_o0_128_0_S4x128x1024 (ix3 b w c)
      = X (ix2 ⟨b.val * 256 + 128 + w.val, hr⟩ c) := by
  have hb := b.isLt; have hw := w.isLt
  refine (extractStridedSlice_apply ![0, 128, 0] _ slices_S4x256x1024_o0_128_0_S4x128x1024 (ix3 b w c) (ix3 b ⟨128 + w.val, by omega⟩ c) (fun a => match a with
    | ⟨0, _⟩ => by show b.val = 0 + b.val; omega
    | ⟨1, _⟩ => by show 128 + w.val = 128 + w.val; rfl
    | ⟨2, _⟩ => by show c.val = 0 + c.val; omega)).trans ?_
  exact shapeCast_apply X shapeCasts_S1024x1024_S4x256x1024 (ix3 b ⟨128 + w.val, by omega⟩ c) (ix2 ⟨b.val * 256 + 128 + w.val, hr⟩ c) (by
    rw [Shape.rowMajor_val_two, Shape.rowMajor_val_three]
    show (b.val * 256 + 128 + w.val) * 1024 + c.val = (b.val * 256 + (128 + w.val)) * 1024 + c.val
    omega)

/-- The kernel's layer of stride 128 at row `r`, column `c` of the block is the layer of stride 128 on column `c` at row `r`. -/
theorem K128_apply (ang : FVec Ideal S512 .f32) (X : FVec Ideal S1024x1024 .f32) (r c : Fin 1024) :
    K128 ang X (ix2 r c) = layer 128 (vec ang) (col X c) r.val := by
  have hr := r.isLt
  have hb : r.val / 256 < 4 := by omega
  have hw : r.val % 256 < 256 := by omega
  unfold K128 layer
  refine (shapeCast_apply _ shapeCasts_S4x256x1024_S1024x1024 (ix2 r c) (ix3 ⟨r.val / 256, hb⟩ ⟨r.val % 256, hw⟩ c) (by
    rw [Shape.rowMajor_val_three, Shape.rowMajor_val_two]
    show (r.val / 256 * 256 + r.val % 256) * 1024 + c.val = r.val * 1024 + c.val
    omega)).trans ?_
  by_cases hlt : r.val % (2 * 128) < 128
  · rw [if_pos hlt]
    have hlt' : r.val % 256 < 128 := by omega
    refine (concatenate_pair_apply_left 1 _ _ concatenates_S4x128x1024_S4x128x1024_S4x256x1024_d1 _ rfl
      (ix3 ⟨r.val / 256, hb⟩ ⟨r.val % 256, hlt'⟩ c) (fun a => match a with
        | ⟨0, _⟩ => rfl
        | ⟨1, _⟩ => rfl
        | ⟨2, _⟩ => rfl)).trans ?_
    rw [addf_apply, mulf_apply, mulf_apply,
      K128_coef (cos ang) ⟨r.val / 256, hb⟩ ⟨r.val % 256, hlt'⟩ c (by show r.val / 256 * 128 + r.val % 256 < 512; omega),
      K128_coef (sin ang) ⟨r.val / 256, hb⟩ ⟨r.val % 256, hlt'⟩ c (by show r.val / 256 * 128 + r.val % 256 < 512; omega),
      K128_lower X ⟨r.val / 256, hb⟩ ⟨r.val % 256, hlt'⟩ c (by show r.val / 256 * 256 + r.val % 256 < 1024; omega),
      K128_upper X ⟨r.val / 256, hb⟩ ⟨r.val % 256, hlt'⟩ c (by show r.val / 256 * 256 + 128 + r.val % 256 < 1024; omega)]
    have h2 : r.val + 128 < 1024 := by omega
    have hv : vec ang (r.val / (2 * 128) * 128 + r.val % (2 * 128)) = ang (ix1 ⟨r.val / 256 * 128 + r.val % 256, by omega⟩) := by
      unfold vec
      rw [dif_pos (by omega : r.val / (2 * 128) * 128 + r.val % (2 * 128) < 512)]
      try exact congrArg ang (congrArg ix1 (Fin.ext (by show r.val / (2 * 128) * 128 + r.val % (2 * 128) = r.val / 256 * 128 + r.val % 256; omega)))
    have hc1 : col X c r.val = X (ix2 ⟨r.val / 256 * 256 + r.val % 256, by omega⟩ c) := by
      unfold col
      rw [dif_pos hr]
      exact congrArg (fun q => X (ix2 q c)) (Fin.ext (by show r.val = r.val / 256 * 256 + r.val % 256; omega))
    have hc2 : col X c (r.val + 128) = X (ix2 ⟨r.val / 256 * 256 + 128 + r.val % 256, by omega⟩ c) := by
      unfold col
      rw [dif_pos h2]
      exact congrArg (fun q => X (ix2 q c)) (Fin.ext (by show r.val + 128 = r.val / 256 * 256 + 128 + r.val % 256; omega))
    rw [hv, hc1, hc2]
    rfl
  · rw [if_neg hlt]
    have hge : 128 ≤ r.val % 256 := by omega
    have hw' : r.val % 256 - 128 < 128 := by omega
    refine (concatenate_pair_apply_right 1 _ _ concatenates_S4x128x1024_S4x128x1024_S4x256x1024_d1 _ rfl rfl
      (ix3 ⟨r.val / 256, hb⟩ ⟨r.val % 256 - 128, hw'⟩ c) (fun a ha => match a with
        | ⟨0, _⟩ => rfl
        | ⟨1, _⟩ => absurd rfl ha
        | ⟨2, _⟩ => rfl) (by show r.val % 256 - 128 + 128 = r.val % 256; omega)).trans ?_
    rw [addf_apply, mulf_apply, mulf_apply,
      K128_coef (cos ang) ⟨r.val / 256, hb⟩ ⟨r.val % 256 - 128, hw'⟩ c (by show r.val / 256 * 128 + (r.val % 256 - 128) < 512; omega),
      K128_lower X ⟨r.val / 256, hb⟩ ⟨r.val % 256 - 128, hw'⟩ c (by show r.val / 256 * 256 + (r.val % 256 - 128) < 1024; omega),
      K128_upper X ⟨r.val / 256, hb⟩ ⟨r.val % 256 - 128, hw'⟩ c (by show r.val / 256 * 256 + 128 + (r.val % 256 - 128) < 1024; omega)]
    have hneg : broadcastTo S4x128x1024 (subf (broadcast S4x128x1 (Scalar.ofBits .f32 0x00000000#32)) (shapeCast S4x128x1 (sin ang) shapeCasts_S512_S4x128x1)) broadcasts_S4x128x1_S4x128x1024
          (ix3 ⟨r.val / 256, hb⟩ ⟨r.val % 256 - 128, hw'⟩ c)
        = -(sin ang (ix1 ⟨r.val / 256 * 128 + (r.val % 256 - 128), by omega⟩)) := by
      refine (broadcastTo_apply _ broadcasts_S4x128x1_S4x128x1024 _ (ix3 ⟨r.val / 256, hb⟩ ⟨r.val % 256 - 128, hw'⟩ (0 : Fin 1)) (fun a => match a with
        | ⟨0, _⟩ => by show r.val / 256 = if (4 : ℕ) = 1 then 0 else r.val / 256; split <;> omega
        | ⟨1, _⟩ => by show r.val % 256 - 128 = if (128 : ℕ) = 1 then 0 else r.val % 256 - 128; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S4x128x1 _ (ix1 ⟨r.val / 256 * 128 + (r.val % 256 - 128), by omega⟩) (by
        rw [Shape.rowMajor_val_one, Shape.rowMajor_val_three]
        show r.val / 256 * 128 + (r.val % 256 - 128) = (r.val / 256 * 128 + (r.val % 256 - 128)) * 1 + 0
        omega))
    rw [hneg]
    have h2 : r.val - 128 < 1024 := by omega
    have hv : vec ang (r.val / (2 * 128) * 128 + (r.val % (2 * 128) - 128)) = ang (ix1 ⟨r.val / 256 * 128 + (r.val % 256 - 128), by omega⟩) := by
      unfold vec
      rw [dif_pos (by omega : r.val / (2 * 128) * 128 + (r.val % (2 * 128) - 128) < 512)]
      try exact congrArg ang (congrArg ix1 (Fin.ext (by show r.val / (2 * 128) * 128 + (r.val % (2 * 128) - 128) = r.val / 256 * 128 + (r.val % 256 - 128); omega)))
    have hc1 : col X c (r.val - 128) = X (ix2 ⟨r.val / 256 * 256 + (r.val % 256 - 128), by omega⟩ c) := by
      unfold col
      rw [dif_pos h2]
      exact congrArg (fun q => X (ix2 q c)) (Fin.ext (by show r.val - 128 = r.val / 256 * 256 + (r.val % 256 - 128); omega))
    have hc2 : col X c r.val = X (ix2 ⟨r.val / 256 * 256 + 128 + (r.val % 256 - 128), by omega⟩ c) := by
      unfold col
      rw [dif_pos hr]
      exact congrArg (fun q => X (ix2 q c)) (Fin.ext (by show r.val = r.val / 256 * 256 + 128 + (r.val % 256 - 128); omega))
    rw [hv, hc1, hc2]
    rfl

/-- Column by column: the kernel's layer of stride 128 sends column `c` of the block to the layer of stride 128 of that column. -/
theorem K128_col (ang : FVec Ideal S512 .f32) (X : FVec Ideal S1024x1024 .f32) (c : Fin 1024) :
    col (K128 ang X) c = layerT 128 (vec ang) (col X c) := by
  funext r
  by_cases hr : r < 1024
  · show (if h : r < 1024 then K128 ang X (ix2 ⟨r, h⟩ c) else 0) = if r < 1024 then layer 128 (vec ang) (col X c) r else 0
    rw [dif_pos hr, if_pos hr]
    exact K128_apply ang X ⟨r, hr⟩ c
  · show (if h : r < 1024 then K128 ang X (ix2 ⟨r, h⟩ c) else 0) = if r < 1024 then layer 128 (vec ang) (col X c) r else 0
    rw [dif_neg hr, if_neg hr]

end Cert.KernelIdeal.Layer

end
-- ==== Proof.KLayer256.lean ====
/-
  The kernel's layer of stride 256, as the body writes it, and what it does to a column.

  The [1024, 1024] block is re-read as 2 groups of 512 rows ([2, 512, 1024]); the lower 256 rows of every group and the
  upper 256 rows are the two halves of the pairs; the 512 cosines and sines are re-read as [2, 256, 1] and repeated
  along the columns; the two rotated halves are joined group by group and the result is read as [1024, 1024] again.
  Row `r` of the result therefore sits in group `r / 512` at place `r % 512`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 256 as the kernel's body spells it, from the layer's 512 angles and the block. -/
def K256 {F : FTy → Type} [FloatOps F] (ang : FVec F S512 .f32) (X : FVec F S1024x1024 .f32) : FVec F S1024x1024 .f32 :=
  shapeCast S1024x1024
    (concatenate S2x512x1024 1
      [⟨S2x256x1024, addf
          (mulf (broadcastTo S2x256x1024 (shapeCast S2x256x1 (cos ang) shapeCasts_S512_S2x256x1) broadcasts_S2x256x1_S2x256x1024)
            (extractStridedSlice S2x256x1024 ![0, 0, 0] (shapeCast S2x512x1024 X shapeCasts_S1024x1024_S2x512x1024) slices_S2x512x1024_o0_0_0_S2x256x1024))
          (mulf (broadcastTo S2x256x1024 (shapeCast S2x256x1 (sin ang) shapeCasts_S512_S2x256x1) broadcasts_S2x256x1_S2x256x1024)
            (extractStridedSlice S2x256x1024 ![0, 256, 0] (shapeCast S2x512x1024 X shapeCasts_S1024x1024_S2x512x1024) slices_S2x512x1024_o0_256_0_S2x256x1024))⟩,
       ⟨S2x256x1024, addf
          (mulf (broadcastTo S2x256x1024 (subf (broadcast S2x256x1 (Scalar.ofBits .f32 0x00000000#32)) (shapeCast S2x256x1 (sin ang) shapeCasts_S512_S2x256x1)) broadcasts_S2x256x1_S2x256x1024)
            (extractStridedSlice S2x256x1024 ![0, 0, 0] (shapeCast S2x512x1024 X shapeCasts_S1024x1024_S2x512x1024) slices_S2x512x1024_o0_0_0_S2x256x1024))
          (mulf (broadcastTo S2x256x1024 (shapeCast S2x256x1 (cos ang) shapeCasts_S512_S2x256x1) broadcasts_S2x256x1_S2x256x1024)
            (extractStridedSlice S2x256x1024 ![0, 256, 0] (shapeCast S2x512x1024 X shapeCasts_S1024x1024_S2x512x1024) slices_S2x512x1024_o0_256_0_S2x256x1024))⟩]
      concatenates_S2x256x1024_S2x256x1024_S2x512x1024_d1)
    shapeCasts_S2x512x1024_S1024x1024

/-- A [2, 256, 1] column of coefficients repeated along the 1024 columns, read at group `b`, place `w`: the coefficient
    numbered `b · 256 + w` of the 512. -/
theorem K256_coef (v : S512.Idx → EReal) (b : Fin 2) (w : Fin 256) (c : Fin 1024) (hj : b.val * 256 + w.val < 512) :
    broadcastTo S2x256x1024 (shapeCast S2x256x1 v shapeCasts_S512_S2x256x1) broadcasts_S2x256x1_S2x256x1024 (ix3 b w c) = v (ix1 ⟨b.val * 256 + w.val, hj⟩) := by
  have hb := b.isLt; have hw := w.isLt
  refine (broadcastTo_apply _ broadcasts_S2x256x1_S2x256x1024 (ix3 b w c) (ix3 b w (0 : Fin 1)) (fun a => match a with
    | ⟨0, _⟩ => by show b.val = if (2 : ℕ) = 1 then 0 else b.val; split <;> omega
    | ⟨1, _⟩ => by show w.val = if (256 : ℕ) = 1 then 0 else w.val; split <;> omega
    | ⟨2, _⟩ => by show (0 : ℕ) = if (1 : ℕ) = 1 then 0 else c.val; rfl)).trans ?_
  exact shapeCast_apply v shapeCasts_S512_S2x256x1 (ix3 b w (0 : Fin 1)) (ix1 ⟨b.val * 256 + w.val, hj⟩) (by
    rw [Shape.rowMajor_val_one, Shape.rowMajor_val_three]
    show b.val * 256 + w.val = (b.val * 256 + w.val) * 1 + 0
    omega)

/-- The lower half of group `b` at place `w`, column `c`: row `b · 512 + w` of the block. -/
theorem K256_lower (X : S1024x1024.Idx → EReal) (b : Fin 2) (w : Fin 256) (c : Fin 1024) (hr : b.val * 512 + w.val < 1024) :
    extractStridedSlice S2x256x1024 ![0, 0, 0] (shapeCast S2x512x1024 X shapeCasts_S1024x1024_S2x512x1024) slices_S2x512x1024_o0_0_0_S2x256x1024 (ix3 b w c)
      = X (ix2 ⟨b.val * 512 + w.val, hr⟩ c) := by
  have hb := b.isLt; have hw := w.isLt
  refine (extractStridedSlice_apply ![0, 0, 0] _ slices_S2x512x1024_o0_0_0_S2x256x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S2x512x1024 (ix3 b ⟨w.val, by omega⟩ c) (ix2 ⟨b.val * 512 + w.val, hr⟩ c) (by
    rw [Shape.rowMajor_val_two, Shape.rowMajor_val_three]
    show (b.val * 512 + w.val) * 1024 + c.val = (b.val * 512 + w.val) * 1024 + c.val
    rfl)

/-- The upper half of group `b` at place `w`, column `c`: row `b · 512 + 256 + w` of the block. -/
theorem K256_upper (X : S1024x1024.Idx → EReal) (b : Fin 2) (w : Fin 256) (c : Fin 1024) (hr : b.val * 512 + 256 + w.val < 1024) :
    extractStridedSlice S2x256x1024 ![0, 256, 0] (shapeCast S2x512x1024 X shapeCasts_S1024x1024_S2x512x1024) slices_S2x512x1024_o0_256_0_S2x256x1024 (ix3 b w c)
      = X (ix2 ⟨b.val * 512 + 256 + w.val, hr⟩ c) := by
  have hb := b.isLt; have hw := w.isLt
  refine (extractStridedSlice_apply ![0, 256, 0] _ slices_S2x512x1024_o0_256_0_S2x256x1024 (ix3 b w c) (ix3 b ⟨256 + w.val, by omega⟩ c) (fun a => match a with
    | ⟨0, _⟩ => by show b.val = 0 + b.val; omega
    | ⟨1, _⟩ => by show 256 + w.val = 256 + w.val; rfl
    | ⟨2, _⟩ => by show c.val = 0 + c.val; omega)).trans ?_
  exact shapeCast_apply X shapeCasts_S1024x1024_S2x512x1024 (ix3 b ⟨256 + w.val, by omega⟩ c) (ix2 ⟨b.val * 512 + 256 + w.val, hr⟩ c) (by
    rw [Shape.rowMajor_val_two, Shape.rowMajor_val_three]
    show (b.val * 512 + 256 + w.val) * 1024 + c.val = (b.val * 512 + (256 + w.val)) * 1024 + c.val
    omega)

/-- The kernel's layer of stride 256 at row `r`, column `c` of the block is the layer of stride 256 on column `c` at row `r`. -/
theorem K256_apply (ang : FVec Ideal S512 .f32) (X : FVec Ideal S1024x1024 .f32) (r c : Fin 1024) :
    K256 ang X (ix2 r c) = layer 256 (vec ang) (col X c) r.val := by
  have hr := r.isLt
  have hb : r.val / 512 < 2 := by omega
  have hw : r.val % 512 < 512 := by omega
  unfold K256 layer
  refine (shapeCast_apply _ shapeCasts_S2x512x1024_S1024x1024 (ix2 r c) (ix3 ⟨r.val / 512, hb⟩ ⟨r.val % 512, hw⟩ c) (by
    rw [Shape.rowMajor_val_three, Shape.rowMajor_val_two]
    show (r.val / 512 * 512 + r.val % 512) * 1024 + c.val = r.val * 1024 + c.val
    omega)).trans ?_
  by_cases hlt : r.val % (2 * 256) < 256
  · rw [if_pos hlt]
    have hlt' : r.val % 512 < 256 := by omega
    refine (concatenate_pair_apply_left 1 _ _ concatenates_S2x256x1024_S2x256x1024_S2x512x1024_d1 _ rfl
      (ix3 ⟨r.val / 512, hb⟩ ⟨r.val % 512, hlt'⟩ c) (fun a => match a with
        | ⟨0, _⟩ => rfl
        | ⟨1, _⟩ => rfl
        | ⟨2, _⟩ => rfl)).trans ?_
    rw [addf_apply, mulf_apply, mulf_apply,
      K256_coef (cos ang) ⟨r.val / 512, hb⟩ ⟨r.val % 512, hlt'⟩ c (by show r.val / 512 * 256 + r.val % 512 < 512; omega),
      K256_coef (sin ang) ⟨r.val / 512, hb⟩ ⟨r.val % 512, hlt'⟩ c (by show r.val / 512 * 256 + r.val % 512 < 512; omega),
      K256_lower X ⟨r.val / 512, hb⟩ ⟨r.val % 512, hlt'⟩ c (by show r.val / 512 * 512 + r.val % 512 < 1024; omega),
      K256_upper X ⟨r.val / 512, hb⟩ ⟨r.val % 512, hlt'⟩ c (by show r.val / 512 * 512 + 256 + r.val % 512 < 1024; omega)]
    have h2 : r.val + 256 < 1024 := by omega
    have hv : vec ang (r.val / (2 * 256) * 256 + r.val % (2 * 256)) = ang (ix1 ⟨r.val / 512 * 256 + r.val % 512, by omega⟩) := by
      unfold vec
      rw [dif_pos (by omega : r.val / (2 * 256) * 256 + r.val % (2 * 256) < 512)]
      try exact congrArg ang (congrArg ix1 (Fin.ext (by show r.val / (2 * 256) * 256 + r.val % (2 * 256) = r.val / 512 * 256 + r.val % 512; omega)))
    have hc1 : col X c r.val = X (ix2 ⟨r.val / 512 * 512 + r.val % 512, by omega⟩ c) := by
      unfold col
      rw [dif_pos hr]
      exact congrArg (fun q => X (ix2 q c)) (Fin.ext (by show r.val = r.val / 512 * 512 + r.val % 512; omega))
    have hc2 : col X c (r.val + 256) = X (ix2 ⟨r.val / 512 * 512 + 256 + r.val % 512, by omega⟩ c) := by
      unfold col
      rw [dif_pos h2]
      exact congrArg (fun q => X (ix2 q c)) (Fin.ext (by show r.val + 256 = r.val / 512 * 512 + 256 + r.val % 512; omega))
    rw [hv, hc1, hc2]
    rfl
  · rw [if_neg hlt]
    have hge : 256 ≤ r.val % 512 := by omega
    have hw' : r.val % 512 - 256 < 256 := by omega
    refine (concatenate_pair_apply_right 1 _ _ concatenates_S2x256x1024_S2x256x1024_S2x512x1024_d1 _ rfl rfl
      (ix3 ⟨r.val / 512, hb⟩ ⟨r.val % 512 - 256, hw'⟩ c) (fun a ha => match a with
        | ⟨0, _⟩ => rfl
        | ⟨1, _⟩ => absurd rfl ha
        | ⟨2, _⟩ => rfl) (by show r.val % 512 - 256 + 256 = r.val % 512; omega)).trans ?_
    rw [addf_apply, mulf_apply, mulf_apply,
      K256_coef (cos ang) ⟨r.val / 512, hb⟩ ⟨r.val % 512 - 256, hw'⟩ c (by show r.val / 512 * 256 + (r.val % 512 - 256) < 512; omega),
      K256_lower X ⟨r.val / 512, hb⟩ ⟨r.val % 512 - 256, hw'⟩ c (by show r.val / 512 * 512 + (r.val % 512 - 256) < 1024; omega),
      K256_upper X ⟨r.val / 512, hb⟩ ⟨r.val % 512 - 256, hw'⟩ c (by show r.val / 512 * 512 + 256 + (r.val % 512 - 256) < 1024; omega)]
    have hneg : broadcastTo S2x256x1024 (subf (broadcast S2x256x1 (Scalar.ofBits .f32 0x00000000#32)) (shapeCast S2x256x1 (sin ang) shapeCasts_S512_S2x256x1)) broadcasts_S2x256x1_S2x256x1024
          (ix3 ⟨r.val / 512, hb⟩ ⟨r.val % 512 - 256, hw'⟩ c)
        = -(sin ang (ix1 ⟨r.val / 512 * 256 + (r.val % 512 - 256), by omega⟩)) := by
      refine (broadcastTo_apply _ broadcasts_S2x256x1_S2x256x1024 _ (ix3 ⟨r.val / 512, hb⟩ ⟨r.val % 512 - 256, hw'⟩ (0 : Fin 1)) (fun a => match a with
        | ⟨0, _⟩ => by show r.val / 512 = if (2 : ℕ) = 1 then 0 else r.val / 512; split <;> omega
        | ⟨1, _⟩ => by show r.val % 512 - 256 = if (256 : ℕ) = 1 then 0 else r.val % 512 - 256; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S2x256x1 _ (ix1 ⟨r.val / 512 * 256 + (r.val % 512 - 256), by omega⟩) (by
        rw [Shape.rowMajor_val_one, Shape.rowMajor_val_three]
        show r.val / 512 * 256 + (r.val % 512 - 256) = (r.val / 512 * 256 + (r.val % 512 - 256)) * 1 + 0
        omega))
    rw [hneg]
    have h2 : r.val - 256 < 1024 := by omega
    have hv : vec ang (r.val / (2 * 256) * 256 + (r.val % (2 * 256) - 256)) = ang (ix1 ⟨r.val / 512 * 256 + (r.val % 512 - 256), by omega⟩) := by
      unfold vec
      rw [dif_pos (by omega : r.val / (2 * 256) * 256 + (r.val % (2 * 256) - 256) < 512)]
      try exact congrArg ang (congrArg ix1 (Fin.ext (by show r.val / (2 * 256) * 256 + (r.val % (2 * 256) - 256) = r.val / 512 * 256 + (r.val % 512 - 256); omega)))
    have hc1 : col X c (r.val - 256) = X (ix2 ⟨r.val / 512 * 512 + (r.val % 512 - 256), by omega⟩ c) := by
      unfold col
      rw [dif_pos h2]
      exact congrArg (fun q => X (ix2 q c)) (Fin.ext (by show r.val - 256 = r.val / 512 * 512 + (r.val % 512 - 256); omega))
    have hc2 : col X c r.val = X (ix2 ⟨r.val / 512 * 512 + 256 + (r.val % 512 - 256), by omega⟩ c) := by
      unfold col
      rw [dif_pos hr]
      exact congrArg (fun q => X (ix2 q c)) (Fin.ext (by show r.val = r.val / 512 * 512 + 256 + (r.val % 512 - 256); omega))
    rw [hv, hc1, hc2]
    rfl

/-- Column by column: the kernel's layer of stride 256 sends column `c` of the block to the layer of stride 256 of that column. -/
theorem K256_col (ang : FVec Ideal S512 .f32) (X : FVec Ideal S1024x1024 .f32) (c : Fin 1024) :
    col (K256 ang X) c = layerT 256 (vec ang) (col X c) := by
  funext r
  by_cases hr : r < 1024
  · show (if h : r < 1024 then K256 ang X (ix2 ⟨r, h⟩ c) else 0) = if r < 1024 then layer 256 (vec ang) (col X c) r else 0
    rw [dif_pos hr, if_pos hr]
    exact K256_apply ang X ⟨r, hr⟩ c
  · show (if h : r < 1024 then K256 ang X (ix2 ⟨r, h⟩ c) else 0) = if r < 1024 then layer 256 (vec ang) (col X c) r else 0
    rw [dif_neg hr, if_neg hr]

end Cert.KernelIdeal.Layer

end
-- ==== Proof.KLayer512.lean ====
/-
  The kernel's layer of stride 512, as the body writes it, and what it does to a column.

  The [1024, 1024] block is re-read as 1 groups of 1024 rows ([1, 1024, 1024]); the lower 512 rows of every group and the
  upper 512 rows are the two halves of the pairs; the 512 cosines and sines are re-read as [1, 512, 1] and repeated
  along the columns; the two rotated halves are joined group by group and the result is read as [1024, 1024] again.
  Row `r` of the result therefore sits in group `r / 1024` at place `r % 1024`, and is `cos · u + sin · v` or
  `(0 − sin) · u + cos · v` of its pair `(u, v)`; `0 − sin` is `−sin` on the extended reals.
-/
import proofs.«149730_j54030688583985_1_alg».proof.Proof.Gen.KernelIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Facts₀ Cert.KernelIdeal.Facts Cert.Butterfly Idealize.ShloMosaic Idealize.ShloMosaic.ValueIdx

/-- The layer of stride 512 as the kernel's body spells it, from the layer's 512 angles and the block. -/
def K512 {F : FTy → Type} [FloatOps F] (ang : FVec F S512 .f32) (X : FVec F S1024x1024 .f32) : FVec F S1024x1024 .f32 :=
  shapeCast S1024x1024
    (concatenate S1x1024x1024 1
      [⟨S1x512x1024, addf
          (mulf (broadcastTo S1x512x1024 (shapeCast S1x512x1 (cos ang) shapeCasts_S512_S1x512x1) broadcasts_S1x512x1_S1x512x1024)
            (extractStridedSlice S1x512x1024 ![0, 0, 0] (shapeCast S1x1024x1024 X shapeCasts_S1024x1024_S1x1024x1024) slices_S1x1024x1024_o0_0_0_S1x512x1024))
          (mulf (broadcastTo S1x512x1024 (shapeCast S1x512x1 (sin ang) shapeCasts_S512_S1x512x1) broadcasts_S1x512x1_S1x512x1024)
            (extractStridedSlice S1x512x1024 ![0, 512, 0] (shapeCast S1x1024x1024 X shapeCasts_S1024x1024_S1x1024x1024) slices_S1x1024x1024_o0_512_0_S1x512x1024))⟩,
       ⟨S1x512x1024, addf
          (mulf (broadcastTo S1x512x1024 (subf (broadcast S1x512x1 (Scalar.ofBits .f32 0x00000000#32)) (shapeCast S1x512x1 (sin ang) shapeCasts_S512_S1x512x1)) broadcasts_S1x512x1_S1x512x1024)
            (extractStridedSlice S1x512x1024 ![0, 0, 0] (shapeCast S1x1024x1024 X shapeCasts_S1024x1024_S1x1024x1024) slices_S1x1024x1024_o0_0_0_S1x512x1024))
          (mulf (broadcastTo S1x512x1024 (shapeCast S1x512x1 (cos ang) shapeCasts_S512_S1x512x1) broadcasts_S1x512x1_S1x512x1024)
            (extractStridedSlice S1x512x1024 ![0, 512, 0] (shapeCast S1x1024x1024 X shapeCasts_S1024x1024_S1x1024x1024) slices_S1x1024x1024_o0_512_0_S1x512x1024))⟩]
      concatenates_S1x512x1024_S1x512x1024_S1x1024x1024_d1)
    shapeCasts_S1x1024x1024_S1024x1024

/-- A [1, 512, 1] column of coefficients repeated along the 1024 columns, read at group `b`, place `w`: the coefficient
    numbered `b · 512 + w` of the 512. -/
theorem K512_coef (v : S512.Idx → EReal) (b : Fin 1) (w : Fin 512) (c : Fin 1024) (hj : b.val * 512 + w.val < 512) :
    broadcastTo S1x512x1024 (shapeCast S1x512x1 v shapeCasts_S512_S1x512x1) broadcasts_S1x512x1_S1x512x1024 (ix3 b w c) = v (ix1 ⟨b.val * 512 + w.val, hj⟩) := by
  have hb := b.isLt; have hw := w.isLt
  refine (broadcastTo_apply _ broadcasts_S1x512x1_S1x512x1024 (ix3 b w c) (ix3 b w (0 : Fin 1)) (fun a => match a with
    | ⟨0, _⟩ => by show b.val = if (1 : ℕ) = 1 then 0 else b.val; split <;> omega
    | ⟨1, _⟩ => by show w.val = if (512 : ℕ) = 1 then 0 else w.val; split <;> omega
    | ⟨2, _⟩ => by show (0 : ℕ) = if (1 : ℕ) = 1 then 0 else c.val; rfl)).trans ?_
  exact shapeCast_apply v shapeCasts_S512_S1x512x1 (ix3 b w (0 : Fin 1)) (ix1 ⟨b.val * 512 + w.val, hj⟩) (by
    rw [Shape.rowMajor_val_one, Shape.rowMajor_val_three]
    show b.val * 512 + w.val = (b.val * 512 + w.val) * 1 + 0
    omega)

/-- The lower half of group `b` at place `w`, column `c`: row `b · 1024 + w` of the block. -/
theorem K512_lower (X : S1024x1024.Idx → EReal) (b : Fin 1) (w : Fin 512) (c : Fin 1024) (hr : b.val * 1024 + w.val < 1024) :
    extractStridedSlice S1x512x1024 ![0, 0, 0] (shapeCast S1x1024x1024 X shapeCasts_S1024x1024_S1x1024x1024) slices_S1x1024x1024_o0_0_0_S1x512x1024 (ix3 b w c)
      = X (ix2 ⟨b.val * 1024 + w.val, hr⟩ c) := by
  have hb := b.isLt; have hw := w.isLt
  refine (extractStridedSlice_apply ![0, 0, 0] _ slices_S1x1024x1024_o0_0_0_S1x512x1024 (ix3 b w c) (ix3 b ⟨w.val, by omega⟩ c) (fun a => match a with
    | ⟨0, _⟩ => by show b.val = 0 + b.val; omega
    | ⟨1, _⟩ => by show w.val = 0 + w.val; omega
    | ⟨2, _⟩ => by show c.val = 0 + c.val; omega)).trans ?_
  exact shapeCast_apply X shapeCasts_S1024x1024_S1x1024x1024 (ix3 b ⟨w.val, by omega⟩ c) (ix2 ⟨b.val * 1024 + w.val, hr⟩ c) (by
    rw [Shape.rowMajor_val_two, Shape.rowMajor_val_three]
    show (b.val * 1024 + w.val) * 1024 + c.val = (b.val * 1024 + w.val) * 1024 + c.val
    rfl)

/-- The upper half of group `b` at place `w`, column `c`: row `b · 1024 + 512 + w` of the block. -/
theorem K512_upper (X : S1024x1024.Idx → EReal) (b : Fin 1) (w : Fin 512) (c : Fin 1024) (hr : b.val * 1024 + 512 + w.val < 1024) :
    extractStridedSlice S1x512x1024 ![0, 512, 0] (shapeCast S1x1024x1024 X shapeCasts_S1024x1024_S1x1024x1024) slices_S1x1024x1024_o0_512_0_S1x512x1024 (ix3 b w c)
      = X (ix2 ⟨b.val * 1024 + 512 + w.val, hr⟩ c) := by
  have hb := b.isLt; have hw := w.isLt
  refine (extractStridedSlice_apply ![0, 512, 0] _ slices_S1x1024x1024_o0_512_0_S1x512x1024 (ix3 b w c) (ix3 b ⟨512 + w.val, by omega⟩ c) (fun a => match a with
    | ⟨0, _⟩ => by show b.val = 0 + b.val; omega
    | ⟨1, _⟩ => by show 512 + w.val = 512 + w.val; rfl
    | ⟨2, _⟩ => by show c.val = 0 + c.val; omega)).trans ?_
  exact shapeCast_apply X shapeCasts_S1024x1024_S1x1024x1024 (ix3 b ⟨512 + w.val, by omega⟩ c) (ix2 ⟨b.val * 1024 + 512 + w.val, hr⟩ c) (by
    rw [Shape.rowMajor_val_two, Shape.rowMajor_val_three]
    show (b.val * 1024 + 512 + w.val) * 1024 + c.val = (b.val * 1024 + (512 + w.val)) * 1024 + c.val
    omega)

/-- The kernel's layer of stride 512 at row `r`, column `c` of the block is the layer of stride 512 on column `c` at row `r`. -/
theorem K512_apply (ang : FVec Ideal S512 .f32) (X : FVec Ideal S1024x1024 .f32) (r c : Fin 1024) :
    K512 ang X (ix2 r c) = layer 512 (vec ang) (col X c) r.val := by
  have hr := r.isLt
  have hb : r.val / 1024 < 1 := by omega
  have hw : r.val % 1024 < 1024 := by omega
  unfold K512 layer
  refine (shapeCast_apply _ shapeCasts_S1x1024x1024_S1024x1024 (ix2 r c) (ix3 ⟨r.val / 1024, hb⟩ ⟨r.val % 1024, hw⟩ c) (by
    rw [Shape.rowMajor_val_three, Shape.rowMajor_val_two]
    show (r.val / 1024 * 1024 + r.val % 1024) * 1024 + c.val = r.val * 1024 + c.val
    omega)).trans ?_
  by_cases hlt : r.val % (2 * 512) < 512
  · rw [if_pos hlt]
    have hlt' : r.val % 1024 < 512 := by omega
    refine (concatenate_pair_apply_left 1 _ _ concatenates_S1x512x1024_S1x512x1024_S1x1024x1024_d1 _ rfl
      (ix3 ⟨r.val / 1024, hb⟩ ⟨r.val % 1024, hlt'⟩ c) (fun a => match a with
        | ⟨0, _⟩ => rfl
        | ⟨1, _⟩ => rfl
        | ⟨2, _⟩ => rfl)).trans ?_
    rw [addf_apply, mulf_apply, mulf_apply,
      K512_coef (cos ang) ⟨r.val / 1024, hb⟩ ⟨r.val % 1024, hlt'⟩ c (by show r.val / 1024 * 512 + r.val % 1024 < 512; omega),
      K512_coef (sin ang) ⟨r.val / 1024, hb⟩ ⟨r.val % 1024, hlt'⟩ c (by show r.val / 1024 * 512 + r.val % 1024 < 512; omega),
      K512_lower X ⟨r.val / 1024, hb⟩ ⟨r.val % 1024, hlt'⟩ c (by show r.val / 1024 * 1024 + r.val % 1024 < 1024; omega),
      K512_upper X ⟨r.val / 1024, hb⟩ ⟨r.val % 1024, hlt'⟩ c (by show r.val / 1024 * 1024 + 512 + r.val % 1024 < 1024; omega)]
    have h2 : r.val + 512 < 1024 := by omega
    have hv : vec ang (r.val / (2 * 512) * 512 + r.val % (2 * 512)) = ang (ix1 ⟨r.val / 1024 * 512 + r.val % 1024, by omega⟩) := by
      unfold vec
      rw [dif_pos (by omega : r.val / (2 * 512) * 512 + r.val % (2 * 512) < 512)]
      try exact congrArg ang (congrArg ix1 (Fin.ext (by show r.val / (2 * 512) * 512 + r.val % (2 * 512) = r.val / 1024 * 512 + r.val % 1024; omega)))
    have hc1 : col X c r.val = X (ix2 ⟨r.val / 1024 * 1024 + r.val % 1024, by omega⟩ c) := by
      unfold col
      rw [dif_pos hr]
      exact congrArg (fun q => X (ix2 q c)) (Fin.ext (by show r.val = r.val / 1024 * 1024 + r.val % 1024; omega))
    have hc2 : col X c (r.val + 512) = X (ix2 ⟨r.val / 1024 * 1024 + 512 + r.val % 1024, by omega⟩ c) := by
      unfold col
      rw [dif_pos h2]
      exact congrArg (fun q => X (ix2 q c)) (Fin.ext (by show r.val + 512 = r.val / 1024 * 1024 + 512 + r.val % 1024; omega))
    rw [hv, hc1, hc2]
    rfl
  · rw [if_neg hlt]
    have hge : 512 ≤ r.val % 1024 := by omega
    have hw' : r.val % 1024 - 512 < 512 := by omega
    refine (concatenate_pair_apply_right 1 _ _ concatenates_S1x512x1024_S1x512x1024_S1x1024x1024_d1 _ rfl rfl
      (ix3 ⟨r.val / 1024, hb⟩ ⟨r.val % 1024 - 512, hw'⟩ c) (fun a ha => match a with
        | ⟨0, _⟩ => rfl
        | ⟨1, _⟩ => absurd rfl ha
        | ⟨2, _⟩ => rfl) (by show r.val % 1024 - 512 + 512 = r.val % 1024; omega)).trans ?_
    rw [addf_apply, mulf_apply, mulf_apply,
      K512_coef (cos ang) ⟨r.val / 1024, hb⟩ ⟨r.val % 1024 - 512, hw'⟩ c (by show r.val / 1024 * 512 + (r.val % 1024 - 512) < 512; omega),
      K512_lower X ⟨r.val / 1024, hb⟩ ⟨r.val % 1024 - 512, hw'⟩ c (by show r.val / 1024 * 1024 + (r.val % 1024 - 512) < 1024; omega),
      K512_upper X ⟨r.val / 1024, hb⟩ ⟨r.val % 1024 - 512, hw'⟩ c (by show r.val / 1024 * 1024 + 512 + (r.val % 1024 - 512) < 1024; omega)]
    have hneg : broadcastTo S1x512x1024 (subf (broadcast S1x512x1 (Scalar.ofBits .f32 0x00000000#32)) (shapeCast S1x512x1 (sin ang) shapeCasts_S512_S1x512x1)) broadcasts_S1x512x1_S1x512x1024
          (ix3 ⟨r.val / 1024, hb⟩ ⟨r.val % 1024 - 512, hw'⟩ c)
        = -(sin ang (ix1 ⟨r.val / 1024 * 512 + (r.val % 1024 - 512), by omega⟩)) := by
      refine (broadcastTo_apply _ broadcasts_S1x512x1_S1x512x1024 _ (ix3 ⟨r.val / 1024, hb⟩ ⟨r.val % 1024 - 512, hw'⟩ (0 : Fin 1)) (fun a => match a with
        | ⟨0, _⟩ => by show r.val / 1024 = if (1 : ℕ) = 1 then 0 else r.val / 1024; split <;> omega
        | ⟨1, _⟩ => by show r.val % 1024 - 512 = if (512 : ℕ) = 1 then 0 else r.val % 1024 - 512; split <;> omega
        | ⟨2, _⟩ => by show (0 : ℕ) = if (1 : ℕ) = 1 then 0 else c.val; rfl)).trans ?_
      rw [subf_apply, broadcast_apply]
      have e0 : (Scalar.ofBits (F := Ideal) .f32 0x00000000#32 : EReal) = 0 := Ideal.ofBits_zero_f32
      rw [e0, zero_sub]
      exact congrArg Neg.neg (shapeCast_apply (sin ang) shapeCasts_S512_S1x512x1 _ (ix1 ⟨r.val / 1024 * 512 + (r.val % 1024 - 512), by omega⟩) (by
        rw [Shape.rowMajor_val_one, Shape.rowMajor_val_three]
        show r.val / 1024 * 512 + (r.val % 1024 - 512) = (r.val / 1024 * 512 + (r.val % 1024 - 512)) * 1 + 0
        omega))
    rw [hneg]
    have h2 : r.val - 512 < 1024 := by omega
    have hv : vec ang (r.val / (2 * 512) * 512 + (r.val % (2 * 512) - 512)) = ang (ix1 ⟨r.val / 1024 * 512 + (r.val % 1024 - 512), by omega⟩) := by
      unfold vec
      rw [dif_pos (by omega : r.val / (2 * 512) * 512 + (r.val % (2 * 512) - 512) < 512)]
      try exact congrArg ang (congrArg ix1 (Fin.ext (by show r.val / (2 * 512) * 512 + (r.val % (2 * 512) - 512) = r.val / 1024 * 512 + (r.val % 1024 - 512); omega)))
    have hc1 : col X c (r.val - 512) = X (ix2 ⟨r.val / 1024 * 1024 + (r.val % 1024 - 512), by omega⟩ c) := by
      unfold col
      rw [dif_pos h2]
      exact congrArg (fun q => X (ix2 q c)) (Fin.ext (by show r.val - 512 = r.val / 1024 * 1024 + (r.val % 1024 - 512); omega))
    have hc2 : col X c r.val = X (ix2 ⟨r.val / 1024 * 1024 + 512 + (r.val % 1024 - 512), by omega⟩ c) := by
      unfold col
      rw [dif_pos hr]
      exact congrArg (fun q => X (ix2 q c)) (Fin.ext (by show r.val = r.val / 1024 * 1024 + 512 + (r.val % 1024 - 512); omega))
    rw [hv, hc1, hc2]
    rfl

/-- Column by column: the kernel's layer of stride 512 sends column `c` of the block to the layer of stride 512 of that column. -/
theorem K512_col (ang : FVec Ideal S512 .f32) (X : FVec Ideal S1024x1024 .f32) (c : Fin 1024) :
    col (K512 ang X) c = layerT 512 (vec ang) (col X c) := by
  funext r
  by_cases hr : r < 1024
  · show (if h : r < 1024 then K512 ang X (ix2 ⟨r, h⟩ c) else 0) = if r < 1024 then layer 512 (vec ang) (col X c) r else 0
    rw [dif_pos hr, if_pos hr]
    exact K512_apply ang X ⟨r, hr⟩ c
  · show (if h : r < 1024 then K512 ang X (ix2 ⟨r, h⟩ c) else 0) = if r < 1024 then layer 512 (vec ang) (col X c) r else 0
    rw [dif_neg hr, if_neg hr]

end Cert.KernelIdeal.Layer

end
-- ==== Proof.KComp.lean ====
/-
  What the kernel's body stores, as the twenty layers one inside the other, and what that does to a column.

  The body loads the [1024, 1024] block and the whole [20, 512] angle table, applies the layers of strides
  1, 2, 4, …, 512, 1, 2, …, 512 in order — layer `i` with row `i` of the table — and stores the last layer's
  result over the whole output block.  Column by column each layer is the rotation layer of its stride, so column
  `c` of what is stored is the butterfly of column `c` of the block.
-/
import proofs.«149730_j54030688583985_1_alg».proof.Proof.Gen.KernelIdeal.Frame
import proofs.«149730_j54030688583985_1_alg».proof.Proof.Spec
import proofs.«149730_j54030688583985_1_alg».proof.Proof.AngleRows
import proofs.«149730_j54030688583985_1_alg».proof.Proof.KLayer1
import proofs.«149730_j54030688583985_1_alg».proof.Proof.KLayer2
import proofs.«149730_j54030688583985_1_alg».proof.Proof.KLayer4
import proofs.«149730_j54030688583985_1_alg».proof.Proof.KLayer8
import proofs.«149730_j54030688583985_1_alg».proof.Proof.KLayer16
import proofs.«149730_j54030688583985_1_alg».proof.Proof.KLayer32
import proofs.«149730_j54030688583985_1_alg».proof.Proof.KLayer64
import proofs.«149730_j54030688583985_1_alg».proof.Proof.KLayer128
import proofs.«149730_j54030688583985_1_alg».proof.Proof.KLayer256
import proofs.«149730_j54030688583985_1_alg».proof.Proof.KLayer512
import Idealize.ShloMosaic.Lib.Pipeline.Value

set_option maxRecDepth 16384

noncomputable section

namespace Cert.KernelIdeal.Comp

open Cert.KernelIdeal Cert.KernelIdeal.Gen Cert.KernelIdeal.Layer Cert.Butterfly Idealize.ShloMosaic Idealize.ShloMosaic.ValueIdx

theorem hz : (![0, 0] : Fin 2 → Nat) = fun _ => 0 := funext fun a => by fin_cases a <;> rfl

/-- The twenty layers as the body nests them, from the block `x0` and the angle table `x1`. -/
def layers {F : FTy → Type} [FloatOps F] (x0 : Vec F S1024x1024 .f32) (x1 : Vec F S20x512 .f32) : FVec F S1024x1024 .f32 :=
  (K512 (shapeCast S512 (extractStridedSlice S1x512 ![19, 0] x1 slices_S20x512_o19_0_S1x512) shapeCasts_S1x512_S512) (K256 (shapeCast S512 (extractStridedSlice S1x512 ![18, 0] x1 slices_S20x512_o18_0_S1x512) shapeCasts_S1x512_S512) (K128 (shapeCast S512 (extractStridedSlice S1x512 ![17, 0] x1 slices_S20x512_o17_0_S1x512) shapeCasts_S1x512_S512) (K64 (shapeCast S512 (extractStridedSlice S1x512 ![16, 0] x1 slices_S20x512_o16_0_S1x512) shapeCasts_S1x512_S512) (K32 (shapeCast S512 (extractStridedSlice S1x512 ![15, 0] x1 slices_S20x512_o15_0_S1x512) shapeCasts_S1x512_S512) (K16 (shapeCast S512 (extractStridedSlice S1x512 ![14, 0] x1 slices_S20x512_o14_0_S1x512) shapeCasts_S1x512_S512) (K8 (shapeCast S512 (extractStridedSlice S1x512 ![13, 0] x1 slices_S20x512_o13_0_S1x512) shapeCasts_S1x512_S512) (K4 (shapeCast S512 (extractStridedSlice S1x512 ![12, 0] x1 slices_S20x512_o12_0_S1x512) shapeCasts_S1x512_S512) (K2 (shapeCast S512 (extractStridedSlice S1x512 ![11, 0] x1 slices_S20x512_o11_0_S1x512) shapeCasts_S1x512_S512) (K1 (shapeCast S512 (extractStridedSlice S1x512 ![10, 0] x1 slices_S20x512_o10_0_S1x512) shapeCasts_S1x512_S512) (K512 (shapeCast S512 (extractStridedSlice S1x512 ![9, 0] x1 slices_S20x512_o9_0_S1x512) shapeCasts_S1x512_S512) (K256 (shapeCast S512 (extractStridedSlice S1x512 ![8, 0] x1 slices_S20x512_o8_0_S1x512) shapeCasts_S1x512_S512) (K128 (shapeCast S512 (extractStridedSlice S1x512 ![7, 0] x1 slices_S20x512_o7_0_S1x512) shapeCasts_S1x512_S512) (K64 (shapeCast S512 (extractStridedSlice S1x512 ![6, 0] x1 slices_S20x512_o6_0_S1x512) shapeCasts_S1x512_S512) (K32 (shapeCast S512 (extractStridedSlice S1x512 ![5, 0] x1 slices_S20x512_o5_0_S1x512) shapeCasts_S1x512_S512) (K16 (shapeCast S512 (extractStridedSlice S1x512 ![4, 0] x1 slices_S20x512_o4_0_S1x512) shapeCasts_S1x512_S512) (K8 (shapeCast S512 (extractStridedSlice S1x512 ![3, 0] x1 slices_S20x512_o3_0_S1x512) shapeCasts_S1x512_S512) (K4 (shapeCast S512 (extractStridedSlice S1x512 ![2, 0] x1 slices_S20x512_o2_0_S1x512) shapeCasts_S1x512_S512) (K2 (shapeCast S512 (extractStridedSlice S1x512 ![1, 0] x1 slices_S20x512_o1_0_S1x512) shapeCasts_S1x512_S512) (K1 (shapeCast S512 (extractStridedSlice S1x512 ![0, 0] x1 slices_S20x512_o0_0_S1x512) shapeCasts_S1x512_S512) x0))))))))))))))))))))

set_option maxHeartbeats 4000000 in
/-- What the body leaves in the output's buffer is the twenty layers of the two loaded blocks: the one store covers the
    whole buffer, the two loads read whole blocks, and the stored value is the layers' text, statement by statement. -/
theorem stored_eq {F : FTy → Type} [FloatOps F] (x0 : Vec F S1024x1024 .f32) (x1 : Vec F S20x512 .f32) :
    out0_2 x0 x1 = layers x0 x1 := by
  unfold out0_2
  rw [View.canon_unit_zero hz]
  simp only [View.ld_unit_zero (S := S1024x1024) hz, View.ld_unit_zero (S := S20x512) hz]
  rfl

/-- Column `c` of what the body stores is the butterfly, with the loaded angle table, of column `c` of the loaded block. -/
theorem stored_col (x0 : Vec Ideal S1024x1024 .f32) (x1 : Vec Ideal S20x512 .f32) (c : Fin 1024) :
    col (out0_2 x0 x1) c = butterfly x1 (col x0 c) := by
  rw [stored_eq]
  unfold layers butterfly
  have r0 : vec (shapeCast S512 (extractStridedSlice S1x512 ![0, 0] x1 slices_S20x512_o0_0_S1x512) shapeCasts_S1x512_S512) = angleRow x1 0 := vec_row x1 0 _ _
  have r1 : vec (shapeCast S512 (extractStridedSlice S1x512 ![1, 0] x1 slices_S20x512_o1_0_S1x512) shapeCasts_S1x512_S512) = angleRow x1 1 := vec_row x1 1 _ _
  have r2 : vec (shapeCast S512 (extractStridedSlice S1x512 ![2, 0] x1 slices_S20x512_o2_0_S1x512) shapeCasts_S1x512_S512) = angleRow x1 2 := vec_row x1 2 _ _
  have r3 : vec (shapeCast S512 (extractStridedSlice S1x512 ![3, 0] x1 slices_S20x512_o3_0_S1x512) shapeCasts_S1x512_S512) = angleRow x1 3 := vec_row x1 3 _ _
  have r4 : vec (shapeCast S512 (extractStridedSlice S1x512 ![4, 0] x1 slices_S20x512_o4_0_S1x512) shapeCasts_S1x512_S512) = angleRow x1 4 := vec_row x1 4 _ _
  have r5 : vec (shapeCast S512 (extractStridedSlice S1x512 ![5, 0] x1 slices_S20x512_o5_0_S1x512) shapeCasts_S1x512_S512) = angleRow x1 5 := vec_row x1 5 _ _
  have r6 : vec (shapeCast S512 (extractStridedSlice S1x512 ![6, 0] x1 slices_S20x512_o6_0_S1x512) shapeCasts_S1x512_S512) = angleRow x1 6 := vec_row x1 6 _ _
  have r7 : vec (shapeCast S512 (extractStridedSlice S1x512 ![7, 0] x1 slices_S20x512_o7_0_S1x512) shapeCasts_S1x512_S512) = angleRow x1 7 := vec_row x1 7 _ _
  have r8 : vec (shapeCast S512 (extractStridedSlice S1x512 ![8, 0] x1 slices_S20x512_o8_0_S1x512) shapeCasts_S1x512_S512) = angleRow x1 8 := vec_row x1 8 _ _
  have r9 : vec (shapeCast S512 (extractStridedSlice S1x512 ![9, 0] x1 slices_S20x512_o9_0_S1x512) shapeCasts_S1x512_S512) = angleRow x1 9 := vec_row x1 9 _ _
  have r10 : vec (shapeCast S512 (extractStridedSlice S1x512 ![10, 0] x1 slices_S20x512_o10_0_S1x512) shapeCasts_S1x512_S512) = angleRow x1 10 := vec_row x1 10 _ _
  have r11 : vec (shapeCast S512 (extractStridedSlice S1x512 ![11, 0] x1 slices_S20x512_o11_0_S1x512) shapeCasts_S1x512_S512) = angleRow x1 11 := vec_row x1 11 _ _
  have r12 : vec (shapeCast S512 (extractStridedSlice S1x512 ![12, 0] x1 slices_S20x512_o12_0_S1x512) shapeCasts_S1x512_S512) = angleRow x1 12 := vec_row x1 12 _ _
  have r13 : vec (shapeCast S512 (extractStridedSlice S1x512 ![13, 0] x1 slices_S20x512_o13_0_S1x512) shapeCasts_S1x512_S512) = angleRow x1 13 := vec_row x1 13 _ _
  have r14 : vec (shapeCast S512 (extractStridedSlice S1x512 ![14, 0] x1 slices_S20x512_o14_0_S1x512) shapeCasts_S1x512_S512) = angleRow x1 14 := vec_row x1 14 _ _
  have r15 : vec (shapeCast S512 (extractStridedSlice S1x512 ![15, 0] x1 slices_S20x512_o15_0_S1x512) shapeCasts_S1x512_S512) = angleRow x1 15 := vec_row x1 15 _ _
  have r16 : vec (shapeCast S512 (extractStridedSlice S1x512 ![16, 0] x1 slices_S20x512_o16_0_S1x512) shapeCasts_S1x512_S512) = angleRow x1 16 := vec_row x1 16 _ _
  have r17 : vec (shapeCast S512 (extractStridedSlice S1x512 ![17, 0] x1 slices_S20x512_o17_0_S1x512) shapeCasts_S1x512_S512) = angleRow x1 17 := vec_row x1 17 _ _
  have r18 : vec (shapeCast S512 (extractStridedSlice S1x512 ![18, 0] x1 slices_S20x512_o18_0_S1x512) shapeCasts_S1x512_S512) = angleRow x1 18 := vec_row x1 18 _ _
  have r19 : vec (shapeCast S512 (extractStridedSlice S1x512 ![19, 0] x1 slices_S20x512_o19_0_S1x512) shapeCasts_S1x512_S512) = angleRow x1 19 := vec_row x1 19 _ _
  rw [K512_col, r19, K256_col, r18, K128_col, r17, K64_col, r16, K32_col, r15, K16_col, r14, K8_col, r13, K4_col, r12, K2_col, r11, K1_col, r10, K512_col, r9, K256_col, r8, K128_col, r7, K64_col, r6, K32_col, r5, K16_col, r4, K8_col, r3, K4_col, r2, K2_col, r1, K1_col, r0]

end Cert.KernelIdeal.Comp

end
-- ==== Proof.KValue.lean ====
/-
  From the kernel's blocks to its result array.

  The grid has 8 points; point `t` loads columns `t · 1024 … t · 1024 + 1023` of the first argument (all 1024 rows)
  and the whole angle table, and writes the same columns of the result.  Since every layer acts on each column by
  itself, what point `t` writes at `(r, c)` is the butterfly of column `t · 1024 + c` of the first argument at row `r`:
  block `t` of one whole-array function.  The 8 blocks tile the array, so the array ends holding that function.
-/
import proofs.«149730_j54030688583985_1_alg».proof.Proof.Gen.KernelIdeal.Frame
import proofs.«149730_j54030688583985_1_alg».proof.Proof.Spec
import proofs.«149730_j54030688583985_1_alg».proof.Proof.KComp
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Comp Cert.Butterfly
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- At one grid point, over plain variables: if the loaded block `x0` is columns `t · 1024 …` of the array `A0` and the
    loaded table `x1` is the table `A1`, then what the body stores at `j` is the whole-array function at the array
    index `i` under `j` (same row, column `t · 1024` further). -/
theorem point_eq (x0 : Vec Ideal S1024x1024 .f32) (x1 : Vec Ideal S20x512 .f32)
    (A0 : S1024x8192.Idx → EReal) (A1 : S20x512.Idx → EReal) (t : ℕ) (ht : t < 8)
    (h0 : ∀ (p q : Fin 1024), x0 (ix2 p q) = A0 (ix2 p ⟨t * 1024 + q.val, by have := q.isLt; omega⟩))
    (h1 : ∀ y, x1 y = A1 y)
    (j : S1024x1024.Idx) (i : S1024x8192.Idx) (hi0 : (i 0).val = (j 0).val) (hi1 : (i 1).val = t * 1024 + (j 1).val) :
    out0_2 x0 x1 j = whole A0 A1 i := by
  obtain ⟨p, q, rfl⟩ : ∃ (p q : Fin 1024), j = ix2 p q := ⟨j 0, j 1, eq_ix2 j⟩
  rw [show x1 = A1 from funext h1]
  have e : out0_2 x0 A1 (ix2 p q) = col (out0_2 x0 A1) q p.val := by
    unfold col; rw [dif_pos p.isLt]
  rw [e, stored_col]
  unfold whole
  have ecol : col x0 q = col A0 ⟨(i 1).val, idx2_lt1 i⟩ := by
    funext r
    unfold col
    by_cases hr : r < 1024
    · rw [dif_pos hr, dif_pos hr, h0 ⟨r, hr⟩ q]
      exact congrArg (fun z => A0 (ix2 ⟨r, hr⟩ z)) (Fin.ext (by show t * 1024 + q.val = (i 1).val; exact hi1.symm))
    · rw [dif_neg hr, dif_neg hr]
  rw [ecol]
  exact congrArg (butterfly A1 (col A0 ⟨(i 1).val, idx2_lt1 i⟩)) (by show p.val = (i 0).val; exact hi0.symm)

/-- The printed index maps over the grid: the first argument's and the result's windows move along the columns with
    the point, the angle table's window stays. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val ∧ t.val < 8 :=
  (by decide +kernel : ∀ t : Fin grid0.N, _)

/-- Every column block is some point's. -/
theorem idx_onto : ∀ (q : Fin 8), ∃ t : Fin cfg0.N, win0_2.index t = ![0, q.val] :=
  (by decide +kernel : ∀ (q : Fin 8), ∃ t : Fin grid0.N, win0_2.index t = ![0, q.val])

/-- What point `t` writes back is block `t` of the whole-array function of the arguments as the region finds them. -/
theorem flushed_eq (c : Dev nD) (t : Fin cfg0.N) :
    (dats m 0 c).flushed 2 t = ((cfg0.win 2).blk t).view.read (Elt Ideal) (whole (V m c main_arg0) (V m c main_arg1)) := by
  show (cfg0.win 2).cut (grid0.coords t) ((dats m 0 c).after 2 t) = _
  rw [after0_2]
  obtain ⟨e0, e1, e2, e3, e4, e5, ht⟩ := idx_facts t
  funext j
  show out0_2 (iblk m c 0 t) (iblk m c 1 t) j = whole (V m c main_arg0) (V m c main_arg1) (((cfg0.win 2).blk t).view.emb j)
  refine point_eq (iblk m c 0 t) (iblk m c 1 t) (V m c main_arg0) (V m c main_arg1) t.val ht ?_ ?_ j (((cfg0.win 2).blk t).view.emb j) ?_ ?_
  · intro p q
    show V m c main_arg0 (((cfg0.win 0).blk t).view.emb (ix2 p q)) = _
    refine congrArg (V m c main_arg0) (funext fun a => Fin.ext ?_)
    match a with
    | ⟨0, _⟩ => show win0_0.index t (0 : Fin 2) * 1024 + 1 * p.val = p.val; omega
    | ⟨1, _⟩ => show win0_0.index t (1 : Fin 2) * 1024 + 1 * q.val = t.val * 1024 + q.val; omega
  · intro y
    show V m c main_arg1 (((cfg0.win 1).blk t).view.emb y) = V m c main_arg1 y
    refine congrArg (V m c main_arg1) (funext fun a => Fin.ext ?_)
    match a with
    | ⟨0, _⟩ => show win0_1.index t (0 : Fin 2) * 20 + 1 * (y 0).val = (y 0).val; omega
    | ⟨1, _⟩ => show win0_1.index t (1 : Fin 2) * 512 + 1 * (y 1).val = (y 1).val; omega
  · show win0_2.index t (0 : Fin 2) * 1024 + 1 * (j 0).val = (j 0).val; omega
  · show win0_2.index t (1 : Fin 2) * 1024 + 1 * (j 1).val = t.val * 1024 + (j 1).val; omega

/-- An index of the array is in point `t`'s block iff each coordinate is in the block's range on its axis. -/
theorem mem_blk (t : Fin cfg0.N) (i : S1024x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the array is in the block of the point numbered by its column block, `column / 1024`. -/
theorem cover (i : S1024x8192.Idx) : ∃ t : Fin cfg0.N, (cfg0.win 2).flush t = true ∧ i ∈ ((cfg0.win 2).blk t).view.set := by
  have hi0 : (i 0).val < 1024 := idx2_lt0 i
  have hi1 : (i 1).val < 8192 := idx2_lt1 i
  obtain ⟨t, ht⟩ := idx_onto ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the whole-array function of the arguments. -/
theorem final (c : Dev nD) : (dats m 0 c).arrAt 2 cfg0.N = whole (V m c main_arg0) (V m c main_arg1) :=
  (dats m 0 c).arrAt_eq_of_cover 2 (whole (V m c main_arg0) (V m c main_arg1)) (fun t _ => flushed_eq m c t) cover

/-- The kernel's run: every weakly fair execution ends with the result array at the whole-array function of the
    arguments as launched, and the arguments unchanged. -/
theorem run : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.RLayer1.lean ====
/-
  The reference's layer of stride 1, as its program writes it, and what it does to a column.

  The [1024, 8192] array is re-read as 512 groups of 2 halves of 1 rows ([512, 2, 1, 8192]); half 0 and half 1 of every
  group are the two entries of the pairs; the 512 cosines and sines are re-read as [512, 1, 1] and repeated along the
  columns; the two rotated halves are stacked group by group and the result is read as [1024, 8192] again.  Row `r`
  of the result sits in group `r / 2`, half `r % 2 / 1`, place `r % 1`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 1 as the reference spells it, from the layer's 512 angles and the array. -/
def R1 {F : FTy → Type} [FloatOps F] (ang : FVec F S512 .f32) (X : FVec F S1024x8192 .f32) : FVec F S1024x8192 .f32 :=
  shapeCast S1024x8192
    (concatenate S512x2x1x8192 1
      [⟨S512x1x1x8192, (broadcastInDim S512x1x1x8192 ![0, 2, 3] bcast_S512x1x8192_S512x1x1x8192_0_2_3 (addf (mulf (broadcastInDim S512x1x8192 ![0, 1, 2] bcast_S512x1x1_S512x1x8192_0_1_2 (shapeCast S512x1x1 (Host.cos ang) shapeCasts_S512_S512x1x1)) (shapeCast S512x1x8192 (extractStridedSlice S512x1x1x8192 ![0, 0, 0, 0] (shapeCast S512x2x1x8192 X shapeCasts_S1024x8192_S512x2x1x8192) slices_S512x2x1x8192_S512x1x1x8192_0_0_0_0) shapeCasts_S512x1x1x8192_S512x1x8192)) (mulf (broadcastInDim S512x1x8192 ![0, 1, 2] bcast_S512x1x1_S512x1x8192_0_1_2 (shapeCast S512x1x1 (Host.sin ang) shapeCasts_S512_S512x1x1)) (shapeCast S512x1x8192 (extractStridedSlice S512x1x1x8192 ![0, 1, 0, 0] (shapeCast S512x2x1x8192 X shapeCasts_S1024x8192_S512x2x1x8192) slices_S512x2x1x8192_S512x1x1x8192_0_1_0_0) shapeCasts_S512x1x1x8192_S512x1x8192))))⟩,
       ⟨S512x1x1x8192, (broadcastInDim S512x1x1x8192 ![0, 2, 3] bcast_S512x1x8192_S512x1x1x8192_0_2_3 (addf (mulf (broadcastInDim S512x1x8192 ![0, 1, 2] bcast_S512x1x1_S512x1x8192_0_1_2 (Host.negf (shapeCast S512x1x1 (Host.sin ang) shapeCasts_S512_S512x1x1))) (shapeCast S512x1x8192 (extractStridedSlice S512x1x1x8192 ![0, 0, 0, 0] (shapeCast S512x2x1x8192 X shapeCasts_S1024x8192_S512x2x1x8192) slices_S512x2x1x8192_S512x1x1x8192_0_0_0_0) shapeCasts_S512x1x1x8192_S512x1x8192)) (mulf (broadcastInDim S512x1x8192 ![0, 1, 2] bcast_S512x1x1_S512x1x8192_0_1_2 (shapeCast S512x1x1 (Host.cos ang) shapeCasts_S512_S512x1x1)) (shapeCast S512x1x8192 (extractStridedSlice S512x1x1x8192 ![0, 1, 0, 0] (shapeCast S512x2x1x8192 X shapeCasts_S1024x8192_S512x2x1x8192) slices_S512x2x1x8192_S512x1x1x8192_0_1_0_0) shapeCasts_S512x1x1x8192_S512x1x8192))))⟩]
      concatenates_S512x1x1x8192_S512x1x1x8192_S512x2x1x8192_d1)
    shapeCasts_S512x2x1x8192_S1024x8192

/-- A [512, 1, 1] column of coefficients repeated along the 8192 columns, read at group `b`, place `w`: the coefficient
    numbered `b · 1 + w` of the 512. -/
theorem R1_coef (v : S512.Idx → EReal) (b : Fin 512) (w : Fin 1) (c : Fin 8192) (hj : b.val * 1 + w.val < 512) :
    broadcastInDim S512x1x8192 ![0, 1, 2] bcast_S512x1x1_S512x1x8192_0_1_2 (shapeCast S512x1x1 v shapeCasts_S512_S512x1x1) (ix3 b w c) = v (ix1 ⟨b.val * 1 + w.val, hj⟩) := by
  have hb := b.isLt; have hw := w.isLt
  refine (broadcastInDim_apply ![0, 1, 2] bcast_S512x1x1_S512x1x8192_0_1_2 _ (ix3 b w c) (ix3 b w (0 : Fin 1)) (fun a => match a with
    | ⟨0, _⟩ => by show b.val = if (512 : ℕ) = 1 then 0 else b.val; split <;> omega
    | ⟨1, _⟩ => by show w.val = if (1 : ℕ) = 1 then 0 else w.val; split <;> omega
    | ⟨2, _⟩ => by show (0 : ℕ) = if (1 : ℕ) = 1 then 0 else c.val; rfl)).trans ?_
  exact shapeCast_apply v shapeCasts_S512_S512x1x1 (ix3 b w (0 : Fin 1)) (ix1 ⟨b.val * 1 + w.val, hj⟩) (by
    rw [Shape.rowMajor_val_one, Shape.rowMajor_val_three]
    show b.val * 1 + w.val = (b.val * 1 + w.val) * 1 + 0
    omega)

/-- Half 0 of group `b` at place `w`, column `c`: row `(b · 2 + 0) · 1 + w` of the array. -/
theorem R1_half0 (X : S1024x8192.Idx → EReal)
    (b : Fin 512) (w : Fin 1) (c : Fin 8192) (hr : (b.val * 2 + 0) * 1 + w.val < 1024) :
    shapeCast S512x1x8192 (extractStridedSlice S512x1x1x8192 ![0, 0, 0, 0] (shapeCast S512x2x1x8192 X shapeCasts_S1024x8192_S512x2x1x8192) slices_S512x2x1x8192_S512x1x1x8192_0_0_0_0) shapeCasts_S512x1x1x8192_S512x1x8192 (ix3 b w c)
      = X (ix2 ⟨(b.val * 2 + 0) * 1 + w.val, hr⟩ c) := by
  have hb := b.isLt; have hw := w.isLt
  refine (shapeCast_apply _ shapeCasts_S512x1x1x8192_S512x1x8192 (ix3 b w c) (ix4 b (0 : Fin 1) w c) (by
    rw [Shape.rowMajor_val_four, Shape.rowMajor_val_three]
    show ((b.val * 1 + 0) * 1 + w.val) * 8192 + c.val = (b.val * 1 + w.val) * 8192 + c.val
    omega)).trans ?_
  refine (extractStridedSlice_apply ![0, 0, 0, 0] _ slices_S512x2x1x8192_S512x1x1x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S512x2x1x8192 (ix4 b (0 : Fin 2) w c) (ix2 ⟨(b.val * 2 + 0) * 1 + w.val, hr⟩ c) (by
    rw [Shape.rowMajor_val_two, Shape.rowMajor_val_four]
    show ((b.val * 2 + 0) * 1 + w.val) * 8192 + c.val = ((b.val * 2 + 0) * 1 + w.val) * 8192 + c.val
    rfl)

/-- Half 1 of group `b` at place `w`, column `c`: row `(b · 2 + 1) · 1 + w` of the array. -/
theorem R1_half1 (X : S1024x8192.Idx → EReal)
    (b : Fin 512) (w : Fin 1) (c : Fin 8192) (hr : (b.val * 2 + 1) * 1 + w.val < 1024) :
    shapeCast S512x1x8192 (extractStridedSlice S512x1x1x8192 ![0, 1, 0, 0] (shapeCast S512x2x1x8192 X shapeCasts_S1024x8192_S512x2x1x8192) slices_S512x2x1x8192_S512x1x1x8192_0_1_0_0) shapeCasts_S512x1x1x8192_S512x1x8192 (ix3 b w c)
      = X (ix2 ⟨(b.val * 2 + 1) * 1 + w.val, hr⟩ c) := by
  have hb := b.isLt; have hw := w.isLt
  refine (shapeCast_apply _ shapeCasts_S512x1x1x8192_S512x1x8192 (ix3 b w c) (ix4 b (0 : Fin 1) w c) (by
    rw [Shape.rowMajor_val_four, Shape.rowMajor_val_three]
    show ((b.val * 1 + 0) * 1 + w.val) * 8192 + c.val = (b.val * 1 + w.val) * 8192 + c.val
    omega)).trans ?_
  refine (extractStridedSlice_apply ![0, 1, 0, 0] _ slices_S512x2x1x8192_S512x1x1x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S512x2x1x8192 (ix4 b (1 : Fin 2) w c) (ix2 ⟨(b.val * 2 + 1) * 1 + w.val, hr⟩ c) (by
    rw [Shape.rowMajor_val_two, Shape.rowMajor_val_four]
    show ((b.val * 2 + 1) * 1 + w.val) * 8192 + c.val = ((b.val * 2 + 1) * 1 + w.val) * 8192 + c.val
    rfl)

/-- The reference's layer of stride 1 at row `r`, column `c` is the layer of stride 1 on column `c` at row `r`. -/
theorem R1_apply (ang : FVec Ideal S512 .f32) (X : FVec Ideal S1024x8192 .f32) (r : Fin 1024) (c : Fin 8192) :
    R1 ang X (ix2 r c) = layer 1 (vec ang) (col X c) r.val := by
  have hr := r.isLt
  have hb : r.val / 2 < 512 := by omega
  have hh : r.val % 2 / 1 < 2 := by omega
  have hw : r.val % 1 < 1 := by omega
  unfold R1 layer
  refine (shapeCast_apply _ shapeCasts_S512x2x1x8192_S1024x8192 (ix2 r c) (ix4 ⟨r.val / 2, hb⟩ ⟨r.val % 2 / 1, hh⟩ ⟨r.val % 1, hw⟩ c) (by
    rw [Shape.rowMajor_val_four, Shape.rowMajor_val_two]
    show ((r.val / 2 * 2 + r.val % 2 / 1) * 1 + r.val % 1) * 8192 + c.val = r.val * 8192 + c.val
    omega)).trans ?_
  have hup : ∀ (Y : S512x1x8192.Idx → EReal) (h' : Fin 1), broadcastInDim S512x1x1x8192 ![0, 2, 3] bcast_S512x1x8192_S512x1x1x8192_0_2_3 Y (ix4 ⟨r.val / 2, hb⟩ h' ⟨r.val % 1, hw⟩ c)
      = Y (ix3 ⟨r.val / 2, hb⟩ ⟨r.val % 1, hw⟩ c) := fun Y h' =>
    broadcastInDim_apply ![0, 2, 3] bcast_S512x1x8192_S512x1x1x8192_0_2_3 Y _ (ix3 ⟨r.val / 2, hb⟩ ⟨r.val % 1, hw⟩ c) (fun a => match a with
      | ⟨0, _⟩ => by show r.val / 2 = if (512 : ℕ) = 1 then 0 else r.val / 2; split <;> omega
      | ⟨1, _⟩ => by show r.val % 1 = if (1 : ℕ) = 1 then 0 else r.val % 1; split <;> omega
      | ⟨2, _⟩ => by show c.val = if (8192 : ℕ) = 1 then 0 else c.val; split <;> omega)
  have hj : r.val / 2 * 1 + r.val % 1 < 512 := by omega
  by_cases hlt : r.val % (2 * 1) < 1
  · rw [if_pos hlt]
    have hh0 : r.val % 2 / 1 = 0 := by omega
    refine (concatenate_pair_apply_left 1 _ _ concatenates_S512x1x1x8192_S512x1x1x8192_S512x2x1x8192_d1 _ rfl
      (ix4 ⟨r.val / 2, hb⟩ (0 : Fin 1) ⟨r.val % 1, hw⟩ c) (fun a => match a with
        | ⟨0, _⟩ => rfl
        | ⟨1, _⟩ => by show (0 : ℕ) = r.val % 2 / 1; omega
        | ⟨2, _⟩ => rfl
        | ⟨3, _⟩ => rfl)).trans ?_
    rw [hup, addf_apply, mulf_apply, mulf_apply,
      R1_coef (Host.cos ang) ⟨r.val / 2, hb⟩ ⟨r.val % 1, hw⟩ c hj,
      R1_coef (Host.sin ang) ⟨r.val / 2, hb⟩ ⟨r.val % 1, hw⟩ c hj,
      R1_half0 X ⟨r.val / 2, hb⟩ ⟨r.val % 1, hw⟩ c (by show (r.val / 2 * 2 + 0) * 1 + r.val % 1 < 1024; omega),
      R1_half1 X ⟨r.val / 2, hb⟩ ⟨r.val % 1, hw⟩ c (by show (r.val / 2 * 2 + 1) * 1 + r.val % 1 < 1024; omega)]
    have h2 : r.val + 1 < 1024 := by omega
    have hv : vec ang (r.val / (2 * 1) * 1 + r.val % (2 * 1)) = ang (ix1 ⟨r.val / 2 * 1 + r.val % 1, by omega⟩) := by
      unfold vec
      rw [dif_pos (by omega : r.val / (2 * 1) * 1 + r.val % (2 * 1) < 512)]
      try exact congrArg ang (congrArg ix1 (Fin.ext (by show r.val / (2 * 1) * 1 + r.val % (2 * 1) = r.val / 2 * 1 + r.val % 1; omega)))
    have hc1 : col X c r.val = X (ix2 ⟨(r.val / 2 * 2 + 0) * 1 + r.val % 1, by omega⟩ c) := by
      unfold col
      rw [dif_pos hr]
      exact congrArg (fun q => X (ix2 q c)) (Fin.ext (by show r.val = (r.val / 2 * 2 + 0) * 1 + r.val % 1; omega))
    have hc2 : col X c (r.val + 1) = X (ix2 ⟨(r.val / 2 * 2 + 1) * 1 + r.val % 1, by omega⟩ c) := by
      unfold col
      rw [dif_pos h2]
      exact congrArg (fun q => X (ix2 q c)) (Fin.ext (by show r.val + 1 = (r.val / 2 * 2 + 1) * 1 + r.val % 1; omega))
    rw [hv, hc1, hc2]
    rfl
  · rw [if_neg hlt]
    have hh1 : r.val % 2 / 1 = 1 := by omega
    refine (concatenate_pair_apply_right 1 _ _ concatenates_S512x1x1x8192_S512x1x1x8192_S512x2x1x8192_d1 _ rfl rfl
      (ix4 ⟨r.val / 2, hb⟩ (0 : Fin 1) ⟨r.val % 1, hw⟩ c) (fun a ha => match a with
        | ⟨0, _⟩ => rfl
        | ⟨1, _⟩ => absurd rfl ha
        | ⟨2, _⟩ => rfl
        | ⟨3, _⟩ => rfl) (by show 0 + 1 = r.val % 2 / 1; omega)).trans ?_
    have hneg : broadcastInDim S512x1x8192 ![0, 1, 2] bcast_S512x1x1_S512x1x8192_0_1_2 (Host.negf (shapeCast S512x1x1 (Host.sin ang) shapeCasts_S512_S512x1x1))
          (ix3 ⟨r.val / 2, hb⟩ ⟨r.val % 1, hw⟩ c)
        = -(Host.sin ang (ix1 ⟨r.val / 2 * 1 + r.val % 1, hj⟩)) := by
      refine (broadcastInDim_apply ![0, 1, 2] bcast_S512x1x1_S512x1x8192_0_1_2 _ _ (ix3 ⟨r.val / 2, hb⟩ ⟨r.val % 1, hw⟩ (0 : Fin 1)) (fun a => match a with
        | ⟨0, _⟩ => by show r.val / 2 = if (512 : ℕ) = 1 then 0 else r.val / 2; split <;> omega
        | ⟨1, _⟩ => by show r.val % 1 = if (1 : ℕ) = 1 then 0 else r.val % 1; split <;> omega
        | ⟨2, _⟩ => by show (0 : ℕ) = if (1 : ℕ) = 1 then 0 else c.val; rfl)).trans ?_
      show -(shapeCast S512x1x1 (Host.sin ang) shapeCasts_S512_S512x1x1 (ix3 ⟨r.val / 2, hb⟩ ⟨r.val % 1, hw⟩ (0 : Fin 1))) = _
      exact congrArg Neg.neg (shapeCast_apply (Host.sin ang) shapeCasts_S512_S512x1x1 _ (ix1 ⟨r.val / 2 * 1 + r.val % 1, hj⟩) (by
        rw [Shape.rowMajor_val_one, Shape.rowMajor_val_three]
        show r.val / 2 * 1 + r.val % 1 = (r.val / 2 * 1 + r.val % 1) * 1 + 0
        omega))
    rw [hup, addf_apply, mulf_apply, mulf_apply, hneg,
      R1_coef (Host.cos ang) ⟨r.val / 2, hb⟩ ⟨r.val % 1, hw⟩ c hj,
      R1_half0 X ⟨r.val / 2, hb⟩ ⟨r.val % 1, hw⟩ c (by show (r.val / 2 * 2 + 0) * 1 + r.val % 1 < 1024; omega),
      R1_half1 X ⟨r.val / 2, hb⟩ ⟨r.val % 1, hw⟩ c (by show (r.val / 2 * 2 + 1) * 1 + r.val % 1 < 1024; omega)]
    have h2 : r.val - 1 < 1024 := by omega
    have hv : vec ang (r.val / (2 * 1) * 1 + (r.val % (2 * 1) - 1)) = ang (ix1 ⟨r.val / 2 * 1 + r.val % 1, by omega⟩) := by
      unfold vec
      rw [dif_pos (by omega : r.val / (2 * 1) * 1 + (r.val % (2 * 1) - 1) < 512)]
      try exact congrArg ang (congrArg ix1 (Fin.ext (by show r.val / (2 * 1) * 1 + (r.val % (2 * 1) - 1) = r.val / 2 * 1 + r.val % 1; omega)))
    have hc1 : col X c (r.val - 1) = X (ix2 ⟨(r.val / 2 * 2 + 0) * 1 + r.val % 1, by omega⟩ c) := by
      unfold col
      rw [dif_pos h2]
      exact congrArg (fun q => X (ix2 q c)) (Fin.ext (by show r.val - 1 = (r.val / 2 * 2 + 0) * 1 + r.val % 1; omega))
    have hc2 : col X c r.val = X (ix2 ⟨(r.val / 2 * 2 + 1) * 1 + r.val % 1, by omega⟩ c) := by
      unfold col
      rw [dif_pos hr]
      exact congrArg (fun q => X (ix2 q c)) (Fin.ext (by show r.val = (r.val / 2 * 2 + 1) * 1 + r.val % 1; omega))
    rw [hv, hc1, hc2]
    rfl

/-- Column by column: the reference's layer of stride 1 sends column `c` of the array to the layer of stride 1 of that column. -/
theorem R1_col (ang : FVec Ideal S512 .f32) (X : FVec Ideal S1024x8192 .f32) (c : Fin 8192) :
    col (R1 ang X) c = layerT 1 (vec ang) (col X c) := by
  funext r
  by_cases hr : r < 1024
  · show (if h : r < 1024 then R1 ang X (ix2 ⟨r, h⟩ c) else 0) = if r < 1024 then layer 1 (vec ang) (col X c) r else 0
    rw [dif_pos hr, if_pos hr]
    exact R1_apply ang X ⟨r, hr⟩ c
  · show (if h : r < 1024 then R1 ang X (ix2 ⟨r, h⟩ c) else 0) = if r < 1024 then layer 1 (vec ang) (col X c) r else 0
    rw [dif_neg hr, if_neg hr]

end Cert.ReferenceIdeal.Layer

end
-- ==== Proof.RLayer2.lean ====
/-
  The reference's layer of stride 2, as its program writes it, and what it does to a column.

  The [1024, 8192] array is re-read as 256 groups of 2 halves of 2 rows ([256, 2, 2, 8192]); half 0 and half 1 of every
  group are the two entries of the pairs; the 512 cosines and sines are re-read as [256, 2, 1] and repeated along the
  columns; the two rotated halves are stacked group by group and the result is read as [1024, 8192] again.  Row `r`
  of the result sits in group `r / 4`, half `r % 4 / 2`, place `r % 2`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 2 as the reference spells it, from the layer's 512 angles and the array. -/
def R2 {F : FTy → Type} [FloatOps F] (ang : FVec F S512 .f32) (X : FVec F S1024x8192 .f32) : FVec F S1024x8192 .f32 :=
  shapeCast S1024x8192
    (concatenate S256x2x2x8192 1
      [⟨S256x1x2x8192, (broadcastInDim S256x1x2x8192 ![0, 2, 3] bcast_S256x2x8192_S256x1x2x8192_0_2_3 (addf (mulf (broadcastInDim S256x2x8192 ![0, 1, 2] bcast_S256x2x1_S256x2x8192_0_1_2 (shapeCast S256x2x1 (Host.cos ang) shapeCasts_S512_S256x2x1)) (shapeCast S256x2x8192 (extractStridedSlice S256x1x2x8192 ![0, 0, 0, 0] (shapeCast S256x2x2x8192 X shapeCasts_S1024x8192_S256x2x2x8192) slices_S256x2x2x8192_S256x1x2x8192_0_0_0_0) shapeCasts_S256x1x2x8192_S256x2x8192)) (mulf (broadcastInDim S256x2x8192 ![0, 1, 2] bcast_S256x2x1_S256x2x8192_0_1_2 (shapeCast S256x2x1 (Host.sin ang) shapeCasts_S512_S256x2x1)) (shapeCast S256x2x8192 (extractStridedSlice S256x1x2x8192 ![0, 1, 0, 0] (shapeCast S256x2x2x8192 X shapeCasts_S1024x8192_S256x2x2x8192) slices_S256x2x2x8192_S256x1x2x8192_0_1_0_0) shapeCasts_S256x1x2x8192_S256x2x8192))))⟩,
       ⟨S256x1x2x8192, (broadcastInDim S256x1x2x8192 ![0, 2, 3] bcast_S256x2x8192_S256x1x2x8192_0_2_3 (addf (mulf (broadcastInDim S256x2x8192 ![0, 1, 2] bcast_S256x2x1_S256x2x8192_0_1_2 (Host.negf (shapeCast S256x2x1 (Host.sin ang) shapeCasts_S512_S256x2x1))) (shapeCast S256x2x8192 (extractStridedSlice S256x1x2x8192 ![0, 0, 0, 0] (shapeCast S256x2x2x8192 X shapeCasts_S1024x8192_S256x2x2x8192) slices_S256x2x2x8192_S256x1x2x8192_0_0_0_0) shapeCasts_S256x1x2x8192_S256x2x8192)) (mulf (broadcastInDim S256x2x8192 ![0, 1, 2] bcast_S256x2x1_S256x2x8192_0_1_2 (shapeCast S256x2x1 (Host.cos ang) shapeCasts_S512_S256x2x1)) (shapeCast S256x2x8192 (extractStridedSlice S256x1x2x8192 ![0, 1, 0, 0] (shapeCast S256x2x2x8192 X shapeCasts_S1024x8192_S256x2x2x8192) slices_S256x2x2x8192_S256x1x2x8192_0_1_0_0) shapeCasts_S256x1x2x8192_S256x2x8192))))⟩]
      concatenates_S256x1x2x8192_S256x1x2x8192_S256x2x2x8192_d1)
    shapeCasts_S256x2x2x8192_S1024x8192

/-- A [256, 2, 1] column of coefficients repeated along the 8192 columns, read at group `b`, place `w`: the coefficient
    numbered `b · 2 + w` of the 512. -/
theorem R2_coef (v : S512.Idx → EReal) (b : Fin 256) (w : Fin 2) (c : Fin 8192) (hj : b.val * 2 + w.val < 512) :
    broadcastInDim S256x2x8192 ![0, 1, 2] bcast_S256x2x1_S256x2x8192_0_1_2 (shapeCast S256x2x1 v shapeCasts_S512_S256x2x1) (ix3 b w c) = v (ix1 ⟨b.val * 2 + w.val, hj⟩) := by
  have hb := b.isLt; have hw := w.isLt
  refine (broadcastInDim_apply ![0, 1, 2] bcast_S256x2x1_S256x2x8192_0_1_2 _ (ix3 b w c) (ix3 b w (0 : Fin 1)) (fun a => match a with
    | ⟨0, _⟩ => by show b.val = if (256 : ℕ) = 1 then 0 else b.val; split <;> omega
    | ⟨1, _⟩ => by show w.val = if (2 : ℕ) = 1 then 0 else w.val; split <;> omega
    | ⟨2, _⟩ => by show (0 : ℕ) = if (1 : ℕ) = 1 then 0 else c.val; rfl)).trans ?_
  exact shapeCast_apply v shapeCasts_S512_S256x2x1 (ix3 b w (0 : Fin 1)) (ix1 ⟨b.val * 2 + w.val, hj⟩) (by
    rw [Shape.rowMajor_val_one, Shape.rowMajor_val_three]
    show b.val * 2 + w.val = (b.val * 2 + w.val) * 1 + 0
    omega)

/-- Half 0 of group `b` at place `w`, column `c`: row `(b · 2 + 0) · 2 + w` of the array. -/
theorem R2_half0 (X : S1024x8192.Idx → EReal)
    (b : Fin 256) (w : Fin 2) (c : Fin 8192) (hr : (b.val * 2 + 0) * 2 + w.val < 1024) :
    shapeCast S256x2x8192 (extractStridedSlice S256x1x2x8192 ![0, 0, 0, 0] (shapeCast S256x2x2x8192 X shapeCasts_S1024x8192_S256x2x2x8192) slices_S256x2x2x8192_S256x1x2x8192_0_0_0_0) shapeCasts_S256x1x2x8192_S256x2x8192 (ix3 b w c)
      = X (ix2 ⟨(b.val * 2 + 0) * 2 + w.val, hr⟩ c) := by
  have hb := b.isLt; have hw := w.isLt
  refine (shapeCast_apply _ shapeCasts_S256x1x2x8192_S256x2x8192 (ix3 b w c) (ix4 b (0 : Fin 1) w c) (by
    rw [Shape.rowMajor_val_four, Shape.rowMajor_val_three]
    show ((b.val * 1 + 0) * 2 + w.val) * 8192 + c.val = (b.val * 2 + w.val) * 8192 + c.val
    omega)).trans ?_
  refine (extractStridedSlice_apply ![0, 0, 0, 0] _ slices_S256x2x2x8192_S256x1x2x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S256x2x2x8192 (ix4 b (0 : Fin 2) w c) (ix2 ⟨(b.val * 2 + 0) * 2 + w.val, hr⟩ c) (by
    rw [Shape.rowMajor_val_two, Shape.rowMajor_val_four]
    show ((b.val * 2 + 0) * 2 + w.val) * 8192 + c.val = ((b.val * 2 + 0) * 2 + w.val) * 8192 + c.val
    rfl)

/-- Half 1 of group `b` at place `w`, column `c`: row `(b · 2 + 1) · 2 + w` of the array. -/
theorem R2_half1 (X : S1024x8192.Idx → EReal)
    (b : Fin 256) (w : Fin 2) (c : Fin 8192) (hr : (b.val * 2 + 1) * 2 + w.val < 1024) :
    shapeCast S256x2x8192 (extractStridedSlice S256x1x2x8192 ![0, 1, 0, 0] (shapeCast S256x2x2x8192 X shapeCasts_S1024x8192_S256x2x2x8192) slices_S256x2x2x8192_S256x1x2x8192_0_1_0_0) shapeCasts_S256x1x2x8192_S256x2x8192 (ix3 b w c)
      = X (ix2 ⟨(b.val * 2 + 1) * 2 + w.val, hr⟩ c) := by
  have hb := b.isLt; have hw := w.isLt
  refine (shapeCast_apply _ shapeCasts_S256x1x2x8192_S256x2x8192 (ix3 b w c) (ix4 b (0 : Fin 1) w c) (by
    rw [Shape.rowMajor_val_four, Shape.rowMajor_val_three]
    show ((b.val * 1 + 0) * 2 + w.val) * 8192 + c.val = (b.val * 2 + w.val) * 8192 + c.val
    omega)).trans ?_
  refine (extractStridedSlice_apply ![0, 1, 0, 0] _ slices_S256x2x2x8192_S256x1x2x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S256x2x2x8192 (ix4 b (1 : Fin 2) w c) (ix2 ⟨(b.val * 2 + 1) * 2 + w.val, hr⟩ c) (by
    rw [Shape.rowMajor_val_two, Shape.rowMajor_val_four]
    show ((b.val * 2 + 1) * 2 + w.val) * 8192 + c.val = ((b.val * 2 + 1) * 2 + w.val) * 8192 + c.val
    rfl)

/-- The reference's layer of stride 2 at row `r`, column `c` is the layer of stride 2 on column `c` at row `r`. -/
theorem R2_apply (ang : FVec Ideal S512 .f32) (X : FVec Ideal S1024x8192 .f32) (r : Fin 1024) (c : Fin 8192) :
    R2 ang X (ix2 r c) = layer 2 (vec ang) (col X c) r.val := by
  have hr := r.isLt
  have hb : r.val / 4 < 256 := by omega
  have hh : r.val % 4 / 2 < 2 := by omega
  have hw : r.val % 2 < 2 := by omega
  unfold R2 layer
  refine (shapeCast_apply _ shapeCasts_S256x2x2x8192_S1024x8192 (ix2 r c) (ix4 ⟨r.val / 4, hb⟩ ⟨r.val % 4 / 2, hh⟩ ⟨r.val % 2, hw⟩ c) (by
    rw [Shape.rowMajor_val_four, Shape.rowMajor_val_two]
    show ((r.val / 4 * 2 + r.val % 4 / 2) * 2 + r.val % 2) * 8192 + c.val = r.val * 8192 + c.val
    omega)).trans ?_
  have hup : ∀ (Y : S256x2x8192.Idx → EReal) (h' : Fin 1), broadcastInDim S256x1x2x8192 ![0, 2, 3] bcast_S256x2x8192_S256x1x2x8192_0_2_3 Y (ix4 ⟨r.val / 4, hb⟩ h' ⟨r.val % 2, hw⟩ c)
      = Y (ix3 ⟨r.val / 4, hb⟩ ⟨r.val % 2, hw⟩ c) := fun Y h' =>
    broadcastInDim_apply ![0, 2, 3] bcast_S256x2x8192_S256x1x2x8192_0_2_3 Y _ (ix3 ⟨r.val / 4, hb⟩ ⟨r.val % 2, hw⟩ c) (fun a => match a with
      | ⟨0, _⟩ => by show r.val / 4 = if (256 : ℕ) = 1 then 0 else r.val / 4; split <;> omega
      | ⟨1, _⟩ => by show r.val % 2 = if (2 : ℕ) = 1 then 0 else r.val % 2; split <;> omega
      | ⟨2, _⟩ => by show c.val = if (8192 : ℕ) = 1 then 0 else c.val; split <;> omega)
  have hj : r.val / 4 * 2 + r.val % 2 < 512 := by omega
  by_cases hlt : r.val % (2 * 2) < 2
  · rw [if_pos hlt]
    have hh0 : r.val % 4 / 2 = 0 := by omega
    refine (concatenate_pair_apply_left 1 _ _ concatenates_S256x1x2x8192_S256x1x2x8192_S256x2x2x8192_d1 _ rfl
      (ix4 ⟨r.val / 4, hb⟩ (0 : Fin 1) ⟨r.val % 2, hw⟩ c) (fun a => match a with
        | ⟨0, _⟩ => rfl
        | ⟨1, _⟩ => by show (0 : ℕ) = r.val % 4 / 2; omega
        | ⟨2, _⟩ => rfl
        | ⟨3, _⟩ => rfl)).trans ?_
    rw [hup, addf_apply, mulf_apply, mulf_apply,
      R2_coef (Host.cos ang) ⟨r.val / 4, hb⟩ ⟨r.val % 2, hw⟩ c hj,
      R2_coef (Host.sin ang) ⟨r.val / 4, hb⟩ ⟨r.val % 2, hw⟩ c hj,
      R2_half0 X ⟨r.val / 4, hb⟩ ⟨r.val % 2, hw⟩ c (by show (r.val / 4 * 2 + 0) * 2 + r.val % 2 < 1024; omega),
      R2_half1 X ⟨r.val / 4, hb⟩ ⟨r.val % 2, hw⟩ c (by show (r.val / 4 * 2 + 1) * 2 + r.val % 2 < 1024; omega)]
    have h2 : r.val + 2 < 1024 := by omega
    have hv : vec ang (r.val / (2 * 2) * 2 + r.val % (2 * 2)) = ang (ix1 ⟨r.val / 4 * 2 + r.val % 2, by omega⟩) := by
      unfold vec
      rw [dif_pos (by omega : r.val / (2 * 2) * 2 + r.val % (2 * 2) < 512)]
      try exact congrArg ang (congrArg ix1 (Fin.ext (by show r.val / (2 * 2) * 2 + r.val % (2 * 2) = r.val / 4 * 2 + r.val % 2; omega)))
    have hc1 : col X c r.val = X (ix2 ⟨(r.val / 4 * 2 + 0) * 2 + r.val % 2, by omega⟩ c) := by
      unfold col
      rw [dif_pos hr]
      exact congrArg (fun q => X (ix2 q c)) (Fin.ext (by show r.val = (r.val / 4 * 2 + 0) * 2 + r.val % 2; omega))
    have hc2 : col X c (r.val + 2) = X (ix2 ⟨(r.val / 4 * 2 + 1) * 2 + r.val % 2, by omega⟩ c) := by
      unfold col
      rw [dif_pos h2]
      exact congrArg (fun q => X (ix2 q c)) (Fin.ext (by show r.val + 2 = (r.val / 4 * 2 + 1) * 2 + r.val % 2; omega))
    rw [hv, hc1, hc2]
    rfl
  · rw [if_neg hlt]
    have hh1 : r.val % 4 / 2 = 1 := by omega
    refine (concatenate_pair_apply_right 1 _ _ concatenates_S256x1x2x8192_S256x1x2x8192_S256x2x2x8192_d1 _ rfl rfl
      (ix4 ⟨r.val / 4, hb⟩ (0 : Fin 1) ⟨r.val % 2, hw⟩ c) (fun a ha => match a with
        | ⟨0, _⟩ => rfl
        | ⟨1, _⟩ => absurd rfl ha
        | ⟨2, _⟩ => rfl
        | ⟨3, _⟩ => rfl) (by show 0 + 1 = r.val % 4 / 2; omega)).trans ?_
    have hneg : broadcastInDim S256x2x8192 ![0, 1, 2] bcast_S256x2x1_S256x2x8192_0_1_2 (Host.negf (shapeCast S256x2x1 (Host.sin ang) shapeCasts_S512_S256x2x1))
          (ix3 ⟨r.val / 4, hb⟩ ⟨r.val % 2, hw⟩ c)
        = -(Host.sin ang (ix1 ⟨r.val / 4 * 2 + r.val % 2, hj⟩)) := by
      refine (broadcastInDim_apply ![0, 1, 2] bcast_S256x2x1_S256x2x8192_0_1_2 _ _ (ix3 ⟨r.val / 4, hb⟩ ⟨r.val % 2, hw⟩ (0 : Fin 1)) (fun a => match a with
        | ⟨0, _⟩ => by show r.val / 4 = if (256 : ℕ) = 1 then 0 else r.val / 4; split <;> omega
        | ⟨1, _⟩ => by show r.val % 2 = if (2 : ℕ) = 1 then 0 else r.val % 2; split <;> omega
        | ⟨2, _⟩ => by show (0 : ℕ) = if (1 : ℕ) = 1 then 0 else c.val; rfl)).trans ?_
      show -(shapeCast S256x2x1 (Host.sin ang) shapeCasts_S512_S256x2x1 (ix3 ⟨r.val / 4, hb⟩ ⟨r.val % 2, hw⟩ (0 : Fin 1))) = _
      exact congrArg Neg.neg (shapeCast_apply (Host.sin ang) shapeCasts_S512_S256x2x1 _ (ix1 ⟨r.val / 4 * 2 + r.val % 2, hj⟩) (by
        rw [Shape.rowMajor_val_one, Shape.rowMajor_val_three]
        show r.val / 4 * 2 + r.val % 2 = (r.val / 4 * 2 + r.val % 2) * 1 + 0
        omega))
    rw [hup, addf_apply, mulf_apply, mulf_apply, hneg,
      R2_coef (Host.cos ang) ⟨r.val / 4, hb⟩ ⟨r.val % 2, hw⟩ c hj,
      R2_half0 X ⟨r.val / 4, hb⟩ ⟨r.val % 2, hw⟩ c (by show (r.val / 4 * 2 + 0) * 2 + r.val % 2 < 1024; omega),
      R2_half1 X ⟨r.val / 4, hb⟩ ⟨r.val % 2, hw⟩ c (by show (r.val / 4 * 2 + 1) * 2 + r.val % 2 < 1024; omega)]
    have h2 : r.val - 2 < 1024 := by omega
    have hv : vec ang (r.val / (2 * 2) * 2 + (r.val % (2 * 2) - 2)) = ang (ix1 ⟨r.val / 4 * 2 + r.val % 2, by omega⟩) := by
      unfold vec
      rw [dif_pos (by omega : r.val / (2 * 2) * 2 + (r.val % (2 * 2) - 2) < 512)]
      try exact congrArg ang (congrArg ix1 (Fin.ext (by show r.val / (2 * 2) * 2 + (r.val % (2 * 2) - 2) = r.val / 4 * 2 + r.val % 2; omega)))
    have hc1 : col X c (r.val - 2) = X (ix2 ⟨(r.val / 4 * 2 + 0) * 2 + r.val % 2, by omega⟩ c) := by
      unfold col
      rw [dif_pos h2]
      exact congrArg (fun q => X (ix2 q c)) (Fin.ext (by show r.val - 2 = (r.val / 4 * 2 + 0) * 2 + r.val % 2; omega))
    have hc2 : col X c r.val = X (ix2 ⟨(r.val / 4 * 2 + 1) * 2 + r.val % 2, by omega⟩ c) := by
      unfold col
      rw [dif_pos hr]
      exact congrArg (fun q => X (ix2 q c)) (Fin.ext (by show r.val = (r.val / 4 * 2 + 1) * 2 + r.val % 2; omega))
    rw [hv, hc1, hc2]
    rfl

/-- Column by column: the reference's layer of stride 2 sends column `c` of the array to the layer of stride 2 of that column. -/
theorem R2_col (ang : FVec Ideal S512 .f32) (X : FVec Ideal S1024x8192 .f32) (c : Fin 8192) :
    col (R2 ang X) c = layerT 2 (vec ang) (col X c) := by
  funext r
  by_cases hr : r < 1024
  · show (if h : r < 1024 then R2 ang X (ix2 ⟨r, h⟩ c) else 0) = if r < 1024 then layer 2 (vec ang) (col X c) r else 0
    rw [dif_pos hr, if_pos hr]
    exact R2_apply ang X ⟨r, hr⟩ c
  · show (if h : r < 1024 then R2 ang X (ix2 ⟨r, h⟩ c) else 0) = if r < 1024 then layer 2 (vec ang) (col X c) r else 0
    rw [dif_neg hr, if_neg hr]

end Cert.ReferenceIdeal.Layer

end
-- ==== Proof.RLayer4.lean ====
/-
  The reference's layer of stride 4, as its program writes it, and what it does to a column.

  The [1024, 8192] array is re-read as 128 groups of 2 halves of 4 rows ([128, 2, 4, 8192]); half 0 and half 1 of every
  group are the two entries of the pairs; the 512 cosines and sines are re-read as [128, 4, 1] and repeated along the
  columns; the two rotated halves are stacked group by group and the result is read as [1024, 8192] again.  Row `r`
  of the result sits in group `r / 8`, half `r % 8 / 4`, place `r % 4`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 4 as the reference spells it, from the layer's 512 angles and the array. -/
def R4 {F : FTy → Type} [FloatOps F] (ang : FVec F S512 .f32) (X : FVec F S1024x8192 .f32) : FVec F S1024x8192 .f32 :=
  shapeCast S1024x8192
    (concatenate S128x2x4x8192 1
      [⟨S128x1x4x8192, (broadcastInDim S128x1x4x8192 ![0, 2, 3] bcast_S128x4x8192_S128x1x4x8192_0_2_3 (addf (mulf (broadcastInDim S128x4x8192 ![0, 1, 2] bcast_S128x4x1_S128x4x8192_0_1_2 (shapeCast S128x4x1 (Host.cos ang) shapeCasts_S512_S128x4x1)) (shapeCast S128x4x8192 (extractStridedSlice S128x1x4x8192 ![0, 0, 0, 0] (shapeCast S128x2x4x8192 X shapeCasts_S1024x8192_S128x2x4x8192) slices_S128x2x4x8192_S128x1x4x8192_0_0_0_0) shapeCasts_S128x1x4x8192_S128x4x8192)) (mulf (broadcastInDim S128x4x8192 ![0, 1, 2] bcast_S128x4x1_S128x4x8192_0_1_2 (shapeCast S128x4x1 (Host.sin ang) shapeCasts_S512_S128x4x1)) (shapeCast S128x4x8192 (extractStridedSlice S128x1x4x8192 ![0, 1, 0, 0] (shapeCast S128x2x4x8192 X shapeCasts_S1024x8192_S128x2x4x8192) slices_S128x2x4x8192_S128x1x4x8192_0_1_0_0) shapeCasts_S128x1x4x8192_S128x4x8192))))⟩,
       ⟨S128x1x4x8192, (broadcastInDim S128x1x4x8192 ![0, 2, 3] bcast_S128x4x8192_S128x1x4x8192_0_2_3 (addf (mulf (broadcastInDim S128x4x8192 ![0, 1, 2] bcast_S128x4x1_S128x4x8192_0_1_2 (Host.negf (shapeCast S128x4x1 (Host.sin ang) shapeCasts_S512_S128x4x1))) (shapeCast S128x4x8192 (extractStridedSlice S128x1x4x8192 ![0, 0, 0, 0] (shapeCast S128x2x4x8192 X shapeCasts_S1024x8192_S128x2x4x8192) slices_S128x2x4x8192_S128x1x4x8192_0_0_0_0) shapeCasts_S128x1x4x8192_S128x4x8192)) (mulf (broadcastInDim S128x4x8192 ![0, 1, 2] bcast_S128x4x1_S128x4x8192_0_1_2 (shapeCast S128x4x1 (Host.cos ang) shapeCasts_S512_S128x4x1)) (shapeCast S128x4x8192 (extractStridedSlice S128x1x4x8192 ![0, 1, 0, 0] (shapeCast S128x2x4x8192 X shapeCasts_S1024x8192_S128x2x4x8192) slices_S128x2x4x8192_S128x1x4x8192_0_1_0_0) shapeCasts_S128x1x4x8192_S128x4x8192))))⟩]
      concatenates_S128x1x4x8192_S128x1x4x8192_S128x2x4x8192_d1)
    shapeCasts_S128x2x4x8192_S1024x8192

/-- A [128, 4, 1] column of coefficients repeated along the 8192 columns, read at group `b`, place `w`: the coefficient
    numbered `b · 4 + w` of the 512. -/
theorem R4_coef (v : S512.Idx → EReal) (b : Fin 128) (w : Fin 4) (c : Fin 8192) (hj : b.val * 4 + w.val < 512) :
    broadcastInDim S128x4x8192 ![0, 1, 2] bcast_S128x4x1_S128x4x8192_0_1_2 (shapeCast S128x4x1 v shapeCasts_S512_S128x4x1) (ix3 b w c) = v (ix1 ⟨b.val * 4 + w.val, hj⟩) := by
  have hb := b.isLt; have hw := w.isLt
  refine (broadcastInDim_apply ![0, 1, 2] bcast_S128x4x1_S128x4x8192_0_1_2 _ (ix3 b w c) (ix3 b w (0 : Fin 1)) (fun a => match a with
    | ⟨0, _⟩ => by show b.val = if (128 : ℕ) = 1 then 0 else b.val; split <;> omega
    | ⟨1, _⟩ => by show w.val = if (4 : ℕ) = 1 then 0 else w.val; split <;> omega
    | ⟨2, _⟩ => by show (0 : ℕ) = if (1 : ℕ) = 1 then 0 else c.val; rfl)).trans ?_
  exact shapeCast_apply v shapeCasts_S512_S128x4x1 (ix3 b w (0 : Fin 1)) (ix1 ⟨b.val * 4 + w.val, hj⟩) (by
    rw [Shape.rowMajor_val_one, Shape.rowMajor_val_three]
    show b.val * 4 + w.val = (b.val * 4 + w.val) * 1 + 0
    omega)

/-- Half 0 of group `b` at place `w`, column `c`: row `(b · 2 + 0) · 4 + w` of the array. -/
theorem R4_half0 (X : S1024x8192.Idx → EReal)
    (b : Fin 128) (w : Fin 4) (c : Fin 8192) (hr : (b.val * 2 + 0) * 4 + w.val < 1024) :
    shapeCast S128x4x8192 (extractStridedSlice S128x1x4x8192 ![0, 0, 0, 0] (shapeCast S128x2x4x8192 X shapeCasts_S1024x8192_S128x2x4x8192) slices_S128x2x4x8192_S128x1x4x8192_0_0_0_0) shapeCasts_S128x1x4x8192_S128x4x8192 (ix3 b w c)
      = X (ix2 ⟨(b.val * 2 + 0) * 4 + w.val, hr⟩ c) := by
  have hb := b.isLt; have hw := w.isLt
  refine (shapeCast_apply _ shapeCasts_S128x1x4x8192_S128x4x8192 (ix3 b w c) (ix4 b (0 : Fin 1) w c) (by
    rw [Shape.rowMajor_val_four, Shape.rowMajor_val_three]
    show ((b.val * 1 + 0) * 4 + w.val) * 8192 + c.val = (b.val * 4 + w.val) * 8192 + c.val
    omega)).trans ?_
  refine (extractStridedSlice_apply ![0, 0, 0, 0] _ slices_S128x2x4x8192_S128x1x4x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S128x2x4x8192 (ix4 b (0 : Fin 2) w c) (ix2 ⟨(b.val * 2 + 0) * 4 + w.val, hr⟩ c) (by
    rw [Shape.rowMajor_val_two, Shape.rowMajor_val_four]
    show ((b.val * 2 + 0) * 4 + w.val) * 8192 + c.val = ((b.val * 2 + 0) * 4 + w.val) * 8192 + c.val
    rfl)

/-- Half 1 of group `b` at place `w`, column `c`: row `(b · 2 + 1) · 4 + w` of the array. -/
theorem R4_half1 (X : S1024x8192.Idx → EReal)
    (b : Fin 128) (w : Fin 4) (c : Fin 8192) (hr : (b.val * 2 + 1) * 4 + w.val < 1024) :
    shapeCast S128x4x8192 (extractStridedSlice S128x1x4x8192 ![0, 1, 0, 0] (shapeCast S128x2x4x8192 X shapeCasts_S1024x8192_S128x2x4x8192) slices_S128x2x4x8192_S128x1x4x8192_0_1_0_0) shapeCasts_S128x1x4x8192_S128x4x8192 (ix3 b w c)
      = X (ix2 ⟨(b.val * 2 + 1) * 4 + w.val, hr⟩ c) := by
  have hb := b.isLt; have hw := w.isLt
  refine (shapeCast_apply _ shapeCasts_S128x1x4x8192_S128x4x8192 (ix3 b w c) (ix4 b (0 : Fin 1) w c) (by
    rw [Shape.rowMajor_val_four, Shape.rowMajor_val_three]
    show ((b.val * 1 + 0) * 4 + w.val) * 8192 + c.val = (b.val * 4 + w.val) * 8192 + c.val
    omega)).trans ?_
  refine (extractStridedSlice_apply ![0, 1, 0, 0] _ slices_S128x2x4x8192_S128x1x4x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S128x2x4x8192 (ix4 b (1 : Fin 2) w c) (ix2 ⟨(b.val * 2 + 1) * 4 + w.val, hr⟩ c) (by
    rw [Shape.rowMajor_val_two, Shape.rowMajor_val_four]
    show ((b.val * 2 + 1) * 4 + w.val) * 8192 + c.val = ((b.val * 2 + 1) * 4 + w.val) * 8192 + c.val
    rfl)

/-- The reference's layer of stride 4 at row `r`, column `c` is the layer of stride 4 on column `c` at row `r`. -/
theorem R4_apply (ang : FVec Ideal S512 .f32) (X : FVec Ideal S1024x8192 .f32) (r : Fin 1024) (c : Fin 8192) :
    R4 ang X (ix2 r c) = layer 4 (vec ang) (col X c) r.val := by
  have hr := r.isLt
  have hb : r.val / 8 < 128 := by omega
  have hh : r.val % 8 / 4 < 2 := by omega
  have hw : r.val % 4 < 4 := by omega
  unfold R4 layer
  refine (shapeCast_apply _ shapeCasts_S128x2x4x8192_S1024x8192 (ix2 r c) (ix4 ⟨r.val / 8, hb⟩ ⟨r.val % 8 / 4, hh⟩ ⟨r.val % 4, hw⟩ c) (by
    rw [Shape.rowMajor_val_four, Shape.rowMajor_val_two]
    show ((r.val / 8 * 2 + r.val % 8 / 4) * 4 + r.val % 4) * 8192 + c.val = r.val * 8192 + c.val
    omega)).trans ?_
  have hup : ∀ (Y : S128x4x8192.Idx → EReal) (h' : Fin 1), broadcastInDim S128x1x4x8192 ![0, 2, 3] bcast_S128x4x8192_S128x1x4x8192_0_2_3 Y (ix4 ⟨r.val / 8, hb⟩ h' ⟨r.val % 4, hw⟩ c)
      = Y (ix3 ⟨r.val / 8, hb⟩ ⟨r.val % 4, hw⟩ c) := fun Y h' =>
    broadcastInDim_apply ![0, 2, 3] bcast_S128x4x8192_S128x1x4x8192_0_2_3 Y _ (ix3 ⟨r.val / 8, hb⟩ ⟨r.val % 4, hw⟩ c) (fun a => match a with
      | ⟨0, _⟩ => by show r.val / 8 = if (128 : ℕ) = 1 then 0 else r.val / 8; split <;> omega
      | ⟨1, _⟩ => by show r.val % 4 = if (4 : ℕ) = 1 then 0 else r.val % 4; split <;> omega
      | ⟨2, _⟩ => by show c.val = if (8192 : ℕ) = 1 then 0 else c.val; split <;> omega)
  have hj : r.val / 8 * 4 + r.val % 4 < 512 := by omega
  by_cases hlt : r.val % (2 * 4) < 4
  · rw [if_pos hlt]
    have hh0 : r.val % 8 / 4 = 0 := by omega
    refine (concatenate_pair_apply_left 1 _ _ concatenates_S128x1x4x8192_S128x1x4x8192_S128x2x4x8192_d1 _ rfl
      (ix4 ⟨r.val / 8, hb⟩ (0 : Fin 1) ⟨r.val % 4, hw⟩ c) (fun a => match a with
        | ⟨0, _⟩ => rfl
        | ⟨1, _⟩ => by show (0 : ℕ) = r.val % 8 / 4; omega
        | ⟨2, _⟩ => rfl
        | ⟨3, _⟩ => rfl)).trans ?_
    rw [hup, addf_apply, mulf_apply, mulf_apply,
      R4_coef (Host.cos ang) ⟨r.val / 8, hb⟩ ⟨r.val % 4, hw⟩ c hj,
      R4_coef (Host.sin ang) ⟨r.val / 8, hb⟩ ⟨r.val % 4, hw⟩ c hj,
      R4_half0 X ⟨r.val / 8, hb⟩ ⟨r.val % 4, hw⟩ c (by show (r.val / 8 * 2 + 0) * 4 + r.val % 4 < 1024; omega),
      R4_half1 X ⟨r.val / 8, hb⟩ ⟨r.val % 4, hw⟩ c (by show (r.val / 8 * 2 + 1) * 4 + r.val % 4 < 1024; omega)]
    have h2 : r.val + 4 < 1024 := by omega
    have hv : vec ang (r.val / (2 * 4) * 4 + r.val % (2 * 4)) = ang (ix1 ⟨r.val / 8 * 4 + r.val % 4, by omega⟩) := by
      unfold vec
      rw [dif_pos (by omega : r.val / (2 * 4) * 4 + r.val % (2 * 4) < 512)]
      try exact congrArg ang (congrArg ix1 (Fin.ext (by show r.val / (2 * 4) * 4 + r.val % (2 * 4) = r.val / 8 * 4 + r.val % 4; omega)))
    have hc1 : col X c r.val = X (ix2 ⟨(r.val / 8 * 2 + 0) * 4 + r.val % 4, by omega⟩ c) := by
      unfold col
      rw [dif_pos hr]
      exact congrArg (fun q => X (ix2 q c)) (Fin.ext (by show r.val = (r.val / 8 * 2 + 0) * 4 + r.val % 4; omega))
    have hc2 : col X c (r.val + 4) = X (ix2 ⟨(r.val / 8 * 2 + 1) * 4 + r.val % 4, by omega⟩ c) := by
      unfold col
      rw [dif_pos h2]
      exact congrArg (fun q => X (ix2 q c)) (Fin.ext (by show r.val + 4 = (r.val / 8 * 2 + 1) * 4 + r.val % 4; omega))
    rw [hv, hc1, hc2]
    rfl
  · rw [if_neg hlt]
    have hh1 : r.val % 8 / 4 = 1 := by omega
    refine (concatenate_pair_apply_right 1 _ _ concatenates_S128x1x4x8192_S128x1x4x8192_S128x2x4x8192_d1 _ rfl rfl
      (ix4 ⟨r.val / 8, hb⟩ (0 : Fin 1) ⟨r.val % 4, hw⟩ c) (fun a ha => match a with
        | ⟨0, _⟩ => rfl
        | ⟨1, _⟩ => absurd rfl ha
        | ⟨2, _⟩ => rfl
        | ⟨3, _⟩ => rfl) (by show 0 + 1 = r.val % 8 / 4; omega)).trans ?_
    have hneg : broadcastInDim S128x4x8192 ![0, 1, 2] bcast_S128x4x1_S128x4x8192_0_1_2 (Host.negf (shapeCast S128x4x1 (Host.sin ang) shapeCasts_S512_S128x4x1))
          (ix3 ⟨r.val / 8, hb⟩ ⟨r.val % 4, hw⟩ c)
        = -(Host.sin ang (ix1 ⟨r.val / 8 * 4 + r.val % 4, hj⟩)) := by
      refine (broadcastInDim_apply ![0, 1, 2] bcast_S128x4x1_S128x4x8192_0_1_2 _ _ (ix3 ⟨r.val / 8, hb⟩ ⟨r.val % 4, hw⟩ (0 : Fin 1)) (fun a => match a with
        | ⟨0, _⟩ => by show r.val / 8 = if (128 : ℕ) = 1 then 0 else r.val / 8; split <;> omega
        | ⟨1, _⟩ => by show r.val % 4 = if (4 : ℕ) = 1 then 0 else r.val % 4; split <;> omega
        | ⟨2, _⟩ => by show (0 : ℕ) = if (1 : ℕ) = 1 then 0 else c.val; rfl)).trans ?_
      show -(shapeCast S128x4x1 (Host.sin ang) shapeCasts_S512_S128x4x1 (ix3 ⟨r.val / 8, hb⟩ ⟨r.val % 4, hw⟩ (0 : Fin 1))) = _
      exact congrArg Neg.neg (shapeCast_apply (Host.sin ang) shapeCasts_S512_S128x4x1 _ (ix1 ⟨r.val / 8 * 4 + r.val % 4, hj⟩) (by
        rw [Shape.rowMajor_val_one, Shape.rowMajor_val_three]
        show r.val / 8 * 4 + r.val % 4 = (r.val / 8 * 4 + r.val % 4) * 1 + 0
        omega))
    rw [hup, addf_apply, mulf_apply, mulf_apply, hneg,
      R4_coef (Host.cos ang) ⟨r.val / 8, hb⟩ ⟨r.val % 4, hw⟩ c hj,
      R4_half0 X ⟨r.val / 8, hb⟩ ⟨r.val % 4, hw⟩ c (by show (r.val / 8 * 2 + 0) * 4 + r.val % 4 < 1024; omega),
      R4_half1 X ⟨r.val / 8, hb⟩ ⟨r.val % 4, hw⟩ c (by show (r.val / 8 * 2 + 1) * 4 + r.val % 4 < 1024; omega)]
    have h2 : r.val - 4 < 1024 := by omega
    have hv : vec ang (r.val / (2 * 4) * 4 + (r.val % (2 * 4) - 4)) = ang (ix1 ⟨r.val / 8 * 4 + r.val % 4, by omega⟩) := by
      unfold vec
      rw [dif_pos (by omega : r.val / (2 * 4) * 4 + (r.val % (2 * 4) - 4) < 512)]
      try exact congrArg ang (congrArg ix1 (Fin.ext (by show r.val / (2 * 4) * 4 + (r.val % (2 * 4) - 4) = r.val / 8 * 4 + r.val % 4; omega)))
    have hc1 : col X c (r.val - 4) = X (ix2 ⟨(r.val / 8 * 2 + 0) * 4 + r.val % 4, by omega⟩ c) := by
      unfold col
      rw [dif_pos h2]
      exact congrArg (fun q => X (ix2 q c)) (Fin.ext (by show r.val - 4 = (r.val / 8 * 2 + 0) * 4 + r.val % 4; omega))
    have hc2 : col X c r.val = X (ix2 ⟨(r.val / 8 * 2 + 1) * 4 + r.val % 4, by omega⟩ c) := by
      unfold col
      rw [dif_pos hr]
      exact congrArg (fun q => X (ix2 q c)) (Fin.ext (by show r.val = (r.val / 8 * 2 + 1) * 4 + r.val % 4; omega))
    rw [hv, hc1, hc2]
    rfl

/-- Column by column: the reference's layer of stride 4 sends column `c` of the array to the layer of stride 4 of that column. -/
theorem R4_col (ang : FVec Ideal S512 .f32) (X : FVec Ideal S1024x8192 .f32) (c : Fin 8192) :
    col (R4 ang X) c = layerT 4 (vec ang) (col X c) := by
  funext r
  by_cases hr : r < 1024
  · show (if h : r < 1024 then R4 ang X (ix2 ⟨r, h⟩ c) else 0) = if r < 1024 then layer 4 (vec ang) (col X c) r else 0
    rw [dif_pos hr, if_pos hr]
    exact R4_apply ang X ⟨r, hr⟩ c
  · show (if h : r < 1024 then R4 ang X (ix2 ⟨r, h⟩ c) else 0) = if r < 1024 then layer 4 (vec ang) (col X c) r else 0
    rw [dif_neg hr, if_neg hr]

end Cert.ReferenceIdeal.Layer

end
-- ==== Proof.RLayer8.lean ====
/-
  The reference's layer of stride 8, as its program writes it, and what it does to a column.

  The [1024, 8192] array is re-read as 64 groups of 2 halves of 8 rows ([64, 2, 8, 8192]); half 0 and half 1 of every
  group are the two entries of the pairs; the 512 cosines and sines are re-read as [64, 8, 1] and repeated along the
  columns; the two rotated halves are stacked group by group and the result is read as [1024, 8192] again.  Row `r`
  of the result sits in group `r / 16`, half `r % 16 / 8`, place `r % 8`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 8 as the reference spells it, from the layer's 512 angles and the array. -/
def R8 {F : FTy → Type} [FloatOps F] (ang : FVec F S512 .f32) (X : FVec F S1024x8192 .f32) : FVec F S1024x8192 .f32 :=
  shapeCast S1024x8192
    (concatenate S64x2x8x8192 1
      [⟨S64x1x8x8192, (broadcastInDim S64x1x8x8192 ![0, 2, 3] bcast_S64x8x8192_S64x1x8x8192_0_2_3 (addf (mulf (broadcastInDim S64x8x8192 ![0, 1, 2] bcast_S64x8x1_S64x8x8192_0_1_2 (shapeCast S64x8x1 (Host.cos ang) shapeCasts_S512_S64x8x1)) (shapeCast S64x8x8192 (extractStridedSlice S64x1x8x8192 ![0, 0, 0, 0] (shapeCast S64x2x8x8192 X shapeCasts_S1024x8192_S64x2x8x8192) slices_S64x2x8x8192_S64x1x8x8192_0_0_0_0) shapeCasts_S64x1x8x8192_S64x8x8192)) (mulf (broadcastInDim S64x8x8192 ![0, 1, 2] bcast_S64x8x1_S64x8x8192_0_1_2 (shapeCast S64x8x1 (Host.sin ang) shapeCasts_S512_S64x8x1)) (shapeCast S64x8x8192 (extractStridedSlice S64x1x8x8192 ![0, 1, 0, 0] (shapeCast S64x2x8x8192 X shapeCasts_S1024x8192_S64x2x8x8192) slices_S64x2x8x8192_S64x1x8x8192_0_1_0_0) shapeCasts_S64x1x8x8192_S64x8x8192))))⟩,
       ⟨S64x1x8x8192, (broadcastInDim S64x1x8x8192 ![0, 2, 3] bcast_S64x8x8192_S64x1x8x8192_0_2_3 (addf (mulf (broadcastInDim S64x8x8192 ![0, 1, 2] bcast_S64x8x1_S64x8x8192_0_1_2 (Host.negf (shapeCast S64x8x1 (Host.sin ang) shapeCasts_S512_S64x8x1))) (shapeCast S64x8x8192 (extractStridedSlice S64x1x8x8192 ![0, 0, 0, 0] (shapeCast S64x2x8x8192 X shapeCasts_S1024x8192_S64x2x8x8192) slices_S64x2x8x8192_S64x1x8x8192_0_0_0_0) shapeCasts_S64x1x8x8192_S64x8x8192)) (mulf (broadcastInDim S64x8x8192 ![0, 1, 2] bcast_S64x8x1_S64x8x8192_0_1_2 (shapeCast S64x8x1 (Host.cos ang) shapeCasts_S512_S64x8x1)) (shapeCast S64x8x8192 (extractStridedSlice S64x1x8x8192 ![0, 1, 0, 0] (shapeCast S64x2x8x8192 X shapeCasts_S1024x8192_S64x2x8x8192) slices_S64x2x8x8192_S64x1x8x8192_0_1_0_0) shapeCasts_S64x1x8x8192_S64x8x8192))))⟩]
      concatenates_S64x1x8x8192_S64x1x8x8192_S64x2x8x8192_d1)
    shapeCasts_S64x2x8x8192_S1024x8192

/-- A [64, 8, 1] column of coefficients repeated along the 8192 columns, read at group `b`, place `w`: the coefficient
    numbered `b · 8 + w` of the 512. -/
theorem R8_coef (v : S512.Idx → EReal) (b : Fin 64) (w : Fin 8) (c : Fin 8192) (hj : b.val * 8 + w.val < 512) :
    broadcastInDim S64x8x8192 ![0, 1, 2] bcast_S64x8x1_S64x8x8192_0_1_2 (shapeCast S64x8x1 v shapeCasts_S512_S64x8x1) (ix3 b w c) = v (ix1 ⟨b.val * 8 + w.val, hj⟩) := by
  have hb := b.isLt; have hw := w.isLt
  refine (broadcastInDim_apply ![0, 1, 2] bcast_S64x8x1_S64x8x8192_0_1_2 _ (ix3 b w c) (ix3 b w (0 : Fin 1)) (fun a => match a with
    | ⟨0, _⟩ => by show b.val = if (64 : ℕ) = 1 then 0 else b.val; split <;> omega
    | ⟨1, _⟩ => by show w.val = if (8 : ℕ) = 1 then 0 else w.val; split <;> omega
    | ⟨2, _⟩ => by show (0 : ℕ) = if (1 : ℕ) = 1 then 0 else c.val; rfl)).trans ?_
  exact shapeCast_apply v shapeCasts_S512_S64x8x1 (ix3 b w (0 : Fin 1)) (ix1 ⟨b.val * 8 + w.val, hj⟩) (by
    rw [Shape.rowMajor_val_one, Shape.rowMajor_val_three]
    show b.val * 8 + w.val = (b.val * 8 + w.val) * 1 + 0
    omega)

/-- Half 0 of group `b` at place `w`, column `c`: row `(b · 2 + 0) · 8 + w` of the array. -/
theorem R8_half0 (X : S1024x8192.Idx → EReal)
    (b : Fin 64) (w : Fin 8) (c : Fin 8192) (hr : (b.val * 2 + 0) * 8 + w.val < 1024) :
    shapeCast S64x8x8192 (extractStridedSlice S64x1x8x8192 ![0, 0, 0, 0] (shapeCast S64x2x8x8192 X shapeCasts_S1024x8192_S64x2x8x8192) slices_S64x2x8x8192_S64x1x8x8192_0_0_0_0) shapeCasts_S64x1x8x8192_S64x8x8192 (ix3 b w c)
      = X (ix2 ⟨(b.val * 2 + 0) * 8 + w.val, hr⟩ c) := by
  have hb := b.isLt; have hw := w.isLt
  refine (shapeCast_apply _ shapeCasts_S64x1x8x8192_S64x8x8192 (ix3 b w c) (ix4 b (0 : Fin 1) w c) (by
    rw [Shape.rowMajor_val_four, Shape.rowMajor_val_three]
    show ((b.val * 1 + 0) * 8 + w.val) * 8192 + c.val = (b.val * 8 + w.val) * 8192 + c.val
    omega)).trans ?_
  refine (extractStridedSlice_apply ![0, 0, 0, 0] _ slices_S64x2x8x8192_S64x1x8x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S64x2x8x8192 (ix4 b (0 : Fin 2) w c) (ix2 ⟨(b.val * 2 + 0) * 8 + w.val, hr⟩ c) (by
    rw [Shape.rowMajor_val_two, Shape.rowMajor_val_four]
    show ((b.val * 2 + 0) * 8 + w.val) * 8192 + c.val = ((b.val * 2 + 0) * 8 + w.val) * 8192 + c.val
    rfl)

/-- Half 1 of group `b` at place `w`, column `c`: row `(b · 2 + 1) · 8 + w` of the array. -/
theorem R8_half1 (X : S1024x8192.Idx → EReal)
    (b : Fin 64) (w : Fin 8) (c : Fin 8192) (hr : (b.val * 2 + 1) * 8 + w.val < 1024) :
    shapeCast S64x8x8192 (extractStridedSlice S64x1x8x8192 ![0, 1, 0, 0] (shapeCast S64x2x8x8192 X shapeCasts_S1024x8192_S64x2x8x8192) slices_S64x2x8x8192_S64x1x8x8192_0_1_0_0) shapeCasts_S64x1x8x8192_S64x8x8192 (ix3 b w c)
      = X (ix2 ⟨(b.val * 2 + 1) * 8 + w.val, hr⟩ c) := by
  have hb := b.isLt; have hw := w.isLt
  refine (shapeCast_apply _ shapeCasts_S64x1x8x8192_S64x8x8192 (ix3 b w c) (ix4 b (0 : Fin 1) w c) (by
    rw [Shape.rowMajor_val_four, Shape.rowMajor_val_three]
    show ((b.val * 1 + 0) * 8 + w.val) * 8192 + c.val = (b.val * 8 + w.val) * 8192 + c.val
    omega)).trans ?_
  refine (extractStridedSlice_apply ![0, 1, 0, 0] _ slices_S64x2x8x8192_S64x1x8x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S64x2x8x8192 (ix4 b (1 : Fin 2) w c) (ix2 ⟨(b.val * 2 + 1) * 8 + w.val, hr⟩ c) (by
    rw [Shape.rowMajor_val_two, Shape.rowMajor_val_four]
    show ((b.val * 2 + 1) * 8 + w.val) * 8192 + c.val = ((b.val * 2 + 1) * 8 + w.val) * 8192 + c.val
    rfl)

/-- The reference's layer of stride 8 at row `r`, column `c` is the layer of stride 8 on column `c` at row `r`. -/
theorem R8_apply (ang : FVec Ideal S512 .f32) (X : FVec Ideal S1024x8192 .f32) (r : Fin 1024) (c : Fin 8192) :
    R8 ang X (ix2 r c) = layer 8 (vec ang) (col X c) r.val := by
  have hr := r.isLt
  have hb : r.val / 16 < 64 := by omega
  have hh : r.val % 16 / 8 < 2 := by omega
  have hw : r.val % 8 < 8 := by omega
  unfold R8 layer
  refine (shapeCast_apply _ shapeCasts_S64x2x8x8192_S1024x8192 (ix2 r c) (ix4 ⟨r.val / 16, hb⟩ ⟨r.val % 16 / 8, hh⟩ ⟨r.val % 8, hw⟩ c) (by
    rw [Shape.rowMajor_val_four, Shape.rowMajor_val_two]
    show ((r.val / 16 * 2 + r.val % 16 / 8) * 8 + r.val % 8) * 8192 + c.val = r.val * 8192 + c.val
    omega)).trans ?_
  have hup : ∀ (Y : S64x8x8192.Idx → EReal) (h' : Fin 1), broadcastInDim S64x1x8x8192 ![0, 2, 3] bcast_S64x8x8192_S64x1x8x8192_0_2_3 Y (ix4 ⟨r.val / 16, hb⟩ h' ⟨r.val % 8, hw⟩ c)
      = Y (ix3 ⟨r.val / 16, hb⟩ ⟨r.val % 8, hw⟩ c) := fun Y h' =>
    broadcastInDim_apply ![0, 2, 3] bcast_S64x8x8192_S64x1x8x8192_0_2_3 Y _ (ix3 ⟨r.val / 16, hb⟩ ⟨r.val % 8, hw⟩ c) (fun a => match a with
      | ⟨0, _⟩ => by show r.val / 16 = if (64 : ℕ) = 1 then 0 else r.val / 16; split <;> omega
      | ⟨1, _⟩ => by show r.val % 8 = if (8 : ℕ) = 1 then 0 else r.val % 8; split <;> omega
      | ⟨2, _⟩ => by show c.val = if (8192 : ℕ) = 1 then 0 else c.val; split <;> omega)
  have hj : r.val / 16 * 8 + r.val % 8 < 512 := by omega
  by_cases hlt : r.val % (2 * 8) < 8
  · rw [if_pos hlt]
    have hh0 : r.val % 16 / 8 = 0 := by omega
    refine (concatenate_pair_apply_left 1 _ _ concatenates_S64x1x8x8192_S64x1x8x8192_S64x2x8x8192_d1 _ rfl
      (ix4 ⟨r.val / 16, hb⟩ (0 : Fin 1) ⟨r.val % 8, hw⟩ c) (fun a => match a with
        | ⟨0, _⟩ => rfl
        | ⟨1, _⟩ => by show (0 : ℕ) = r.val % 16 / 8; omega
        | ⟨2, _⟩ => rfl
        | ⟨3, _⟩ => rfl)).trans ?_
    rw [hup, addf_apply, mulf_apply, mulf_apply,
      R8_coef (Host.cos ang) ⟨r.val / 16, hb⟩ ⟨r.val % 8, hw⟩ c hj,
      R8_coef (Host.sin ang) ⟨r.val / 16, hb⟩ ⟨r.val % 8, hw⟩ c hj,
      R8_half0 X ⟨r.val / 16, hb⟩ ⟨r.val % 8, hw⟩ c (by show (r.val / 16 * 2 + 0) * 8 + r.val % 8 < 1024; omega),
      R8_half1 X ⟨r.val / 16, hb⟩ ⟨r.val % 8, hw⟩ c (by show (r.val / 16 * 2 + 1) * 8 + r.val % 8 < 1024; omega)]
    have h2 : r.val + 8 < 1024 := by omega
    have hv : vec ang (r.val / (2 * 8) * 8 + r.val % (2 * 8)) = ang (ix1 ⟨r.val / 16 * 8 + r.val % 8, by omega⟩) := by
      unfold vec
      rw [dif_pos (by omega : r.val / (2 * 8) * 8 + r.val % (2 * 8) < 512)]
      try exact congrArg ang (congrArg ix1 (Fin.ext (by show r.val / (2 * 8) * 8 + r.val % (2 * 8) = r.val / 16 * 8 + r.val % 8; omega)))
    have hc1 : col X c r.val = X (ix2 ⟨(r.val / 16 * 2 + 0) * 8 + r.val % 8, by omega⟩ c) := by
      unfold col
      rw [dif_pos hr]
      exact congrArg (fun q => X (ix2 q c)) (Fin.ext (by show r.val = (r.val / 16 * 2 + 0) * 8 + r.val % 8; omega))
    have hc2 : col X c (r.val + 8) = X (ix2 ⟨(r.val / 16 * 2 + 1) * 8 + r.val % 8, by omega⟩ c) := by
      unfold col
      rw [dif_pos h2]
      exact congrArg (fun q => X (ix2 q c)) (Fin.ext (by show r.val + 8 = (r.val / 16 * 2 + 1) * 8 + r.val % 8; omega))
    rw [hv, hc1, hc2]
    rfl
  · rw [if_neg hlt]
    have hh1 : r.val % 16 / 8 = 1 := by omega
    refine (concatenate_pair_apply_right 1 _ _ concatenates_S64x1x8x8192_S64x1x8x8192_S64x2x8x8192_d1 _ rfl rfl
      (ix4 ⟨r.val / 16, hb⟩ (0 : Fin 1) ⟨r.val % 8, hw⟩ c) (fun a ha => match a with
        | ⟨0, _⟩ => rfl
        | ⟨1, _⟩ => absurd rfl ha
        | ⟨2, _⟩ => rfl
        | ⟨3, _⟩ => rfl) (by show 0 + 1 = r.val % 16 / 8; omega)).trans ?_
    have hneg : broadcastInDim S64x8x8192 ![0, 1, 2] bcast_S64x8x1_S64x8x8192_0_1_2 (Host.negf (shapeCast S64x8x1 (Host.sin ang) shapeCasts_S512_S64x8x1))
          (ix3 ⟨r.val / 16, hb⟩ ⟨r.val % 8, hw⟩ c)
        = -(Host.sin ang (ix1 ⟨r.val / 16 * 8 + r.val % 8, hj⟩)) := by
      refine (broadcastInDim_apply ![0, 1, 2] bcast_S64x8x1_S64x8x8192_0_1_2 _ _ (ix3 ⟨r.val / 16, hb⟩ ⟨r.val % 8, hw⟩ (0 : Fin 1)) (fun a => match a with
        | ⟨0, _⟩ => by show r.val / 16 = if (64 : ℕ) = 1 then 0 else r.val / 16; split <;> omega
        | ⟨1, _⟩ => by show r.val % 8 = if (8 : ℕ) = 1 then 0 else r.val % 8; split <;> omega
        | ⟨2, _⟩ => by show (0 : ℕ) = if (1 : ℕ) = 1 then 0 else c.val; rfl)).trans ?_
      show -(shapeCast S64x8x1 (Host.sin ang) shapeCasts_S512_S64x8x1 (ix3 ⟨r.val / 16, hb⟩ ⟨r.val % 8, hw⟩ (0 : Fin 1))) = _
      exact congrArg Neg.neg (shapeCast_apply (Host.sin ang) shapeCasts_S512_S64x8x1 _ (ix1 ⟨r.val / 16 * 8 + r.val % 8, hj⟩) (by
        rw [Shape.rowMajor_val_one, Shape.rowMajor_val_three]
        show r.val / 16 * 8 + r.val % 8 = (r.val / 16 * 8 + r.val % 8) * 1 + 0
        omega))
    rw [hup, addf_apply, mulf_apply, mulf_apply, hneg,
      R8_coef (Host.cos ang) ⟨r.val / 16, hb⟩ ⟨r.val % 8, hw⟩ c hj,
      R8_half0 X ⟨r.val / 16, hb⟩ ⟨r.val % 8, hw⟩ c (by show (r.val / 16 * 2 + 0) * 8 + r.val % 8 < 1024; omega),
      R8_half1 X ⟨r.val / 16, hb⟩ ⟨r.val % 8, hw⟩ c (by show (r.val / 16 * 2 + 1) * 8 + r.val % 8 < 1024; omega)]
    have h2 : r.val - 8 < 1024 := by omega
    have hv : vec ang (r.val / (2 * 8) * 8 + (r.val % (2 * 8) - 8)) = ang (ix1 ⟨r.val / 16 * 8 + r.val % 8, by omega⟩) := by
      unfold vec
      rw [dif_pos (by omega : r.val / (2 * 8) * 8 + (r.val % (2 * 8) - 8) < 512)]
      try exact congrArg ang (congrArg ix1 (Fin.ext (by show r.val / (2 * 8) * 8 + (r.val % (2 * 8) - 8) = r.val / 16 * 8 + r.val % 8; omega)))
    have hc1 : col X c (r.val - 8) = X (ix2 ⟨(r.val / 16 * 2 + 0) * 8 + r.val % 8, by omega⟩ c) := by
      unfold col
      rw [dif_pos h2]
      exact congrArg (fun q => X (ix2 q c)) (Fin.ext (by show r.val - 8 = (r.val / 16 * 2 + 0) * 8 + r.val % 8; omega))
    have hc2 : col X c r.val = X (ix2 ⟨(r.val / 16 * 2 + 1) * 8 + r.val % 8, by omega⟩ c) := by
      unfold col
      rw [dif_pos hr]
      exact congrArg (fun q => X (ix2 q c)) (Fin.ext (by show r.val = (r.val / 16 * 2 + 1) * 8 + r.val % 8; omega))
    rw [hv, hc1, hc2]
    rfl

/-- Column by column: the reference's layer of stride 8 sends column `c` of the array to the layer of stride 8 of that column. -/
theorem R8_col (ang : FVec Ideal S512 .f32) (X : FVec Ideal S1024x8192 .f32) (c : Fin 8192) :
    col (R8 ang X) c = layerT 8 (vec ang) (col X c) := by
  funext r
  by_cases hr : r < 1024
  · show (if h : r < 1024 then R8 ang X (ix2 ⟨r, h⟩ c) else 0) = if r < 1024 then layer 8 (vec ang) (col X c) r else 0
    rw [dif_pos hr, if_pos hr]
    exact R8_apply ang X ⟨r, hr⟩ c
  · show (if h : r < 1024 then R8 ang X (ix2 ⟨r, h⟩ c) else 0) = if r < 1024 then layer 8 (vec ang) (col X c) r else 0
    rw [dif_neg hr, if_neg hr]

end Cert.ReferenceIdeal.Layer

end
-- ==== Proof.RLayer16.lean ====
/-
  The reference's layer of stride 16, as its program writes it, and what it does to a column.

  The [1024, 8192] array is re-read as 32 groups of 2 halves of 16 rows ([32, 2, 16, 8192]); half 0 and half 1 of every
  group are the two entries of the pairs; the 512 cosines and sines are re-read as [32, 16, 1] and repeated along the
  columns; the two rotated halves are stacked group by group and the result is read as [1024, 8192] again.  Row `r`
  of the result sits in group `r / 32`, half `r % 32 / 16`, place `r % 16`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 16 as the reference spells it, from the layer's 512 angles and the array. -/
def R16 {F : FTy → Type} [FloatOps F] (ang : FVec F S512 .f32) (X : FVec F S1024x8192 .f32) : FVec F S1024x8192 .f32 :=
  shapeCast S1024x8192
    (concatenate S32x2x16x8192 1
      [⟨S32x1x16x8192, (broadcastInDim S32x1x16x8192 ![0, 2, 3] bcast_S32x16x8192_S32x1x16x8192_0_2_3 (addf (mulf (broadcastInDim S32x16x8192 ![0, 1, 2] bcast_S32x16x1_S32x16x8192_0_1_2 (shapeCast S32x16x1 (Host.cos ang) shapeCasts_S512_S32x16x1)) (shapeCast S32x16x8192 (extractStridedSlice S32x1x16x8192 ![0, 0, 0, 0] (shapeCast S32x2x16x8192 X shapeCasts_S1024x8192_S32x2x16x8192) slices_S32x2x16x8192_S32x1x16x8192_0_0_0_0) shapeCasts_S32x1x16x8192_S32x16x8192)) (mulf (broadcastInDim S32x16x8192 ![0, 1, 2] bcast_S32x16x1_S32x16x8192_0_1_2 (shapeCast S32x16x1 (Host.sin ang) shapeCasts_S512_S32x16x1)) (shapeCast S32x16x8192 (extractStridedSlice S32x1x16x8192 ![0, 1, 0, 0] (shapeCast S32x2x16x8192 X shapeCasts_S1024x8192_S32x2x16x8192) slices_S32x2x16x8192_S32x1x16x8192_0_1_0_0) shapeCasts_S32x1x16x8192_S32x16x8192))))⟩,
       ⟨S32x1x16x8192, (broadcastInDim S32x1x16x8192 ![0, 2, 3] bcast_S32x16x8192_S32x1x16x8192_0_2_3 (addf (mulf (broadcastInDim S32x16x8192 ![0, 1, 2] bcast_S32x16x1_S32x16x8192_0_1_2 (Host.negf (shapeCast S32x16x1 (Host.sin ang) shapeCasts_S512_S32x16x1))) (shapeCast S32x16x8192 (extractStridedSlice S32x1x16x8192 ![0, 0, 0, 0] (shapeCast S32x2x16x8192 X shapeCasts_S1024x8192_S32x2x16x8192) slices_S32x2x16x8192_S32x1x16x8192_0_0_0_0) shapeCasts_S32x1x16x8192_S32x16x8192)) (mulf (broadcastInDim S32x16x8192 ![0, 1, 2] bcast_S32x16x1_S32x16x8192_0_1_2 (shapeCast S32x16x1 (Host.cos ang) shapeCasts_S512_S32x16x1)) (shapeCast S32x16x8192 (extractStridedSlice S32x1x16x8192 ![0, 1, 0, 0] (shapeCast S32x2x16x8192 X shapeCasts_S1024x8192_S32x2x16x8192) slices_S32x2x16x8192_S32x1x16x8192_0_1_0_0) shapeCasts_S32x1x16x8192_S32x16x8192))))⟩]
      concatenates_S32x1x16x8192_S32x1x16x8192_S32x2x16x8192_d1)
    shapeCasts_S32x2x16x8192_S1024x8192

/-- A [32, 16, 1] column of coefficients repeated along the 8192 columns, read at group `b`, place `w`: the coefficient
    numbered `b · 16 + w` of the 512. -/
theorem R16_coef (v : S512.Idx → EReal) (b : Fin 32) (w : Fin 16) (c : Fin 8192) (hj : b.val * 16 + w.val < 512) :
    broadcastInDim S32x16x8192 ![0, 1, 2] bcast_S32x16x1_S32x16x8192_0_1_2 (shapeCast S32x16x1 v shapeCasts_S512_S32x16x1) (ix3 b w c) = v (ix1 ⟨b.val * 16 + w.val, hj⟩) := by
  have hb := b.isLt; have hw := w.isLt
  refine (broadcastInDim_apply ![0, 1, 2] bcast_S32x16x1_S32x16x8192_0_1_2 _ (ix3 b w c) (ix3 b w (0 : Fin 1)) (fun a => match a with
    | ⟨0, _⟩ => by show b.val = if (32 : ℕ) = 1 then 0 else b.val; split <;> omega
    | ⟨1, _⟩ => by show w.val = if (16 : ℕ) = 1 then 0 else w.val; split <;> omega
    | ⟨2, _⟩ => by show (0 : ℕ) = if (1 : ℕ) = 1 then 0 else c.val; rfl)).trans ?_
  exact shapeCast_apply v shapeCasts_S512_S32x16x1 (ix3 b w (0 : Fin 1)) (ix1 ⟨b.val * 16 + w.val, hj⟩) (by
    rw [Shape.rowMajor_val_one, Shape.rowMajor_val_three]
    show b.val * 16 + w.val = (b.val * 16 + w.val) * 1 + 0
    omega)

/-- Half 0 of group `b` at place `w`, column `c`: row `(b · 2 + 0) · 16 + w` of the array. -/
theorem R16_half0 (X : S1024x8192.Idx → EReal)
    (b : Fin 32) (w : Fin 16) (c : Fin 8192) (hr : (b.val * 2 + 0) * 16 + w.val < 1024) :
    shapeCast S32x16x8192 (extractStridedSlice S32x1x16x8192 ![0, 0, 0, 0] (shapeCast S32x2x16x8192 X shapeCasts_S1024x8192_S32x2x16x8192) slices_S32x2x16x8192_S32x1x16x8192_0_0_0_0) shapeCasts_S32x1x16x8192_S32x16x8192 (ix3 b w c)
      = X (ix2 ⟨(b.val * 2 + 0) * 16 + w.val, hr⟩ c) := by
  have hb := b.isLt; have hw := w.isLt
  refine (shapeCast_apply _ shapeCasts_S32x1x16x8192_S32x16x8192 (ix3 b w c) (ix4 b (0 : Fin 1) w c) (by
    rw [Shape.rowMajor_val_four, Shape.rowMajor_val_three]
    show ((b.val * 1 + 0) * 16 + w.val) * 8192 + c.val = (b.val * 16 + w.val) * 8192 + c.val
    omega)).trans ?_
  refine (extractStridedSlice_apply ![0, 0, 0, 0] _ slices_S32x2x16x8192_S32x1x16x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S32x2x16x8192 (ix4 b (0 : Fin 2) w c) (ix2 ⟨(b.val * 2 + 0) * 16 + w.val, hr⟩ c) (by
    rw [Shape.rowMajor_val_two, Shape.rowMajor_val_four]
    show ((b.val * 2 + 0) * 16 + w.val) * 8192 + c.val = ((b.val * 2 + 0) * 16 + w.val) * 8192 + c.val
    rfl)

/-- Half 1 of group `b` at place `w`, column `c`: row `(b · 2 + 1) · 16 + w` of the array. -/
theorem R16_half1 (X : S1024x8192.Idx → EReal)
    (b : Fin 32) (w : Fin 16) (c : Fin 8192) (hr : (b.val * 2 + 1) * 16 + w.val < 1024) :
    shapeCast S32x16x8192 (extractStridedSlice S32x1x16x8192 ![0, 1, 0, 0] (shapeCast S32x2x16x8192 X shapeCasts_S1024x8192_S32x2x16x8192) slices_S32x2x16x8192_S32x1x16x8192_0_1_0_0) shapeCasts_S32x1x16x8192_S32x16x8192 (ix3 b w c)
      = X (ix2 ⟨(b.val * 2 + 1) * 16 + w.val, hr⟩ c) := by
  have hb := b.isLt; have hw := w.isLt
  refine (shapeCast_apply _ shapeCasts_S32x1x16x8192_S32x16x8192 (ix3 b w c) (ix4 b (0 : Fin 1) w c) (by
    rw [Shape.rowMajor_val_four, Shape.rowMajor_val_three]
    show ((b.val * 1 + 0) * 16 + w.val) * 8192 + c.val = (b.val * 16 + w.val) * 8192 + c.val
    omega)).trans ?_
  refine (extractStridedSlice_apply ![0, 1, 0, 0] _ slices_S32x2x16x8192_S32x1x16x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S32x2x16x8192 (ix4 b (1 : Fin 2) w c) (ix2 ⟨(b.val * 2 + 1) * 16 + w.val, hr⟩ c) (by
    rw [Shape.rowMajor_val_two, Shape.rowMajor_val_four]
    show ((b.val * 2 + 1) * 16 + w.val) * 8192 + c.val = ((b.val * 2 + 1) * 16 + w.val) * 8192 + c.val
    rfl)

/-- The reference's layer of stride 16 at row `r`, column `c` is the layer of stride 16 on column `c` at row `r`. -/
theorem R16_apply (ang : FVec Ideal S512 .f32) (X : FVec Ideal S1024x8192 .f32) (r : Fin 1024) (c : Fin 8192) :
    R16 ang X (ix2 r c) = layer 16 (vec ang) (col X c) r.val := by
  have hr := r.isLt
  have hb : r.val / 32 < 32 := by omega
  have hh : r.val % 32 / 16 < 2 := by omega
  have hw : r.val % 16 < 16 := by omega
  unfold R16 layer
  refine (shapeCast_apply _ shapeCasts_S32x2x16x8192_S1024x8192 (ix2 r c) (ix4 ⟨r.val / 32, hb⟩ ⟨r.val % 32 / 16, hh⟩ ⟨r.val % 16, hw⟩ c) (by
    rw [Shape.rowMajor_val_four, Shape.rowMajor_val_two]
    show ((r.val / 32 * 2 + r.val % 32 / 16) * 16 + r.val % 16) * 8192 + c.val = r.val * 8192 + c.val
    omega)).trans ?_
  have hup : ∀ (Y : S32x16x8192.Idx → EReal) (h' : Fin 1), broadcastInDim S32x1x16x8192 ![0, 2, 3] bcast_S32x16x8192_S32x1x16x8192_0_2_3 Y (ix4 ⟨r.val / 32, hb⟩ h' ⟨r.val % 16, hw⟩ c)
      = Y (ix3 ⟨r.val / 32, hb⟩ ⟨r.val % 16, hw⟩ c) := fun Y h' =>
    broadcastInDim_apply ![0, 2, 3] bcast_S32x16x8192_S32x1x16x8192_0_2_3 Y _ (ix3 ⟨r.val / 32, hb⟩ ⟨r.val % 16, hw⟩ c) (fun a => match a with
      | ⟨0, _⟩ => by show r.val / 32 = if (32 : ℕ) = 1 then 0 else r.val / 32; split <;> omega
      | ⟨1, _⟩ => by show r.val % 16 = if (16 : ℕ) = 1 then 0 else r.val % 16; split <;> omega
      | ⟨2, _⟩ => by show c.val = if (8192 : ℕ) = 1 then 0 else c.val; split <;> omega)
  have hj : r.val / 32 * 16 + r.val % 16 < 512 := by omega
  by_cases hlt : r.val % (2 * 16) < 16
  · rw [if_pos hlt]
    have hh0 : r.val % 32 / 16 = 0 := by omega
    refine (concatenate_pair_apply_left 1 _ _ concatenates_S32x1x16x8192_S32x1x16x8192_S32x2x16x8192_d1 _ rfl
      (ix4 ⟨r.val / 32, hb⟩ (0 : Fin 1) ⟨r.val % 16, hw⟩ c) (fun a => match a with
        | ⟨0, _⟩ => rfl
        | ⟨1, _⟩ => by show (0 : ℕ) = r.val % 32 / 16; omega
        | ⟨2, _⟩ => rfl
        | ⟨3, _⟩ => rfl)).trans ?_
    rw [hup, addf_apply, mulf_apply, mulf_apply,
      R16_coef (Host.cos ang) ⟨r.val / 32, hb⟩ ⟨r.val % 16, hw⟩ c hj,
      R16_coef (Host.sin ang) ⟨r.val / 32, hb⟩ ⟨r.val % 16, hw⟩ c hj,
      R16_half0 X ⟨r.val / 32, hb⟩ ⟨r.val % 16, hw⟩ c (by show (r.val / 32 * 2 + 0) * 16 + r.val % 16 < 1024; omega),
      R16_half1 X ⟨r.val / 32, hb⟩ ⟨r.val % 16, hw⟩ c (by show (r.val / 32 * 2 + 1) * 16 + r.val % 16 < 1024; omega)]
    have h2 : r.val + 16 < 1024 := by omega
    have hv : vec ang (r.val / (2 * 16) * 16 + r.val % (2 * 16)) = ang (ix1 ⟨r.val / 32 * 16 + r.val % 16, by omega⟩) := by
      unfold vec
      rw [dif_pos (by omega : r.val / (2 * 16) * 16 + r.val % (2 * 16) < 512)]
      try exact congrArg ang (congrArg ix1 (Fin.ext (by show r.val / (2 * 16) * 16 + r.val % (2 * 16) = r.val / 32 * 16 + r.val % 16; omega)))
    have hc1 : col X c r.val = X (ix2 ⟨(r.val / 32 * 2 + 0) * 16 + r.val % 16, by omega⟩ c) := by
      unfold col
      rw [dif_pos hr]
      exact congrArg (fun q => X (ix2 q c)) (Fin.ext (by show r.val = (r.val / 32 * 2 + 0) * 16 + r.val % 16; omega))
    have hc2 : col X c (r.val + 16) = X (ix2 ⟨(r.val / 32 * 2 + 1) * 16 + r.val % 16, by omega⟩ c) := by
      unfold col
      rw [dif_pos h2]
      exact congrArg (fun q => X (ix2 q c)) (Fin.ext (by show r.val + 16 = (r.val / 32 * 2 + 1) * 16 + r.val % 16; omega))
    rw [hv, hc1, hc2]
    rfl
  · rw [if_neg hlt]
    have hh1 : r.val % 32 / 16 = 1 := by omega
    refine (concatenate_pair_apply_right 1 _ _ concatenates_S32x1x16x8192_S32x1x16x8192_S32x2x16x8192_d1 _ rfl rfl
      (ix4 ⟨r.val / 32, hb⟩ (0 : Fin 1) ⟨r.val % 16, hw⟩ c) (fun a ha => match a with
        | ⟨0, _⟩ => rfl
        | ⟨1, _⟩ => absurd rfl ha
        | ⟨2, _⟩ => rfl
        | ⟨3, _⟩ => rfl) (by show 0 + 1 = r.val % 32 / 16; omega)).trans ?_
    have hneg : broadcastInDim S32x16x8192 ![0, 1, 2] bcast_S32x16x1_S32x16x8192_0_1_2 (Host.negf (shapeCast S32x16x1 (Host.sin ang) shapeCasts_S512_S32x16x1))
          (ix3 ⟨r.val / 32, hb⟩ ⟨r.val % 16, hw⟩ c)
        = -(Host.sin ang (ix1 ⟨r.val / 32 * 16 + r.val % 16, hj⟩)) := by
      refine (broadcastInDim_apply ![0, 1, 2] bcast_S32x16x1_S32x16x8192_0_1_2 _ _ (ix3 ⟨r.val / 32, hb⟩ ⟨r.val % 16, hw⟩ (0 : Fin 1)) (fun a => match a with
        | ⟨0, _⟩ => by show r.val / 32 = if (32 : ℕ) = 1 then 0 else r.val / 32; split <;> omega
        | ⟨1, _⟩ => by show r.val % 16 = if (16 : ℕ) = 1 then 0 else r.val % 16; split <;> omega
        | ⟨2, _⟩ => by show (0 : ℕ) = if (1 : ℕ) = 1 then 0 else c.val; rfl)).trans ?_
      show -(shapeCast S32x16x1 (Host.sin ang) shapeCasts_S512_S32x16x1 (ix3 ⟨r.val / 32, hb⟩ ⟨r.val % 16, hw⟩ (0 : Fin 1))) = _
      exact congrArg Neg.neg (shapeCast_apply (Host.sin ang) shapeCasts_S512_S32x16x1 _ (ix1 ⟨r.val / 32 * 16 + r.val % 16, hj⟩) (by
        rw [Shape.rowMajor_val_one, Shape.rowMajor_val_three]
        show r.val / 32 * 16 + r.val % 16 = (r.val / 32 * 16 + r.val % 16) * 1 + 0
        omega))
    rw [hup, addf_apply, mulf_apply, mulf_apply, hneg,
      R16_coef (Host.cos ang) ⟨r.val / 32, hb⟩ ⟨r.val % 16, hw⟩ c hj,
      R16_half0 X ⟨r.val / 32, hb⟩ ⟨r.val % 16, hw⟩ c (by show (r.val / 32 * 2 + 0) * 16 + r.val % 16 < 1024; omega),
      R16_half1 X ⟨r.val / 32, hb⟩ ⟨r.val % 16, hw⟩ c (by show (r.val / 32 * 2 + 1) * 16 + r.val % 16 < 1024; omega)]
    have h2 : r.val - 16 < 1024 := by omega
    have hv : vec ang (r.val / (2 * 16) * 16 + (r.val % (2 * 16) - 16)) = ang (ix1 ⟨r.val / 32 * 16 + r.val % 16, by omega⟩) := by
      unfold vec
      rw [dif_pos (by omega : r.val / (2 * 16) * 16 + (r.val % (2 * 16) - 16) < 512)]
      try exact congrArg ang (congrArg ix1 (Fin.ext (by show r.val / (2 * 16) * 16 + (r.val % (2 * 16) - 16) = r.val / 32 * 16 + r.val % 16; omega)))
    have hc1 : col X c (r.val - 16) = X (ix2 ⟨(r.val / 32 * 2 + 0) * 16 + r.val % 16, by omega⟩ c) := by
      unfold col
      rw [dif_pos h2]
      exact congrArg (fun q => X (ix2 q c)) (Fin.ext (by show r.val - 16 = (r.val / 32 * 2 + 0) * 16 + r.val % 16; omega))
    have hc2 : col X c r.val = X (ix2 ⟨(r.val / 32 * 2 + 1) * 16 + r.val % 16, by omega⟩ c) := by
      unfold col
      rw [dif_pos hr]
      exact congrArg (fun q => X (ix2 q c)) (Fin.ext (by show r.val = (r.val / 32 * 2 + 1) * 16 + r.val % 16; omega))
    rw [hv, hc1, hc2]
    rfl

/-- Column by column: the reference's layer of stride 16 sends column `c` of the array to the layer of stride 16 of that column. -/
theorem R16_col (ang : FVec Ideal S512 .f32) (X : FVec Ideal S1024x8192 .f32) (c : Fin 8192) :
    col (R16 ang X) c = layerT 16 (vec ang) (col X c) := by
  funext r
  by_cases hr : r < 1024
  · show (if h : r < 1024 then R16 ang X (ix2 ⟨r, h⟩ c) else 0) = if r < 1024 then layer 16 (vec ang) (col X c) r else 0
    rw [dif_pos hr, if_pos hr]
    exact R16_apply ang X ⟨r, hr⟩ c
  · show (if h : r < 1024 then R16 ang X (ix2 ⟨r, h⟩ c) else 0) = if r < 1024 then layer 16 (vec ang) (col X c) r else 0
    rw [dif_neg hr, if_neg hr]

end Cert.ReferenceIdeal.Layer

end
-- ==== Proof.RLayer32.lean ====
/-
  The reference's layer of stride 32, as its program writes it, and what it does to a column.

  The [1024, 8192] array is re-read as 16 groups of 2 halves of 32 rows ([16, 2, 32, 8192]); half 0 and half 1 of every
  group are the two entries of the pairs; the 512 cosines and sines are re-read as [16, 32, 1] and repeated along the
  columns; the two rotated halves are stacked group by group and the result is read as [1024, 8192] again.  Row `r`
  of the result sits in group `r / 64`, half `r % 64 / 32`, place `r % 32`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 32 as the reference spells it, from the layer's 512 angles and the array. -/
def R32 {F : FTy → Type} [FloatOps F] (ang : FVec F S512 .f32) (X : FVec F S1024x8192 .f32) : FVec F S1024x8192 .f32 :=
  shapeCast S1024x8192
    (concatenate S16x2x32x8192 1
      [⟨S16x1x32x8192, (broadcastInDim S16x1x32x8192 ![0, 2, 3] bcast_S16x32x8192_S16x1x32x8192_0_2_3 (addf (mulf (broadcastInDim S16x32x8192 ![0, 1, 2] bcast_S16x32x1_S16x32x8192_0_1_2 (shapeCast S16x32x1 (Host.cos ang) shapeCasts_S512_S16x32x1)) (shapeCast S16x32x8192 (extractStridedSlice S16x1x32x8192 ![0, 0, 0, 0] (shapeCast S16x2x32x8192 X shapeCasts_S1024x8192_S16x2x32x8192) slices_S16x2x32x8192_S16x1x32x8192_0_0_0_0) shapeCasts_S16x1x32x8192_S16x32x8192)) (mulf (broadcastInDim S16x32x8192 ![0, 1, 2] bcast_S16x32x1_S16x32x8192_0_1_2 (shapeCast S16x32x1 (Host.sin ang) shapeCasts_S512_S16x32x1)) (shapeCast S16x32x8192 (extractStridedSlice S16x1x32x8192 ![0, 1, 0, 0] (shapeCast S16x2x32x8192 X shapeCasts_S1024x8192_S16x2x32x8192) slices_S16x2x32x8192_S16x1x32x8192_0_1_0_0) shapeCasts_S16x1x32x8192_S16x32x8192))))⟩,
       ⟨S16x1x32x8192, (broadcastInDim S16x1x32x8192 ![0, 2, 3] bcast_S16x32x8192_S16x1x32x8192_0_2_3 (addf (mulf (broadcastInDim S16x32x8192 ![0, 1, 2] bcast_S16x32x1_S16x32x8192_0_1_2 (Host.negf (shapeCast S16x32x1 (Host.sin ang) shapeCasts_S512_S16x32x1))) (shapeCast S16x32x8192 (extractStridedSlice S16x1x32x8192 ![0, 0, 0, 0] (shapeCast S16x2x32x8192 X shapeCasts_S1024x8192_S16x2x32x8192) slices_S16x2x32x8192_S16x1x32x8192_0_0_0_0) shapeCasts_S16x1x32x8192_S16x32x8192)) (mulf (broadcastInDim S16x32x8192 ![0, 1, 2] bcast_S16x32x1_S16x32x8192_0_1_2 (shapeCast S16x32x1 (Host.cos ang) shapeCasts_S512_S16x32x1)) (shapeCast S16x32x8192 (extractStridedSlice S16x1x32x8192 ![0, 1, 0, 0] (shapeCast S16x2x32x8192 X shapeCasts_S1024x8192_S16x2x32x8192) slices_S16x2x32x8192_S16x1x32x8192_0_1_0_0) shapeCasts_S16x1x32x8192_S16x32x8192))))⟩]
      concatenates_S16x1x32x8192_S16x1x32x8192_S16x2x32x8192_d1)
    shapeCasts_S16x2x32x8192_S1024x8192

/-- A [16, 32, 1] column of coefficients repeated along the 8192 columns, read at group `b`, place `w`: the coefficient
    numbered `b · 32 + w` of the 512. -/
theorem R32_coef (v : S512.Idx → EReal) (b : Fin 16) (w : Fin 32) (c : Fin 8192) (hj : b.val * 32 + w.val < 512) :
    broadcastInDim S16x32x8192 ![0, 1, 2] bcast_S16x32x1_S16x32x8192_0_1_2 (shapeCast S16x32x1 v shapeCasts_S512_S16x32x1) (ix3 b w c) = v (ix1 ⟨b.val * 32 + w.val, hj⟩) := by
  have hb := b.isLt; have hw := w.isLt
  refine (broadcastInDim_apply ![0, 1, 2] bcast_S16x32x1_S16x32x8192_0_1_2 _ (ix3 b w c) (ix3 b w (0 : Fin 1)) (fun a => match a with
    | ⟨0, _⟩ => by show b.val = if (16 : ℕ) = 1 then 0 else b.val; split <;> omega
    | ⟨1, _⟩ => by show w.val = if (32 : ℕ) = 1 then 0 else w.val; split <;> omega
    | ⟨2, _⟩ => by show (0 : ℕ) = if (1 : ℕ) = 1 then 0 else c.val; rfl)).trans ?_
  exact shapeCast_apply v shapeCasts_S512_S16x32x1 (ix3 b w (0 : Fin 1)) (ix1 ⟨b.val * 32 + w.val, hj⟩) (by
    rw [Shape.rowMajor_val_one, Shape.rowMajor_val_three]
    show b.val * 32 + w.val = (b.val * 32 + w.val) * 1 + 0
    omega)

/-- Half 0 of group `b` at place `w`, column `c`: row `(b · 2 + 0) · 32 + w` of the array. -/
theorem R32_half0 (X : S1024x8192.Idx → EReal)
    (b : Fin 16) (w : Fin 32) (c : Fin 8192) (hr : (b.val * 2 + 0) * 32 + w.val < 1024) :
    shapeCast S16x32x8192 (extractStridedSlice S16x1x32x8192 ![0, 0, 0, 0] (shapeCast S16x2x32x8192 X shapeCasts_S1024x8192_S16x2x32x8192) slices_S16x2x32x8192_S16x1x32x8192_0_0_0_0) shapeCasts_S16x1x32x8192_S16x32x8192 (ix3 b w c)
      = X (ix2 ⟨(b.val * 2 + 0) * 32 + w.val, hr⟩ c) := by
  have hb := b.isLt; have hw := w.isLt
  refine (shapeCast_apply _ shapeCasts_S16x1x32x8192_S16x32x8192 (ix3 b w c) (ix4 b (0 : Fin 1) w c) (by
    rw [Shape.rowMajor_val_four, Shape.rowMajor_val_three]
    show ((b.val * 1 + 0) * 32 + w.val) * 8192 + c.val = (b.val * 32 + w.val) * 8192 + c.val
    omega)).trans ?_
  refine (extractStridedSlice_apply ![0, 0, 0, 0] _ slices_S16x2x32x8192_S16x1x32x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S16x2x32x8192 (ix4 b (0 : Fin 2) w c) (ix2 ⟨(b.val * 2 + 0) * 32 + w.val, hr⟩ c) (by
    rw [Shape.rowMajor_val_two, Shape.rowMajor_val_four]
    show ((b.val * 2 + 0) * 32 + w.val) * 8192 + c.val = ((b.val * 2 + 0) * 32 + w.val) * 8192 + c.val
    rfl)

/-- Half 1 of group `b` at place `w`, column `c`: row `(b · 2 + 1) · 32 + w` of the array. -/
theorem R32_half1 (X : S1024x8192.Idx → EReal)
    (b : Fin 16) (w : Fin 32) (c : Fin 8192) (hr : (b.val * 2 + 1) * 32 + w.val < 1024) :
    shapeCast S16x32x8192 (extractStridedSlice S16x1x32x8192 ![0, 1, 0, 0] (shapeCast S16x2x32x8192 X shapeCasts_S1024x8192_S16x2x32x8192) slices_S16x2x32x8192_S16x1x32x8192_0_1_0_0) shapeCasts_S16x1x32x8192_S16x32x8192 (ix3 b w c)
      = X (ix2 ⟨(b.val * 2 + 1) * 32 + w.val, hr⟩ c) := by
  have hb := b.isLt; have hw := w.isLt
  refine (shapeCast_apply _ shapeCasts_S16x1x32x8192_S16x32x8192 (ix3 b w c) (ix4 b (0 : Fin 1) w c) (by
    rw [Shape.rowMajor_val_four, Shape.rowMajor_val_three]
    show ((b.val * 1 + 0) * 32 + w.val) * 8192 + c.val = (b.val * 32 + w.val) * 8192 + c.val
    omega)).trans ?_
  refine (extractStridedSlice_apply ![0, 1, 0, 0] _ slices_S16x2x32x8192_S16x1x32x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S16x2x32x8192 (ix4 b (1 : Fin 2) w c) (ix2 ⟨(b.val * 2 + 1) * 32 + w.val, hr⟩ c) (by
    rw [Shape.rowMajor_val_two, Shape.rowMajor_val_four]
    show ((b.val * 2 + 1) * 32 + w.val) * 8192 + c.val = ((b.val * 2 + 1) * 32 + w.val) * 8192 + c.val
    rfl)

/-- The reference's layer of stride 32 at row `r`, column `c` is the layer of stride 32 on column `c` at row `r`. -/
theorem R32_apply (ang : FVec Ideal S512 .f32) (X : FVec Ideal S1024x8192 .f32) (r : Fin 1024) (c : Fin 8192) :
    R32 ang X (ix2 r c) = layer 32 (vec ang) (col X c) r.val := by
  have hr := r.isLt
  have hb : r.val / 64 < 16 := by omega
  have hh : r.val % 64 / 32 < 2 := by omega
  have hw : r.val % 32 < 32 := by omega
  unfold R32 layer
  refine (shapeCast_apply _ shapeCasts_S16x2x32x8192_S1024x8192 (ix2 r c) (ix4 ⟨r.val / 64, hb⟩ ⟨r.val % 64 / 32, hh⟩ ⟨r.val % 32, hw⟩ c) (by
    rw [Shape.rowMajor_val_four, Shape.rowMajor_val_two]
    show ((r.val / 64 * 2 + r.val % 64 / 32) * 32 + r.val % 32) * 8192 + c.val = r.val * 8192 + c.val
    omega)).trans ?_
  have hup : ∀ (Y : S16x32x8192.Idx → EReal) (h' : Fin 1), broadcastInDim S16x1x32x8192 ![0, 2, 3] bcast_S16x32x8192_S16x1x32x8192_0_2_3 Y (ix4 ⟨r.val / 64, hb⟩ h' ⟨r.val % 32, hw⟩ c)
      = Y (ix3 ⟨r.val / 64, hb⟩ ⟨r.val % 32, hw⟩ c) := fun Y h' =>
    broadcastInDim_apply ![0, 2, 3] bcast_S16x32x8192_S16x1x32x8192_0_2_3 Y _ (ix3 ⟨r.val / 64, hb⟩ ⟨r.val % 32, hw⟩ c) (fun a => match a with
      | ⟨0, _⟩ => by show r.val / 64 = if (16 : ℕ) = 1 then 0 else r.val / 64; split <;> omega
      | ⟨1, _⟩ => by show r.val % 32 = if (32 : ℕ) = 1 then 0 else r.val % 32; split <;> omega
      | ⟨2, _⟩ => by show c.val = if (8192 : ℕ) = 1 then 0 else c.val; split <;> omega)
  have hj : r.val / 64 * 32 + r.val % 32 < 512 := by omega
  by_cases hlt : r.val % (2 * 32) < 32
  · rw [if_pos hlt]
    have hh0 : r.val % 64 / 32 = 0 := by omega
    refine (concatenate_pair_apply_left 1 _ _ concatenates_S16x1x32x8192_S16x1x32x8192_S16x2x32x8192_d1 _ rfl
      (ix4 ⟨r.val / 64, hb⟩ (0 : Fin 1) ⟨r.val % 32, hw⟩ c) (fun a => match a with
        | ⟨0, _⟩ => rfl
        | ⟨1, _⟩ => by show (0 : ℕ) = r.val % 64 / 32; omega
        | ⟨2, _⟩ => rfl
        | ⟨3, _⟩ => rfl)).trans ?_
    rw [hup, addf_apply, mulf_apply, mulf_apply,
      R32_coef (Host.cos ang) ⟨r.val / 64, hb⟩ ⟨r.val % 32, hw⟩ c hj,
      R32_coef (Host.sin ang) ⟨r.val / 64, hb⟩ ⟨r.val % 32, hw⟩ c hj,
      R32_half0 X ⟨r.val / 64, hb⟩ ⟨r.val % 32, hw⟩ c (by show (r.val / 64 * 2 + 0) * 32 + r.val % 32 < 1024; omega),
      R32_half1 X ⟨r.val / 64, hb⟩ ⟨r.val % 32, hw⟩ c (by show (r.val / 64 * 2 + 1) * 32 + r.val % 32 < 1024; omega)]
    have h2 : r.val + 32 < 1024 := by omega
    have hv : vec ang (r.val / (2 * 32) * 32 + r.val % (2 * 32)) = ang (ix1 ⟨r.val / 64 * 32 + r.val % 32, by omega⟩) := by
      unfold vec
      rw [dif_pos (by omega : r.val / (2 * 32) * 32 + r.val % (2 * 32) < 512)]
      try exact congrArg ang (congrArg ix1 (Fin.ext (by show r.val / (2 * 32) * 32 + r.val % (2 * 32) = r.val / 64 * 32 + r.val % 32; omega)))
    have hc1 : col X c r.val = X (ix2 ⟨(r.val / 64 * 2 + 0) * 32 + r.val % 32, by omega⟩ c) := by
      unfold col
      rw [dif_pos hr]
      exact congrArg (fun q => X (ix2 q c)) (Fin.ext (by show r.val = (r.val / 64 * 2 + 0) * 32 + r.val % 32; omega))
    have hc2 : col X c (r.val + 32) = X (ix2 ⟨(r.val / 64 * 2 + 1) * 32 + r.val % 32, by omega⟩ c) := by
      unfold col
      rw [dif_pos h2]
      exact congrArg (fun q => X (ix2 q c)) (Fin.ext (by show r.val + 32 = (r.val / 64 * 2 + 1) * 32 + r.val % 32; omega))
    rw [hv, hc1, hc2]
    rfl
  · rw [if_neg hlt]
    have hh1 : r.val % 64 / 32 = 1 := by omega
    refine (concatenate_pair_apply_right 1 _ _ concatenates_S16x1x32x8192_S16x1x32x8192_S16x2x32x8192_d1 _ rfl rfl
      (ix4 ⟨r.val / 64, hb⟩ (0 : Fin 1) ⟨r.val % 32, hw⟩ c) (fun a ha => match a with
        | ⟨0, _⟩ => rfl
        | ⟨1, _⟩ => absurd rfl ha
        | ⟨2, _⟩ => rfl
        | ⟨3, _⟩ => rfl) (by show 0 + 1 = r.val % 64 / 32; omega)).trans ?_
    have hneg : broadcastInDim S16x32x8192 ![0, 1, 2] bcast_S16x32x1_S16x32x8192_0_1_2 (Host.negf (shapeCast S16x32x1 (Host.sin ang) shapeCasts_S512_S16x32x1))
          (ix3 ⟨r.val / 64, hb⟩ ⟨r.val % 32, hw⟩ c)
        = -(Host.sin ang (ix1 ⟨r.val / 64 * 32 + r.val % 32, hj⟩)) := by
      refine (broadcastInDim_apply ![0, 1, 2] bcast_S16x32x1_S16x32x8192_0_1_2 _ _ (ix3 ⟨r.val / 64, hb⟩ ⟨r.val % 32, hw⟩ (0 : Fin 1)) (fun a => match a with
        | ⟨0, _⟩ => by show r.val / 64 = if (16 : ℕ) = 1 then 0 else r.val / 64; split <;> omega
        | ⟨1, _⟩ => by show r.val % 32 = if (32 : ℕ) = 1 then 0 else r.val % 32; split <;> omega
        | ⟨2, _⟩ => by show (0 : ℕ) = if (1 : ℕ) = 1 then 0 else c.val; rfl)).trans ?_
      show -(shapeCast S16x32x1 (Host.sin ang) shapeCasts_S512_S16x32x1 (ix3 ⟨r.val / 64, hb⟩ ⟨r.val % 32, hw⟩ (0 : Fin 1))) = _
      exact congrArg Neg.neg (shapeCast_apply (Host.sin ang) shapeCasts_S512_S16x32x1 _ (ix1 ⟨r.val / 64 * 32 + r.val % 32, hj⟩) (by
        rw [Shape.rowMajor_val_one, Shape.rowMajor_val_three]
        show r.val / 64 * 32 + r.val % 32 = (r.val / 64 * 32 + r.val % 32) * 1 + 0
        omega))
    rw [hup, addf_apply, mulf_apply, mulf_apply, hneg,
      R32_coef (Host.cos ang) ⟨r.val / 64, hb⟩ ⟨r.val % 32, hw⟩ c hj,
      R32_half0 X ⟨r.val / 64, hb⟩ ⟨r.val % 32, hw⟩ c (by show (r.val / 64 * 2 + 0) * 32 + r.val % 32 < 1024; omega),
      R32_half1 X ⟨r.val / 64, hb⟩ ⟨r.val % 32, hw⟩ c (by show (r.val / 64 * 2 + 1) * 32 + r.val % 32 < 1024; omega)]
    have h2 : r.val - 32 < 1024 := by omega
    have hv : vec ang (r.val / (2 * 32) * 32 + (r.val % (2 * 32) - 32)) = ang (ix1 ⟨r.val / 64 * 32 + r.val % 32, by omega⟩) := by
      unfold vec
      rw [dif_pos (by omega : r.val / (2 * 32) * 32 + (r.val % (2 * 32) - 32) < 512)]
      try exact congrArg ang (congrArg ix1 (Fin.ext (by show r.val / (2 * 32) * 32 + (r.val % (2 * 32) - 32) = r.val / 64 * 32 + r.val % 32; omega)))
    have hc1 : col X c (r.val - 32) = X (ix2 ⟨(r.val / 64 * 2 + 0) * 32 + r.val % 32, by omega⟩ c) := by
      unfold col
      rw [dif_pos h2]
      exact congrArg (fun q => X (ix2 q c)) (Fin.ext (by show r.val - 32 = (r.val / 64 * 2 + 0) * 32 + r.val % 32; omega))
    have hc2 : col X c r.val = X (ix2 ⟨(r.val / 64 * 2 + 1) * 32 + r.val % 32, by omega⟩ c) := by
      unfold col
      rw [dif_pos hr]
      exact congrArg (fun q => X (ix2 q c)) (Fin.ext (by show r.val = (r.val / 64 * 2 + 1) * 32 + r.val % 32; omega))
    rw [hv, hc1, hc2]
    rfl

/-- Column by column: the reference's layer of stride 32 sends column `c` of the array to the layer of stride 32 of that column. -/
theorem R32_col (ang : FVec Ideal S512 .f32) (X : FVec Ideal S1024x8192 .f32) (c : Fin 8192) :
    col (R32 ang X) c = layerT 32 (vec ang) (col X c) := by
  funext r
  by_cases hr : r < 1024
  · show (if h : r < 1024 then R32 ang X (ix2 ⟨r, h⟩ c) else 0) = if r < 1024 then layer 32 (vec ang) (col X c) r else 0
    rw [dif_pos hr, if_pos hr]
    exact R32_apply ang X ⟨r, hr⟩ c
  · show (if h : r < 1024 then R32 ang X (ix2 ⟨r, h⟩ c) else 0) = if r < 1024 then layer 32 (vec ang) (col X c) r else 0
    rw [dif_neg hr, if_neg hr]

end Cert.ReferenceIdeal.Layer

end
-- ==== Proof.RLayer64.lean ====
/-
  The reference's layer of stride 64, as its program writes it, and what it does to a column.

  The [1024, 8192] array is re-read as 8 groups of 2 halves of 64 rows ([8, 2, 64, 8192]); half 0 and half 1 of every
  group are the two entries of the pairs; the 512 cosines and sines are re-read as [8, 64, 1] and repeated along the
  columns; the two rotated halves are stacked group by group and the result is read as [1024, 8192] again.  Row `r`
  of the result sits in group `r / 128`, half `r % 128 / 64`, place `r % 64`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 64 as the reference spells it, from the layer's 512 angles and the array. -/
def R64 {F : FTy → Type} [FloatOps F] (ang : FVec F S512 .f32) (X : FVec F S1024x8192 .f32) : FVec F S1024x8192 .f32 :=
  shapeCast S1024x8192
    (concatenate S8x2x64x8192 1
      [⟨S8x1x64x8192, (broadcastInDim S8x1x64x8192 ![0, 2, 3] bcast_S8x64x8192_S8x1x64x8192_0_2_3 (addf (mulf (broadcastInDim S8x64x8192 ![0, 1, 2] bcast_S8x64x1_S8x64x8192_0_1_2 (shapeCast S8x64x1 (Host.cos ang) shapeCasts_S512_S8x64x1)) (shapeCast S8x64x8192 (extractStridedSlice S8x1x64x8192 ![0, 0, 0, 0] (shapeCast S8x2x64x8192 X shapeCasts_S1024x8192_S8x2x64x8192) slices_S8x2x64x8192_S8x1x64x8192_0_0_0_0) shapeCasts_S8x1x64x8192_S8x64x8192)) (mulf (broadcastInDim S8x64x8192 ![0, 1, 2] bcast_S8x64x1_S8x64x8192_0_1_2 (shapeCast S8x64x1 (Host.sin ang) shapeCasts_S512_S8x64x1)) (shapeCast S8x64x8192 (extractStridedSlice S8x1x64x8192 ![0, 1, 0, 0] (shapeCast S8x2x64x8192 X shapeCasts_S1024x8192_S8x2x64x8192) slices_S8x2x64x8192_S8x1x64x8192_0_1_0_0) shapeCasts_S8x1x64x8192_S8x64x8192))))⟩,
       ⟨S8x1x64x8192, (broadcastInDim S8x1x64x8192 ![0, 2, 3] bcast_S8x64x8192_S8x1x64x8192_0_2_3 (addf (mulf (broadcastInDim S8x64x8192 ![0, 1, 2] bcast_S8x64x1_S8x64x8192_0_1_2 (Host.negf (shapeCast S8x64x1 (Host.sin ang) shapeCasts_S512_S8x64x1))) (shapeCast S8x64x8192 (extractStridedSlice S8x1x64x8192 ![0, 0, 0, 0] (shapeCast S8x2x64x8192 X shapeCasts_S1024x8192_S8x2x64x8192) slices_S8x2x64x8192_S8x1x64x8192_0_0_0_0) shapeCasts_S8x1x64x8192_S8x64x8192)) (mulf (broadcastInDim S8x64x8192 ![0, 1, 2] bcast_S8x64x1_S8x64x8192_0_1_2 (shapeCast S8x64x1 (Host.cos ang) shapeCasts_S512_S8x64x1)) (shapeCast S8x64x8192 (extractStridedSlice S8x1x64x8192 ![0, 1, 0, 0] (shapeCast S8x2x64x8192 X shapeCasts_S1024x8192_S8x2x64x8192) slices_S8x2x64x8192_S8x1x64x8192_0_1_0_0) shapeCasts_S8x1x64x8192_S8x64x8192))))⟩]
      concatenates_S8x1x64x8192_S8x1x64x8192_S8x2x64x8192_d1)
    shapeCasts_S8x2x64x8192_S1024x8192

/-- A [8, 64, 1] column of coefficients repeated along the 8192 columns, read at group `b`, place `w`: the coefficient
    numbered `b · 64 + w` of the 512. -/
theorem R64_coef (v : S512.Idx → EReal) (b : Fin 8) (w : Fin 64) (c : Fin 8192) (hj : b.val * 64 + w.val < 512) :
    broadcastInDim S8x64x8192 ![0, 1, 2] bcast_S8x64x1_S8x64x8192_0_1_2 (shapeCast S8x64x1 v shapeCasts_S512_S8x64x1) (ix3 b w c) = v (ix1 ⟨b.val * 64 + w.val, hj⟩) := by
  have hb := b.isLt; have hw := w.isLt
  refine (broadcastInDim_apply ![0, 1, 2] bcast_S8x64x1_S8x64x8192_0_1_2 _ (ix3 b w c) (ix3 b w (0 : Fin 1)) (fun a => match a with
    | ⟨0, _⟩ => by show b.val = if (8 : ℕ) = 1 then 0 else b.val; split <;> omega
    | ⟨1, _⟩ => by show w.val = if (64 : ℕ) = 1 then 0 else w.val; split <;> omega
    | ⟨2, _⟩ => by show (0 : ℕ) = if (1 : ℕ) = 1 then 0 else c.val; rfl)).trans ?_
  exact shapeCast_apply v shapeCasts_S512_S8x64x1 (ix3 b w (0 : Fin 1)) (ix1 ⟨b.val * 64 + w.val, hj⟩) (by
    rw [Shape.rowMajor_val_one, Shape.rowMajor_val_three]
    show b.val * 64 + w.val = (b.val * 64 + w.val) * 1 + 0
    omega)

/-- Half 0 of group `b` at place `w`, column `c`: row `(b · 2 + 0) · 64 + w` of the array. -/
theorem R64_half0 (X : S1024x8192.Idx → EReal)
    (b : Fin 8) (w : Fin 64) (c : Fin 8192) (hr : (b.val * 2 + 0) * 64 + w.val < 1024) :
    shapeCast S8x64x8192 (extractStridedSlice S8x1x64x8192 ![0, 0, 0, 0] (shapeCast S8x2x64x8192 X shapeCasts_S1024x8192_S8x2x64x8192) slices_S8x2x64x8192_S8x1x64x8192_0_0_0_0) shapeCasts_S8x1x64x8192_S8x64x8192 (ix3 b w c)
      = X (ix2 ⟨(b.val * 2 + 0) * 64 + w.val, hr⟩ c) := by
  have hb := b.isLt; have hw := w.isLt
  refine (shapeCast_apply _ shapeCasts_S8x1x64x8192_S8x64x8192 (ix3 b w c) (ix4 b (0 : Fin 1) w c) (by
    rw [Shape.rowMajor_val_four, Shape.rowMajor_val_three]
    show ((b.val * 1 + 0) * 64 + w.val) * 8192 + c.val = (b.val * 64 + w.val) * 8192 + c.val
    omega)).trans ?_
  refine (extractStridedSlice_apply ![0, 0, 0, 0] _ slices_S8x2x64x8192_S8x1x64x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S8x2x64x8192 (ix4 b (0 : Fin 2) w c) (ix2 ⟨(b.val * 2 + 0) * 64 + w.val, hr⟩ c) (by
    rw [Shape.rowMajor_val_two, Shape.rowMajor_val_four]
    show ((b.val * 2 + 0) * 64 + w.val) * 8192 + c.val = ((b.val * 2 + 0) * 64 + w.val) * 8192 + c.val
    rfl)

/-- Half 1 of group `b` at place `w`, column `c`: row `(b · 2 + 1) · 64 + w` of the array. -/
theorem R64_half1 (X : S1024x8192.Idx → EReal)
    (b : Fin 8) (w : Fin 64) (c : Fin 8192) (hr : (b.val * 2 + 1) * 64 + w.val < 1024) :
    shapeCast S8x64x8192 (extractStridedSlice S8x1x64x8192 ![0, 1, 0, 0] (shapeCast S8x2x64x8192 X shapeCasts_S1024x8192_S8x2x64x8192) slices_S8x2x64x8192_S8x1x64x8192_0_1_0_0) shapeCasts_S8x1x64x8192_S8x64x8192 (ix3 b w c)
      = X (ix2 ⟨(b.val * 2 + 1) * 64 + w.val, hr⟩ c) := by
  have hb := b.isLt; have hw := w.isLt
  refine (shapeCast_apply _ shapeCasts_S8x1x64x8192_S8x64x8192 (ix3 b w c) (ix4 b (0 : Fin 1) w c) (by
    rw [Shape.rowMajor_val_four, Shape.rowMajor_val_three]
    show ((b.val * 1 + 0) * 64 + w.val) * 8192 + c.val = (b.val * 64 + w.val) * 8192 + c.val
    omega)).trans ?_
  refine (extractStridedSlice_apply ![0, 1, 0, 0] _ slices_S8x2x64x8192_S8x1x64x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S8x2x64x8192 (ix4 b (1 : Fin 2) w c) (ix2 ⟨(b.val * 2 + 1) * 64 + w.val, hr⟩ c) (by
    rw [Shape.rowMajor_val_two, Shape.rowMajor_val_four]
    show ((b.val * 2 + 1) * 64 + w.val) * 8192 + c.val = ((b.val * 2 + 1) * 64 + w.val) * 8192 + c.val
    rfl)

/-- The reference's layer of stride 64 at row `r`, column `c` is the layer of stride 64 on column `c` at row `r`. -/
theorem R64_apply (ang : FVec Ideal S512 .f32) (X : FVec Ideal S1024x8192 .f32) (r : Fin 1024) (c : Fin 8192) :
    R64 ang X (ix2 r c) = layer 64 (vec ang) (col X c) r.val := by
  have hr := r.isLt
  have hb : r.val / 128 < 8 := by omega
  have hh : r.val % 128 / 64 < 2 := by omega
  have hw : r.val % 64 < 64 := by omega
  unfold R64 layer
  refine (shapeCast_apply _ shapeCasts_S8x2x64x8192_S1024x8192 (ix2 r c) (ix4 ⟨r.val / 128, hb⟩ ⟨r.val % 128 / 64, hh⟩ ⟨r.val % 64, hw⟩ c) (by
    rw [Shape.rowMajor_val_four, Shape.rowMajor_val_two]
    show ((r.val / 128 * 2 + r.val % 128 / 64) * 64 + r.val % 64) * 8192 + c.val = r.val * 8192 + c.val
    omega)).trans ?_
  have hup : ∀ (Y : S8x64x8192.Idx → EReal) (h' : Fin 1), broadcastInDim S8x1x64x8192 ![0, 2, 3] bcast_S8x64x8192_S8x1x64x8192_0_2_3 Y (ix4 ⟨r.val / 128, hb⟩ h' ⟨r.val % 64, hw⟩ c)
      = Y (ix3 ⟨r.val / 128, hb⟩ ⟨r.val % 64, hw⟩ c) := fun Y h' =>
    broadcastInDim_apply ![0, 2, 3] bcast_S8x64x8192_S8x1x64x8192_0_2_3 Y _ (ix3 ⟨r.val / 128, hb⟩ ⟨r.val % 64, hw⟩ c) (fun a => match a with
      | ⟨0, _⟩ => by show r.val / 128 = if (8 : ℕ) = 1 then 0 else r.val / 128; split <;> omega
      | ⟨1, _⟩ => by show r.val % 64 = if (64 : ℕ) = 1 then 0 else r.val % 64; split <;> omega
      | ⟨2, _⟩ => by show c.val = if (8192 : ℕ) = 1 then 0 else c.val; split <;> omega)
  have hj : r.val / 128 * 64 + r.val % 64 < 512 := by omega
  by_cases hlt : r.val % (2 * 64) < 64
  · rw [if_pos hlt]
    have hh0 : r.val % 128 / 64 = 0 := by omega
    refine (concatenate_pair_apply_left 1 _ _ concatenates_S8x1x64x8192_S8x1x64x8192_S8x2x64x8192_d1 _ rfl
      (ix4 ⟨r.val / 128, hb⟩ (0 : Fin 1) ⟨r.val % 64, hw⟩ c) (fun a => match a with
        | ⟨0, _⟩ => rfl
        | ⟨1, _⟩ => by show (0 : ℕ) = r.val % 128 / 64; omega
        | ⟨2, _⟩ => rfl
        | ⟨3, _⟩ => rfl)).trans ?_
    rw [hup, addf_apply, mulf_apply, mulf_apply,
      R64_coef (Host.cos ang) ⟨r.val / 128, hb⟩ ⟨r.val % 64, hw⟩ c hj,
      R64_coef (Host.sin ang) ⟨r.val / 128, hb⟩ ⟨r.val % 64, hw⟩ c hj,
      R64_half0 X ⟨r.val / 128, hb⟩ ⟨r.val % 64, hw⟩ c (by show (r.val / 128 * 2 + 0) * 64 + r.val % 64 < 1024; omega),
      R64_half1 X ⟨r.val / 128, hb⟩ ⟨r.val % 64, hw⟩ c (by show (r.val / 128 * 2 + 1) * 64 + r.val % 64 < 1024; omega)]
    have h2 : r.val + 64 < 1024 := by omega
    have hv : vec ang (r.val / (2 * 64) * 64 + r.val % (2 * 64)) = ang (ix1 ⟨r.val / 128 * 64 + r.val % 64, by omega⟩) := by
      unfold vec
      rw [dif_pos (by omega : r.val / (2 * 64) * 64 + r.val % (2 * 64) < 512)]
      try exact congrArg ang (congrArg ix1 (Fin.ext (by show r.val / (2 * 64) * 64 + r.val % (2 * 64) = r.val / 128 * 64 + r.val % 64; omega)))
    have hc1 : col X c r.val = X (ix2 ⟨(r.val / 128 * 2 + 0) * 64 + r.val % 64, by omega⟩ c) := by
      unfold col
      rw [dif_pos hr]
      exact congrArg (fun q => X (ix2 q c)) (Fin.ext (by show r.val = (r.val / 128 * 2 + 0) * 64 + r.val % 64; omega))
    have hc2 : col X c (r.val + 64) = X (ix2 ⟨(r.val / 128 * 2 + 1) * 64 + r.val % 64, by omega⟩ c) := by
      unfold col
      rw [dif_pos h2]
      exact congrArg (fun q => X (ix2 q c)) (Fin.ext (by show r.val + 64 = (r.val / 128 * 2 + 1) * 64 + r.val % 64; omega))
    rw [hv, hc1, hc2]
    rfl
  · rw [if_neg hlt]
    have hh1 : r.val % 128 / 64 = 1 := by omega
    refine (concatenate_pair_apply_right 1 _ _ concatenates_S8x1x64x8192_S8x1x64x8192_S8x2x64x8192_d1 _ rfl rfl
      (ix4 ⟨r.val / 128, hb⟩ (0 : Fin 1) ⟨r.val % 64, hw⟩ c) (fun a ha => match a with
        | ⟨0, _⟩ => rfl
        | ⟨1, _⟩ => absurd rfl ha
        | ⟨2, _⟩ => rfl
        | ⟨3, _⟩ => rfl) (by show 0 + 1 = r.val % 128 / 64; omega)).trans ?_
    have hneg : broadcastInDim S8x64x8192 ![0, 1, 2] bcast_S8x64x1_S8x64x8192_0_1_2 (Host.negf (shapeCast S8x64x1 (Host.sin ang) shapeCasts_S512_S8x64x1))
          (ix3 ⟨r.val / 128, hb⟩ ⟨r.val % 64, hw⟩ c)
        = -(Host.sin ang (ix1 ⟨r.val / 128 * 64 + r.val % 64, hj⟩)) := by
      refine (broadcastInDim_apply ![0, 1, 2] bcast_S8x64x1_S8x64x8192_0_1_2 _ _ (ix3 ⟨r.val / 128, hb⟩ ⟨r.val % 64, hw⟩ (0 : Fin 1)) (fun a => match a with
        | ⟨0, _⟩ => by show r.val / 128 = if (8 : ℕ) = 1 then 0 else r.val / 128; split <;> omega
        | ⟨1, _⟩ => by show r.val % 64 = if (64 : ℕ) = 1 then 0 else r.val % 64; split <;> omega
        | ⟨2, _⟩ => by show (0 : ℕ) = if (1 : ℕ) = 1 then 0 else c.val; rfl)).trans ?_
      show -(shapeCast S8x64x1 (Host.sin ang) shapeCasts_S512_S8x64x1 (ix3 ⟨r.val / 128, hb⟩ ⟨r.val % 64, hw⟩ (0 : Fin 1))) = _
      exact congrArg Neg.neg (shapeCast_apply (Host.sin ang) shapeCasts_S512_S8x64x1 _ (ix1 ⟨r.val / 128 * 64 + r.val % 64, hj⟩) (by
        rw [Shape.rowMajor_val_one, Shape.rowMajor_val_three]
        show r.val / 128 * 64 + r.val % 64 = (r.val / 128 * 64 + r.val % 64) * 1 + 0
        omega))
    rw [hup, addf_apply, mulf_apply, mulf_apply, hneg,
      R64_coef (Host.cos ang) ⟨r.val / 128, hb⟩ ⟨r.val % 64, hw⟩ c hj,
      R64_half0 X ⟨r.val / 128, hb⟩ ⟨r.val % 64, hw⟩ c (by show (r.val / 128 * 2 + 0) * 64 + r.val % 64 < 1024; omega),
      R64_half1 X ⟨r.val / 128, hb⟩ ⟨r.val % 64, hw⟩ c (by show (r.val / 128 * 2 + 1) * 64 + r.val % 64 < 1024; omega)]
    have h2 : r.val - 64 < 1024 := by omega
    have hv : vec ang (r.val / (2 * 64) * 64 + (r.val % (2 * 64) - 64)) = ang (ix1 ⟨r.val / 128 * 64 + r.val % 64, by omega⟩) := by
      unfold vec
      rw [dif_pos (by omega : r.val / (2 * 64) * 64 + (r.val % (2 * 64) - 64) < 512)]
      try exact congrArg ang (congrArg ix1 (Fin.ext (by show r.val / (2 * 64) * 64 + (r.val % (2 * 64) - 64) = r.val / 128 * 64 + r.val % 64; omega)))
    have hc1 : col X c (r.val - 64) = X (ix2 ⟨(r.val / 128 * 2 + 0) * 64 + r.val % 64, by omega⟩ c) := by
      unfold col
      rw [dif_pos h2]
      exact congrArg (fun q => X (ix2 q c)) (Fin.ext (by show r.val - 64 = (r.val / 128 * 2 + 0) * 64 + r.val % 64; omega))
    have hc2 : col X c r.val = X (ix2 ⟨(r.val / 128 * 2 + 1) * 64 + r.val % 64, by omega⟩ c) := by
      unfold col
      rw [dif_pos hr]
      exact congrArg (fun q => X (ix2 q c)) (Fin.ext (by show r.val = (r.val / 128 * 2 + 1) * 64 + r.val % 64; omega))
    rw [hv, hc1, hc2]
    rfl

/-- Column by column: the reference's layer of stride 64 sends column `c` of the array to the layer of stride 64 of that column. -/
theorem R64_col (ang : FVec Ideal S512 .f32) (X : FVec Ideal S1024x8192 .f32) (c : Fin 8192) :
    col (R64 ang X) c = layerT 64 (vec ang) (col X c) := by
  funext r
  by_cases hr : r < 1024
  · show (if h : r < 1024 then R64 ang X (ix2 ⟨r, h⟩ c) else 0) = if r < 1024 then layer 64 (vec ang) (col X c) r else 0
    rw [dif_pos hr, if_pos hr]
    exact R64_apply ang X ⟨r, hr⟩ c
  · show (if h : r < 1024 then R64 ang X (ix2 ⟨r, h⟩ c) else 0) = if r < 1024 then layer 64 (vec ang) (col X c) r else 0
    rw [dif_neg hr, if_neg hr]

end Cert.ReferenceIdeal.Layer

end
-- ==== Proof.RLayer128.lean ====
/-
  The reference's layer of stride 128, as its program writes it, and what it does to a column.

  The [1024, 8192] array is re-read as 4 groups of 2 halves of 128 rows ([4, 2, 128, 8192]); half 0 and half 1 of every
  group are the two entries of the pairs; the 512 cosines and sines are re-read as [4, 128, 1] and repeated along the
  columns; the two rotated halves are stacked group by group and the result is read as [1024, 8192] again.  Row `r`
  of the result sits in group `r / 256`, half `r % 256 / 128`, place `r % 128`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 128 as the reference spells it, from the layer's 512 angles and the array. -/
def R128 {F : FTy → Type} [FloatOps F] (ang : FVec F S512 .f32) (X : FVec F S1024x8192 .f32) : FVec F S1024x8192 .f32 :=
  shapeCast S1024x8192
    (concatenate S4x2x128x8192 1
      [⟨S4x1x128x8192, (broadcastInDim S4x1x128x8192 ![0, 2, 3] bcast_S4x128x8192_S4x1x128x8192_0_2_3 (addf (mulf (broadcastInDim S4x128x8192 ![0, 1, 2] bcast_S4x128x1_S4x128x8192_0_1_2 (shapeCast S4x128x1 (Host.cos ang) shapeCasts_S512_S4x128x1)) (shapeCast S4x128x8192 (extractStridedSlice S4x1x128x8192 ![0, 0, 0, 0] (shapeCast S4x2x128x8192 X shapeCasts_S1024x8192_S4x2x128x8192) slices_S4x2x128x8192_S4x1x128x8192_0_0_0_0) shapeCasts_S4x1x128x8192_S4x128x8192)) (mulf (broadcastInDim S4x128x8192 ![0, 1, 2] bcast_S4x128x1_S4x128x8192_0_1_2 (shapeCast S4x128x1 (Host.sin ang) shapeCasts_S512_S4x128x1)) (shapeCast S4x128x8192 (extractStridedSlice S4x1x128x8192 ![0, 1, 0, 0] (shapeCast S4x2x128x8192 X shapeCasts_S1024x8192_S4x2x128x8192) slices_S4x2x128x8192_S4x1x128x8192_0_1_0_0) shapeCasts_S4x1x128x8192_S4x128x8192))))⟩,
       ⟨S4x1x128x8192, (broadcastInDim S4x1x128x8192 ![0, 2, 3] bcast_S4x128x8192_S4x1x128x8192_0_2_3 (addf (mulf (broadcastInDim S4x128x8192 ![0, 1, 2] bcast_S4x128x1_S4x128x8192_0_1_2 (Host.negf (shapeCast S4x128x1 (Host.sin ang) shapeCasts_S512_S4x128x1))) (shapeCast S4x128x8192 (extractStridedSlice S4x1x128x8192 ![0, 0, 0, 0] (shapeCast S4x2x128x8192 X shapeCasts_S1024x8192_S4x2x128x8192) slices_S4x2x128x8192_S4x1x128x8192_0_0_0_0) shapeCasts_S4x1x128x8192_S4x128x8192)) (mulf (broadcastInDim S4x128x8192 ![0, 1, 2] bcast_S4x128x1_S4x128x8192_0_1_2 (shapeCast S4x128x1 (Host.cos ang) shapeCasts_S512_S4x128x1)) (shapeCast S4x128x8192 (extractStridedSlice S4x1x128x8192 ![0, 1, 0, 0] (shapeCast S4x2x128x8192 X shapeCasts_S1024x8192_S4x2x128x8192) slices_S4x2x128x8192_S4x1x128x8192_0_1_0_0) shapeCasts_S4x1x128x8192_S4x128x8192))))⟩]
      concatenates_S4x1x128x8192_S4x1x128x8192_S4x2x128x8192_d1)
    shapeCasts_S4x2x128x8192_S1024x8192

/-- A [4, 128, 1] column of coefficients repeated along the 8192 columns, read at group `b`, place `w`: the coefficient
    numbered `b · 128 + w` of the 512. -/
theorem R128_coef (v : S512.Idx → EReal) (b : Fin 4) (w : Fin 128) (c : Fin 8192) (hj : b.val * 128 + w.val < 512) :
    broadcastInDim S4x128x8192 ![0, 1, 2] bcast_S4x128x1_S4x128x8192_0_1_2 (shapeCast S4x128x1 v shapeCasts_S512_S4x128x1) (ix3 b w c) = v (ix1 ⟨b.val * 128 + w.val, hj⟩) := by
  have hb := b.isLt; have hw := w.isLt
  refine (broadcastInDim_apply ![0, 1, 2] bcast_S4x128x1_S4x128x8192_0_1_2 _ (ix3 b w c) (ix3 b w (0 : Fin 1)) (fun a => match a with
    | ⟨0, _⟩ => by show b.val = if (4 : ℕ) = 1 then 0 else b.val; split <;> omega
    | ⟨1, _⟩ => by show w.val = if (128 : ℕ) = 1 then 0 else w.val; split <;> omega
    | ⟨2, _⟩ => by show (0 : ℕ) = if (1 : ℕ) = 1 then 0 else c.val; rfl)).trans ?_
  exact shapeCast_apply v shapeCasts_S512_S4x128x1 (ix3 b w (0 : Fin 1)) (ix1 ⟨b.val * 128 + w.val, hj⟩) (by
    rw [Shape.rowMajor_val_one, Shape.rowMajor_val_three]
    show b.val * 128 + w.val = (b.val * 128 + w.val) * 1 + 0
    omega)

/-- Half 0 of group `b` at place `w`, column `c`: row `(b · 2 + 0) · 128 + w` of the array. -/
theorem R128_half0 (X : S1024x8192.Idx → EReal)
    (b : Fin 4) (w : Fin 128) (c : Fin 8192) (hr : (b.val * 2 + 0) * 128 + w.val < 1024) :
    shapeCast S4x128x8192 (extractStridedSlice S4x1x128x8192 ![0, 0, 0, 0] (shapeCast S4x2x128x8192 X shapeCasts_S1024x8192_S4x2x128x8192) slices_S4x2x128x8192_S4x1x128x8192_0_0_0_0) shapeCasts_S4x1x128x8192_S4x128x8192 (ix3 b w c)
      = X (ix2 ⟨(b.val * 2 + 0) * 128 + w.val, hr⟩ c) := by
  have hb := b.isLt; have hw := w.isLt
  refine (shapeCast_apply _ shapeCasts_S4x1x128x8192_S4x128x8192 (ix3 b w c) (ix4 b (0 : Fin 1) w c) (by
    rw [Shape.rowMajor_val_four, Shape.rowMajor_val_three]
    show ((b.val * 1 + 0) * 128 + w.val) * 8192 + c.val = (b.val * 128 + w.val) * 8192 + c.val
    omega)).trans ?_
  refine (extractStridedSlice_apply ![0, 0, 0, 0] _ slices_S4x2x128x8192_S4x1x128x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S4x2x128x8192 (ix4 b (0 : Fin 2) w c) (ix2 ⟨(b.val * 2 + 0) * 128 + w.val, hr⟩ c) (by
    rw [Shape.rowMajor_val_two, Shape.rowMajor_val_four]
    show ((b.val * 2 + 0) * 128 + w.val) * 8192 + c.val = ((b.val * 2 + 0) * 128 + w.val) * 8192 + c.val
    rfl)

/-- Half 1 of group `b` at place `w`, column `c`: row `(b · 2 + 1) · 128 + w` of the array. -/
theorem R128_half1 (X : S1024x8192.Idx → EReal)
    (b : Fin 4) (w : Fin 128) (c : Fin 8192) (hr : (b.val * 2 + 1) * 128 + w.val < 1024) :
    shapeCast S4x128x8192 (extractStridedSlice S4x1x128x8192 ![0, 1, 0, 0] (shapeCast S4x2x128x8192 X shapeCasts_S1024x8192_S4x2x128x8192) slices_S4x2x128x8192_S4x1x128x8192_0_1_0_0) shapeCasts_S4x1x128x8192_S4x128x8192 (ix3 b w c)
      = X (ix2 ⟨(b.val * 2 + 1) * 128 + w.val, hr⟩ c) := by
  have hb := b.isLt; have hw := w.isLt
  refine (shapeCast_apply _ shapeCasts_S4x1x128x8192_S4x128x8192 (ix3 b w c) (ix4 b (0 : Fin 1) w c) (by
    rw [Shape.rowMajor_val_four, Shape.rowMajor_val_three]
    show ((b.val * 1 + 0) * 128 + w.val) * 8192 + c.val = (b.val * 128 + w.val) * 8192 + c.val
    omega)).trans ?_
  refine (extractStridedSlice_apply ![0, 1, 0, 0] _ slices_S4x2x128x8192_S4x1x128x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S4x2x128x8192 (ix4 b (1 : Fin 2) w c) (ix2 ⟨(b.val * 2 + 1) * 128 + w.val, hr⟩ c) (by
    rw [Shape.rowMajor_val_two, Shape.rowMajor_val_four]
    show ((b.val * 2 + 1) * 128 + w.val) * 8192 + c.val = ((b.val * 2 + 1) * 128 + w.val) * 8192 + c.val
    rfl)

/-- The reference's layer of stride 128 at row `r`, column `c` is the layer of stride 128 on column `c` at row `r`. -/
theorem R128_apply (ang : FVec Ideal S512 .f32) (X : FVec Ideal S1024x8192 .f32) (r : Fin 1024) (c : Fin 8192) :
    R128 ang X (ix2 r c) = layer 128 (vec ang) (col X c) r.val := by
  have hr := r.isLt
  have hb : r.val / 256 < 4 := by omega
  have hh : r.val % 256 / 128 < 2 := by omega
  have hw : r.val % 128 < 128 := by omega
  unfold R128 layer
  refine (shapeCast_apply _ shapeCasts_S4x2x128x8192_S1024x8192 (ix2 r c) (ix4 ⟨r.val / 256, hb⟩ ⟨r.val % 256 / 128, hh⟩ ⟨r.val % 128, hw⟩ c) (by
    rw [Shape.rowMajor_val_four, Shape.rowMajor_val_two]
    show ((r.val / 256 * 2 + r.val % 256 / 128) * 128 + r.val % 128) * 8192 + c.val = r.val * 8192 + c.val
    omega)).trans ?_
  have hup : ∀ (Y : S4x128x8192.Idx → EReal) (h' : Fin 1), broadcastInDim S4x1x128x8192 ![0, 2, 3] bcast_S4x128x8192_S4x1x128x8192_0_2_3 Y (ix4 ⟨r.val / 256, hb⟩ h' ⟨r.val % 128, hw⟩ c)
      = Y (ix3 ⟨r.val / 256, hb⟩ ⟨r.val % 128, hw⟩ c) := fun Y h' =>
    broadcastInDim_apply ![0, 2, 3] bcast_S4x128x8192_S4x1x128x8192_0_2_3 Y _ (ix3 ⟨r.val / 256, hb⟩ ⟨r.val % 128, hw⟩ c) (fun a => match a with
      | ⟨0, _⟩ => by show r.val / 256 = if (4 : ℕ) = 1 then 0 else r.val / 256; split <;> omega
      | ⟨1, _⟩ => by show r.val % 128 = if (128 : ℕ) = 1 then 0 else r.val % 128; split <;> omega
      | ⟨2, _⟩ => by show c.val = if (8192 : ℕ) = 1 then 0 else c.val; split <;> omega)
  have hj : r.val / 256 * 128 + r.val % 128 < 512 := by omega
  by_cases hlt : r.val % (2 * 128) < 128
  · rw [if_pos hlt]
    have hh0 : r.val % 256 / 128 = 0 := by omega
    refine (concatenate_pair_apply_left 1 _ _ concatenates_S4x1x128x8192_S4x1x128x8192_S4x2x128x8192_d1 _ rfl
      (ix4 ⟨r.val / 256, hb⟩ (0 : Fin 1) ⟨r.val % 128, hw⟩ c) (fun a => match a with
        | ⟨0, _⟩ => rfl
        | ⟨1, _⟩ => by show (0 : ℕ) = r.val % 256 / 128; omega
        | ⟨2, _⟩ => rfl
        | ⟨3, _⟩ => rfl)).trans ?_
    rw [hup, addf_apply, mulf_apply, mulf_apply,
      R128_coef (Host.cos ang) ⟨r.val / 256, hb⟩ ⟨r.val % 128, hw⟩ c hj,
      R128_coef (Host.sin ang) ⟨r.val / 256, hb⟩ ⟨r.val % 128, hw⟩ c hj,
      R128_half0 X ⟨r.val / 256, hb⟩ ⟨r.val % 128, hw⟩ c (by show (r.val / 256 * 2 + 0) * 128 + r.val % 128 < 1024; omega),
      R128_half1 X ⟨r.val / 256, hb⟩ ⟨r.val % 128, hw⟩ c (by show (r.val / 256 * 2 + 1) * 128 + r.val % 128 < 1024; omega)]
    have h2 : r.val + 128 < 1024 := by omega
    have hv : vec ang (r.val / (2 * 128) * 128 + r.val % (2 * 128)) = ang (ix1 ⟨r.val / 256 * 128 + r.val % 128, by omega⟩) := by
      unfold vec
      rw [dif_pos (by omega : r.val / (2 * 128) * 128 + r.val % (2 * 128) < 512)]
      try exact congrArg ang (congrArg ix1 (Fin.ext (by show r.val / (2 * 128) * 128 + r.val % (2 * 128) = r.val / 256 * 128 + r.val % 128; omega)))
    have hc1 : col X c r.val = X (ix2 ⟨(r.val / 256 * 2 + 0) * 128 + r.val % 128, by omega⟩ c) := by
      unfold col
      rw [dif_pos hr]
      exact congrArg (fun q => X (ix2 q c)) (Fin.ext (by show r.val = (r.val / 256 * 2 + 0) * 128 + r.val % 128; omega))
    have hc2 : col X c (r.val + 128) = X (ix2 ⟨(r.val / 256 * 2 + 1) * 128 + r.val % 128, by omega⟩ c) := by
      unfold col
      rw [dif_pos h2]
      exact congrArg (fun q => X (ix2 q c)) (Fin.ext (by show r.val + 128 = (r.val / 256 * 2 + 1) * 128 + r.val % 128; omega))
    rw [hv, hc1, hc2]
    rfl
  · rw [if_neg hlt]
    have hh1 : r.val % 256 / 128 = 1 := by omega
    refine (concatenate_pair_apply_right 1 _ _ concatenates_S4x1x128x8192_S4x1x128x8192_S4x2x128x8192_d1 _ rfl rfl
      (ix4 ⟨r.val / 256, hb⟩ (0 : Fin 1) ⟨r.val % 128, hw⟩ c) (fun a ha => match a with
        | ⟨0, _⟩ => rfl
        | ⟨1, _⟩ => absurd rfl ha
        | ⟨2, _⟩ => rfl
        | ⟨3, _⟩ => rfl) (by show 0 + 1 = r.val % 256 / 128; omega)).trans ?_
    have hneg : broadcastInDim S4x128x8192 ![0, 1, 2] bcast_S4x128x1_S4x128x8192_0_1_2 (Host.negf (shapeCast S4x128x1 (Host.sin ang) shapeCasts_S512_S4x128x1))
          (ix3 ⟨r.val / 256, hb⟩ ⟨r.val % 128, hw⟩ c)
        = -(Host.sin ang (ix1 ⟨r.val / 256 * 128 + r.val % 128, hj⟩)) := by
      refine (broadcastInDim_apply ![0, 1, 2] bcast_S4x128x1_S4x128x8192_0_1_2 _ _ (ix3 ⟨r.val / 256, hb⟩ ⟨r.val % 128, hw⟩ (0 : Fin 1)) (fun a => match a with
        | ⟨0, _⟩ => by show r.val / 256 = if (4 : ℕ) = 1 then 0 else r.val / 256; split <;> omega
        | ⟨1, _⟩ => by show r.val % 128 = if (128 : ℕ) = 1 then 0 else r.val % 128; split <;> omega
        | ⟨2, _⟩ => by show (0 : ℕ) = if (1 : ℕ) = 1 then 0 else c.val; rfl)).trans ?_
      show -(shapeCast S4x128x1 (Host.sin ang) shapeCasts_S512_S4x128x1 (ix3 ⟨r.val / 256, hb⟩ ⟨r.val % 128, hw⟩ (0 : Fin 1))) = _
      exact congrArg Neg.neg (shapeCast_apply (Host.sin ang) shapeCasts_S512_S4x128x1 _ (ix1 ⟨r.val / 256 * 128 + r.val % 128, hj⟩) (by
        rw [Shape.rowMajor_val_one, Shape.rowMajor_val_three]
        show r.val / 256 * 128 + r.val % 128 = (r.val / 256 * 128 + r.val % 128) * 1 + 0
        omega))
    rw [hup, addf_apply, mulf_apply, mulf_apply, hneg,
      R128_coef (Host.cos ang) ⟨r.val / 256, hb⟩ ⟨r.val % 128, hw⟩ c hj,
      R128_half0 X ⟨r.val / 256, hb⟩ ⟨r.val % 128, hw⟩ c (by show (r.val / 256 * 2 + 0) * 128 + r.val % 128 < 1024; omega),
      R128_half1 X ⟨r.val / 256, hb⟩ ⟨r.val % 128, hw⟩ c (by show (r.val / 256 * 2 + 1) * 128 + r.val % 128 < 1024; omega)]
    have h2 : r.val - 128 < 1024 := by omega
    have hv : vec ang (r.val / (2 * 128) * 128 + (r.val % (2 * 128) - 128)) = ang (ix1 ⟨r.val / 256 * 128 + r.val % 128, by omega⟩) := by
      unfold vec
      rw [dif_pos (by omega : r.val / (2 * 128) * 128 + (r.val % (2 * 128) - 128) < 512)]
      try exact congrArg ang (congrArg ix1 (Fin.ext (by show r.val / (2 * 128) * 128 + (r.val % (2 * 128) - 128) = r.val / 256 * 128 + r.val % 128; omega)))
    have hc1 : col X c (r.val - 128) = X (ix2 ⟨(r.val / 256 * 2 + 0) * 128 + r.val % 128, by omega⟩ c) := by
      unfold col
      rw [dif_pos h2]
      exact congrArg (fun q => X (ix2 q c)) (Fin.ext (by show r.val - 128 = (r.val / 256 * 2 + 0) * 128 + r.val % 128; omega))
    have hc2 : col X c r.val = X (ix2 ⟨(r.val / 256 * 2 + 1) * 128 + r.val % 128, by omega⟩ c) := by
      unfold col
      rw [dif_pos hr]
      exact congrArg (fun q => X (ix2 q c)) (Fin.ext (by show r.val = (r.val / 256 * 2 + 1) * 128 + r.val % 128; omega))
    rw [hv, hc1, hc2]
    rfl

/-- Column by column: the reference's layer of stride 128 sends column `c` of the array to the layer of stride 128 of that column. -/
theorem R128_col (ang : FVec Ideal S512 .f32) (X : FVec Ideal S1024x8192 .f32) (c : Fin 8192) :
    col (R128 ang X) c = layerT 128 (vec ang) (col X c) := by
  funext r
  by_cases hr : r < 1024
  · show (if h : r < 1024 then R128 ang X (ix2 ⟨r, h⟩ c) else 0) = if r < 1024 then layer 128 (vec ang) (col X c) r else 0
    rw [dif_pos hr, if_pos hr]
    exact R128_apply ang X ⟨r, hr⟩ c
  · show (if h : r < 1024 then R128 ang X (ix2 ⟨r, h⟩ c) else 0) = if r < 1024 then layer 128 (vec ang) (col X c) r else 0
    rw [dif_neg hr, if_neg hr]

end Cert.ReferenceIdeal.Layer

end
-- ==== Proof.RLayer256.lean ====
/-
  The reference's layer of stride 256, as its program writes it, and what it does to a column.

  The [1024, 8192] array is re-read as 2 groups of 2 halves of 256 rows ([2, 2, 256, 8192]); half 0 and half 1 of every
  group are the two entries of the pairs; the 512 cosines and sines are re-read as [2, 256, 1] and repeated along the
  columns; the two rotated halves are stacked group by group and the result is read as [1024, 8192] again.  Row `r`
  of the result sits in group `r / 512`, half `r % 512 / 256`, place `r % 256`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 256 as the reference spells it, from the layer's 512 angles and the array. -/
def R256 {F : FTy → Type} [FloatOps F] (ang : FVec F S512 .f32) (X : FVec F S1024x8192 .f32) : FVec F S1024x8192 .f32 :=
  shapeCast S1024x8192
    (concatenate S2x2x256x8192 1
      [⟨S2x1x256x8192, (broadcastInDim S2x1x256x8192 ![0, 2, 3] bcast_S2x256x8192_S2x1x256x8192_0_2_3 (addf (mulf (broadcastInDim S2x256x8192 ![0, 1, 2] bcast_S2x256x1_S2x256x8192_0_1_2 (shapeCast S2x256x1 (Host.cos ang) shapeCasts_S512_S2x256x1)) (shapeCast S2x256x8192 (extractStridedSlice S2x1x256x8192 ![0, 0, 0, 0] (shapeCast S2x2x256x8192 X shapeCasts_S1024x8192_S2x2x256x8192) slices_S2x2x256x8192_S2x1x256x8192_0_0_0_0) shapeCasts_S2x1x256x8192_S2x256x8192)) (mulf (broadcastInDim S2x256x8192 ![0, 1, 2] bcast_S2x256x1_S2x256x8192_0_1_2 (shapeCast S2x256x1 (Host.sin ang) shapeCasts_S512_S2x256x1)) (shapeCast S2x256x8192 (extractStridedSlice S2x1x256x8192 ![0, 1, 0, 0] (shapeCast S2x2x256x8192 X shapeCasts_S1024x8192_S2x2x256x8192) slices_S2x2x256x8192_S2x1x256x8192_0_1_0_0) shapeCasts_S2x1x256x8192_S2x256x8192))))⟩,
       ⟨S2x1x256x8192, (broadcastInDim S2x1x256x8192 ![0, 2, 3] bcast_S2x256x8192_S2x1x256x8192_0_2_3 (addf (mulf (broadcastInDim S2x256x8192 ![0, 1, 2] bcast_S2x256x1_S2x256x8192_0_1_2 (Host.negf (shapeCast S2x256x1 (Host.sin ang) shapeCasts_S512_S2x256x1))) (shapeCast S2x256x8192 (extractStridedSlice S2x1x256x8192 ![0, 0, 0, 0] (shapeCast S2x2x256x8192 X shapeCasts_S1024x8192_S2x2x256x8192) slices_S2x2x256x8192_S2x1x256x8192_0_0_0_0) shapeCasts_S2x1x256x8192_S2x256x8192)) (mulf (broadcastInDim S2x256x8192 ![0, 1, 2] bcast_S2x256x1_S2x256x8192_0_1_2 (shapeCast S2x256x1 (Host.cos ang) shapeCasts_S512_S2x256x1)) (shapeCast S2x256x8192 (extractStridedSlice S2x1x256x8192 ![0, 1, 0, 0] (shapeCast S2x2x256x8192 X shapeCasts_S1024x8192_S2x2x256x8192) slices_S2x2x256x8192_S2x1x256x8192_0_1_0_0) shapeCasts_S2x1x256x8192_S2x256x8192))))⟩]
      concatenates_S2x1x256x8192_S2x1x256x8192_S2x2x256x8192_d1)
    shapeCasts_S2x2x256x8192_S1024x8192

/-- A [2, 256, 1] column of coefficients repeated along the 8192 columns, read at group `b`, place `w`: the coefficient
    numbered `b · 256 + w` of the 512. -/
theorem R256_coef (v : S512.Idx → EReal) (b : Fin 2) (w : Fin 256) (c : Fin 8192) (hj : b.val * 256 + w.val < 512) :
    broadcastInDim S2x256x8192 ![0, 1, 2] bcast_S2x256x1_S2x256x8192_0_1_2 (shapeCast S2x256x1 v shapeCasts_S512_S2x256x1) (ix3 b w c) = v (ix1 ⟨b.val * 256 + w.val, hj⟩) := by
  have hb := b.isLt; have hw := w.isLt
  refine (broadcastInDim_apply ![0, 1, 2] bcast_S2x256x1_S2x256x8192_0_1_2 _ (ix3 b w c) (ix3 b w (0 : Fin 1)) (fun a => match a with
    | ⟨0, _⟩ => by show b.val = if (2 : ℕ) = 1 then 0 else b.val; split <;> omega
    | ⟨1, _⟩ => by show w.val = if (256 : ℕ) = 1 then 0 else w.val; split <;> omega
    | ⟨2, _⟩ => by show (0 : ℕ) = if (1 : ℕ) = 1 then 0 else c.val; rfl)).trans ?_
  exact shapeCast_apply v shapeCasts_S512_S2x256x1 (ix3 b w (0 : Fin 1)) (ix1 ⟨b.val * 256 + w.val, hj⟩) (by
    rw [Shape.rowMajor_val_one, Shape.rowMajor_val_three]
    show b.val * 256 + w.val = (b.val * 256 + w.val) * 1 + 0
    omega)

/-- Half 0 of group `b` at place `w`, column `c`: row `(b · 2 + 0) · 256 + w` of the array. -/
theorem R256_half0 (X : S1024x8192.Idx → EReal)
    (b : Fin 2) (w : Fin 256) (c : Fin 8192) (hr : (b.val * 2 + 0) * 256 + w.val < 1024) :
    shapeCast S2x256x8192 (extractStridedSlice S2x1x256x8192 ![0, 0, 0, 0] (shapeCast S2x2x256x8192 X shapeCasts_S1024x8192_S2x2x256x8192) slices_S2x2x256x8192_S2x1x256x8192_0_0_0_0) shapeCasts_S2x1x256x8192_S2x256x8192 (ix3 b w c)
      = X (ix2 ⟨(b.val * 2 + 0) * 256 + w.val, hr⟩ c) := by
  have hb := b.isLt; have hw := w.isLt
  refine (shapeCast_apply _ shapeCasts_S2x1x256x8192_S2x256x8192 (ix3 b w c) (ix4 b (0 : Fin 1) w c) (by
    rw [Shape.rowMajor_val_four, Shape.rowMajor_val_three]
    show ((b.val * 1 + 0) * 256 + w.val) * 8192 + c.val = (b.val * 256 + w.val) * 8192 + c.val
    omega)).trans ?_
  refine (extractStridedSlice_apply ![0, 0, 0, 0] _ slices_S2x2x256x8192_S2x1x256x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S2x2x256x8192 (ix4 b (0 : Fin 2) w c) (ix2 ⟨(b.val * 2 + 0) * 256 + w.val, hr⟩ c) (by
    rw [Shape.rowMajor_val_two, Shape.rowMajor_val_four]
    show ((b.val * 2 + 0) * 256 + w.val) * 8192 + c.val = ((b.val * 2 + 0) * 256 + w.val) * 8192 + c.val
    rfl)

/-- Half 1 of group `b` at place `w`, column `c`: row `(b · 2 + 1) · 256 + w` of the array. -/
theorem R256_half1 (X : S1024x8192.Idx → EReal)
    (b : Fin 2) (w : Fin 256) (c : Fin 8192) (hr : (b.val * 2 + 1) * 256 + w.val < 1024) :
    shapeCast S2x256x8192 (extractStridedSlice S2x1x256x8192 ![0, 1, 0, 0] (shapeCast S2x2x256x8192 X shapeCasts_S1024x8192_S2x2x256x8192) slices_S2x2x256x8192_S2x1x256x8192_0_1_0_0) shapeCasts_S2x1x256x8192_S2x256x8192 (ix3 b w c)
      = X (ix2 ⟨(b.val * 2 + 1) * 256 + w.val, hr⟩ c) := by
  have hb := b.isLt; have hw := w.isLt
  refine (shapeCast_apply _ shapeCasts_S2x1x256x8192_S2x256x8192 (ix3 b w c) (ix4 b (0 : Fin 1) w c) (by
    rw [Shape.rowMajor_val_four, Shape.rowMajor_val_three]
    show ((b.val * 1 + 0) * 256 + w.val) * 8192 + c.val = (b.val * 256 + w.val) * 8192 + c.val
    omega)).trans ?_
  refine (extractStridedSlice_apply ![0, 1, 0, 0] _ slices_S2x2x256x8192_S2x1x256x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S2x2x256x8192 (ix4 b (1 : Fin 2) w c) (ix2 ⟨(b.val * 2 + 1) * 256 + w.val, hr⟩ c) (by
    rw [Shape.rowMajor_val_two, Shape.rowMajor_val_four]
    show ((b.val * 2 + 1) * 256 + w.val) * 8192 + c.val = ((b.val * 2 + 1) * 256 + w.val) * 8192 + c.val
    rfl)

/-- The reference's layer of stride 256 at row `r`, column `c` is the layer of stride 256 on column `c` at row `r`. -/
theorem R256_apply (ang : FVec Ideal S512 .f32) (X : FVec Ideal S1024x8192 .f32) (r : Fin 1024) (c : Fin 8192) :
    R256 ang X (ix2 r c) = layer 256 (vec ang) (col X c) r.val := by
  have hr := r.isLt
  have hb : r.val / 512 < 2 := by omega
  have hh : r.val % 512 / 256 < 2 := by omega
  have hw : r.val % 256 < 256 := by omega
  unfold R256 layer
  refine (shapeCast_apply _ shapeCasts_S2x2x256x8192_S1024x8192 (ix2 r c) (ix4 ⟨r.val / 512, hb⟩ ⟨r.val % 512 / 256, hh⟩ ⟨r.val % 256, hw⟩ c) (by
    rw [Shape.rowMajor_val_four, Shape.rowMajor_val_two]
    show ((r.val / 512 * 2 + r.val % 512 / 256) * 256 + r.val % 256) * 8192 + c.val = r.val * 8192 + c.val
    omega)).trans ?_
  have hup : ∀ (Y : S2x256x8192.Idx → EReal) (h' : Fin 1), broadcastInDim S2x1x256x8192 ![0, 2, 3] bcast_S2x256x8192_S2x1x256x8192_0_2_3 Y (ix4 ⟨r.val / 512, hb⟩ h' ⟨r.val % 256, hw⟩ c)
      = Y (ix3 ⟨r.val / 512, hb⟩ ⟨r.val % 256, hw⟩ c) := fun Y h' =>
    broadcastInDim_apply ![0, 2, 3] bcast_S2x256x8192_S2x1x256x8192_0_2_3 Y _ (ix3 ⟨r.val / 512, hb⟩ ⟨r.val % 256, hw⟩ c) (fun a => match a with
      | ⟨0, _⟩ => by show r.val / 512 = if (2 : ℕ) = 1 then 0 else r.val / 512; split <;> omega
      | ⟨1, _⟩ => by show r.val % 256 = if (256 : ℕ) = 1 then 0 else r.val % 256; split <;> omega
      | ⟨2, _⟩ => by show c.val = if (8192 : ℕ) = 1 then 0 else c.val; split <;> omega)
  have hj : r.val / 512 * 256 + r.val % 256 < 512 := by omega
  by_cases hlt : r.val % (2 * 256) < 256
  · rw [if_pos hlt]
    have hh0 : r.val % 512 / 256 = 0 := by omega
    refine (concatenate_pair_apply_left 1 _ _ concatenates_S2x1x256x8192_S2x1x256x8192_S2x2x256x8192_d1 _ rfl
      (ix4 ⟨r.val / 512, hb⟩ (0 : Fin 1) ⟨r.val % 256, hw⟩ c) (fun a => match a with
        | ⟨0, _⟩ => rfl
        | ⟨1, _⟩ => by show (0 : ℕ) = r.val % 512 / 256; omega
        | ⟨2, _⟩ => rfl
        | ⟨3, _⟩ => rfl)).trans ?_
    rw [hup, addf_apply, mulf_apply, mulf_apply,
      R256_coef (Host.cos ang) ⟨r.val / 512, hb⟩ ⟨r.val % 256, hw⟩ c hj,
      R256_coef (Host.sin ang) ⟨r.val / 512, hb⟩ ⟨r.val % 256, hw⟩ c hj,
      R256_half0 X ⟨r.val / 512, hb⟩ ⟨r.val % 256, hw⟩ c (by show (r.val / 512 * 2 + 0) * 256 + r.val % 256 < 1024; omega),
      R256_half1 X ⟨r.val / 512, hb⟩ ⟨r.val % 256, hw⟩ c (by show (r.val / 512 * 2 + 1) * 256 + r.val % 256 < 1024; omega)]
    have h2 : r.val + 256 < 1024 := by omega
    have hv : vec ang (r.val / (2 * 256) * 256 + r.val % (2 * 256)) = ang (ix1 ⟨r.val / 512 * 256 + r.val % 256, by omega⟩) := by
      unfold vec
      rw [dif_pos (by omega : r.val / (2 * 256) * 256 + r.val % (2 * 256) < 512)]
      try exact congrArg ang (congrArg ix1 (Fin.ext (by show r.val / (2 * 256) * 256 + r.val % (2 * 256) = r.val / 512 * 256 + r.val % 256; omega)))
    have hc1 : col X c r.val = X (ix2 ⟨(r.val / 512 * 2 + 0) * 256 + r.val % 256, by omega⟩ c) := by
      unfold col
      rw [dif_pos hr]
      exact congrArg (fun q => X (ix2 q c)) (Fin.ext (by show r.val = (r.val / 512 * 2 + 0) * 256 + r.val % 256; omega))
    have hc2 : col X c (r.val + 256) = X (ix2 ⟨(r.val / 512 * 2 + 1) * 256 + r.val % 256, by omega⟩ c) := by
      unfold col
      rw [dif_pos h2]
      exact congrArg (fun q => X (ix2 q c)) (Fin.ext (by show r.val + 256 = (r.val / 512 * 2 + 1) * 256 + r.val % 256; omega))
    rw [hv, hc1, hc2]
    rfl
  · rw [if_neg hlt]
    have hh1 : r.val % 512 / 256 = 1 := by omega
    refine (concatenate_pair_apply_right 1 _ _ concatenates_S2x1x256x8192_S2x1x256x8192_S2x2x256x8192_d1 _ rfl rfl
      (ix4 ⟨r.val / 512, hb⟩ (0 : Fin 1) ⟨r.val % 256, hw⟩ c) (fun a ha => match a with
        | ⟨0, _⟩ => rfl
        | ⟨1, _⟩ => absurd rfl ha
        | ⟨2, _⟩ => rfl
        | ⟨3, _⟩ => rfl) (by show 0 + 1 = r.val % 512 / 256; omega)).trans ?_
    have hneg : broadcastInDim S2x256x8192 ![0, 1, 2] bcast_S2x256x1_S2x256x8192_0_1_2 (Host.negf (shapeCast S2x256x1 (Host.sin ang) shapeCasts_S512_S2x256x1))
          (ix3 ⟨r.val / 512, hb⟩ ⟨r.val % 256, hw⟩ c)
        = -(Host.sin ang (ix1 ⟨r.val / 512 * 256 + r.val % 256, hj⟩)) := by
      refine (broadcastInDim_apply ![0, 1, 2] bcast_S2x256x1_S2x256x8192_0_1_2 _ _ (ix3 ⟨r.val / 512, hb⟩ ⟨r.val % 256, hw⟩ (0 : Fin 1)) (fun a => match a with
        | ⟨0, _⟩ => by show r.val / 512 = if (2 : ℕ) = 1 then 0 else r.val / 512; split <;> omega
        | ⟨1, _⟩ => by show r.val % 256 = if (256 : ℕ) = 1 then 0 else r.val % 256; split <;> omega
        | ⟨2, _⟩ => by show (0 : ℕ) = if (1 : ℕ) = 1 then 0 else c.val; rfl)).trans ?_
      show -(shapeCast S2x256x1 (Host.sin ang) shapeCasts_S512_S2x256x1 (ix3 ⟨r.val / 512, hb⟩ ⟨r.val % 256, hw⟩ (0 : Fin 1))) = _
      exact congrArg Neg.neg (shapeCast_apply (Host.sin ang) shapeCasts_S512_S2x256x1 _ (ix1 ⟨r.val / 512 * 256 + r.val % 256, hj⟩) (by
        rw [Shape.rowMajor_val_one, Shape.rowMajor_val_three]
        show r.val / 512 * 256 + r.val % 256 = (r.val / 512 * 256 + r.val % 256) * 1 + 0
        omega))
    rw [hup, addf_apply, mulf_apply, mulf_apply, hneg,
      R256_coef (Host.cos ang) ⟨r.val / 512, hb⟩ ⟨r.val % 256, hw⟩ c hj,
      R256_half0 X ⟨r.val / 512, hb⟩ ⟨r.val % 256, hw⟩ c (by show (r.val / 512 * 2 + 0) * 256 + r.val % 256 < 1024; omega),
      R256_half1 X ⟨r.val / 512, hb⟩ ⟨r.val % 256, hw⟩ c (by show (r.val / 512 * 2 + 1) * 256 + r.val % 256 < 1024; omega)]
    have h2 : r.val - 256 < 1024 := by omega
    have hv : vec ang (r.val / (2 * 256) * 256 + (r.val % (2 * 256) - 256)) = ang (ix1 ⟨r.val / 512 * 256 + r.val % 256, by omega⟩) := by
      unfold vec
      rw [dif_pos (by omega : r.val / (2 * 256) * 256 + (r.val % (2 * 256) - 256) < 512)]
      try exact congrArg ang (congrArg ix1 (Fin.ext (by show r.val / (2 * 256) * 256 + (r.val % (2 * 256) - 256) = r.val / 512 * 256 + r.val % 256; omega)))
    have hc1 : col X c (r.val - 256) = X (ix2 ⟨(r.val / 512 * 2 + 0) * 256 + r.val % 256, by omega⟩ c) := by
      unfold col
      rw [dif_pos h2]
      exact congrArg (fun q => X (ix2 q c)) (Fin.ext (by show r.val - 256 = (r.val / 512 * 2 + 0) * 256 + r.val % 256; omega))
    have hc2 : col X c r.val = X (ix2 ⟨(r.val / 512 * 2 + 1) * 256 + r.val % 256, by omega⟩ c) := by
      unfold col
      rw [dif_pos hr]
      exact congrArg (fun q => X (ix2 q c)) (Fin.ext (by show r.val = (r.val / 512 * 2 + 1) * 256 + r.val % 256; omega))
    rw [hv, hc1, hc2]
    rfl

/-- Column by column: the reference's layer of stride 256 sends column `c` of the array to the layer of stride 256 of that column. -/
theorem R256_col (ang : FVec Ideal S512 .f32) (X : FVec Ideal S1024x8192 .f32) (c : Fin 8192) :
    col (R256 ang X) c = layerT 256 (vec ang) (col X c) := by
  funext r
  by_cases hr : r < 1024
  · show (if h : r < 1024 then R256 ang X (ix2 ⟨r, h⟩ c) else 0) = if r < 1024 then layer 256 (vec ang) (col X c) r else 0
    rw [dif_pos hr, if_pos hr]
    exact R256_apply ang X ⟨r, hr⟩ c
  · show (if h : r < 1024 then R256 ang X (ix2 ⟨r, h⟩ c) else 0) = if r < 1024 then layer 256 (vec ang) (col X c) r else 0
    rw [dif_neg hr, if_neg hr]

end Cert.ReferenceIdeal.Layer

end
-- ==== Proof.RLayer512.lean ====
/-
  The reference's layer of stride 512, as its program writes it, and what it does to a column.

  The [1024, 8192] array is re-read as 1 groups of 2 halves of 512 rows ([1, 2, 512, 8192]); half 0 and half 1 of every
  group are the two entries of the pairs; the 512 cosines and sines are re-read as [1, 512, 1] and repeated along the
  columns; the two rotated halves are stacked group by group and the result is read as [1024, 8192] again.  Row `r`
  of the result sits in group `r / 1024`, half `r % 1024 / 512`, place `r % 512`.
-/
import proofs.«149730_j54030688583985_1_alg».proof.Proof.Gen.ReferenceIdeal
import proofs.«149730_j54030688583985_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Facts Cert.Butterfly Idealize.ShloMosaic Idealize.ShloMosaic.ValueIdx

/-- The layer of stride 512 as the reference spells it, from the layer's 512 angles and the array. -/
def R512 {F : FTy → Type} [FloatOps F] (ang : FVec F S512 .f32) (X : FVec F S1024x8192 .f32) : FVec F S1024x8192 .f32 :=
  shapeCast S1024x8192
    (concatenate S1x2x512x8192 1
      [⟨S1x1x512x8192, (broadcastInDim S1x1x512x8192 ![0, 2, 3] bcast_S1x512x8192_S1x1x512x8192_0_2_3 (addf (mulf (broadcastInDim S1x512x8192 ![0, 1, 2] bcast_S1x512x1_S1x512x8192_0_1_2 (shapeCast S1x512x1 (Host.cos ang) shapeCasts_S512_S1x512x1)) (shapeCast S1x512x8192 (extractStridedSlice S1x1x512x8192 ![0, 0, 0, 0] (shapeCast S1x2x512x8192 X shapeCasts_S1024x8192_S1x2x512x8192) slices_S1x2x512x8192_S1x1x512x8192_0_0_0_0) shapeCasts_S1x1x512x8192_S1x512x8192)) (mulf (broadcastInDim S1x512x8192 ![0, 1, 2] bcast_S1x512x1_S1x512x8192_0_1_2 (shapeCast S1x512x1 (Host.sin ang) shapeCasts_S512_S1x512x1)) (shapeCast S1x512x8192 (extractStridedSlice S1x1x512x8192 ![0, 1, 0, 0] (shapeCast S1x2x512x8192 X shapeCasts_S1024x8192_S1x2x512x8192) slices_S1x2x512x8192_S1x1x512x8192_0_1_0_0) shapeCasts_S1x1x512x8192_S1x512x8192))))⟩,
       ⟨S1x1x512x8192, (broadcastInDim S1x1x512x8192 ![0, 2, 3] bcast_S1x512x8192_S1x1x512x8192_0_2_3 (addf (mulf (broadcastInDim S1x512x8192 ![0, 1, 2] bcast_S1x512x1_S1x512x8192_0_1_2 (Host.negf (shapeCast S1x512x1 (Host.sin ang) shapeCasts_S512_S1x512x1))) (shapeCast S1x512x8192 (extractStridedSlice S1x1x512x8192 ![0, 0, 0, 0] (shapeCast S1x2x512x8192 X shapeCasts_S1024x8192_S1x2x512x8192) slices_S1x2x512x8192_S1x1x512x8192_0_0_0_0) shapeCasts_S1x1x512x8192_S1x512x8192)) (mulf (broadcastInDim S1x512x8192 ![0, 1, 2] bcast_S1x512x1_S1x512x8192_0_1_2 (shapeCast S1x512x1 (Host.cos ang) shapeCasts_S512_S1x512x1)) (shapeCast S1x512x8192 (extractStridedSlice S1x1x512x8192 ![0, 1, 0, 0] (shapeCast S1x2x512x8192 X shapeCasts_S1024x8192_S1x2x512x8192) slices_S1x2x512x8192_S1x1x512x8192_0_1_0_0) shapeCasts_S1x1x512x8192_S1x512x8192))))⟩]
      concatenates_S1x1x512x8192_S1x1x512x8192_S1x2x512x8192_d1)
    shapeCasts_S1x2x512x8192_S1024x8192

/-- A [1, 512, 1] column of coefficients repeated along the 8192 columns, read at group `b`, place `w`: the coefficient
    numbered `b · 512 + w` of the 512. -/
theorem R512_coef (v : S512.Idx → EReal) (b : Fin 1) (w : Fin 512) (c : Fin 8192) (hj : b.val * 512 + w.val < 512) :
    broadcastInDim S1x512x8192 ![0, 1, 2] bcast_S1x512x1_S1x512x8192_0_1_2 (shapeCast S1x512x1 v shapeCasts_S512_S1x512x1) (ix3 b w c) = v (ix1 ⟨b.val * 512 + w.val, hj⟩) := by
  have hb := b.isLt; have hw := w.isLt
  refine (broadcastInDim_apply ![0, 1, 2] bcast_S1x512x1_S1x512x8192_0_1_2 _ (ix3 b w c) (ix3 b w (0 : Fin 1)) (fun a => match a with
    | ⟨0, _⟩ => by show b.val = if (1 : ℕ) = 1 then 0 else b.val; split <;> omega
    | ⟨1, _⟩ => by show w.val = if (512 : ℕ) = 1 then 0 else w.val; split <;> omega
    | ⟨2, _⟩ => by show (0 : ℕ) = if (1 : ℕ) = 1 then 0 else c.val; rfl)).trans ?_
  exact shapeCast_apply v shapeCasts_S512_S1x512x1 (ix3 b w (0 : Fin 1)) (ix1 ⟨b.val * 512 + w.val, hj⟩) (by
    rw [Shape.rowMajor_val_one, Shape.rowMajor_val_three]
    show b.val * 512 + w.val = (b.val * 512 + w.val) * 1 + 0
    omega)

/-- Half 0 of group `b` at place `w`, column `c`: row `(b · 2 + 0) · 512 + w` of the array. -/
theorem R512_half0 (X : S1024x8192.Idx → EReal)
    (b : Fin 1) (w : Fin 512) (c : Fin 8192) (hr : (b.val * 2 + 0) * 512 + w.val < 1024) :
    shapeCast S1x512x8192 (extractStridedSlice S1x1x512x8192 ![0, 0, 0, 0] (shapeCast S1x2x512x8192 X shapeCasts_S1024x8192_S1x2x512x8192) slices_S1x2x512x8192_S1x1x512x8192_0_0_0_0) shapeCasts_S1x1x512x8192_S1x512x8192 (ix3 b w c)
      = X (ix2 ⟨(b.val * 2 + 0) * 512 + w.val, hr⟩ c) := by
  have hb := b.isLt; have hw := w.isLt
  refine (shapeCast_apply _ shapeCasts_S1x1x512x8192_S1x512x8192 (ix3 b w c) (ix4 b (0 : Fin 1) w c) (by
    rw [Shape.rowMajor_val_four, Shape.rowMajor_val_three]
    show ((b.val * 1 + 0) * 512 + w.val) * 8192 + c.val = (b.val * 512 + w.val) * 8192 + c.val
    omega)).trans ?_
  refine (extractStridedSlice_apply ![0, 0, 0, 0] _ slices_S1x2x512x8192_S1x1x512x8192_0_0_0_0 (ix4 b (0 : Fin 1) w c) (ix4 b (0 : Fin 2) w c) (fun a => match a with
    | ⟨0, _⟩ => by show b.val = 0 + b.val; omega
    | ⟨1, _⟩ => by show (0 : ℕ) = 0 + 0; rfl
    | ⟨2, _⟩ => by show w.val = 0 + w.val; omega
    | ⟨3, _⟩ => by show c.val = 0 + c.val; omega)).trans ?_
  exact shapeCast_apply X shapeCasts_S1024x8192_S1x2x512x8192 (ix4 b (0 : Fin 2) w c) (ix2 ⟨(b.val * 2 + 0) * 512 + w.val, hr⟩ c) (by
    rw [Shape.rowMajor_val_two, Shape.rowMajor_val_four]
    show ((b.val * 2 + 0) * 512 + w.val) * 8192 + c.val = ((b.val * 2 + 0) * 512 + w.val) * 8192 + c.val
    rfl)

/-- Half 1 of group `b` at place `w`, column `c`: row `(b · 2 + 1) · 512 + w` of the array. -/
theorem R512_half1 (X : S1024x8192.Idx → EReal)
    (b : Fin 1) (w : Fin 512) (c : Fin 8192) (hr : (b.val * 2 + 1) * 512 + w.val < 1024) :
    shapeCast S1x512x8192 (extractStridedSlice S1x1x512x8192 ![0, 1, 0, 0] (shapeCast S1x2x512x8192 X shapeCasts_S1024x8192_S1x2x512x8192) slices_S1x2x512x8192_S1x1x512x8192_0_1_0_0) shapeCasts_S1x1x512x8192_S1x512x8192 (ix3 b w c)
      = X (ix2 ⟨(b.val * 2 + 1) * 512 + w.val, hr⟩ c) := by
  have hb := b.isLt; have hw := w.isLt
  refine (shapeCast_apply _ shapeCasts_S1x1x512x8192_S1x512x8192 (ix3 b w c) (ix4 b (0 : Fin 1) w c) (by
    rw [Shape.rowMajor_val_four, Shape.rowMajor_val_three]
    show ((b.val * 1 + 0) * 512 + w.val) * 8192 + c.val = (b.val * 512 + w.val) * 8192 + c.val
    omega)).trans ?_
  refine (extractStridedSlice_apply ![0, 1, 0, 0] _ slices_S1x2x512x8192_S1x1x512x8192_0_1_0_0 (ix4 b (0 : Fin 1) w c) (ix4 b (1 : Fin 2) w c) (fun a => match a with
    | ⟨0, _⟩ => by show b.val = 0 + b.val; omega
    | ⟨1, _⟩ => by show (1 : ℕ) = 1 + 0; rfl
    | ⟨2, _⟩ => by show w.val = 0 + w.val; omega
    | ⟨3, _⟩ => by show c.val = 0 + c.val; omega)).trans ?_
  exact shapeCast_apply X shapeCasts_S1024x8192_S1x2x512x8192 (ix4 b (1 : Fin 2) w c) (ix2 ⟨(b.val * 2 + 1) * 512 + w.val, hr⟩ c) (by
    rw [Shape.rowMajor_val_two, Shape.rowMajor_val_four]
    show ((b.val * 2 + 1) * 512 + w.val) * 8192 + c.val = ((b.val * 2 + 1) * 512 + w.val) * 8192 + c.val
    rfl)

/-- The reference's layer of stride 512 at row `r`, column `c` is the layer of stride 512 on column `c` at row `r`. -/
theorem R512_apply (ang : FVec Ideal S512 .f32) (X : FVec Ideal S1024x8192 .f32) (r : Fin 1024) (c : Fin 8192) :
    R512 ang X (ix2 r c) = layer 512 (vec ang) (col X c) r.val := by
  have hr := r.isLt
  have hb : r.val / 1024 < 1 := by omega
  have hh : r.val % 1024 / 512 < 2 := by omega
  have hw : r.val % 512 < 512 := by omega
  unfold R512 layer
  refine (shapeCast_apply _ shapeCasts_S1x2x512x8192_S1024x8192 (ix2 r c) (ix4 ⟨r.val / 1024, hb⟩ ⟨r.val % 1024 / 512, hh⟩ ⟨r.val % 512, hw⟩ c) (by
    rw [Shape.rowMajor_val_four, Shape.rowMajor_val_two]
    show ((r.val / 1024 * 2 + r.val % 1024 / 512) * 512 + r.val % 512) * 8192 + c.val = r.val * 8192 + c.val
    omega)).trans ?_
  have hup : ∀ (Y : S1x512x8192.Idx → EReal) (h' : Fin 1), broadcastInDim S1x1x512x8192 ![0, 2, 3] bcast_S1x512x8192_S1x1x512x8192_0_2_3 Y (ix4 ⟨r.val / 1024, hb⟩ h' ⟨r.val % 512, hw⟩ c)
      = Y (ix3 ⟨r.val / 1024, hb⟩ ⟨r.val % 512, hw⟩ c) := fun Y h' =>
    broadcastInDim_apply ![0, 2, 3] bcast_S1x512x8192_S1x1x512x8192_0_2_3 Y _ (ix3 ⟨r.val / 1024, hb⟩ ⟨r.val % 512, hw⟩ c) (fun a => match a with
      | ⟨0, _⟩ => by show r.val / 1024 = if (1 : ℕ) = 1 then 0 else r.val / 1024; split <;> omega
      | ⟨1, _⟩ => by show r.val % 512 = if (512 : ℕ) = 1 then 0 else r.val % 512; split <;> omega
      | ⟨2, _⟩ => by show c.val = if (8192 : ℕ) = 1 then 0 else c.val; split <;> omega)
  have hj : r.val / 1024 * 512 + r.val % 512 < 512 := by omega
  by_cases hlt : r.val % (2 * 512) < 512
  · rw [if_pos hlt]
    have hh0 : r.val % 1024 / 512 = 0 := by omega
    refine (concatenate_pair_apply_left 1 _ _ concatenates_S1x1x512x8192_S1x1x512x8192_S1x2x512x8192_d1 _ rfl
      (ix4 ⟨r.val / 1024, hb⟩ (0 : Fin 1) ⟨r.val % 512, hw⟩ c) (fun a => match a with
        | ⟨0, _⟩ => rfl
        | ⟨1, _⟩ => by show (0 : ℕ) = r.val % 1024 / 512; omega
        | ⟨2, _⟩ => rfl
        | ⟨3, _⟩ => rfl)).trans ?_
    rw [hup, addf_apply, mulf_apply, mulf_apply,
      R512_coef (Host.cos ang) ⟨r.val / 1024, hb⟩ ⟨r.val % 512, hw⟩ c hj,
      R512_coef (Host.sin ang) ⟨r.val / 1024, hb⟩ ⟨r.val % 512, hw⟩ c hj,
      R512_half0 X ⟨r.val / 1024, hb⟩ ⟨r.val % 512, hw⟩ c (by show (r.val / 1024 * 2 + 0) * 512 + r.val % 512 < 1024; omega),
      R512_half1 X ⟨r.val / 1024, hb⟩ ⟨r.val % 512, hw⟩ c (by show (r.val / 1024 * 2 + 1) * 512 + r.val % 512 < 1024; omega)]
    have h2 : r.val + 512 < 1024 := by omega
    have hv : vec ang (r.val / (2 * 512) * 512 + r.val % (2 * 512)) = ang (ix1 ⟨r.val / 1024 * 512 + r.val % 512, by omega⟩) := by
      unfold vec
      rw [dif_pos (by omega : r.val / (2 * 512) * 512 + r.val % (2 * 512) < 512)]
      try exact congrArg ang (congrArg ix1 (Fin.ext (by show r.val / (2 * 512) * 512 + r.val % (2 * 512) = r.val / 1024 * 512 + r.val % 512; omega)))
    have hc1 : col X c r.val = X (ix2 ⟨(r.val / 1024 * 2 + 0) * 512 + r.val % 512, by omega⟩ c) := by
      unfold col
      rw [dif_pos hr]
      exact congrArg (fun q => X (ix2 q c)) (Fin.ext (by show r.val = (r.val / 1024 * 2 + 0) * 512 + r.val % 512; omega))
    have hc2 : col X c (r.val + 512) = X (ix2 ⟨(r.val / 1024 * 2 + 1) * 512 + r.val % 512, by omega⟩ c) := by
      unfold col
      rw [dif_pos h2]
      exact congrArg (fun q => X (ix2 q c)) (Fin.ext (by show r.val + 512 = (r.val / 1024 * 2 + 1) * 512 + r.val % 512; omega))
    rw [hv, hc1, hc2]
    rfl
  · rw [if_neg hlt]
    have hh1 : r.val % 1024 / 512 = 1 := by omega
    refine (concatenate_pair_apply_right 1 _ _ concatenates_S1x1x512x8192_S1x1x512x8192_S1x2x512x8192_d1 _ rfl rfl
      (ix4 ⟨r.val / 1024, hb⟩ (0 : Fin 1) ⟨r.val % 512, hw⟩ c) (fun a ha => match a with
        | ⟨0, _⟩ => rfl
        | ⟨1, _⟩ => absurd rfl ha
        | ⟨2, _⟩ => rfl
        | ⟨3, _⟩ => rfl) (by show 0 + 1 = r.val % 1024 / 512; omega)).trans ?_
    have hneg : broadcastInDim S1x512x8192 ![0, 1, 2] bcast_S1x512x1_S1x512x8192_0_1_2 (Host.negf (shapeCast S1x512x1 (Host.sin ang) shapeCasts_S512_S1x512x1))
          (ix3 ⟨r.val / 1024, hb⟩ ⟨r.val % 512, hw⟩ c)
        = -(Host.sin ang (ix1 ⟨r.val / 1024 * 512 + r.val % 512, hj⟩)) := by
      refine (broadcastInDim_apply ![0, 1, 2] bcast_S1x512x1_S1x512x8192_0_1_2 _ _ (ix3 ⟨r.val / 1024, hb⟩ ⟨r.val % 512, hw⟩ (0 : Fin 1)) (fun a => match a with
        | ⟨0, _⟩ => by show r.val / 1024 = if (1 : ℕ) = 1 then 0 else r.val / 1024; split <;> omega
        | ⟨1, _⟩ => by show r.val % 512 = if (512 : ℕ) = 1 then 0 else r.val % 512; split <;> omega
        | ⟨2, _⟩ => by show (0 : ℕ) = if (1 : ℕ) = 1 then 0 else c.val; rfl)).trans ?_
      show -(shapeCast S1x512x1 (Host.sin ang) shapeCasts_S512_S1x512x1 (ix3 ⟨r.val / 1024, hb⟩ ⟨r.val % 512, hw⟩ (0 : Fin 1))) = _
      exact congrArg Neg.neg (shapeCast_apply (Host.sin ang) shapeCasts_S512_S1x512x1 _ (ix1 ⟨r.val / 1024 * 512 + r.val % 512, hj⟩) (by
        rw [Shape.rowMajor_val_one, Shape.rowMajor_val_three]
        show r.val / 1024 * 512 + r.val % 512 = (r.val / 1024 * 512 + r.val % 512) * 1 + 0
        omega))
    rw [hup, addf_apply, mulf_apply, mulf_apply, hneg,
      R512_coef (Host.cos ang) ⟨r.val / 1024, hb⟩ ⟨r.val % 512, hw⟩ c hj,
      R512_half0 X ⟨r.val / 1024, hb⟩ ⟨r.val % 512, hw⟩ c (by show (r.val / 1024 * 2 + 0) * 512 + r.val % 512 < 1024; omega),
      R512_half1 X ⟨r.val / 1024, hb⟩ ⟨r.val % 512, hw⟩ c (by show (r.val / 1024 * 2 + 1) * 512 + r.val % 512 < 1024; omega)]
    have h2 : r.val - 512 < 1024 := by omega
    have hv : vec ang (r.val / (2 * 512) * 512 + (r.val % (2 * 512) - 512)) = ang (ix1 ⟨r.val / 1024 * 512 + r.val % 512, by omega⟩) := by
      unfold vec
      rw [dif_pos (by omega : r.val / (2 * 512) * 512 + (r.val % (2 * 512) - 512) < 512)]
      try exact congrArg ang (congrArg ix1 (Fin.ext (by show r.val / (2 * 512) * 512 + (r.val % (2 * 512) - 512) = r.val / 1024 * 512 + r.val % 512; omega)))
    have hc1 : col X c (r.val - 512) = X (ix2 ⟨(r.val / 1024 * 2 + 0) * 512 + r.val % 512, by omega⟩ c) := by
      unfold col
      rw [dif_pos h2]
      exact congrArg (fun q => X (ix2 q c)) (Fin.ext (by show r.val - 512 = (r.val / 1024 * 2 + 0) * 512 + r.val % 512; omega))
    have hc2 : col X c r.val = X (ix2 ⟨(r.val / 1024 * 2 + 1) * 512 + r.val % 512, by omega⟩ c) := by
      unfold col
      rw [dif_pos hr]
      exact congrArg (fun q => X (ix2 q c)) (Fin.ext (by show r.val = (r.val / 1024 * 2 + 1) * 512 + r.val % 512; omega))
    rw [hv, hc1, hc2]
    rfl

/-- Column by column: the reference's layer of stride 512 sends column `c` of the array to the layer of stride 512 of that column. -/
theorem R512_col (ang : FVec Ideal S512 .f32) (X : FVec Ideal S1024x8192 .f32) (c : Fin 8192) :
    col (R512 ang X) c = layerT 512 (vec ang) (col X c) := by
  funext r
  by_cases hr : r < 1024
  · show (if h : r < 1024 then R512 ang X (ix2 ⟨r, h⟩ c) else 0) = if r < 1024 then layer 512 (vec ang) (col X c) r else 0
    rw [dif_pos hr, if_pos hr]
    exact R512_apply ang X ⟨r, hr⟩ c
  · show (if h : r < 1024 then R512 ang X (ix2 ⟨r, h⟩ c) else 0) = if r < 1024 then layer 512 (vec ang) (col X c) r else 0
    rw [dif_neg hr, if_neg hr]

end Cert.ReferenceIdeal.Layer

end
-- ==== Proof.RComp.lean ====
/-
  The reference's run as the twenty layers one after the other, and what that does to a column.

  The generated run names, for every layer, the array re-read in the layer's [groups, 2, stride, 8192] form, its two
  halves, and the re-read cosines and sines; each layer's re-read input is the previous layer's result, and the
  program's result is the last layer's.  Column by column each layer is the rotation layer of its stride, so column
  `c` of the result is the butterfly of column `c` of the first argument with the second argument's angles.
-/
import proofs.«149730_j54030688583985_1_alg».proof.Proof.Gen.ReferenceIdeal.Run
import proofs.«149730_j54030688583985_1_alg».proof.Proof.Spec
import proofs.«149730_j54030688583985_1_alg».proof.Proof.AngleRows
import proofs.«149730_j54030688583985_1_alg».proof.Proof.RLayer1
import proofs.«149730_j54030688583985_1_alg».proof.Proof.RLayer2
import proofs.«149730_j54030688583985_1_alg».proof.Proof.RLayer4
import proofs.«149730_j54030688583985_1_alg».proof.Proof.RLayer8
import proofs.«149730_j54030688583985_1_alg».proof.Proof.RLayer16
import proofs.«149730_j54030688583985_1_alg».proof.Proof.RLayer32
import proofs.«149730_j54030688583985_1_alg».proof.Proof.RLayer64
import proofs.«149730_j54030688583985_1_alg».proof.Proof.RLayer128
import proofs.«149730_j54030688583985_1_alg».proof.Proof.RLayer256
import proofs.«149730_j54030688583985_1_alg».proof.Proof.RLayer512

set_option maxRecDepth 16384

noncomputable section

namespace Cert.ReferenceIdeal.Comp

open Cert.ReferenceIdeal Cert.ReferenceIdeal.Gen Cert.ReferenceIdeal.Value Cert.ReferenceIdeal.Layer Cert.Butterfly
open Idealize.ShloMosaic Idealize.ShloMosaic.TcCoe Idealize.ShloMosaic.StableHlo Idealize.ShloMosaic.ValueIdx

variable {F : FTy → Type} [FloatOps F]

/-- The array before layer 0: the first argument as launched. -/
def X0 (V0 : Valuation τ sig (Elt F)) : FVec F S1024x8192 .f32 := V0 (Proc.devRef .tc main_arg0)
/-- The array after layer 0 (stride 1, the angles of row 0). -/
def X1 (V0 : Valuation τ sig (Elt F)) : FVec F S1024x8192 .f32 := R1 (res_main_v1 V0) (X0 V0)
/-- The array after layer 1 (stride 2, the angles of row 1). -/
def X2 (V0 : Valuation τ sig (Elt F)) : FVec F S1024x8192 .f32 := R2 (res_main_v27 V0) (X1 V0)
/-- The array after layer 2 (stride 4, the angles of row 2). -/
def X3 (V0 : Valuation τ sig (Elt F)) : FVec F S1024x8192 .f32 := R4 (res_main_v53 V0) (X2 V0)
/-- The array after layer 3 (stride 8, the angles of row 3). -/
def X4 (V0 : Valuation τ sig (Elt F)) : FVec F S1024x8192 .f32 := R8 (res_main_v79 V0) (X3 V0)
/-- The array after layer 4 (stride 16, the angles of row 4). -/
def X5 (V0 : Valuation τ sig (Elt F)) : FVec F S1024x8192 .f32 := R16 (res_main_v105 V0) (X4 V0)
/-- The array after layer 5 (stride 32, the angles of row 5). -/
def X6 (V0 : Valuation τ sig (Elt F)) : FVec F S1024x8192 .f32 := R32 (res_main_v131 V0) (X5 V0)
/-- The array after layer 6 (stride 64, the angles of row 6). -/
def X7 (V0 : Valuation τ sig (Elt F)) : FVec F S1024x8192 .f32 := R64 (res_main_v157 V0) (X6 V0)
/-- The array after layer 7 (stride 128, the angles of row 7). -/
def X8 (V0 : Valuation τ sig (Elt F)) : FVec F S1024x8192 .f32 := R128 (res_main_v183 V0) (X7 V0)
/-- The array after layer 8 (stride 256, the angles of row 8). -/
def X9 (V0 : Valuation τ sig (Elt F)) : FVec F S1024x8192 .f32 := R256 (res_main_v209 V0) (X8 V0)
/-- The array after layer 9 (stride 512, the angles of row 9). -/
def X10 (V0 : Valuation τ sig (Elt F)) : FVec F S1024x8192 .f32 := R512 (res_main_v235 V0) (X9 V0)
/-- The array after layer 10 (stride 1, the angles of row 10). -/
def X11 (V0 : Valuation τ sig (Elt F)) : FVec F S1024x8192 .f32 := R1 (res_main_v261 V0) (X10 V0)
/-- The array after layer 11 (stride 2, the angles of row 11). -/
def X12 (V0 : Valuation τ sig (Elt F)) : FVec F S1024x8192 .f32 := R2 (res_main_v287 V0) (X11 V0)
/-- The array after layer 12 (stride 4, the angles of row 12). -/
def X13 (V0 : Valuation τ sig (Elt F)) : FVec F S1024x8192 .f32 := R4 (res_main_v313 V0) (X12 V0)
/-- The array after layer 13 (stride 8, the angles of row 13). -/
def X14 (V0 : Valuation τ sig (Elt F)) : FVec F S1024x8192 .f32 := R8 (res_main_v339 V0) (X13 V0)
/-- The array after layer 14 (stride 16, the angles of row 14). -/
def X15 (V0 : Valuation τ sig (Elt F)) : FVec F S1024x8192 .f32 := R16 (res_main_v365 V0) (X14 V0)
/-- The array after layer 15 (stride 32, the angles of row 15). -/
def X16 (V0 : Valuation τ sig (Elt F)) : FVec F S1024x8192 .f32 := R32 (res_main_v391 V0) (X15 V0)
/-- The array after layer 16 (stride 64, the angles of row 16). -/
def X17 (V0 : Valuation τ sig (Elt F)) : FVec F S1024x8192 .f32 := R64 (res_main_v417 V0) (X16 V0)
/-- The array after layer 17 (stride 128, the angles of row 17). -/
def X18 (V0 : Valuation τ sig (Elt F)) : FVec F S1024x8192 .f32 := R128 (res_main_v443 V0) (X17 V0)
/-- The array after layer 18 (stride 256, the angles of row 18). -/
def X19 (V0 : Valuation τ sig (Elt F)) : FVec F S1024x8192 .f32 := R256 (res_main_v469 V0) (X18 V0)
/-- The array after layer 19 (stride 512, the angles of row 19). -/
def X20 (V0 : Valuation τ sig (Elt F)) : FVec F S1024x8192 .f32 := R512 (res_main_v495 V0) (X19 V0)

/-- Layer 0's re-read input is the first argument. -/
theorem in0 (V0 : Valuation τ sig (Elt F)) : res_main_v2 V0 = shapeCast S512x2x1x8192 (X0 V0) shapeCasts_S1024x8192_S512x2x1x8192 := rfl
/-- Layer 1's re-read input is layer 0's result. -/
theorem in1 (V0 : Valuation τ sig (Elt F)) : res_main_v28 V0 = shapeCast S256x2x2x8192 (X1 V0) shapeCasts_S1024x8192_S256x2x2x8192 := by
  unfold res_main_v28 res_main_v4 res_main_v6 res_main_v8 res_main_v10
  rw [in0]
  rfl
/-- Layer 2's re-read input is layer 1's result. -/
theorem in2 (V0 : Valuation τ sig (Elt F)) : res_main_v54 V0 = shapeCast S128x2x4x8192 (X2 V0) shapeCasts_S1024x8192_S128x2x4x8192 := by
  unfold res_main_v54 res_main_v30 res_main_v32 res_main_v34 res_main_v36
  rw [in1]
  rfl
/-- Layer 3's re-read input is layer 2's result. -/
theorem in3 (V0 : Valuation τ sig (Elt F)) : res_main_v80 V0 = shapeCast S64x2x8x8192 (X3 V0) shapeCasts_S1024x8192_S64x2x8x8192 := by
  unfold res_main_v80 res_main_v56 res_main_v58 res_main_v60 res_main_v62
  rw [in2]
  rfl
/-- Layer 4's re-read input is layer 3's result. -/
theorem in4 (V0 : Valuation τ sig (Elt F)) : res_main_v106 V0 = shapeCast S32x2x16x8192 (X4 V0) shapeCasts_S1024x8192_S32x2x16x8192 := by
  unfold res_main_v106 res_main_v82 res_main_v84 res_main_v86 res_main_v88
  rw [in3]
  rfl
/-- Layer 5's re-read input is layer 4's result. -/
theorem in5 (V0 : Valuation τ sig (Elt F)) : res_main_v132 V0 = shapeCast S16x2x32x8192 (X5 V0) shapeCasts_S1024x8192_S16x2x32x8192 := by
  unfold res_main_v132 res_main_v108 res_main_v110 res_main_v112 res_main_v114
  rw [in4]
  rfl
/-- Layer 6's re-read input is layer 5's result. -/
theorem in6 (V0 : Valuation τ sig (Elt F)) : res_main_v158 V0 = shapeCast S8x2x64x8192 (X6 V0) shapeCasts_S1024x8192_S8x2x64x8192 := by
  unfold res_main_v158 res_main_v134 res_main_v136 res_main_v138 res_main_v140
  rw [in5]
  rfl
/-- Layer 7's re-read input is layer 6's result. -/
theorem in7 (V0 : Valuation τ sig (Elt F)) : res_main_v184 V0 = shapeCast S4x2x128x8192 (X7 V0) shapeCasts_S1024x8192_S4x2x128x8192 := by
  unfold res_main_v184 res_main_v160 res_main_v162 res_main_v164 res_main_v166
  rw [in6]
  rfl
/-- Layer 8's re-read input is layer 7's result. -/
theorem in8 (V0 : Valuation τ sig (Elt F)) : res_main_v210 V0 = shapeCast S2x2x256x8192 (X8 V0) shapeCasts_S1024x8192_S2x2x256x8192 := by
  unfold res_main_v210 res_main_v186 res_main_v188 res_main_v190 res_main_v192
  rw [in7]
  rfl
/-- Layer 9's re-read input is layer 8's result. -/
theorem in9 (V0 : Valuation τ sig (Elt F)) : res_main_v236 V0 = shapeCast S1x2x512x8192 (X9 V0) shapeCasts_S1024x8192_S1x2x512x8192 := by
  unfold res_main_v236 res_main_v212 res_main_v214 res_main_v216 res_main_v218
  rw [in8]
  rfl
/-- Layer 10's re-read input is layer 9's result. -/
theorem in10 (V0 : Valuation τ sig (Elt F)) : res_main_v262 V0 = shapeCast S512x2x1x8192 (X10 V0) shapeCasts_S1024x8192_S512x2x1x8192 := by
  unfold res_main_v262 res_main_v238 res_main_v240 res_main_v242 res_main_v244
  rw [in9]
  rfl
/-- Layer 11's re-read input is layer 10's result. -/
theorem in11 (V0 : Valuation τ sig (Elt F)) : res_main_v288 V0 = shapeCast S256x2x2x8192 (X11 V0) shapeCasts_S1024x8192_S256x2x2x8192 := by
  unfold res_main_v288 res_main_v264 res_main_v266 res_main_v268 res_main_v270
  rw [in10]
  rfl
/-- Layer 12's re-read input is layer 11's result. -/
theorem in12 (V0 : Valuation τ sig (Elt F)) : res_main_v314 V0 = shapeCast S128x2x4x8192 (X12 V0) shapeCasts_S1024x8192_S128x2x4x8192 := by
  unfold res_main_v314 res_main_v290 res_main_v292 res_main_v294 res_main_v296
  rw [in11]
  rfl
/-- Layer 13's re-read input is layer 12's result. -/
theorem in13 (V0 : Valuation τ sig (Elt F)) : res_main_v340 V0 = shapeCast S64x2x8x8192 (X13 V0) shapeCasts_S1024x8192_S64x2x8x8192 := by
  unfold res_main_v340 res_main_v316 res_main_v318 res_main_v320 res_main_v322
  rw [in12]
  rfl
/-- Layer 14's re-read input is layer 13's result. -/
theorem in14 (V0 : Valuation τ sig (Elt F)) : res_main_v366 V0 = shapeCast S32x2x16x8192 (X14 V0) shapeCasts_S1024x8192_S32x2x16x8192 := by
  unfold res_main_v366 res_main_v342 res_main_v344 res_main_v346 res_main_v348
  rw [in13]
  rfl
/-- Layer 15's re-read input is layer 14's result. -/
theorem in15 (V0 : Valuation τ sig (Elt F)) : res_main_v392 V0 = shapeCast S16x2x32x8192 (X15 V0) shapeCasts_S1024x8192_S16x2x32x8192 := by
  unfold res_main_v392 res_main_v368 res_main_v370 res_main_v372 res_main_v374
  rw [in14]
  rfl
/-- Layer 16's re-read input is layer 15's result. -/
theorem in16 (V0 : Valuation τ sig (Elt F)) : res_main_v418 V0 = shapeCast S8x2x64x8192 (X16 V0) shapeCasts_S1024x8192_S8x2x64x8192 := by
  unfold res_main_v418 res_main_v394 res_main_v396 res_main_v398 res_main_v400
  rw [in15]
  rfl
/-- Layer 17's re-read input is layer 16's result. -/
theorem in17 (V0 : Valuation τ sig (Elt F)) : res_main_v444 V0 = shapeCast S4x2x128x8192 (X17 V0) shapeCasts_S1024x8192_S4x2x128x8192 := by
  unfold res_main_v444 res_main_v420 res_main_v422 res_main_v424 res_main_v426
  rw [in16]
  rfl
/-- Layer 18's re-read input is layer 17's result. -/
theorem in18 (V0 : Valuation τ sig (Elt F)) : res_main_v470 V0 = shapeCast S2x2x256x8192 (X18 V0) shapeCasts_S1024x8192_S2x2x256x8192 := by
  unfold res_main_v470 res_main_v446 res_main_v448 res_main_v450 res_main_v452
  rw [in17]
  rfl
/-- Layer 19's re-read input is layer 18's result. -/
theorem in19 (V0 : Valuation τ sig (Elt F)) : res_main_v496 V0 = shapeCast S1x2x512x8192 (X19 V0) shapeCasts_S1024x8192_S1x2x512x8192 := by
  unfold res_main_v496 res_main_v472 res_main_v474 res_main_v476 res_main_v478
  rw [in18]
  rfl

set_option maxHeartbeats 2000000 in
/-- The program's result is layer 19's. -/
theorem result_eq (V0 : Valuation τ sig (Elt F)) : val9 V0 (no_index (Proc.devRef .tc main_v519)) = X20 V0 := by
  refine (val9_main_v519 V0).trans ?_
  unfold res_main_v498 res_main_v500 res_main_v502 res_main_v504
  rw [in19]
  rfl

/-- Column `c` of the result is the butterfly, with the second argument's angles, of column `c` of the first argument. -/
theorem result_col (V0 : Valuation τ sig (Elt Ideal)) (c : Fin 8192) :
    col (X20 V0) c = butterfly (V0 (Proc.devRef .tc main_arg1)) (col (X0 V0) c) := by
  have r0 : vec (res_main_v1 V0) = angleRow (V0 (Proc.devRef .tc main_arg1)) 0 := by
    unfold res_main_v1; exact vec_row _ 0 _ _
  have r1 : vec (res_main_v27 V0) = angleRow (V0 (Proc.devRef .tc main_arg1)) 1 := by
    unfold res_main_v27; exact vec_row _ 1 _ _
  have r2 : vec (res_main_v53 V0) = angleRow (V0 (Proc.devRef .tc main_arg1)) 2 := by
    unfold res_main_v53; exact vec_row _ 2 _ _
  have r3 : vec (res_main_v79 V0) = angleRow (V0 (Proc.devRef .tc main_arg1)) 3 := by
    unfold res_main_v79; exact vec_row _ 3 _ _
  have r4 : vec (res_main_v105 V0) = angleRow (V0 (Proc.devRef .tc main_arg1)) 4 := by
    unfold res_main_v105; exact vec_row _ 4 _ _
  have r5 : vec (res_main_v131 V0) = angleRow (V0 (Proc.devRef .tc main_arg1)) 5 := by
    unfold res_main_v131; exact vec_row _ 5 _ _
  have r6 : vec (res_main_v157 V0) = angleRow (V0 (Proc.devRef .tc main_arg1)) 6 := by
    unfold res_main_v157; exact vec_row _ 6 _ _
  have r7 : vec (res_main_v183 V0) = angleRow (V0 (Proc.devRef .tc main_arg1)) 7 := by
    unfold res_main_v183; exact vec_row _ 7 _ _
  have r8 : vec (res_main_v209 V0) = angleRow (V0 (Proc.devRef .tc main_arg1)) 8 := by
    unfold res_main_v209; exact vec_row _ 8 _ _
  have r9 : vec (res_main_v235 V0) = angleRow (V0 (Proc.devRef .tc main_arg1)) 9 := by
    unfold res_main_v235; exact vec_row _ 9 _ _
  have r10 : vec (res_main_v261 V0) = angleRow (V0 (Proc.devRef .tc main_arg1)) 10 := by
    unfold res_main_v261; exact vec_row _ 10 _ _
  have r11 : vec (res_main_v287 V0) = angleRow (V0 (Proc.devRef .tc main_arg1)) 11 := by
    unfold res_main_v287; exact vec_row _ 11 _ _
  have r12 : vec (res_main_v313 V0) = angleRow (V0 (Proc.devRef .tc main_arg1)) 12 := by
    unfold res_main_v313; exact vec_row _ 12 _ _
  have r13 : vec (res_main_v339 V0) = angleRow (V0 (Proc.devRef .tc main_arg1)) 13 := by
    unfold res_main_v339; exact vec_row _ 13 _ _
  have r14 : vec (res_main_v365 V0) = angleRow (V0 (Proc.devRef .tc main_arg1)) 14 := by
    unfold res_main_v365; exact vec_row _ 14 _ _
  have r15 : vec (res_main_v391 V0) = angleRow (V0 (Proc.devRef .tc main_arg1)) 15 := by
    unfold res_main_v391; exact vec_row _ 15 _ _
  have r16 : vec (res_main_v417 V0) = angleRow (V0 (Proc.devRef .tc main_arg1)) 16 := by
    unfold res_main_v417; exact vec_row _ 16 _ _
  have r17 : vec (res_main_v443 V0) = angleRow (V0 (Proc.devRef .tc main_arg1)) 17 := by
    unfold res_main_v443; exact vec_row _ 17 _ _
  have r18 : vec (res_main_v469 V0) = angleRow (V0 (Proc.devRef .tc main_arg1)) 18 := by
    unfold res_main_v469; exact vec_row _ 18 _ _
  have r19 : vec (res_main_v495 V0) = angleRow (V0 (Proc.devRef .tc main_arg1)) 19 := by
    unfold res_main_v495; exact vec_row _ 19 _ _
  unfold butterfly X20 X19 X18 X17 X16 X15 X14 X13 X12 X11 X10 X9 X8 X7 X6 X5 X4 X3 X2 X1
  rw [R512_col, r19, R256_col, r18, R128_col, r17, R64_col, r16, R32_col, r15, R16_col, r14, R8_col, r13, R4_col, r12, R2_col, r11, R1_col, r10, R512_col, r9, R256_col, r8, R128_col, r7, R64_col, r6, R32_col, r5, R16_col, r4, R8_col, r3, R4_col, r2, R2_col, r1, R1_col, r0]

/-- The program's result is the whole-array function of its two arguments. -/
theorem result_whole (V0 : Valuation τ sig (Elt Ideal)) :
    val9 V0 (no_index (Proc.devRef .tc main_v519)) = whole (V0 (Proc.devRef .tc main_arg0)) (V0 (Proc.devRef .tc main_arg1)) := by
  rw [result_eq]
  funext i
  obtain ⟨p, q, rfl⟩ : ∃ (p : Fin 1024) (q : Fin 8192), i = ix2 p q := ⟨i 0, i 1, eq_ix2 i⟩
  have e : X20 V0 (ix2 p q) = col (X20 V0) q p.val := by
    unfold col; rw [dif_pos p.isLt]
  rw [e, result_col]
  rfl

end Cert.ReferenceIdeal.Comp

end
-- ==== Proof.lean ====
/-
  The certificate of the butterfly kernel against its reference: twenty layers of Givens rotations on a
  [1024, 8192] array with a [20, 512] table of angles.

  Both programs compute, column by column, the same twenty rotation layers (Proof/Spec.lean): layer `i` has stride
  `2 ^ (i % 10)`, pairs row `w` of every group of `2 · stride` rows with row `w + stride`, and rotates the pair by one
  of the 512 angles of row `i` of the table.  The kernel does this on 8 blocks of 1024 columns, reading each block as
  [groups, 2 · stride, 1024] and cutting the lower and upper halves of the groups; the reference does it on the whole
  array read as [groups, 2, stride, 8192].  Read at a row and a column the two layouts name the same entries, the
  kernel's `0 − sin` is the reference's `−sin`, and cosine and sine are the same functions on both sides; so the two
  results are equal term by term on the extended reals, with no use of the inputs' finiteness.

  Modules: Spec (the layers on a column and the whole-array function), AngleRows (a row of the table as a layer's
  angles), KLayer1 … KLayer512 and RLayer1 … RLayer512 (each program's layer of each stride, read at a row and a
  column), KComp and RComp (the twenty layers composed, column by column), KValue (the kernel's 8 blocks tile the
  result), and here the five claims.
-/
import proofs.«149730_j54030688583985_1_alg».proof.Defs
import proofs.«149730_j54030688583985_1_alg».proof.Proof.Gen.Kernel
import proofs.«149730_j54030688583985_1_alg».proof.Proof.Gen.Kernel.Skeleton
import proofs.«149730_j54030688583985_1_alg».proof.Proof.Gen.Kernel.Launch
import proofs.«149730_j54030688583985_1_alg».proof.Proof.Gen.Kernel.Points
import proofs.«149730_j54030688583985_1_alg».proof.Proof.Gen.Kernel.Frame
import proofs.«149730_j54030688583985_1_alg».proof.Proof.Gen.KernelIdeal
import proofs.«149730_j54030688583985_1_alg».proof.Proof.Gen.KernelIdeal.Skeleton
import proofs.«149730_j54030688583985_1_alg».proof.Proof.Gen.KernelIdeal.Launch
import proofs.«149730_j54030688583985_1_alg».proof.Proof.Gen.KernelIdeal.Points
import proofs.«149730_j54030688583985_1_alg».proof.Proof.Gen.KernelIdeal.Frame
import proofs.«149730_j54030688583985_1_alg».proof.Proof.Gen.ReferenceIdeal
import proofs.«149730_j54030688583985_1_alg».proof.Proof.Gen.Pre_finite_inputs
import proofs.«149730_j54030688583985_1_alg».proof.Proof.Gen.ReferenceIdeal.Run
import proofs.«149730_j54030688583985_1_alg».proof.Proof.KValue
import proofs.«149730_j54030688583985_1_alg».proof.Proof.RComp
import Idealize.ShloMosaic.Adequacy
import Idealize.ShloMosaic.Init

noncomputable section

namespace Cert.Proof

open Idealize.ShloMosaic Idealize.ShloMosaic.TcCoe Idealize.SL.Sem Cert.Butterfly

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result at the whole-array function of the
    arguments: the kernel's 8 blocks tile it, the reference's twenty layers compose to it. -/
theorem algebraic : Cert.algebraic_KernelIdeal_ReferenceIdeal := by
  intro m ρ m' ρ' _ hagree
  refine ⟨fun c => whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Whole.run m ρ, ?_⟩
  refine (θ_run Cert.ReferenceIdeal.defs _ _).mono (fun _ h c => ⟨?_, (h c).2⟩)
    (Cert.ReferenceIdeal.Value.run (F := Ideal) m' ρ')
  refine ((h c).1).trans (((Cert.ReferenceIdeal.Value.val9_main_v519 (StableHlo.launchContents m' c)).symm.trans
    (Cert.ReferenceIdeal.Comp.result_whole (StableHlo.launchContents m' c))).trans ?_)
  show whole (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
